-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_c)) (v2 : (c : Dev Cert.KernelIdeal.nD) → Buf (Elt Ideal) ((c.tc : Thread Cert.KernelIdeal.nD Cert.KernelIdeal.τ).loc Cert.KernelIdeal.main_c_3)) (v3 : (c : Dev Cert.KernelIdeal.nD) → Buf (Elt Ideal) ((c.tc : Thread Cert.KernelIdeal.nD Cert.KernelIdeal.τ).loc Cert.KernelIdeal.main_c_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_c) = v1 c
          ∧ r.2.mem ((c.tc : Thread Cert.KernelIdeal.nD Cert.KernelIdeal.τ).loc Cert.KernelIdeal.main_c_3) = v2 c
          ∧ r.2.mem ((c.tc : Thread Cert.KernelIdeal.nD Cert.KernelIdeal.τ).loc Cert.KernelIdeal.main_c_4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_c_10) = v1 c
          ∧ r.2.mem ((c.tc : Thread Cert.ReferenceIdeal.nD Cert.ReferenceIdeal.τ).loc Cert.ReferenceIdeal.main_c_11) = v2 c
          ∧ r.2.mem ((c.tc : Thread Cert.ReferenceIdeal.nD Cert.ReferenceIdeal.τ).loc Cert.ReferenceIdeal.main_c_12) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048x4 : Shape := ⟨2, ![2048, 4]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel

variable [Facts]

def fn {F : FTy → Type} [FloatOps F] (main_arg0 : FVec F S2048x128 .f32) (main_arg1 : IVec S2048x4 32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  main_v3
-- ==== Kernel.lean ====
abbrev S2048x128 : Shape := ⟨2, ![2048, 128]⟩
abbrev S2048x4 : Shape := ⟨2, ![2048, 4]⟩
abbrev S4 : Shape := ⟨1, ![4]⟩
abbrev S4x2048 : Shape := ⟨2, ![4, 2048]⟩
abbrev S1x2048 : Shape := ⟨2, ![1, 2048]⟩
abbrev S512x128 : Shape := ⟨2, ![512, 128]⟩
abbrev S512x4 : Shape := ⟨2, ![512, 4]⟩
abbrev S4x512 : Shape := ⟨2, ![4, 512]⟩
abbrev S1x512 : Shape := ⟨2, ![1, 512]⟩
abbrev S128x512 : Shape := ⟨2, ![128, 512]⟩
abbrev S512x512 : Shape := ⟨2, ![512, 512]⟩
abbrev S512x1 : Shape := ⟨2, ![512, 1]⟩
abbrev S512 : Shape := ⟨1, ![512]⟩
abbrev S4x1 : Shape := ⟨2, ![4, 1]⟩
abbrev S_ : Shape := ⟨0, ![]⟩

abbrev nBuf : Space → Nat
  | .hbm => 43
  | .vmem => 20
  | .smem => 0
  | _ => 0

abbrev bufTy : (tb : Table) → Fin (tcTables nBuf tb) → BufTy
  | .hbm, ⟨0, _⟩ => ⟨S2048x128, .f32⟩
  | .hbm, ⟨1, _⟩ => ⟨S2048x4, .i32⟩
  | .hbm, ⟨2, _⟩ => ⟨S4, .f32⟩
  | .hbm, ⟨3, _⟩ => ⟨S4x2048, .i32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x1, .f32⟩
  | .hbm, ⟨11, _⟩ => ⟨S_, .f32⟩
  | .hbm, ⟨12, _⟩ => ⟨S4x1, .f32⟩
  | .hbm, ⟨13, _⟩ => ⟨S4x1, .f32⟩
  | .hbm, ⟨14, _⟩ => ⟨S4x2048, .f32⟩
  | .hbm, ⟨15, _⟩ => ⟨S4x2048, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S4x1, .f32⟩
  | .hbm, ⟨20, _⟩ => ⟨S4x2048, .f32⟩
  | .hbm, ⟨21, _⟩ => ⟨S4x2048, .f32⟩
  | .hbm, ⟨22, _⟩ => ⟨S4x2048, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S4x2048, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S4x2048, .f32⟩
  | .hbm, ⟨35, _⟩ => ⟨S4x2048, .f32⟩
  | .hbm, ⟨36, _⟩ => ⟨S4x2048, .f32⟩
  | .hbm, ⟨37, _⟩ => ⟨S4x2048, .f32⟩
  | .hbm, ⟨38, _⟩ => ⟨S_, .f32⟩
  | .hbm, ⟨39, _⟩ => ⟨S_, .f32⟩
  | .hbm, ⟨40, _⟩ => ⟨S_, .i32⟩
  | .hbm, ⟨41, _⟩ => ⟨S_, .i32⟩
  | .hbm, ⟨42, _⟩ => ⟨S_, .i32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x4, .i32⟩
  | .local _ .vmem, ⟨5, _⟩ => ⟨S512x4, .i32⟩
  | .local _ .vmem, ⟨6, _⟩ => ⟨S4x512, .i32⟩
  | .local _ .vmem, ⟨7, _⟩ => ⟨S4x512, .i32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S4x512, .f32⟩
  | .local _ .vmem, ⟨15, _⟩ => ⟨S4x512, .f32⟩
  | .local _ .vmem, ⟨16, _⟩ => ⟨S4x512, .f32⟩
  | .local _ .vmem, ⟨17, _⟩ => ⟨S4x512, .f32⟩
  | .local _ .vmem, ⟨18, _⟩ => ⟨S4x512, .f32⟩
  | .local _ .vmem, ⟨19, _⟩ => ⟨S4x512, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_c : Ref sig .tc := ⟨.hbm, 40, rfl⟩
abbrev main_c_3 : Ref sig .tc := ⟨.hbm, 41, rfl⟩
abbrev main_c_4 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  transposes_S2048x4_S4x2048_1_0 : S2048x4.Transposes [1, 0] S4x2048
  inb_S1x512_S1x512_0_0 : ∀ a, (![0, 0] : Fin 2 → Nat) a + S1x512.size a ≤ S1x512.size a
  h_S1x512 : 0 < S1x512.numel
  inb_S4x512_S4x512_0_0 : ∀ a, (![0, 0] : Fin 2 → Nat) a + S4x512.size a ≤ S4x512.size a
  h_S4x512 : 0 < S4x512.numel
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  transposes_S512x128_p1_0_S128x512 : S512x128.Transposes [1, 0] S128x512
  inb_S4x512_S1x512_0_0 : ∀ a, (![0, 0] : Fin 2 → Nat) a + S1x512.size a ≤ S4x512.size a
  shapeCasts_S1x512_S1x512 : S1x512.ShapeCasts S1x512
  inb_S512x4_S512x1_0_0 : ∀ a, (![0, 0] : Fin 2 → Nat) a + S512x1.size a ≤ S512x4.size a
  h_S512x1 : 0 < S512x1.numel
  iota_S1x512_d1_w32 : S1x512.Iotas .tc 32 [1]
  iota_S512x1_d0_w32 : S512x1.Iotas .tc 32 [0]
  broadcasts_S1x512_S512x512 : S1x512.Broadcasts S512x512
  broadcasts_S512x1_S512x512 : S512x1.Broadcasts S512x512
  natLt_1_32 : 1 < 32
  inb_S512x4_S512x1_0_1 : ∀ a, (![0, 1] : Fin 2 → Nat) a + S512x1.size a ≤ S512x4.size a
  inb_S512x4_S512x1_0_2 : ∀ a, (![0, 2] : Fin 2 → Nat) a + S512x1.size a ≤ S512x4.size a
  inb_S512x4_S512x1_0_3 : ∀ a, (![0, 3] : Fin 2 → Nat) a + S512x1.size a ≤ S512x4.size a
  reduces_S512x512_S512 : S512x512.Reduces [0] S512
  shapeCasts_S512_S1x512 : S512.ShapeCasts S1x512
  inb_S4x512_S1x512_1_0 : ∀ a, (![1, 0] : Fin 2 → Nat) a + S1x512.size a ≤ S4x512.size a
  inb_S4x512_S1x512_2_0 : ∀ a, (![2, 0] : Fin 2 → Nat) a + S1x512.size a ≤ S4x512.size a
  inb_S4x512_S1x512_3_0 : ∀ a, (![3, 0] : Fin 2 → Nat) a + S1x512.size a ≤ S4x512.size a
  shapeCasts_S4_S4x1 : S4.ShapeCasts S4x1
  bcast_S_S4x1 : S_.BroadcastsInDim S4x1 (![] : Fin 0 → Fin S4x1.rank)
  bcast_S4x1_S4x2048_0_1 : S4x1.BroadcastsInDim S4x2048 (![0, 1] : Fin 2 → Fin S4x2048.rank)
  bcast_S1x2048_S4x2048_0_1 : S1x2048.BroadcastsInDim S4x2048 (![0, 1] : Fin 2 → Fin S4x2048.rank)
  bcast_S_S4x2048 : S_.BroadcastsInDim S4x2048 (![] : Fin 0 → Fin S4x2048.rank)
  reducesTo_S4x2048_S_d0_1 : S4x2048.ReducesTo [0, 1] S_
  h_S_ : 0 < S_.numel
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S2048x128.size a
  hwx0_0 : ∀ i : grid0.Coords, EltTy.bits .f32 = 32 ∨ (Rect.block (s := S2048x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S2048x128.size a
  hwx0_1 : ∀ i : grid0.Coords, EltTy.bits .f32 = 32 ∨ (Rect.block (s := S2048x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4.size a ≤ S2048x4.size a
  hwx0_2 : ∀ i : grid0.Coords, EltTy.bits .i32 = 32 ∨ (Rect.block (s := S2048x4) S512x4.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512.size a ≤ S4x2048.size a
  hwx0_3 : ∀ i : grid0.Coords, EltTy.bits .i32 = 32 ∨ (Rect.block (s := S4x2048) S4x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x2048.size a
  hwx0_5 : ∀ i : grid0.Coords, EltTy.bits .f32 = 32 ∨ (Rect.block (s := S1x2048) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x2048.size a
  hwx0_6 : ∀ i : grid0.Coords, EltTy.bits .f32 = 32 ∨ (Rect.block (s := S1x2048) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x512.size a ≤ S4x2048.size a
  hwx0_7 : ∀ i : grid0.Coords, EltTy.bits .f32 = 32 ∨ (Rect.block (s := S4x2048) S4x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x512.size a ≤ S4x2048.size a
  hwx0_8 : ∀ i : grid0.Coords, EltTy.bits .f32 = 32 ∨ (Rect.block (s := S4x2048) S4x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x512.size a ≤ S4x2048.size a
  hwx0_9 : ∀ i : grid0.Coords, EltTy.bits .f32 = 32 ∨ (Rect.block (s := S4x2048) S4x512.size (cc0_transform_9 i) (hinb0_9 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S1x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_3) S4x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1_4) S4x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_5) S4x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2048x128 : Shape := ⟨2, ![2048, 128]⟩
abbrev S2048x4 : Shape := ⟨2, ![2048, 4]⟩
abbrev S4 : Shape := ⟨1, ![4]⟩
abbrev S2048x1 : Shape := ⟨2, ![2048, 1]⟩
abbrev S2048 : Shape := ⟨1, ![2048]⟩
abbrev S128x2048 : Shape := ⟨2, ![128, 2048]⟩
abbrev S2048x2048 : Shape := ⟨2, ![2048, 2048]⟩
abbrev S_ : Shape := ⟨0, ![]⟩
abbrev S1x2048 : Shape := ⟨2, ![1, 2048]⟩
abbrev S4x2048 : Shape := ⟨2, ![4, 2048]⟩
abbrev S4x1x2048 : Shape := ⟨3, ![4, 1, 2048]⟩
abbrev S1x2048x1 : Shape := ⟨3, ![1, 2048, 1]⟩
abbrev S4x2048x2048 : Shape := ⟨3, ![4, 2048, 2048]⟩
abbrev S1x2048x2048 : Shape := ⟨3, ![1, 2048, 2048]⟩
abbrev S4x1 : Shape := ⟨2, ![4, 1]⟩

abbrev nBuf : Space → Nat
  | .hbm => 119
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x4, .i32⟩
  | .hbm, ⟨2, _⟩ => ⟨S4, .f32⟩
  | .hbm, ⟨3, _⟩ => ⟨S2048x1, .i32⟩
  | .hbm, ⟨4, _⟩ => ⟨S2048, .i32⟩
  | .hbm, ⟨5, _⟩ => ⟨S128x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x1, .i32⟩
  | .hbm, ⟨12, _⟩ => ⟨S1x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S2048x2048, .i32⟩
  | .hbm, ⟨17, _⟩ => ⟨S2048x2048, .i32⟩
  | .hbm, ⟨18, _⟩ => ⟨S_, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S2048x2048, .i1⟩
  | .hbm, ⟨23, _⟩ => ⟨S2048x2048, .i1⟩
  | .hbm, ⟨24, _⟩ => ⟨S2048x2048, .f32⟩
  | .hbm, ⟨25, _⟩ => ⟨S4x2048, .i32⟩
  | .hbm, ⟨26, _⟩ => ⟨S4x1x2048, .i32⟩
  | .hbm, ⟨27, _⟩ => ⟨S1x2048x1, .i32⟩
  | .hbm, ⟨28, _⟩ => ⟨S4x2048x2048, .i32⟩
  | .hbm, ⟨29, _⟩ => ⟨S4x2048x2048, .i32⟩
  | .hbm, ⟨30, _⟩ => ⟨S4x2048x2048, .i1⟩
  | .hbm, ⟨31, _⟩ => ⟨S1x2048x2048, .i1⟩
  | .hbm, ⟨32, _⟩ => ⟨S2048x2048, .i1⟩
  | .hbm, ⟨33, _⟩ => ⟨S2048x2048, .i1⟩
  | .hbm, ⟨34, _⟩ => ⟨S1x2048x2048, .i1⟩
  | .hbm, ⟨35, _⟩ => ⟨S2048x2048, .i1⟩
  | .hbm, ⟨36, _⟩ => ⟨S1x2048x2048, .i1⟩
  | .hbm, ⟨37, _⟩ => ⟨S2048x2048, .i1⟩
  | .hbm, ⟨38, _⟩ => ⟨S2048x2048, .i1⟩
  | .hbm, ⟨39, _⟩ => ⟨S2048x2048, .i1⟩
  | .hbm, ⟨40, _⟩ => ⟨S1x2048x2048, .i1⟩
  | .hbm, ⟨41, _⟩ => ⟨S2048x2048, .i1⟩
  | .hbm, ⟨42, _⟩ => ⟨S1x2048x2048, .i1⟩
  | .hbm, ⟨43, _⟩ => ⟨S2048x2048, .i1⟩
  | .hbm, ⟨44, _⟩ => ⟨S2048x2048, .i1⟩
  | .hbm, ⟨45, _⟩ => ⟨S2048x2048, .i1⟩
  | .hbm, ⟨46, _⟩ => ⟨S1x2048x2048, .i1⟩
  | .hbm, ⟨47, _⟩ => ⟨S2048x2048, .i1⟩
  | .hbm, ⟨48, _⟩ => ⟨S1x2048x2048, .i1⟩
  | .hbm, ⟨49, _⟩ => ⟨S2048x2048, .i1⟩
  | .hbm, ⟨50, _⟩ => ⟨S2048x2048, .i1⟩
  | .hbm, ⟨51, _⟩ => ⟨S2048x2048, .i1⟩
  | .hbm, ⟨52, _⟩ => ⟨S1x2048x2048, .i1⟩
  | .hbm, ⟨53, _⟩ => ⟨S1x2048x2048, .i1⟩
  | .hbm, ⟨54, _⟩ => ⟨S1x2048x2048, .i1⟩
  | .hbm, ⟨55, _⟩ => ⟨S1x2048x2048, .i1⟩
  | .hbm, ⟨56, _⟩ => ⟨S4x2048x2048, .i1⟩
  | .hbm, ⟨57, _⟩ => ⟨S4x2048x2048, .f32⟩
  | .hbm, ⟨58, _⟩ => ⟨S_, .f32⟩
  | .hbm, ⟨59, _⟩ => ⟨S2048, .f32⟩
  | .hbm, ⟨60, _⟩ => ⟨S2048x2048, .f32⟩
  | .hbm, ⟨61, _⟩ => ⟨S_, .f32⟩
  | .hbm, ⟨62, _⟩ => ⟨S2048, .f32⟩
  | .hbm, ⟨63, _⟩ => ⟨S2048x2048, .f32⟩
  | .hbm, ⟨64, _⟩ => ⟨S2048x2048, .f32⟩
  | .hbm, ⟨65, _⟩ => ⟨S_, .f32⟩
  | .hbm, ⟨66, _⟩ => ⟨S2048, .f32⟩
  | .hbm, ⟨67, _⟩ => ⟨S_, .f32⟩
  | .hbm, ⟨68, _⟩ => ⟨S4x2048, .f32⟩
  | .hbm, ⟨69, _⟩ => ⟨S1x2048x2048, .f32⟩
  | .hbm, ⟨70, _⟩ => ⟨S4x2048x2048, .f32⟩
  | .hbm, ⟨71, _⟩ => ⟨S4x2048x2048, .f32⟩
  | .hbm, ⟨72, _⟩ => ⟨S_, .f32⟩
  | .hbm, ⟨73, _⟩ => ⟨S4x2048, .f32⟩
  | .hbm, ⟨74, _⟩ => ⟨S2048x2048, .f32⟩
  | .hbm, ⟨75, _⟩ => ⟨S1x2048x2048, .f32⟩
  | .hbm, ⟨76, _⟩ => ⟨S4x2048x2048, .f32⟩
  | .hbm, ⟨77, _⟩ => ⟨S4x2048x2048, .f32⟩
  | .hbm, ⟨78, _⟩ => ⟨S_, .f32⟩
  | .hbm, ⟨79, _⟩ => ⟨S4x2048, .f32⟩
  | .hbm, ⟨80, _⟩ => ⟨S4x1, .f32⟩
  | .hbm, ⟨81, _⟩ => ⟨S1x2048, .f32⟩
  | .hbm, ⟨82, _⟩ => ⟨S_, .f32⟩
  | .hbm, ⟨83, _⟩ => ⟨S4x1, .f32⟩
  | .hbm, ⟨84, _⟩ => ⟨S4x1, .f32⟩
  | .hbm, ⟨85, _⟩ => ⟨S1x2048, .f32⟩
  | .hbm, ⟨86, _⟩ => ⟨S4x2048, .f32⟩
  | .hbm, ⟨87, _⟩ => ⟨S4x2048, .f32⟩
  | .hbm, ⟨88, _⟩ => ⟨S4x2048, .f32⟩
  | .hbm, ⟨89, _⟩ => ⟨S4x2048, .f32⟩
  | .hbm, ⟨90, _⟩ => ⟨S4x2048, .f32⟩
  | .hbm, ⟨91, _⟩ => ⟨S4x1, .f32⟩
  | .hbm, ⟨92, _⟩ => ⟨S1x2048, .f32⟩
  | .hbm, ⟨93, _⟩ => ⟨S4x2048, .f32⟩
  | .hbm, ⟨94, _⟩ => ⟨S4x2048, .f32⟩
  | .hbm, ⟨95, _⟩ => ⟨S4x2048, .f32⟩
  | .hbm, ⟨96, _⟩ => ⟨S4x2048, .f32⟩
  | .hbm, ⟨97, _⟩ => ⟨S4x2048, .f32⟩
  | .hbm, ⟨98, _⟩ => ⟨S1x2048, .f32⟩
  | .hbm, ⟨99, _⟩ => ⟨S1x2048, .f32⟩
  | .hbm, ⟨100, _⟩ => ⟨S4x2048, .f32⟩
  | .hbm, ⟨101, _⟩ => ⟨S4x2048, .f32⟩
  | .hbm, ⟨102, _⟩ => ⟨S4x2048, .f32⟩
  | .hbm, ⟨103, _⟩ => ⟨S4x2048, .f32⟩
  | .hbm, ⟨104, _⟩ => ⟨S4x2048, .f32⟩
  | .hbm, ⟨105, _⟩ => ⟨S_, .f32⟩
  | .hbm, ⟨106, _⟩ => ⟨S4x2048, .f32⟩
  | .hbm, ⟨107, _⟩ => ⟨S4x2048, .f32⟩
  | .hbm, ⟨108, _⟩ => ⟨S4x2048, .f32⟩
  | .hbm, ⟨109, _⟩ => ⟨S4x2048, .f32⟩
  | .hbm, ⟨110, _⟩ => ⟨S1x2048, .f32⟩
  | .hbm, ⟨111, _⟩ => ⟨S4x2048, .f32⟩
  | .hbm, ⟨112, _⟩ => ⟨S4x2048, .f32⟩
  | .hbm, ⟨113, _⟩ => ⟨S4x2048, .f32⟩
  | .hbm, ⟨114, _⟩ => ⟨S_, .f32⟩
  | .hbm, ⟨115, _⟩ => ⟨S_, .f32⟩
  | .hbm, ⟨116, _⟩ => ⟨S_, .i32⟩
  | .hbm, ⟨117, _⟩ => ⟨S_, .i32⟩
  | .hbm, ⟨118, _⟩ => ⟨S_, .i32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_cst_1 : Ref sig .tc := ⟨.hbm, 58, rfl⟩
abbrev main_v53 : Ref sig .tc := ⟨.hbm, 59, rfl⟩
abbrev main_v54 : Ref sig .tc := ⟨.hbm, 60, rfl⟩
abbrev main_cst_2 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_cst_3 : Ref sig .tc := ⟨.hbm, 65, rfl⟩
abbrev main_v58 : Ref sig .tc := ⟨.hbm, 66, rfl⟩
abbrev main_cst_4 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_cst_5 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_cst_6 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_cst_7 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_cst_8 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_cst_9 : Ref sig .tc := ⟨.hbm, 114, rfl⟩
abbrev main_v101 : Ref sig .tc := ⟨.hbm, 115, rfl⟩
abbrev main_c_10 : Ref sig .tc := ⟨.hbm, 116, rfl⟩
abbrev main_c_11 : Ref sig .tc := ⟨.hbm, 117, rfl⟩
abbrev main_c_12 : Ref sig .tc := ⟨.hbm, 118, rfl⟩

abbrev nD : Nat := 1
abbrev τ : Topo := Topo.v7x

variable {F : FTy → Type} [FloatOps F]

class Facts₀ : Prop where
  slices_S2048x4_S2048x1_0_0 : S2048x4.Slices ![0, 0] S2048x1
  shapeCasts_S2048x1_S2048 : S2048x1.ShapeCasts S2048
  transposes_S2048x128_S128x2048_1_0 : S2048x128.Transposes [1, 0] S128x2048
  bcast_S_S2048x2048 : S_.BroadcastsInDim S2048x2048 (![] : Fin 0 → Fin S2048x2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  transposes_S2048x4_S4x2048_1_0 : S2048x4.Transposes [1, 0] S4x2048
  bcast_S4x2048_S4x1x2048_0_2 : S4x2048.BroadcastsInDim S4x1x2048 (![0, 2] : Fin 2 → Fin S4x1x2048.rank)
  bcast_S2048_S1x2048x1_1 : S2048.BroadcastsInDim S1x2048x1 (![1] : Fin 1 → Fin S1x2048x1.rank)
  bcast_S4x1x2048_S4x2048x2048_0_1_2 : S4x1x2048.BroadcastsInDim S4x2048x2048 (![0, 1, 2] : Fin 3 → Fin S4x2048x2048.rank)
  bcast_S1x2048x1_S4x2048x2048_0_1_2 : S1x2048x1.BroadcastsInDim S4x2048x2048 (![0, 1, 2] : Fin 3 → Fin S4x2048x2048.rank)
  slices_S4x2048x2048_S1x2048x2048_3_0_0 : S4x2048x2048.Slices ![3, 0, 0] S1x2048x2048
  shapeCasts_S1x2048x2048_S2048x2048 : S1x2048x2048.ShapeCasts S2048x2048
  slices_S4x2048x2048_S1x2048x2048_2_0_0 : S4x2048x2048.Slices ![2, 0, 0] S1x2048x2048
  slices_S4x2048x2048_S1x2048x2048_1_0_0 : S4x2048x2048.Slices ![1, 0, 0] S1x2048x2048
  slices_S4x2048x2048_S1x2048x2048_0_0_0 : S4x2048x2048.Slices ![0, 0, 0] S1x2048x2048
  bcast_S2048x2048_S1x2048x2048_1_2 : S2048x2048.BroadcastsInDim S1x2048x2048 (![1, 2] : Fin 2 → Fin S1x2048x2048.rank)
  concatenates_S1x2048x2048_S1x2048x2048_S1x2048x2048_S1x2048x2048_S4x2048x2048_d0 : Shape.Concatenates [S1x2048x2048, S1x2048x2048, S1x2048x2048, S1x2048x2048] S4x2048x2048 0
  reducesTo_S2048x2048_S2048_d1 : S2048x2048.ReducesTo [1] S2048
  h_S_ : 0 < S_.numel
  reducesTo_S4x2048x2048_S4x2048_d2 : S4x2048x2048.ReducesTo [2] S4x2048
  bcast_S1x2048x2048_S4x2048x2048_0_1_2 : S1x2048x2048.BroadcastsInDim S4x2048x2048 (![0, 1, 2] : Fin 3 → Fin S4x2048x2048.rank)
  bcast_S4_S4x1_0 : S4.BroadcastsInDim S4x1 (![0] : Fin 1 → Fin S4x1.rank)
  bcast_S_S4x1 : S_.BroadcastsInDim S4x1 (![] : Fin 0 → Fin S4x1.rank)
  bcast_S4x1_S4x2048_0_1 : S4x1.BroadcastsInDim S4x2048 (![0, 1] : Fin 2 → Fin S4x2048.rank)
  bcast_S1x2048_S4x2048_0_1 : S1x2048.BroadcastsInDim S4x2048 (![0, 1] : Fin 2 → Fin S4x2048.rank)
  bcast_S_S4x2048 : S_.BroadcastsInDim S4x2048 (![] : Fin 0 → Fin S4x2048.rank)
  reducesTo_S4x2048_S_d0_1 : S4x2048.ReducesTo [0, 1] S_
  dot_S2048x128_S128x2048_S2048x2048_1_0_0_1_n_n_wf : DotDims.WF S2048x128 S128x2048 S2048x2048 [1] [0] [0] [1] [] []

variable [Facts₀]

def dot_S2048x128_S128x2048_S2048x2048_1_0_0_1_n_n : DotDims S2048x128 S128x2048 S2048x2048 where
  lhsContracting := [1]
  rhsContracting := [0]
  lhsNonContracting := [0]
  rhsNonContracting := [1]
  lhsBatch := []
  rhsBatch := []
  wf := dot_S2048x128_S128x2048_S2048x2048_1_0_0_1_n_n_wf

class Facts : Prop extends Facts₀ where

variable [Facts]
-- ==== Proof.Spec.lean ====
/-
  The mathematics both programs compute, stated once over the whole argument arrays.

  For embeddings x : [2048, 128] (extended reals) and labels lab : [2048, 4] (32-bit words):
    sim j l   = Σ_d x[j,d] · x[l,d]                      (a Gram matrix entry)
    A j l     = log (sim j l + ε)
    pos j l   = 1 when row j and row l carry the same top-level label and j ≠ l, else 0
    P k j l   = "label column k of row l equals the top-level label of row j"
    N 0 j l   = ¬P 3;  N m j l = P (4-m) ∧ ¬P (3-m)  for m = 1, 2, 3   (as 0/1)
  and the row sums over l of pos, pos·A, pos·A², N, N·A, N·A² (Pn, S1, S2, Nn, T1, T2).
  The loss is the sum over the level m and the row j of
    Nn·(S2 − (2c)·S1 + (c·c)·Pn) − (2·(S1 − c·Pn))·T1 + Pn·T2,
  c the level's constant. Every product and sum is the extended reals' own.
-/
import Idealize.ShloMosaic.PureOps.Ideal
import Idealize.ShloMosaic.Lib.ValueIdx

noncomputable section

open scoped BigOperators

namespace Cert.LogRatio

open Idealize.ShloMosaic Idealize.ShloMosaic.ValueIdx

/-- The embeddings' shape and the labels' shape. -/
abbrev SX : Shape := ⟨2, ![2048, 128]⟩
abbrev SLab : Shape := ⟨2, ![2048, 4]⟩

/-- 0 or 1 on the extended reals. -/
def ind (p : Prop) [Decidable p] : EReal := if p then 1 else 0

/-- The additive constant under the logarithm: the float word both programs carry. -/
def eps : EReal := Ideal.ofBits .f32 0x358637BD#32

/-- The factor 2 of the expanded square, as the float word both programs carry. -/
def two : EReal := Ideal.ofBits .f32 0x40000000#32

/-- The four level constants, as the float words both programs carry. -/
def cword : Fin 4 → BitVec 32
  | 0 => 0x3F695854#32 | 1 => 0x3F309585#32 | 2 => 0x3EEBBBEB#32 | 3 => 0x3E6BC687#32

def cv (m : Fin 4) : EReal := Ideal.ofBits .f32 (cword m)

section
variable (x : SX.Idx → EReal) (lab : SLab.Idx → BitVec 32)

/-- Row j against row l of the embeddings. -/
def sim (j l : Fin 2048) : EReal := ∑ d : Fin 128, x (ix2 j d) * x (ix2 l d)

/-- The logarithm of the shifted similarity. -/
def A (j l : Fin 2048) : EReal := Ideal.log (sim x j l + eps)

/-- Row j's top-level label. -/
def tgt (j : Fin 2048) : BitVec 32 := lab (ix2 j 0)

/-- The positive mask. -/
def pos (j l : Fin 2048) : EReal := ind (tgt lab j = tgt lab l ∧ j ≠ l)

/-- Label column k of row l meets row j's top-level label. -/
def P (k : Fin 4) (j l : Fin 2048) : Prop := lab (ix2 l k) = tgt lab j

instance (k : Fin 4) (j l : Fin 2048) : Decidable (P lab k j l) := by unfold P; infer_instance

/-- The four negative masks. -/
def N : Fin 4 → Fin 2048 → Fin 2048 → EReal
  | 0, j, l => ind (¬ P lab 3 j l)
  | 1, j, l => ind (P lab 3 j l ∧ ¬ P lab 2 j l)
  | 2, j, l => ind (P lab 2 j l ∧ ¬ P lab 1 j l)
  | 3, j, l => ind (P lab 1 j l ∧ ¬ P lab 0 j l)

def Pn (j : Fin 2048) : EReal := ∑ l : Fin 2048, pos lab j l
def S1 (j : Fin 2048) : EReal := ∑ l : Fin 2048, pos lab j l * A x j l
def S2 (j : Fin 2048) : EReal := ∑ l : Fin 2048, pos lab j l * (A x j l * A x j l)
def Nn (m : Fin 4) (j : Fin 2048) : EReal := ∑ l : Fin 2048, N lab m j l
def T1 (m : Fin 4) (j : Fin 2048) : EReal := ∑ l : Fin 2048, N lab m j l * A x j l
def T2 (m : Fin 4) (j : Fin 2048) : EReal := ∑ l : Fin 2048, N lab m j l * (A x j l * A x j l)

end

/-- One (level, row) term of the loss from the six row sums, associated as both programs associate it. -/
def term (pn s1 s2 : Fin 2048 → EReal) (nn t1 t2 : Fin 4 → Fin 2048 → EReal) (m : Fin 4) (j : Fin 2048) : EReal :=
  nn m j * (s2 j - (two * cv m) * s1 j + (cv m * cv m) * pn j) - (two * (s1 j - cv m * pn j)) * t1 m j + pn j * t2 m j

/-- The loss from the six row sums: zero plus the sum of the terms over [4, 2048]. -/
def lossOf (pn s1 s2 : Fin 2048 → EReal) (nn t1 t2 : Fin 4 → Fin 2048 → EReal) : EReal :=
  Ideal.ofBits .f32 0x00000000#32 + ∑ i : (⟨2, ![4, 2048]⟩ : Shape).Idx, term pn s1 s2 nn t1 t2 (i 0) (i 1)

/-- The loss of the argument arrays. -/
def loss (x : SX.Idx → EReal) (lab : SLab.Idx → BitVec 32) : EReal :=
  lossOf (Pn lab) (S1 x lab) (S2 x lab) (Nn lab) (T1 x lab) (T2 x lab)

/-- The shifted similarity is symmetric. -/
theorem sim_comm (x : SX.Idx → EReal) (j l : Fin 2048) : sim x j l = sim x l j := by
  unfold sim; exact Finset.sum_congr rfl fun d _ => mul_comm _ _

theorem A_comm (x : SX.Idx → EReal) (j l : Fin 2048) : A x j l = A x l j := by
  unfold A; rw [sim_comm]

end Cert.LogRatio

end
-- ==== Proof.RefTerm.lean ====
/-
  The reference program's host operations, composed as pure functions of the two argument arrays.

  Each definition below is the printed operations of the reference applied one to the next, in the
  printed order and with the printed side conditions:
    logsim x        the logarithm of the shifted Gram matrix            (operations %2 … %6)
    tgt lab         column 0 of the labels                              (%0, %1)
    posMask lab     same top-level label, off the diagonal, as 0/1      (%7 … %19)
    negMask lab     the four level masks stacked along axis 0, as 0/1   (%20 … %52)
    rPn … rT2       the six row sums                                    (%53 … %68)
    refTail         the combination of the six sums and its total       (%69 … %101)
    refLoss         the whole program.
-/
import proofs.«142400_j89936615178820_1_alg».proof.ReferenceIdeal

noncomputable section

namespace Cert.ReferenceIdeal.RefTerm

open Idealize.ShloMosaic Idealize.SL.Sem
open Cert.ReferenceIdeal Cert.ReferenceIdeal.Facts₀

variable {F : FTy → Type} [FloatOps F] [Facts]

/-! ## The logarithm of the shifted similarity -/

/-- %2, %3: the embeddings against their transpose. -/
def gram (x : FVec F S2048x128 .f32) : FVec F S2048x2048 .f32 :=
  Host.dotGeneral dot_S2048x128_S128x2048_S2048x2048_1_0_0_1_n_n none x
    (transpose S128x2048 [1, 0] x transposes_S2048x128_S128x2048_1_0)

/-- %4 … %6: the logarithm of the similarity plus the small constant. -/
def logsim (x : FVec F S2048x128 .f32) : FVec F S2048x2048 .f32 :=
  Host.log (addf (gram x)
    (broadcastInDim S2048x2048 ![] bcast_S_S2048x2048 (constant (F := F) S_ .f32 0x358637BD#32)))

/-! ## The positive mask -/

/-- %0, %1: column 0 of the labels as a vector. -/
def tgt (lab : IVec S2048x4 32) : IVec S2048 32 :=
  shapeCast S2048 (extractStridedSlice S2048x1 ![0, 0] lab slices_S2048x4_S2048x1_0_0) shapeCasts_S2048x1_S2048

/-- %7 … %11: row j's top-level label against row l's. -/
def sameTop (lab : IVec S2048x4 32) : IVec S2048x2048 1 :=
  cmpi .eq
    (broadcastInDim S2048x2048 ![0, 1] bcast_S2048x1_S2048x2048_0_1
      (broadcastInDim S2048x1 ![0] bcast_S2048_S2048x1_0 (tgt lab)))
    (broadcastInDim S2048x2048 ![0, 1] bcast_S1x2048_S2048x2048_0_1
      (broadcastInDim S1x2048 ![1] bcast_S2048_S1x2048_1 (tgt lab)))

/-- %12 … %17: off the diagonal. -/
def offDiag : IVec S2048x2048 1 :=
  noti (cmpi .eq
    (addi (iotaInDim S2048x2048 32 0) (broadcastInDim S2048x2048 ![] bcast_S_S2048x2048 (constantI S_ 32 0#32)))
    (iotaInDim S2048x2048 32 1))

/-- %18, %19: the positive mask as a float. -/
def posMask (lab : IVec S2048x4 32) : FVec F S2048x2048 .f32 :=
  uitofp .f32 (andi (sameTop lab) offDiag)

/-! ## The negative masks -/

/-- %20 … %25: label column k of row l against row j's top-level label, at (k, j, l). -/
def cmpAll (lab : IVec S2048x4 32) : IVec S4x2048x2048 1 :=
  cmpi .eq
    (broadcastInDim S4x2048x2048 ![0, 1, 2] bcast_S4x1x2048_S4x2048x2048_0_1_2
      (broadcastInDim S4x1x2048 ![0, 2] bcast_S4x2048_S4x1x2048_0_2
        (transpose S4x2048 [1, 0] lab transposes_S2048x4_S4x2048_1_0)))
    (broadcastInDim S4x2048x2048 ![0, 1, 2] bcast_S1x2048x1_S4x2048x2048_0_1_2
      (broadcastInDim S1x2048x1 ![1] bcast_S2048_S1x2048x1_1 (tgt lab)))

/-- Plane 3 of the comparison (%26, %27 and %29, %30). -/
def plane3 (lab : IVec S2048x4 32) : IVec S2048x2048 1 :=
  shapeCast S2048x2048 (extractStridedSlice S1x2048x2048 ![3, 0, 0] (cmpAll lab) slices_S4x2048x2048_S1x2048x2048_3_0_0)
    shapeCasts_S1x2048x2048_S2048x2048

/-- Plane 2 of the comparison (%31, %32 and %35, %36). -/
def plane2 (lab : IVec S2048x4 32) : IVec S2048x2048 1 :=
  shapeCast S2048x2048 (extractStridedSlice S1x2048x2048 ![2, 0, 0] (cmpAll lab) slices_S4x2048x2048_S1x2048x2048_2_0_0)
    shapeCasts_S1x2048x2048_S2048x2048

/-- Plane 1 of the comparison (%37, %38 and %41, %42). -/
def plane1 (lab : IVec S2048x4 32) : IVec S2048x2048 1 :=
  shapeCast S2048x2048 (extractStridedSlice S1x2048x2048 ![1, 0, 0] (cmpAll lab) slices_S4x2048x2048_S1x2048x2048_1_0_0)
    shapeCasts_S1x2048x2048_S2048x2048

/-- Plane 0 of the comparison (%43, %44). -/
def plane0 (lab : IVec S2048x4 32) : IVec S2048x2048 1 :=
  shapeCast S2048x2048 (extractStridedSlice S1x2048x2048 ![0, 0, 0] (cmpAll lab) slices_S4x2048x2048_S1x2048x2048_0_0_0)
    shapeCasts_S1x2048x2048_S2048x2048

/-- %28, %34, %40, %46 … %51: the four level masks, stacked along axis 0. -/
def negBits (lab : IVec S2048x4 32) : IVec S4x2048x2048 1 :=
  concatenate S4x2048x2048 0
    [⟨S1x2048x2048, broadcastInDim S1x2048x2048 ![1, 2] bcast_S2048x2048_S1x2048x2048_1_2 (noti (plane3 lab))⟩,
     ⟨S1x2048x2048, broadcastInDim S1x2048x2048 ![1, 2] bcast_S2048x2048_S1x2048x2048_1_2 (andi (plane3 lab) (noti (plane2 lab)))⟩,
     ⟨S1x2048x2048, broadcastInDim S1x2048x2048 ![1, 2] bcast_S2048x2048_S1x2048x2048_1_2 (andi (plane2 lab) (noti (plane1 lab)))⟩,
     ⟨S1x2048x2048, broadcastInDim S1x2048x2048 ![1, 2] bcast_S2048x2048_S1x2048x2048_1_2 (andi (plane1 lab) (noti (plane0 lab)))⟩]
    concatenates_S1x2048x2048_S1x2048x2048_S1x2048x2048_S1x2048x2048_S4x2048x2048_d0

/-- %52: the negative masks as floats. -/
def negMask (lab : IVec S2048x4 32) : FVec F S4x2048x2048 .f32 :=
  uitofp .f32 (negBits lab)

/-! ## The six row sums -/

/-- %60, %61: a [2048, 2048] array repeated along a new leading axis of extent 4. -/
def rep4 (a : FVec F S2048x2048 .f32) : FVec F S4x2048x2048 .f32 :=
  broadcastInDim S4x2048x2048 ![0, 1, 2] bcast_S1x2048x2048_S4x2048x2048_0_1_2
    (broadcastInDim S1x2048x2048 ![1, 2] bcast_S2048x2048_S1x2048x2048_1_2 a)

/-- %53: the row sums of the positive mask. -/
def rPn (x : FVec F S2048x128 .f32) (lab : IVec S2048x4 32) : FVec F S2048 .f32 :=
  Host.reduceAdd (posMask (F := F) lab) (constant (F := F) S_ .f32 0x00000000#32) reducesTo_S2048x2048_S2048_d1 h_S_

/-- %54, %55: the row sums of mask times logarithm. -/
def rS1 (x : FVec F S2048x128 .f32) (lab : IVec S2048x4 32) : FVec F S2048 .f32 :=
  Host.reduceAdd (mulf (posMask lab) (logsim x)) (constant (F := F) S_ .f32 0x00000000#32)
    reducesTo_S2048x2048_S2048_d1 h_S_

/-- %56 … %58: the row sums of (mask times logarithm) times logarithm. -/
def rS2 (x : FVec F S2048x128 .f32) (lab : IVec S2048x4 32) : FVec F S2048 .f32 :=
  Host.reduceAdd (mulf (mulf (posMask lab) (logsim x)) (logsim x)) (constant (F := F) S_ .f32 0x00000000#32)
    reducesTo_S2048x2048_S2048_d1 h_S_

/-- %59: the row sums of the negative masks. -/
def rNn (x : FVec F S2048x128 .f32) (lab : IVec S2048x4 32) : FVec F S4x2048 .f32 :=
  Host.reduceAdd (negMask (F := F) lab) (constant (F := F) S_ .f32 0x00000000#32)
    reducesTo_S4x2048x2048_S4x2048_d2 h_S_

/-- %60 … %63: the row sums of negative mask times logarithm. -/
def rT1 (x : FVec F S2048x128 .f32) (lab : IVec S2048x4 32) : FVec F S4x2048 .f32 :=
  Host.reduceAdd (mulf (negMask lab) (rep4 (logsim x))) (constant (F := F) S_ .f32 0x00000000#32)
    reducesTo_S4x2048x2048_S4x2048_d2 h_S_

/-- %64 … %68: the row sums of negative mask times squared logarithm. -/
def rT2 (x : FVec F S2048x128 .f32) (lab : IVec S2048x4 32) : FVec F S4x2048 .f32 :=
  Host.reduceAdd (mulf (negMask lab) (rep4 (mulf (logsim x) (logsim x)))) (constant (F := F) S_ .f32 0x00000000#32)
    reducesTo_S4x2048x2048_S4x2048_d2 h_S_

/-! ## The combination -/

/-- %69 … %101: the level constants `cst` and the six sums combined entry by entry over [4, 2048], and the total. -/
def refTail (cst : FVec F S4 .f32) (v53 v55 v58 : FVec F S2048 .f32) (v59 v63 v68 : FVec F S4x2048 .f32) :
    FVec F S_ .f32 :=
  let v69 : FVec F S4x1 .f32 := broadcastInDim S4x1 ![0] bcast_S4_S4x1_0 cst
  let v70 : FVec F S1x2048 .f32 := broadcastInDim S1x2048 ![1] bcast_S2048_S1x2048_1 v58
  let v71 : FVec F S4x1 .f32 := broadcastInDim S4x1 ![] bcast_S_S4x1 (constant (F := F) S_ .f32 0x40000000#32)
  let v72 : FVec F S4x1 .f32 := mulf v71 v69
  let v73 : FVec F S1x2048 .f32 := broadcastInDim S1x2048 ![1] bcast_S2048_S1x2048_1 v55
  let v74 : FVec F S4x2048 .f32 := broadcastInDim S4x2048 ![0, 1] bcast_S4x1_S4x2048_0_1 v72
  let v75 : FVec F S4x2048 .f32 := broadcastInDim S4x2048 ![0, 1] bcast_S1x2048_S4x2048_0_1 v73
  let v76 : FVec F S4x2048 .f32 := mulf v74 v75
  let v77 : FVec F S4x2048 .f32 := broadcastInDim S4x2048 ![0, 1] bcast_S1x2048_S4x2048_0_1 v70
  let v78 : FVec F S4x2048 .f32 := subf v77 v76
  let v79 : FVec F S4x1 .f32 := mulf v69 v69
  let v80 : FVec F S1x2048 .f32 := broadcastInDim S1x2048 ![1] bcast_S2048_S1x2048_1 v53
  let v81 : FVec F S4x2048 .f32 := broadcastInDim S4x2048 ![0, 1] bcast_S4x1_S4x2048_0_1 v79
  let v82 : FVec F S4x2048 .f32 := broadcastInDim S4x2048 ![0, 1] bcast_S1x2048_S4x2048_0_1 v80
  let v83 : FVec F S4x2048 .f32 := mulf v81 v82
  let v84 : FVec F S4x2048 .f32 := addf v78 v83
  let v85 : FVec F S4x2048 .f32 := mulf v59 v84
  let v86 : FVec F S1x2048 .f32 := broadcastInDim S1x2048 ![1] bcast_S2048_S1x2048_1 v55
  let v87 : FVec F S1x2048 .f32 := broadcastInDim S1x2048 ![1] bcast_S2048_S1x2048_1 v53
  let v88 : FVec F S4x2048 .f32 := broadcastInDim S4x2048 ![0, 1] bcast_S4x1_S4x2048_0_1 v69
  let v89 : FVec F S4x2048 .f32 := broadcastInDim S4x2048 ![0, 1] bcast_S1x2048_S4x2048_0_1 v87
  let v90 : FVec F S4x2048 .f32 := mulf v88 v89
  let v91 : FVec F S4x2048 .f32 := broadcastInDim S4x2048 ![0, 1] bcast_S1x2048_S4x2048_0_1 v86
  let v92 : FVec F S4x2048 .f32 := subf v91 v90
  let v93 : FVec F S4x2048 .f32 := broadcastInDim S4x2048 ![] bcast_S_S4x2048 (constant (F := F) S_ .f32 0x40000000#32)
  let v94 : FVec F S4x2048 .f32 := mulf v93 v92
  let v95 : FVec F S4x2048 .f32 := mulf v94 v63
  let v96 : FVec F S4x2048 .f32 := subf v85 v95
  let v97 : FVec F S1x2048 .f32 := broadcastInDim S1x2048 ![1] bcast_S2048_S1x2048_1 v53
  let v98 : FVec F S4x2048 .f32 := broadcastInDim S4x2048 ![0, 1] bcast_S1x2048_S4x2048_0_1 v97
  let v99 : FVec F S4x2048 .f32 := mulf v98 v68
  let v100 : FVec F S4x2048 .f32 := addf v96 v99
  Host.reduceAdd v100 (constant (F := F) S_ .f32 0x00000000#32) reducesTo_S4x2048_S_d0_1 h_S_

/-- The whole reference: the tail at the printed level constants and the six row sums. -/
def refLoss (x : FVec F S2048x128 .f32) (lab : IVec S2048x4 32) : FVec F S_ .f32 :=
  refTail (fun i => FloatOps.ofBits .f32 (lit0 (S4.rowMajor i)))
    (rPn x lab) (rS1 x lab) (rS2 x lab) (rNn x lab) (rT1 x lab) (rT2 x lab)

end Cert.ReferenceIdeal.RefTerm

end
-- ==== Proof.Assemble.lean ====
/-
  The two programs computed the same loss. Given, for the kernel program, that every run ends with the loss buffer at
  the specification's loss of the two argument arrays, the three integer results at the zero word and the arguments
  unchanged; and, for the reference, that every run ends with its loss buffer at the composed term of its operations,
  which is the specification's loss of its argument arrays, its integer results at the zero word and its arguments
  unchanged: from memories that agree on the arguments both programs end with equal results.
-/
import proofs.«142400_j89936615178820_1_alg».proof.Defs
import proofs.«142400_j89936615178820_1_alg».proof.Proof.Gen.Kernel
import proofs.«142400_j89936615178820_1_alg».proof.Proof.Gen.KernelIdeal
import proofs.«142400_j89936615178820_1_alg».proof.Proof.Gen.ReferenceIdeal
import proofs.«142400_j89936615178820_1_alg».proof.Proof.Gen.Pre_finite_inputs
import proofs.«142400_j89936615178820_1_alg».proof.Proof.Spec
import proofs.«142400_j89936615178820_1_alg».proof.Proof.RefTerm

noncomputable section

namespace Cert.Proof.Assemble

open Idealize.ShloMosaic Idealize.SL.Sem

/-- What the kernel program's run is to provide: on every device the loss buffer ends at the specification's loss of
    the launch contents of the two arguments, the three integer results at the zero word, the arguments unchanged. -/
abbrev KernelRun : Prop :=
  ∀ (m : (ℓ : Loc Cert.KernelIdeal.nD Cert.KernelIdeal.τ Cert.KernelIdeal.sig) → Buf (Elt Ideal) ℓ)
    (ρ : Dev Cert.KernelIdeal.nD → PrngReg),
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v28)
          = (fun _ => Cert.LogRatio.loss
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1)))
        ∧ r.2.mem ((c.tc : Thread Cert.KernelIdeal.nD Cert.KernelIdeal.τ).loc Cert.KernelIdeal.main_c)
          = constantI Cert.KernelIdeal.S_ 32 0#32
        ∧ r.2.mem ((c.tc : Thread Cert.KernelIdeal.nD Cert.KernelIdeal.τ).loc Cert.KernelIdeal.main_c_3)
          = constantI Cert.KernelIdeal.S_ 32 0#32
        ∧ r.2.mem ((c.tc : Thread Cert.KernelIdeal.nD Cert.KernelIdeal.τ).loc Cert.KernelIdeal.main_c_4)
          = constantI Cert.KernelIdeal.S_ 32 0#32
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))

/-- What the reference's run is to provide: on every device the loss buffer ends at the composed term of the
    reference's operations of the launch contents of the two arguments, the three integer results at the zero word,
    the arguments unchanged. -/
abbrev ReferenceRun : Prop :=
  ∀ (m : (ℓ : Loc Cert.ReferenceIdeal.nD Cert.ReferenceIdeal.τ Cert.ReferenceIdeal.sig) → Buf (Elt Ideal) ℓ)
    (ρ : Dev Cert.ReferenceIdeal.nD → PrngReg),
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v101)
          = Cert.ReferenceIdeal.RefTerm.refLoss (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_c_10)
          = constantI Cert.ReferenceIdeal.S_ 32 0#32
        ∧ r.2.mem ((c.tc : Thread Cert.ReferenceIdeal.nD Cert.ReferenceIdeal.τ).loc Cert.ReferenceIdeal.main_c_11)
          = constantI Cert.ReferenceIdeal.S_ 32 0#32
        ∧ r.2.mem ((c.tc : Thread Cert.ReferenceIdeal.nD Cert.ReferenceIdeal.τ).loc Cert.ReferenceIdeal.main_c_12)
          = constantI Cert.ReferenceIdeal.S_ 32 0#32
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))

/-- What the reference's value is to provide: its composed term is the specification's loss. -/
abbrev ReferenceLoss : Prop :=
  ∀ (x : FVec Ideal Cert.ReferenceIdeal.S2048x128 .f32) (lab : IVec Cert.ReferenceIdeal.S2048x4 32),
    Cert.ReferenceIdeal.RefTerm.refLoss (F := Ideal) x lab = fun _ => Cert.LogRatio.loss x lab

/-- The kernel program runs and leaves its arguments unchanged. -/
theorem frame_ki_of (krun : KernelRun) : Cert.frame_KernelIdeal := fun m ρ _ =>
  (θ_run Cert.KernelIdeal.defs _ _).mono (fun _ h c => ⟨(h c).2.2.2.2.1, (h c).2.2.2.2.2⟩) (krun m ρ)

/-- The reference runs and leaves its arguments unchanged. -/
theorem frame_ri_of (rrun : ReferenceRun) : Cert.frame_ReferenceIdeal := fun m ρ _ =>
  (θ_run Cert.ReferenceIdeal.defs _ _).mono (fun _ h c => ⟨(h c).2.2.2.2.1, (h c).2.2.2.2.2⟩) (rrun m ρ)

/-- From memories that agree on the arguments both programs end with the specification's loss of those arguments in
    their loss buffers and the zero word in their three integer results. -/
theorem algebraic_of (krun : KernelRun) (rrun : ReferenceRun) (rloss : ReferenceLoss) :
    Cert.algebraic_KernelIdeal_ReferenceIdeal := by
  intro m ρ m' ρ' _ hagree
  refine ⟨_, _, _, _, krun m ρ, ?_⟩
  refine (θ_run Cert.ReferenceIdeal.defs _ _).mono (fun _ h c =>
    ⟨(h c).1.trans ?_, (h c).2.1, (h c).2.2.1, (h c).2.2.2.1, (h c).2.2.2.2.1, (h c).2.2.2.2.2⟩) (rrun m' ρ')
  rw [rloss, (hagree c).1, (hagree c).2]
  rfl

/-- Everything the certificate claims, from the bit-level program's frame, the two runs and the reference's value: the
    idealization rewrote no operation, so what it is to preserve is nothing. -/
theorem claim_of (fk : Cert.frame_Kernel) (krun : KernelRun) (rrun : ReferenceRun) (rloss : ReferenceLoss) : Cert.Claim :=
  ⟨Cert.Kernel.Gen.facts, Cert.KernelIdeal.Gen.facts, Cert.ReferenceIdeal.Gen.facts, Cert.Pre_finite_inputs.Gen.facts,
    fk, frame_ki_of krun, frame_ri_of rrun, trivial, algebraic_of krun rrun rloss⟩

end Cert.Proof.Assemble

end
-- ==== Proof.KIRuns.lean ====
/-
  The kernel region of the program, seen from one grid point: what the staging buffers of the four input windows hold
  when the body runs (each the block of its array that the point's index map selects, fetched at that point or kept
  from an earlier one), the one branch of the body (the accumulators are reset when the column-block coordinate is 0,
  that is at the points 0, 4, 8, 12 of the row-major 4 x 4 grid), and the staging memrefs the body is called with.
-/
import proofs.«142400_j89936615178820_1_alg».proof.Proof.Gen.KernelIdeal.Launch
import proofs.«142400_j89936615178820_1_alg».proof.Proof.Gen.KernelIdeal.Skeleton
import proofs.«142400_j89936615178820_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, as a valuation, -/
abbrev V₀ (c : Dev nD) : Valuation τ sig (Elt F) := fun b => m ((c : Dev nD), b)
/-- and when the region is entered: the label table has been transposed and the level constants written. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or kept. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or kept. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or kept. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or kept. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The body's one branch: the column-block coordinate is 0. -/
abbrev cond0_0 (i : grid0.Coords) : Prop := (Scalar.cmpi .ne (Scalar.extui (Scalar.cmpi .eq (BitVec.ofNat 32 (i 1).val) 0#32)) 0#32) = 1#1
/-- It holds at the points 0, 4, 8, 12. -/
theorem hcond0_0 : ∀ t : Fin cfg0.N, cond0_0 (grid0.coords t) ↔ t.val % 4 = 0 :=
  (by decide +kernel : ∀ t : Fin grid0.N, cond0_0 (grid0.coords t) ↔ t.val % 4 = 0)

abbrev VO0_4 : View sig .tc .vmem S1x512 .f32 := (Memref.whole cc0_stg4_0 : Memref sig .tc .vmem S1x512 .f32).view
abbrev VO0_5 : View sig .tc .vmem S1x512 .f32 := (Memref.whole cc0_stg5_0 : Memref sig .tc .vmem S1x512 .f32).view
abbrev VO0_6 : View sig .tc .vmem S1x512 .f32 := (Memref.whole cc0_stg6_0 : Memref sig .tc .vmem S1x512 .f32).view
abbrev VO0_7 : View sig .tc .vmem S4x512 .f32 := (Memref.whole cc0_stg7_0 : Memref sig .tc .vmem S4x512 .f32).view
abbrev VO0_8 : View sig .tc .vmem S4x512 .f32 := (Memref.whole cc0_stg8_0 : Memref sig .tc .vmem S4x512 .f32).view
abbrev VO0_9 : View sig .tc .vmem S4x512 .f32 := (Memref.whole cc0_stg9_0 : Memref sig .tc .vmem S4x512 .f32).view

abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x4 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x512 .f32 := win0_9.stage (cfg0.slots t 9)
abbrev hs0_9 (t : Fin cfg0.N) : (ms0_9 t).IsWhole := hstage0_9 ((cfg0.slots t 9).cast nbuf0_9)

end Cert.KernelIdeal.Hand

end
-- ==== Proof.KIRunA.lean ====
/-
  The whole kernel body run symbolically in the case where the accumulators are reset (column-block coordinate 0):
  on whole staging memrefs, the inputs' at their blocks, it runs to the end, nothing faulting, leaving the inputs as
  they were and each output's buffer with a list of stores written, which the run finds.
-/
import proofs.«142400_j89936615178820_1_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) :
    Σ' (L4 : List (View.Piece (Elt F) S1x512 .f32)), Σ' (L5 : List (View.Piece (Elt F) S1x512 .f32)), Σ' (L6 : List (View.Piece (Elt F) S1x512 .f32)), Σ' (L7 : List (View.Piece (Elt F) S4x512 .f32)), Σ' (L8 : List (View.Piece (Elt F) S4x512 .f32)), { L9 : List (View.Piece (Elt F) S4x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__log_ratio_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__log_ratio_kernel_eq_skeleton]; unfold cc0__log_ratio_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

end Cert.KernelIdeal.Hand

end
-- ==== Proof.KIRunB.lean ====
/-
  The whole kernel body run symbolically in the case where the accumulators are carried over (column-block coordinate not 0):
  on whole staging memrefs, the inputs' at their blocks, the outputs' at what the point before left, it runs to the end, nothing faulting, leaving the inputs as
  they were and each output's buffer with a list of stores written, which the run finds.
-/
import proofs.«142400_j89936615178820_1_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) :
    Σ' (L4 : List (View.Piece (Elt F) S1x512 .f32)), Σ' (L5 : List (View.Piece (Elt F) S1x512 .f32)), Σ' (L6 : List (View.Piece (Elt F) S1x512 .f32)), Σ' (L7 : List (View.Piece (Elt F) S4x512 .f32)), Σ' (L8 : List (View.Piece (Elt F) S4x512 .f32)), { L9 : List (View.Piece (Elt F) S4x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xo5 ∗ owns (c : Thread nD τ) arg8 fullShare xo6 ∗ owns (c : Thread nD τ) arg9 fullShare xo7 ∗ owns (c : Thread nD τ) arg10 fullShare xo8 ∗ owns (c : Thread nD τ) arg11 fullShare xo9
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__log_ratio_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__log_ratio_kernel_eq_skeleton]; unfold cc0__log_ratio_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

end Cert.KernelIdeal.Hand

end
-- ==== Proof.KIFrame.lean ====
/-
  What the six output buffers hold after the body at each grid point, and the body obligation of the pipeline.
  Each case's stores cover the block they are written into, so what a buffer holds after the body is its stores read
  back; at a point that resets the accumulators this is a function of the point's input blocks alone, at any other
  point also of what the point before left (the buffers are not written back in between: the row-block coordinate
  has not moved). The proof data hold the embeddings array at one half share for each of the two windows on it.
-/
import proofs.«142400_j89936615178820_1_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) (y : S1x512.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).1 S1x512.size (by sl_kernel_rfl) y

/-- What case A leaves in output 4's staging buffer: its stores read back. -/
def out0_A_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) : Vec F S1x512 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 hc0 x0 x1 x2 x3).1)

theorem cover0_A_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) (y : S1x512.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).2.1 S1x512.size (by sl_kernel_rfl) y

/-- What case A leaves in output 5's staging buffer: its stores read back. -/
def out0_A_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) : Vec F S1x512 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 x0 x1 x2 x3).2.1)

theorem cover0_A_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) (y : S1x512.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).2.2.1 S1x512.size (by sl_kernel_rfl) y

/-- What case A leaves in output 6's staging buffer: its stores read back. -/
def out0_A_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) : Vec F S1x512 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 x0 x1 x2 x3).2.2.1)

theorem cover0_A_7 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) (y : S4x512.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).2.2.2.1 S4x512.size (by sl_kernel_rfl) y

/-- What case A leaves in output 7's staging buffer: its stores read back. -/
def out0_A_7 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) : Vec F S4x512 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 x0 x1 x2 x3).2.2.2.1)

theorem cover0_A_8 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) (y : S4x512.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).2.2.2.2.1 S4x512.size (by sl_kernel_rfl) y

/-- What case A leaves in output 8's staging buffer: its stores read back. -/
def out0_A_8 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) : Vec F S4x512 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3).2.2.2.2.1)

theorem cover0_A_9 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) (y : S4x512.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).2.2.2.2.2.1 S4x512.size (by sl_kernel_rfl) y

/-- What case A leaves in output 9's staging buffer: its stores read back. -/
def out0_A_9 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) : Vec F S4x512 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 hc0 x0 x1 x2 x3).2.2.2.2.2.1)

theorem cover0_B_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) (y : S1x512.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).1 S1x512.size (by sl_kernel_rfl) y

/-- What case B leaves in output 4's staging buffer: its stores read back. -/
def out0_B_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) : Vec F S1x512 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).1)

theorem cover0_B_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) (y : S1x512.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.1 S1x512.size (by sl_kernel_rfl) y

/-- What case B leaves in output 5's staging buffer: its stores read back. -/
def out0_B_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) : Vec F S1x512 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.1)

theorem cover0_B_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) (y : S1x512.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.1 S1x512.size (by sl_kernel_rfl) y

/-- What case B leaves in output 6's staging buffer: its stores read back. -/
def out0_B_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) : Vec F S1x512 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.1)

theorem cover0_B_7 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) (y : S4x512.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.2.1 S1x512.size (by sl_kernel_rfl) y

/-- What case B leaves in output 7's staging buffer: its stores read back. -/
def out0_B_7 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) : Vec F S4x512 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.2.1)

theorem cover0_B_8 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) (y : S4x512.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.2.2.1 S1x512.size (by sl_kernel_rfl) y

/-- What case B leaves in output 8's staging buffer: its stores read back. -/
def out0_B_8 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) : Vec F S4x512 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.2.2.1)

theorem cover0_B_9 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) (y : S4x512.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.2.2.2.1 S1x512.size (by sl_kernel_rfl) y

/-- What case B leaves in output 9's staging buffer: its stores read back. -/
def out0_B_9 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) : Vec F S4x512 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.2.2.2.1)

/-- THE ACCUMULATION: what the six outputs' staging buffers hold after the body at position `n`. -/
def outsAt0 (c : Dev nD) : (n : ℕ) → n < cfg0.N → Vec F S1x512 .f32 × Vec F S1x512 .f32 × Vec F S1x512 .f32 × Vec F S4x512 .f32 × Vec F S4x512 .f32 × Vec F S4x512 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 4 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

theorem outsAt0_A (c : Dev nD) (t : Fin cfg0.N) (h0 : t.val % 4 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-- The proof data of the pipeline on core `c`: the arrays as the region finds them; after the body each input's buffer
    at its block and each output's at the accumulation; the invariant is the scoped buffers no window stages; nothing
    owed; the two windows on the embeddings array hold one half of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
    | ⟨8, _⟩ => (outsAt0 m c t.val t.isLt).2.2.2.2.1
    | ⟨9, _⟩ => (outsAt0 m c t.val t.isLt).2.2.2.2.2
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]
theorem after0_8 (c : Dev nD) (t : Fin cfg0.N) : (dats m 0 c).after 8 t = (outsAt0 m c t.val t.isLt).2.2.2.2.1 := by dsimp only [dats]
theorem after0_9 (c : Dev nD) (t : Fin cfg0.N) : (dats m 0 c).after 9 t = (outsAt0 m c t.val t.isLt).2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a point that carries the accumulators over, output 4's current staging buffer holds what the body left at the
    point before: the buffer was not written back in between. -/
theorem before0_4_B (c : Dev nD) (t : Fin cfg0.N) (h0 : ¬t.val % 4 = 0) (d) :
    (dats m 0 c).before 4 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-- At a point that carries the accumulators over, output 5's current staging buffer holds what the body left at the
    point before: the buffer was not written back in between. -/
theorem before0_5_B (c : Dev nD) (t : Fin cfg0.N) (h0 : ¬t.val % 4 = 0) (d) :
    (dats m 0 c).before 5 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]

/-- At a point that carries the accumulators over, output 6's current staging buffer holds what the body left at the
    point before: the buffer was not written back in between. -/
theorem before0_6_B (c : Dev nD) (t : Fin cfg0.N) (h0 : ¬t.val % 4 = 0) (d) :
    (dats m 0 c).before 6 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dats]

/-- At a point that carries the accumulators over, output 7's current staging buffer holds what the body left at the
    point before: the buffer was not written back in between. -/
theorem before0_7_B (c : Dev nD) (t : Fin cfg0.N) (h0 : ¬t.val % 4 = 0) (d) :
    (dats m 0 c).before 7 t d = (outsAt0 m c (t.val - 1) (Nat.lt_of_le_of_lt (Nat.sub_le _ _) t.isLt)).2.2.2.1 := by
  have hN : t.val < 16 := lt_of_lt_of_eq t.isLt (show cfg0.N = 16 from N_0)
  rw [Dat.before_out_kept _ 7 rfl t (by omega) (Bool.eq_false_iff.mpr fun h => by have := (flush0_7 _).mp h; dsimp only at this; omega)
    (fun _ => rfl) (fun _ _ => rfl)]
  dsimp only [dats]

/-- At a point that carries the accumulators over, output 8's current staging buffer holds what the body left at the
    point before: the buffer was not written back in between. -/
theorem before0_8_B (c : Dev nD) (t : Fin cfg0.N) (h0 : ¬t.val % 4 = 0) (d) :
    (dats m 0 c).before 8 t d = (outsAt0 m c (t.val - 1) (Nat.lt_of_le_of_lt (Nat.sub_le _ _) t.isLt)).2.2.2.2.1 := by
  have hN : t.val < 16 := lt_of_lt_of_eq t.isLt (show cfg0.N = 16 from N_0)
  rw [Dat.before_out_kept _ 8 rfl t (by omega) (Bool.eq_false_iff.mpr fun h => by have := (flush0_8 _).mp h; dsimp only at this; omega)
    (fun _ => rfl) (fun _ _ => rfl)]
  dsimp only [dats]

/-- At a point that carries the accumulators over, output 9's current staging buffer holds what the body left at the
    point before: the buffer was not written back in between. -/
theorem before0_9_B (c : Dev nD) (t : Fin cfg0.N) (h0 : ¬t.val % 4 = 0) (d) :
    (dats m 0 c).before 9 t d = (outsAt0 m c (t.val - 1) (Nat.lt_of_le_of_lt (Nat.sub_le _ _) t.isLt)).2.2.2.2.2 := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  have hN : t.val < 16 := lt_of_lt_of_eq t.isLt (show cfg0.N = 16 from N_0)
  by_cases h0 : t.val % 4 = 0
  · rw [outsAt0_A m c t h0]
    unfold out0_A_4 out0_A_5 out0_A_6 out0_A_7 out0_A_8 out0_A_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ ((hcond0_0 t).mpr h0) (iblk m c 0 t) (iblk m c 1 t) (iblk m c 2 t) (iblk m c 3 t)).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iintro ⟨H0, H1, H2, H3, ⟨%e4, H4⟩, ⟨%e5, H5⟩, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _ _ _ _ )
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _ )
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ )
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ )
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ )
    unfold owns; iexists _; isplitr
    swap; · iexact H9
    ipureintro; exact View.read_writes_of_cover _ _ _ _ _ (cover0_A_9 c _ _ _ _ _ _ _ _ _ _ _ _ _ _ _ _ _ _ _ _ _ _ _ _ _ _ )
  · rw [outsAt0_B m c t h0]
    simp only [before0_4_B m c t h0, before0_5_B m c t h0, before0_6_B m c t h0, before0_7_B m c t h0, before0_8_B m c t h0, before0_9_B m c t h0]
    unfold out0_B_4 out0_B_5 out0_B_6 out0_B_7 out0_B_8 out0_B_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) _ _ _ _ _ _ ).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, ⟨%e4, H4⟩, ⟨%e5, H5⟩, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _ _ _ _ _ _ _ _ _ )
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _ _ _ _ _ _ )
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _ _ )
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _ )
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ )
    unfold owns; iexists _; isplitr
    swap; · iexact H9
    ipureintro; exact View.read_writes_of_cover _ _ _ _ _ (cover0_B_9 c _ _ _ _ _ _ _ _ _ _ _ _ _ _ _ _ _ _ _ _ _ _ _ _ _ _ _ _ _ _ _ _ )

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KValA.lean ====
/-
  What each case of the body leaves in each output's staging buffer, as payload terms of the point's blocks.

  The body's stores into an output cover its block, so what the buffer holds afterwards is the stores read back.
  A [1,512] output is written by one whole store: the running row plus the column sums of a tile. A [4,512]
  output is written row by row, one level per row, each row the running row plus the column sums of that level's
  tile; the four row stores tile the block. When the accumulators are reset, the running rows are read back from
  the zero fill that was stored first, so every running row is the zero row.
-/
import proofs.«142400_j89936615178820_1_alg».proof.Proof.KIFrame
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

namespace KVal

open Idealize.ShloMosaic.ValueIdx

theorem hz : (![0, 0] : Fin 2 → Nat) = fun _ => 0 := funext fun a => by fin_cases a <;> rfl

/-! ## Rows of a [4,512] block -/

/-- An index lies in row k's rectangle exactly when its row coordinate is k. -/
theorem mem_row {k : ℕ} {inb : ∀ a, (![k, 0] : Fin 2 → Nat) a + S1x512.size a ≤ S4x512.size a} (y : S4x512.Idx) :
    y ∈ (Rect.unit (s := S4x512) ![k, 0] S1x512.size inb : Rect S4x512).set ↔ (y 0).val = k := by
  rw [Rect.mem_set_unit]
  have h1 : (y 1).val < 512 := (y 1).isLt
  constructor
  · intro h
    have h0 : k ≤ (y 0).val ∧ (y 0).val < k + 1 := h 0
    omega
  · intro h a
    match a with
    | ⟨0, _⟩ => show k ≤ (y 0).val ∧ (y 0).val < k + 1; omega
    | ⟨1, _⟩ => show 0 ≤ (y 1).val ∧ (y 1).val < 0 + 512; omega

/-- Entry j of row k's rectangle sits at (k, j) of the block. -/
theorem emb_row {k : ℕ} {inb : ∀ a, (![k, 0] : Fin 2 → Nat) a + S1x512.size a ≤ S4x512.size a} (kk : Fin 4) (hk : kk.val = k)
    (j : Fin 512) : (Rect.unit (s := S4x512) ![k, 0] S1x512.size inb : Rect S4x512).emb (ix2 (0 : Fin 1) j) = ix2 kk j :=
  funext fun a => Fin.ext (by
    match a with
    | ⟨0, _⟩ => show k + 1 * 0 = kk.val; omega
    | ⟨1, _⟩ => show 0 + 1 * j.val = j.val; omega)

variable {F : FTy → Type} [FloatOps F]

/-- A row store that is not at the index's row leaves what the earlier stores left. -/
theorem canon_skip {k : ℕ} {inb : ∀ a, (![k, 0] : Fin 2 → Nat) a + S1x512.size a ≤ S4x512.size a}
    (w : S1x512.Idx → F .f32) (L : List (View.Piece (Elt F) S4x512 .f32)) (y : S4x512.Idx) (h : (y 0).val ≠ k) :
    View.canon ((⟨Rect.unit (s := S4x512) ![k, 0] S1x512.size inb, w⟩ : View.Piece (Elt F) S4x512 .f32) :: L) y = View.canon L y :=
  View.canon_cons_of_not_mem _ _ (fun hm => h ((mem_row (inb := inb) y).mp hm))

/-- A row store at the index's row leaves its payload. -/
theorem canon_hit {k : ℕ} {inb : ∀ a, (![k, 0] : Fin 2 → Nat) a + S1x512.size a ≤ S4x512.size a}
    (w : S1x512.Idx → F .f32) (L : List (View.Piece (Elt F) S4x512 .f32)) (kk : Fin 4) (hk : kk.val = k) (j : Fin 512) :
    View.canon ((⟨Rect.unit (s := S4x512) ![k, 0] S1x512.size inb, w⟩ : View.Piece (Elt F) S4x512 .f32) :: L) (ix2 kk j)
      = w (ix2 (0 : Fin 1) j) := by
  rw [← emb_row (inb := inb) kk hk j]
  exact View.canon_cons_emb (Rect.unit (s := S4x512) ![k, 0] S1x512.size inb) w L _

/-- A row load after stores: a store at another row does not show. -/
theorem readCov_skip {sig : RefSig} {κ : Kind} {sp : Space} (v : View sig κ sp S4x512 .f32) {k k' : ℕ}
    {inb : ∀ a, (![k, 0] : Fin 2 → Nat) a + S1x512.size a ≤ S4x512.size a}
    {inb' : ∀ a, (![k', 0] : Fin 2 → Nat) a + S1x512.size a ≤ S4x512.size a} (hne : k ≠ k')
    (w : S1x512.Idx → F .f32) (L : List (View.Piece (Elt F) S4x512 .f32)) :
    v.readCov ((⟨Rect.unit (s := S4x512) ![k', 0] S1x512.size inb', w⟩ : View.Piece (Elt F) S4x512 .f32) :: L)
        (Rect.unit (s := S4x512) ![k, 0] S1x512.size inb).toLoadRect
      = v.readCov L (Rect.unit (s := S4x512) ![k, 0] S1x512.size inb).toLoadRect := by
  rw [View.readCov_eq_canon', View.readCov_eq_canon']
  funext x
  refine canon_skip w L _ ?_
  show k + 1 * (x 0).val ≠ k'
  have : (x 0).val < 1 := (x 0).isLt
  omega

/-- A row load after the whole-block fill alone reads the fill's row. -/
theorem readCov_fill {sig : RefSig} {κ : Kind} {sp : Space} (v : View sig κ sp S4x512 .f32) {k : ℕ}
    {inb : ∀ a, (![k, 0] : Fin 2 → Nat) a + S1x512.size a ≤ S4x512.size a} (Z : S4x512.Idx → F .f32) :
    v.readCov [(⟨Rect.unit (s := S4x512) ![0, 0] S4x512.size inb_S4x512_S4x512_0_0, Z⟩ : View.Piece (Elt F) S4x512 .f32)]
        (Rect.unit (s := S4x512) ![k, 0] S1x512.size inb).toLoadRect
      = View.ld (Val := Elt F) (e' := .f32) Z (Rect.unit (s := S4x512) ![k, 0] S1x512.size inb) := by
  rw [View.readCov_eq_canon', View.canon_unit_zero hz]

/-! ## The body's values, named once -/

section Vocab
variable (i : grid0.Coords) (x0 x1 : Vec F S512x128 .f32) (x2 : Vec F S512x4 .i32) (x3 : Vec F S4x512 .i32)

/-- Row 0 of the transposed-label block: the row block's top-level labels. -/
abbrev tgtRow : Vec F S1x512 .i32 :=
  View.ld (Val := Elt F) (e' := .i32) x3 (Rect.unit (s := S4x512) ![0, 0] S1x512.size inb_S4x512_S1x512_0_0)
/-- Label column 0 of the column block. -/
abbrev labCol0 : Vec F S512x1 .i32 :=
  View.ld (Val := Elt F) (e' := .i32) x2 (Rect.unit (s := S512x4) ![0, 0] S512x1.size inb_S512x4_S512x1_0_0)
/-- Label column 1 of the column block. -/
abbrev labCol1 : Vec F S512x1 .i32 :=
  View.ld (Val := Elt F) (e' := .i32) x2 (Rect.unit (s := S512x4) ![0, 1] S512x1.size inb_S512x4_S512x1_0_1)
/-- Label column 2 of the column block. -/
abbrev labCol2 : Vec F S512x1 .i32 :=
  View.ld (Val := Elt F) (e' := .i32) x2 (Rect.unit (s := S512x4) ![0, 2] S512x1.size inb_S512x4_S512x1_0_2)
/-- Label column 3 of the column block. -/
abbrev labCol3 : Vec F S512x1 .i32 :=
  View.ld (Val := Elt F) (e' := .i32) x2 (Rect.unit (s := S512x4) ![0, 3] S512x1.size inb_S512x4_S512x1_0_3)

/-- The positive-mask tile. -/
abbrev tPos : FVec F S512x512 .f32 := k0_pay14 i (tgtRow (F := F) x3) (labCol0 (F := F) x2)
/-- The logarithm tile and its square. -/
abbrev tLog : FVec F S512x512 .f32 := k0_pay11 x0 x1
abbrev tLog2 : FVec F S512x512 .f32 := k0_pay12 x0 x1
/-- The four negative-mask tiles, by level. -/
abbrev tN0 : FVec F S512x512 .f32 := k0_pay19 (k0_pay13 (tgtRow (F := F) x3)) (labCol3 (F := F) x2)
abbrev tN1 : FVec F S512x512 .f32 := k0_pay20 (k0_pay13 (tgtRow (F := F) x3)) (labCol2 (F := F) x2) (labCol3 (F := F) x2)
abbrev tN2 : FVec F S512x512 .f32 := k0_pay21 (k0_pay13 (tgtRow (F := F) x3)) (labCol1 (F := F) x2) (labCol2 (F := F) x2)
abbrev tN3 : FVec F S512x512 .f32 :=
  k0_pay22 (k0_pay13 (tgtRow (F := F) x3)) (k0_pay15 (tgtRow (F := F) x3) (labCol0 (F := F) x2)) (labCol1 (F := F) x2)

end Vocab

/-- Row k of a [4,512] block of running sums, as the body loads it. -/
abbrev row0 (X : Vec F S4x512 .f32) : Vec F S1x512 .f32 :=
  View.ld (Val := Elt F) (e' := .f32) X (Rect.unit (s := S4x512) ![0, 0] S1x512.size inb_S4x512_S1x512_0_0)
abbrev row1 (X : Vec F S4x512 .f32) : Vec F S1x512 .f32 :=
  View.ld (Val := Elt F) (e' := .f32) X (Rect.unit (s := S4x512) ![1, 0] S1x512.size inb_S4x512_S1x512_1_0)
abbrev row2 (X : Vec F S4x512 .f32) : Vec F S1x512 .f32 :=
  View.ld (Val := Elt F) (e' := .f32) X (Rect.unit (s := S4x512) ![2, 0] S1x512.size inb_S4x512_S1x512_2_0)
abbrev row3 (X : Vec F S4x512 .f32) : Vec F S1x512 .f32 :=
  View.ld (Val := Elt F) (e' := .f32) X (Rect.unit (s := S4x512) ![3, 0] S1x512.size inb_S4x512_S1x512_3_0)

/-- The zero row the reset leaves under every running sum. -/
abbrev zrow : FVec F S1x512 .f32 := broadcast S1x512 (Scalar.ofBits (F := F) .f32 0x00000000#32)

end KVal

end Cert.KernelIdeal.Hand

end
-- ==== Proof.KValB1.lean ====
/- The body's stores read back in the case where the running sums are carried over: each output's block is the running
  sums it held plus the column sums of the point's tiles. The three [1,512] outputs and the level counts.
-/
import proofs.«142400_j89936615178820_1_alg».proof.Proof.KValA
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

namespace KVal

open Idealize.ShloMosaic.ValueIdx

section
variable (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32)

theorem outB4 (hc0 : ¬cond0_0 i) :
    out0_B_4 c i arg2 harg2 arg3 harg3 arg4 harg4 arg5 harg5 arg6 harg6 arg7 harg7 arg8 harg8 arg9 harg9 arg10 harg10 arg11 harg11 hc0 x0 x1 x2 x3 xo4 xo5 xo6 xo7 xo8 xo9 = k0_pay23 (tPos i x2 x3) xo4 := by
  unfold out0_B_4
  rw [View.read_writes_eq_canon _ _ _ (cover0_B_4 c i arg2 harg2 arg3 harg3 arg4 harg4 arg5 harg5 arg6 harg6 arg7 harg7 arg8 harg8 arg9 harg9 arg10 harg10 arg11 harg11 hc0 x0 x1 x2 x3 xo4 xo5 xo6 xo7 xo8 xo9)]
  unfold kernelRun0_B
  dsimp only
  sl_unfold_words
  rw [View.canon_unit_zero hz]
  simp only [View.readAt_eq_ld, harg4.read_unread, harg5.read_unread, harg6.read_unread, View.ld_unit_zero (S := S512x128) hz,
    View.ld_unit_zero (S := S1x512) hz] <;> rfl

theorem outB5 (hc0 : ¬cond0_0 i) :
    out0_B_5 c i arg2 harg2 arg3 harg3 arg4 harg4 arg5 harg5 arg6 harg6 arg7 harg7 arg8 harg8 arg9 harg9 arg10 harg10 arg11 harg11 hc0 x0 x1 x2 x3 xo4 xo5 xo6 xo7 xo8 xo9 = k0_pay24 (tLog x0 x1) (tPos i x2 x3) xo5 := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 hc0 x0 x1 x2 x3 xo4 xo5 xo6 xo7 xo8 xo9)]
  unfold kernelRun0_B
  dsimp only
  sl_unfold_words
  rw [View.canon_unit_zero hz]
  simp only [View.readAt_eq_ld, harg2.read_unread, harg3.read_unread, harg4.read_unread, harg5.read_unread, harg7.read_unread, View.ld_unit_zero (S := S512x128) hz,
    View.ld_unit_zero (S := S1x512) hz] <;> rfl

theorem outB6 (hc0 : ¬cond0_0 i) :
    out0_B_6 c i arg2 harg2 arg3 harg3 arg4 harg4 arg5 harg5 arg6 harg6 arg7 harg7 arg8 harg8 arg9 harg9 arg10 harg10 arg11 harg11 hc0 x0 x1 x2 x3 xo4 xo5 xo6 xo7 xo8 xo9 = k0_pay25 (tLog2 x0 x1) (tPos i x2 x3) xo6 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 x0 x1 x2 x3 xo4 xo5 xo6 xo7 xo8 xo9)]
  unfold kernelRun0_B
  dsimp only
  sl_unfold_words
  rw [View.canon_unit_zero hz]
  simp only [View.readAt_eq_ld, harg2.read_unread, harg3.read_unread, harg4.read_unread, harg5.read_unread, harg8.read_unread, View.ld_unit_zero (S := S512x128) hz,
    View.ld_unit_zero (S := S1x512) hz] <;> rfl

theorem outB7_0 (hc0 : ¬cond0_0 i) (j : Fin 512) :
    out0_B_7 c i arg2 harg2 arg3 harg3 arg4 harg4 arg5 harg5 arg6 harg6 arg7 harg7 arg8 harg8 arg9 harg9 arg10 harg10 arg11 harg11 hc0 x0 x1 x2 x3 xo4 xo5 xo6 xo7 xo8 xo9 (ix2 (0 : Fin 4) j)
      = k0_pay26 (tN0 x2 x3) (row0 xo7) (ix2 (0 : Fin 1) j) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 xo4 xo5 xo6 xo7 xo8 xo9)]
  unfold kernelRun0_B
  dsimp only
  sl_unfold_words
  rw [canon_skip _ _ _ (show (0 : ℕ) ≠ 3 by omega),
    canon_skip _ _ _ (show (0 : ℕ) ≠ 2 by omega),
    canon_skip _ _ _ (show (0 : ℕ) ≠ 1 by omega),
    canon_hit (k := 0) _ _ (0 : Fin 4) rfl j]
  simp only [View.readAt_eq_ld, harg4.read_unread, harg5.read_unread, harg9.read_unread, View.ld_unit_zero (S := S512x128) hz,
    View.ld_unit_zero (S := S1x512) hz] <;> rfl

theorem outB7_1 (hc0 : ¬cond0_0 i) (j : Fin 512) :
    out0_B_7 c i arg2 harg2 arg3 harg3 arg4 harg4 arg5 harg5 arg6 harg6 arg7 harg7 arg8 harg8 arg9 harg9 arg10 harg10 arg11 harg11 hc0 x0 x1 x2 x3 xo4 xo5 xo6 xo7 xo8 xo9 (ix2 (1 : Fin 4) j)
      = k0_pay29 (tN1 x2 x3) (row1 xo7) (ix2 (0 : Fin 1) j) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 xo4 xo5 xo6 xo7 xo8 xo9)]
  unfold kernelRun0_B
  dsimp only
  sl_unfold_words
  rw [canon_skip _ _ _ (show (1 : ℕ) ≠ 3 by omega),
    canon_skip _ _ _ (show (1 : ℕ) ≠ 2 by omega),
    canon_hit (k := 1) _ _ (1 : Fin 4) rfl j]
  simp only [View.readAt_eq_ld, harg4.read_unread, harg5.read_unread, harg9.read_unread, View.ld_unit_zero (S := S512x128) hz,
    View.ld_unit_zero (S := S1x512) hz] <;> rfl

theorem outB7_2 (hc0 : ¬cond0_0 i) (j : Fin 512) :
    out0_B_7 c i arg2 harg2 arg3 harg3 arg4 harg4 arg5 harg5 arg6 harg6 arg7 harg7 arg8 harg8 arg9 harg9 arg10 harg10 arg11 harg11 hc0 x0 x1 x2 x3 xo4 xo5 xo6 xo7 xo8 xo9 (ix2 (2 : Fin 4) j)
      = k0_pay32 (tN2 x2 x3) (row2 xo7) (ix2 (0 : Fin 1) j) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 xo4 xo5 xo6 xo7 xo8 xo9)]
  unfold kernelRun0_B
  dsimp only
  sl_unfold_words
  rw [canon_skip _ _ _ (show (2 : ℕ) ≠ 3 by omega),
    canon_hit (k := 2) _ _ (2 : Fin 4) rfl j]
  simp only [View.readAt_eq_ld, harg4.read_unread, harg5.read_unread, harg9.read_unread, View.ld_unit_zero (S := S512x128) hz,
    View.ld_unit_zero (S := S1x512) hz] <;> rfl

theorem outB7_3 (hc0 : ¬cond0_0 i) (j : Fin 512) :
    out0_B_7 c i arg2 harg2 arg3 harg3 arg4 harg4 arg5 harg5 arg6 harg6 arg7 harg7 arg8 harg8 arg9 harg9 arg10 harg10 arg11 harg11 hc0 x0 x1 x2 x3 xo4 xo5 xo6 xo7 xo8 xo9 (ix2 (3 : Fin 4) j)
      = k0_pay2 (tN3 x2 x3) (row3 xo7) (ix2 (0 : Fin 1) j) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 xo4 xo5 xo6 xo7 xo8 xo9)]
  unfold kernelRun0_B
  dsimp only
  sl_unfold_words
  rw [canon_hit (k := 3) _ _ (3 : Fin 4) rfl j]
  simp only [View.readAt_eq_ld, harg4.read_unread, harg5.read_unread, harg9.read_unread, View.ld_unit_zero (S := S512x128) hz,
    View.ld_unit_zero (S := S1x512) hz] <;> rfl

end

end KVal

end Cert.KernelIdeal.Hand

end
-- ==== Proof.KValB2.lean ====
/- The body's stores read back in the case where the running sums are carried over: each output's block is the running
  sums it held plus the column sums of the point's tiles. The level sums of the logarithm and of its square.
-/
import proofs.«142400_j89936615178820_1_alg».proof.Proof.KValA
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

namespace KVal

open Idealize.ShloMosaic.ValueIdx

section
variable (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32)

theorem outB8_0 (hc0 : ¬cond0_0 i) (j : Fin 512) :
    out0_B_8 c i arg2 harg2 arg3 harg3 arg4 harg4 arg5 harg5 arg6 harg6 arg7 harg7 arg8 harg8 arg9 harg9 arg10 harg10 arg11 harg11 hc0 x0 x1 x2 x3 xo4 xo5 xo6 xo7 xo8 xo9 (ix2 (0 : Fin 4) j)
      = k0_pay27 (tLog x0 x1) (tN0 x2 x3) (row0 xo8) (ix2 (0 : Fin 1) j) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 xo4 xo5 xo6 xo7 xo8 xo9)]
  unfold kernelRun0_B
  dsimp only
  sl_unfold_words
  rw [canon_skip _ _ _ (show (0 : ℕ) ≠ 3 by omega),
    canon_skip _ _ _ (show (0 : ℕ) ≠ 2 by omega),
    canon_skip _ _ _ (show (0 : ℕ) ≠ 1 by omega),
    canon_hit (k := 0) _ _ (0 : Fin 4) rfl j]
  simp only [View.readAt_eq_ld, harg2.read_unread, harg3.read_unread, harg4.read_unread, harg5.read_unread, harg10.read_unread, View.ld_unit_zero (S := S512x128) hz,
    View.ld_unit_zero (S := S1x512) hz] <;> rfl

theorem outB8_1 (hc0 : ¬cond0_0 i) (j : Fin 512) :
    out0_B_8 c i arg2 harg2 arg3 harg3 arg4 harg4 arg5 harg5 arg6 harg6 arg7 harg7 arg8 harg8 arg9 harg9 arg10 harg10 arg11 harg11 hc0 x0 x1 x2 x3 xo4 xo5 xo6 xo7 xo8 xo9 (ix2 (1 : Fin 4) j)
      = k0_pay30 (tLog x0 x1) (tN1 x2 x3) (row1 xo8) (ix2 (0 : Fin 1) j) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 xo4 xo5 xo6 xo7 xo8 xo9)]
  unfold kernelRun0_B
  dsimp only
  sl_unfold_words
  rw [canon_skip _ _ _ (show (1 : ℕ) ≠ 3 by omega),
    canon_skip _ _ _ (show (1 : ℕ) ≠ 2 by omega),
    canon_hit (k := 1) _ _ (1 : Fin 4) rfl j]
  simp only [View.readAt_eq_ld, harg2.read_unread, harg3.read_unread, harg4.read_unread, harg5.read_unread, harg10.read_unread, View.ld_unit_zero (S := S512x128) hz,
    View.ld_unit_zero (S := S1x512) hz] <;> rfl

theorem outB8_2 (hc0 : ¬cond0_0 i) (j : Fin 512) :
    out0_B_8 c i arg2 harg2 arg3 harg3 arg4 harg4 arg5 harg5 arg6 harg6 arg7 harg7 arg8 harg8 arg9 harg9 arg10 harg10 arg11 harg11 hc0 x0 x1 x2 x3 xo4 xo5 xo6 xo7 xo8 xo9 (ix2 (2 : Fin 4) j)
      = k0_pay33 (tLog x0 x1) (tN2 x2 x3) (row2 xo8) (ix2 (0 : Fin 1) j) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 xo4 xo5 xo6 xo7 xo8 xo9)]
  unfold kernelRun0_B
  dsimp only
  sl_unfold_words
  rw [canon_skip _ _ _ (show (2 : ℕ) ≠ 3 by omega),
    canon_hit (k := 2) _ _ (2 : Fin 4) rfl j]
  simp only [View.readAt_eq_ld, harg2.read_unread, harg3.read_unread, harg4.read_unread, harg5.read_unread, harg10.read_unread, View.ld_unit_zero (S := S512x128) hz,
    View.ld_unit_zero (S := S1x512) hz] <;> rfl

theorem outB8_3 (hc0 : ¬cond0_0 i) (j : Fin 512) :
    out0_B_8 c i arg2 harg2 arg3 harg3 arg4 harg4 arg5 harg5 arg6 harg6 arg7 harg7 arg8 harg8 arg9 harg9 arg10 harg10 arg11 harg11 hc0 x0 x1 x2 x3 xo4 xo5 xo6 xo7 xo8 xo9 (ix2 (3 : Fin 4) j)
      = k0_pay3 (tLog x0 x1) (tN3 x2 x3) (row3 xo8) (ix2 (0 : Fin 1) j) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 xo4 xo5 xo6 xo7 xo8 xo9)]
  unfold kernelRun0_B
  dsimp only
  sl_unfold_words
  rw [canon_hit (k := 3) _ _ (3 : Fin 4) rfl j]
  simp only [View.readAt_eq_ld, harg2.read_unread, harg3.read_unread, harg4.read_unread, harg5.read_unread, harg10.read_unread, View.ld_unit_zero (S := S512x128) hz,
    View.ld_unit_zero (S := S1x512) hz] <;> rfl

theorem outB9_0 (hc0 : ¬cond0_0 i) (j : Fin 512) :
    out0_B_9 c i arg2 harg2 arg3 harg3 arg4 harg4 arg5 harg5 arg6 harg6 arg7 harg7 arg8 harg8 arg9 harg9 arg10 harg10 arg11 harg11 hc0 x0 x1 x2 x3 xo4 xo5 xo6 xo7 xo8 xo9 (ix2 (0 : Fin 4) j)
      = k0_pay28 (tLog2 x0 x1) (tN0 x2 x3) (row0 xo9) (ix2 (0 : Fin 1) j) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc0 x0 x1 x2 x3 xo4 xo5 xo6 xo7 xo8 xo9)]
  unfold kernelRun0_B
  dsimp only
  sl_unfold_words
  rw [canon_skip _ _ _ (show (0 : ℕ) ≠ 3 by omega),
    canon_skip _ _ _ (show (0 : ℕ) ≠ 2 by omega),
    canon_skip _ _ _ (show (0 : ℕ) ≠ 1 by omega),
    canon_hit (k := 0) _ _ (0 : Fin 4) rfl j]
  simp only [View.readAt_eq_ld, harg2.read_unread, harg3.read_unread, harg4.read_unread, harg5.read_unread, harg11.read_unread, View.ld_unit_zero (S := S512x128) hz,
    View.ld_unit_zero (S := S1x512) hz] <;> rfl

theorem outB9_1 (hc0 : ¬cond0_0 i) (j : Fin 512) :
    out0_B_9 c i arg2 harg2 arg3 harg3 arg4 harg4 arg5 harg5 arg6 harg6 arg7 harg7 arg8 harg8 arg9 harg9 arg10 harg10 arg11 harg11 hc0 x0 x1 x2 x3 xo4 xo5 xo6 xo7 xo8 xo9 (ix2 (1 : Fin 4) j)
      = k0_pay31 (tLog2 x0 x1) (tN1 x2 x3) (row1 xo9) (ix2 (0 : Fin 1) j) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc0 x0 x1 x2 x3 xo4 xo5 xo6 xo7 xo8 xo9)]
  unfold kernelRun0_B
  dsimp only
  sl_unfold_words
  rw [canon_skip _ _ _ (show (1 : ℕ) ≠ 3 by omega),
    canon_skip _ _ _ (show (1 : ℕ) ≠ 2 by omega),
    canon_hit (k := 1) _ _ (1 : Fin 4) rfl j]
  simp only [View.readAt_eq_ld, harg2.read_unread, harg3.read_unread, harg4.read_unread, harg5.read_unread, harg11.read_unread, View.ld_unit_zero (S := S512x128) hz,
    View.ld_unit_zero (S := S1x512) hz] <;> rfl

theorem outB9_2 (hc0 : ¬cond0_0 i) (j : Fin 512) :
    out0_B_9 c i arg2 harg2 arg3 harg3 arg4 harg4 arg5 harg5 arg6 harg6 arg7 harg7 arg8 harg8 arg9 harg9 arg10 harg10 arg11 harg11 hc0 x0 x1 x2 x3 xo4 xo5 xo6 xo7 xo8 xo9 (ix2 (2 : Fin 4) j)
      = k0_pay1 (k0_pay34 (row2 xo9)) (k0_pay35 (tLog2 x0 x1) (tN2 x2 x3)) (ix2 (0 : Fin 1) j) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc0 x0 x1 x2 x3 xo4 xo5 xo6 xo7 xo8 xo9)]
  unfold kernelRun0_B
  dsimp only
  sl_unfold_words
  rw [canon_skip _ _ _ (show (2 : ℕ) ≠ 3 by omega),
    canon_hit (k := 2) _ _ (2 : Fin 4) rfl j]
  simp only [View.readAt_eq_ld, harg2.read_unread, harg3.read_unread, harg4.read_unread, harg5.read_unread, harg11.read_unread, View.ld_unit_zero (S := S512x128) hz,
    View.ld_unit_zero (S := S1x512) hz] <;> rfl

theorem outB9_3 (hc0 : ¬cond0_0 i) (j : Fin 512) :
    out0_B_9 c i arg2 harg2 arg3 harg3 arg4 harg4 arg5 harg5 arg6 harg6 arg7 harg7 arg8 harg8 arg9 harg9 arg10 harg10 arg11 harg11 hc0 x0 x1 x2 x3 xo4 xo5 xo6 xo7 xo8 xo9 (ix2 (3 : Fin 4) j)
      = k0_pay4 (tLog2 x0 x1) (tN3 x2 x3) (row3 xo9) (ix2 (0 : Fin 1) j) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc0 x0 x1 x2 x3 xo4 xo5 xo6 xo7 xo8 xo9)]
  unfold kernelRun0_B
  dsimp only
  sl_unfold_words
  rw [canon_hit (k := 3) _ _ (3 : Fin 4) rfl j]
  simp only [View.readAt_eq_ld, harg2.read_unread, harg3.read_unread, harg4.read_unread, harg5.read_unread, harg11.read_unread, View.ld_unit_zero (S := S512x128) hz,
    View.ld_unit_zero (S := S1x512) hz] <;> rfl

end

end KVal

end Cert.KernelIdeal.Hand

end
-- ==== Proof.KValC1.lean ====
/- The body's stores read back in the case where the running sums are reset: each output's block is the zero row plus
  the column sums of the point's tiles; the zero fill stored first is what every running row is read back from. The three [1,512] outputs and the level counts.
-/
import proofs.«142400_j89936615178820_1_alg».proof.Proof.KValA
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

namespace KVal

open Idealize.ShloMosaic.ValueIdx

section
variable (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (x0 : Vec F S512x128 .f32) (x1 : Vec F S512x128 .f32) (x2 : Vec F S512x4 .i32) (x3 : Vec F S4x512 .i32)

theorem outA4 (hc0 : cond0_0 i) :
    out0_A_4 c i arg2 harg2 arg3 harg3 arg4 harg4 arg5 harg5 arg6 harg6 arg7 harg7 arg8 harg8 arg9 harg9 arg10 harg10 arg11 harg11 hc0 x0 x1 x2 x3 = k0_pay23 (tPos i x2 x3) zrow := by
  unfold out0_A_4
  rw [View.read_writes_eq_canon _ _ _ (cover0_A_4 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [View.canon_cons_unit_zero (S := S1x512) hz, View.readCov_unit_zero (S := S1x512) _ hz]
  simp only [View.readAt_eq_ld, harg4.read_unread, harg5.read_unread, View.ld_unit_zero (S := S512x128) hz,
    View.ld_unit_zero (S := S1x512) hz] <;> rfl

theorem outA5 (hc0 : cond0_0 i) :
    out0_A_5 c i arg2 harg2 arg3 harg3 arg4 harg4 arg5 harg5 arg6 harg6 arg7 harg7 arg8 harg8 arg9 harg9 arg10 harg10 arg11 harg11 hc0 x0 x1 x2 x3 = k0_pay24 (tLog x0 x1) (tPos i x2 x3) zrow := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [View.canon_cons_unit_zero (S := S1x512) hz, View.readCov_unit_zero (S := S1x512) _ hz]
  simp only [View.readAt_eq_ld, harg2.read_unread, harg3.read_unread, harg4.read_unread, harg5.read_unread, View.ld_unit_zero (S := S512x128) hz,
    View.ld_unit_zero (S := S1x512) hz] <;> rfl

theorem outA6 (hc0 : cond0_0 i) :
    out0_A_6 c i arg2 harg2 arg3 harg3 arg4 harg4 arg5 harg5 arg6 harg6 arg7 harg7 arg8 harg8 arg9 harg9 arg10 harg10 arg11 harg11 hc0 x0 x1 x2 x3 = k0_pay25 (tLog2 x0 x1) (tPos i x2 x3) zrow := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [View.canon_cons_unit_zero (S := S1x512) hz, View.readCov_unit_zero (S := S1x512) _ hz]
  simp only [View.readAt_eq_ld, harg2.read_unread, harg3.read_unread, harg4.read_unread, harg5.read_unread, View.ld_unit_zero (S := S512x128) hz,
    View.ld_unit_zero (S := S1x512) hz] <;> rfl

theorem outA7_0 (hc0 : cond0_0 i) (j : Fin 512) :
    out0_A_7 c i arg2 harg2 arg3 harg3 arg4 harg4 arg5 harg5 arg6 harg6 arg7 harg7 arg8 harg8 arg9 harg9 arg10 harg10 arg11 harg11 hc0 x0 x1 x2 x3 (ix2 (0 : Fin 4) j)
      = k0_pay26 (tN0 x2 x3) zrow (ix2 (0 : Fin 1) j) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [canon_skip _ _ _ (show (0 : ℕ) ≠ 3 by omega),
    canon_skip _ _ _ (show (0 : ℕ) ≠ 2 by omega),
    canon_skip _ _ _ (show (0 : ℕ) ≠ 1 by omega),
    canon_hit (k := 0) _ _ (0 : Fin 4) rfl j]
  rw [readCov_fill]
  simp only [View.readAt_eq_ld, harg4.read_unread, harg5.read_unread, View.ld_unit_zero (S := S512x128) hz,
    View.ld_unit_zero (S := S1x512) hz] <;> rfl

theorem outA7_1 (hc0 : cond0_0 i) (j : Fin 512) :
    out0_A_7 c i arg2 harg2 arg3 harg3 arg4 harg4 arg5 harg5 arg6 harg6 arg7 harg7 arg8 harg8 arg9 harg9 arg10 harg10 arg11 harg11 hc0 x0 x1 x2 x3 (ix2 (1 : Fin 4) j)
      = k0_pay29 (tN1 x2 x3) zrow (ix2 (0 : Fin 1) j) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [canon_skip _ _ _ (show (1 : ℕ) ≠ 3 by omega),
    canon_skip _ _ _ (show (1 : ℕ) ≠ 2 by omega),
    canon_hit (k := 1) _ _ (1 : Fin 4) rfl j]
  rw [readCov_skip (F := F) _ (show (1 : ℕ) ≠ 0 by omega), readCov_fill]
  simp only [View.readAt_eq_ld, harg4.read_unread, harg5.read_unread, View.ld_unit_zero (S := S512x128) hz,
    View.ld_unit_zero (S := S1x512) hz] <;> rfl

theorem outA7_2 (hc0 : cond0_0 i) (j : Fin 512) :
    out0_A_7 c i arg2 harg2 arg3 harg3 arg4 harg4 arg5 harg5 arg6 harg6 arg7 harg7 arg8 harg8 arg9 harg9 arg10 harg10 arg11 harg11 hc0 x0 x1 x2 x3 (ix2 (2 : Fin 4) j)
      = k0_pay32 (tN2 x2 x3) zrow (ix2 (0 : Fin 1) j) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [canon_skip _ _ _ (show (2 : ℕ) ≠ 3 by omega),
    canon_hit (k := 2) _ _ (2 : Fin 4) rfl j]
  rw [readCov_skip (F := F) _ (show (2 : ℕ) ≠ 1 by omega), readCov_skip (F := F) _ (show (2 : ℕ) ≠ 0 by omega), readCov_fill]
  simp only [View.readAt_eq_ld, harg4.read_unread, harg5.read_unread, View.ld_unit_zero (S := S512x128) hz,
    View.ld_unit_zero (S := S1x512) hz] <;> rfl

theorem outA7_3 (hc0 : cond0_0 i) (j : Fin 512) :
    out0_A_7 c i arg2 harg2 arg3 harg3 arg4 harg4 arg5 harg5 arg6 harg6 arg7 harg7 arg8 harg8 arg9 harg9 arg10 harg10 arg11 harg11 hc0 x0 x1 x2 x3 (ix2 (3 : Fin 4) j)
      = k0_pay2 (tN3 x2 x3) zrow (ix2 (0 : Fin 1) j) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [canon_hit (k := 3) _ _ (3 : Fin 4) rfl j]
  rw [readCov_skip (F := F) _ (show (3 : ℕ) ≠ 2 by omega), readCov_skip (F := F) _ (show (3 : ℕ) ≠ 1 by omega), readCov_skip (F := F) _ (show (3 : ℕ) ≠ 0 by omega), readCov_fill]
  simp only [View.readAt_eq_ld, harg4.read_unread, harg5.read_unread, View.ld_unit_zero (S := S512x128) hz,
    View.ld_unit_zero (S := S1x512) hz] <;> rfl

end

end KVal

end Cert.KernelIdeal.Hand

end
-- ==== Proof.KValC2.lean ====
/- The body's stores read back in the case where the running sums are reset: each output's block is the zero row plus
  the column sums of the point's tiles; the zero fill stored first is what every running row is read back from. The level sums of the logarithm and of its square.
-/
import proofs.«142400_j89936615178820_1_alg».proof.Proof.KValA
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

namespace KVal

open Idealize.ShloMosaic.ValueIdx

section
variable (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (x0 : Vec F S512x128 .f32) (x1 : Vec F S512x128 .f32) (x2 : Vec F S512x4 .i32) (x3 : Vec F S4x512 .i32)

theorem outA8_0 (hc0 : cond0_0 i) (j : Fin 512) :
    out0_A_8 c i arg2 harg2 arg3 harg3 arg4 harg4 arg5 harg5 arg6 harg6 arg7 harg7 arg8 harg8 arg9 harg9 arg10 harg10 arg11 harg11 hc0 x0 x1 x2 x3 (ix2 (0 : Fin 4) j)
      = k0_pay27 (tLog x0 x1) (tN0 x2 x3) zrow (ix2 (0 : Fin 1) j) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [canon_skip _ _ _ (show (0 : ℕ) ≠ 3 by omega),
    canon_skip _ _ _ (show (0 : ℕ) ≠ 2 by omega),
    canon_skip _ _ _ (show (0 : ℕ) ≠ 1 by omega),
    canon_hit (k := 0) _ _ (0 : Fin 4) rfl j]
  rw [readCov_fill]
  simp only [View.readAt_eq_ld, harg2.read_unread, harg3.read_unread, harg4.read_unread, harg5.read_unread, View.ld_unit_zero (S := S512x128) hz,
    View.ld_unit_zero (S := S1x512) hz] <;> rfl

theorem outA8_1 (hc0 : cond0_0 i) (j : Fin 512) :
    out0_A_8 c i arg2 harg2 arg3 harg3 arg4 harg4 arg5 harg5 arg6 harg6 arg7 harg7 arg8 harg8 arg9 harg9 arg10 harg10 arg11 harg11 hc0 x0 x1 x2 x3 (ix2 (1 : Fin 4) j)
      = k0_pay30 (tLog x0 x1) (tN1 x2 x3) zrow (ix2 (0 : Fin 1) j) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [canon_skip _ _ _ (show (1 : ℕ) ≠ 3 by omega),
    canon_skip _ _ _ (show (1 : ℕ) ≠ 2 by omega),
    canon_hit (k := 1) _ _ (1 : Fin 4) rfl j]
  rw [readCov_skip (F := F) _ (show (1 : ℕ) ≠ 0 by omega), readCov_fill]
  simp only [View.readAt_eq_ld, harg2.read_unread, harg3.read_unread, harg4.read_unread, harg5.read_unread, View.ld_unit_zero (S := S512x128) hz,
    View.ld_unit_zero (S := S1x512) hz] <;> rfl

theorem outA8_2 (hc0 : cond0_0 i) (j : Fin 512) :
    out0_A_8 c i arg2 harg2 arg3 harg3 arg4 harg4 arg5 harg5 arg6 harg6 arg7 harg7 arg8 harg8 arg9 harg9 arg10 harg10 arg11 harg11 hc0 x0 x1 x2 x3 (ix2 (2 : Fin 4) j)
      = k0_pay33 (tLog x0 x1) (tN2 x2 x3) zrow (ix2 (0 : Fin 1) j) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [canon_skip _ _ _ (show (2 : ℕ) ≠ 3 by omega),
    canon_hit (k := 2) _ _ (2 : Fin 4) rfl j]
  rw [readCov_skip (F := F) _ (show (2 : ℕ) ≠ 1 by omega), readCov_skip (F := F) _ (show (2 : ℕ) ≠ 0 by omega), readCov_fill]
  simp only [View.readAt_eq_ld, harg2.read_unread, harg3.read_unread, harg4.read_unread, harg5.read_unread, View.ld_unit_zero (S := S512x128) hz,
    View.ld_unit_zero (S := S1x512) hz] <;> rfl

theorem outA8_3 (hc0 : cond0_0 i) (j : Fin 512) :
    out0_A_8 c i arg2 harg2 arg3 harg3 arg4 harg4 arg5 harg5 arg6 harg6 arg7 harg7 arg8 harg8 arg9 harg9 arg10 harg10 arg11 harg11 hc0 x0 x1 x2 x3 (ix2 (3 : Fin 4) j)
      = k0_pay3 (tLog x0 x1) (tN3 x2 x3) zrow (ix2 (0 : Fin 1) j) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [canon_hit (k := 3) _ _ (3 : Fin 4) rfl j]
  rw [readCov_skip (F := F) _ (show (3 : ℕ) ≠ 2 by omega), readCov_skip (F := F) _ (show (3 : ℕ) ≠ 1 by omega), readCov_skip (F := F) _ (show (3 : ℕ) ≠ 0 by omega), readCov_fill]
  simp only [View.readAt_eq_ld, harg2.read_unread, harg3.read_unread, harg4.read_unread, harg5.read_unread, View.ld_unit_zero (S := S512x128) hz,
    View.ld_unit_zero (S := S1x512) hz] <;> rfl

theorem outA9_0 (hc0 : cond0_0 i) (j : Fin 512) :
    out0_A_9 c i arg2 harg2 arg3 harg3 arg4 harg4 arg5 harg5 arg6 harg6 arg7 harg7 arg8 harg8 arg9 harg9 arg10 harg10 arg11 harg11 hc0 x0 x1 x2 x3 (ix2 (0 : Fin 4) j)
      = k0_pay28 (tLog2 x0 x1) (tN0 x2 x3) zrow (ix2 (0 : Fin 1) j) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [canon_skip _ _ _ (show (0 : ℕ) ≠ 3 by omega),
    canon_skip _ _ _ (show (0 : ℕ) ≠ 2 by omega),
    canon_skip _ _ _ (show (0 : ℕ) ≠ 1 by omega),
    canon_hit (k := 0) _ _ (0 : Fin 4) rfl j]
  rw [readCov_fill]
  simp only [View.readAt_eq_ld, harg2.read_unread, harg3.read_unread, harg4.read_unread, harg5.read_unread, View.ld_unit_zero (S := S512x128) hz,
    View.ld_unit_zero (S := S1x512) hz] <;> rfl

theorem outA9_1 (hc0 : cond0_0 i) (j : Fin 512) :
    out0_A_9 c i arg2 harg2 arg3 harg3 arg4 harg4 arg5 harg5 arg6 harg6 arg7 harg7 arg8 harg8 arg9 harg9 arg10 harg10 arg11 harg11 hc0 x0 x1 x2 x3 (ix2 (1 : Fin 4) j)
      = k0_pay31 (tLog2 x0 x1) (tN1 x2 x3) zrow (ix2 (0 : Fin 1) j) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [canon_skip _ _ _ (show (1 : ℕ) ≠ 3 by omega),
    canon_skip _ _ _ (show (1 : ℕ) ≠ 2 by omega),
    canon_hit (k := 1) _ _ (1 : Fin 4) rfl j]
  rw [readCov_skip (F := F) _ (show (1 : ℕ) ≠ 0 by omega), readCov_fill]
  simp only [View.readAt_eq_ld, harg2.read_unread, harg3.read_unread, harg4.read_unread, harg5.read_unread, View.ld_unit_zero (S := S512x128) hz,
    View.ld_unit_zero (S := S1x512) hz] <;> rfl

theorem outA9_2 (hc0 : cond0_0 i) (j : Fin 512) :
    out0_A_9 c i arg2 harg2 arg3 harg3 arg4 harg4 arg5 harg5 arg6 harg6 arg7 harg7 arg8 harg8 arg9 harg9 arg10 harg10 arg11 harg11 hc0 x0 x1 x2 x3 (ix2 (2 : Fin 4) j)
      = k0_pay1 (k0_pay34 zrow) (k0_pay35 (tLog2 x0 x1) (tN2 x2 x3)) (ix2 (0 : Fin 1) j) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [canon_skip _ _ _ (show (2 : ℕ) ≠ 3 by omega),
    canon_hit (k := 2) _ _ (2 : Fin 4) rfl j]
  rw [readCov_skip (F := F) _ (show (2 : ℕ) ≠ 1 by omega), readCov_skip (F := F) _ (show (2 : ℕ) ≠ 0 by omega), readCov_fill]
  simp only [View.readAt_eq_ld, harg2.read_unread, harg3.read_unread, harg4.read_unread, harg5.read_unread, View.ld_unit_zero (S := S512x128) hz,
    View.ld_unit_zero (S := S1x512) hz] <;> rfl

theorem outA9_3 (hc0 : cond0_0 i) (j : Fin 512) :
    out0_A_9 c i arg2 harg2 arg3 harg3 arg4 harg4 arg5 harg5 arg6 harg6 arg7 harg7 arg8 harg8 arg9 harg9 arg10 harg10 arg11 harg11 hc0 x0 x1 x2 x3 (ix2 (3 : Fin 4) j)
      = k0_pay4 (tLog2 x0 x1) (tN3 x2 x3) zrow (ix2 (0 : Fin 1) j) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [canon_hit (k := 3) _ _ (3 : Fin 4) rfl j]
  rw [readCov_skip (F := F) _ (show (3 : ℕ) ≠ 2 by omega), readCov_skip (F := F) _ (show (3 : ℕ) ≠ 1 by omega), readCov_skip (F := F) _ (show (3 : ℕ) ≠ 0 by omega), readCov_fill]
  simp only [View.readAt_eq_ld, harg2.read_unread, harg3.read_unread, harg4.read_unread, harg5.read_unread, View.ld_unit_zero (S := S512x128) hz,
    View.ld_unit_zero (S := S1x512) hz] <;> rfl

end

end KVal

end Cert.KernelIdeal.Hand

end
-- ==== Proof.KValR.lean ====
/-
  A row of a [4,512] block, loaded as a [1,512] row, reads the block's entries in that row.
-/
import proofs.«142400_j89936615178820_1_alg».proof.Proof.KValA
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

namespace KVal

open Idealize.ShloMosaic.ValueIdx

theorem row0_apply (X : Vec F S4x512 .f32) (j : Fin 512) : row0 X (ix2 (0 : Fin 1) j) = X (ix2 (0 : Fin 4) j) :=
  congrArg X (emb_row (k := 0) (inb := inb_S4x512_S1x512_0_0) (0 : Fin 4) rfl j)
theorem row1_apply (X : Vec F S4x512 .f32) (j : Fin 512) : row1 X (ix2 (0 : Fin 1) j) = X (ix2 (1 : Fin 4) j) :=
  congrArg X (emb_row (k := 1) (inb := inb_S4x512_S1x512_1_0) (1 : Fin 4) rfl j)
theorem row2_apply (X : Vec F S4x512 .f32) (j : Fin 512) : row2 X (ix2 (0 : Fin 1) j) = X (ix2 (2 : Fin 4) j) :=
  congrArg X (emb_row (k := 2) (inb := inb_S4x512_S1x512_2_0) (2 : Fin 4) rfl j)
theorem row3_apply (X : Vec F S4x512 .f32) (j : Fin 512) : row3 X (ix2 (0 : Fin 1) j) = X (ix2 (3 : Fin 4) j) :=
  congrArg X (emb_row (k := 3) (inb := inb_S4x512_S1x512_3_0) (3 : Fin 4) rfl j)

end KVal

end Cert.KernelIdeal.Hand

end
-- ==== Proof.KPay3.lean ====
/-
  The body's fifteen accumulations and six zero fills read at an index.

  Every accumulation adds, to the row of running sums it loaded, the column sums of a [512,512] tile: at
  entry j of the row, the running sum there plus the sum over the 512 tile rows l of the tile's entry
  (l, j). The tile is a mask, a mask times the logarithm tile, or a mask times the squared logarithm tile.
  The fills are the float word of zero at every index.
-/
import proofs.«142400_j89936615178820_1_alg».proof.Proof.Spec
import proofs.«142400_j89936615178820_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LogRatio.KPay

open Idealize.ShloMosaic Idealize.ShloMosaic.ValueIdx Cert.KernelIdeal Cert.KernelIdeal.Gen

/-! ## One generic accumulation -/

/-- The sum over axis 0 of a [512,512] tile, at column j: the sum over the rows of the tile's entries in that column.
    (The accumulator word is the float zero, the neutral element of the sum; it leaves no term.) -/
theorem colsum_apply (M : FVec Ideal S512x512 .f32) (hφ : FKind.Formats .f32)
    (hacc : (0x00000000#32 : BitVec 32) = 0x00000000#32) (j : Fin 512) :
    multiReduction (F := Ideal) .add [0] S512 M 0x00000000#32 reduces_S512x512_S512 hφ hacc (ix1 j)
      = ∑ l : Fin 512, M (ix2 l j) :=
  (Ideal.multiReduction_add_single M 0x00000000#32 reduces_S512x512_S512 hφ hacc (ix1 j)).trans
    (Finset.sum_congr rfl fun l _ => congrArg M (funext fun a => Fin.ext (by
      match a with
      | ⟨0, _⟩ => rfl
      | ⟨1, _⟩ => rfl)))

/-- A running row plus the column sums of a tile, at entry j. -/
theorem acc_apply (prev : FVec Ideal S1x512 .f32) (M : FVec Ideal S512x512 .f32) (hφ : FKind.Formats .f32)
    (hacc : (0x00000000#32 : BitVec 32) = 0x00000000#32) (j : Fin 512) :
    addf prev (shapeCast S1x512
        (multiReduction (F := Ideal) .add [0] S512 M 0x00000000#32 reduces_S512x512_S512 hφ hacc)
        shapeCasts_S512_S1x512) (ix2 (0 : Fin 1) j)
      = prev (ix2 (0 : Fin 1) j) + ∑ l : Fin 512, M (ix2 l j) := by
  show prev (ix2 (0 : Fin 1) j) + shapeCast S1x512
        (multiReduction (F := Ideal) .add [0] S512 M 0x00000000#32 reduces_S512x512_S512 hφ hacc)
        shapeCasts_S512_S1x512 (ix2 (0 : Fin 1) j) = _
  rw [shapeCast_a_1a_apply, colsum_apply]

/-- The same with the running row first cast to its own shape. -/
theorem acc_cast_apply (prev : Vec Ideal S1x512 .f32) (M : FVec Ideal S512x512 .f32) (hφ : FKind.Formats .f32)
    (hacc : (0x00000000#32 : BitVec 32) = 0x00000000#32) (j : Fin 512) :
    addf (shapeCast S1x512 prev shapeCasts_S1x512_S1x512 : FVec Ideal S1x512 .f32) (shapeCast S1x512
        (multiReduction (F := Ideal) .add [0] S512 M 0x00000000#32 reduces_S512x512_S512 hφ hacc)
        shapeCasts_S512_S1x512) (ix2 (0 : Fin 1) j)
      = prev (ix2 (0 : Fin 1) j) + ∑ l : Fin 512, M (ix2 l j) := by
  rw [shapeCast_self]
  exact acc_apply prev M hφ hacc j

/-! ## The positive sums -/

theorem pay23_apply (v33 : FVec Ideal S512x512 .f32) (v65 : Vec Ideal S1x512 .f32) (j : Fin 512) :
    k0_pay23 (F := Ideal) v33 v65 (ix2 (0 : Fin 1) j) = v65 (ix2 (0 : Fin 1) j) + ∑ l : Fin 512, v33 (ix2 l j) := by
  unfold k0_pay23
  exact acc_cast_apply v65 v33 _ _ j

theorem pay24_apply (v11 v33 : FVec Ideal S512x512 .f32) (v71 : Vec Ideal S1x512 .f32) (j : Fin 512) :
    k0_pay24 (F := Ideal) v11 v33 v71 (ix2 (0 : Fin 1) j)
      = v71 (ix2 (0 : Fin 1) j) + ∑ l : Fin 512, v33 (ix2 l j) * v11 (ix2 l j) := by
  unfold k0_pay24
  exact acc_cast_apply v71 (mulf v33 v11) _ _ j

theorem pay25_apply (v12 v33 : FVec Ideal S512x512 .f32) (v78 : Vec Ideal S1x512 .f32) (j : Fin 512) :
    k0_pay25 (F := Ideal) v12 v33 v78 (ix2 (0 : Fin 1) j)
      = v78 (ix2 (0 : Fin 1) j) + ∑ l : Fin 512, v33 (ix2 l j) * v12 (ix2 l j) := by
  unfold k0_pay25
  exact acc_cast_apply v78 (mulf v33 v12) _ _ j

/-! ## Level 0 -/

theorem pay26_apply (v52 : FVec Ideal S512x512 .f32) (v85 : Vec Ideal S1x512 .f32) (j : Fin 512) :
    k0_pay26 (F := Ideal) v52 v85 (ix2 (0 : Fin 1) j) = v85 (ix2 (0 : Fin 1) j) + ∑ l : Fin 512, v52 (ix2 l j) := by
  unfold k0_pay26
  exact acc_cast_apply v85 v52 _ _ j

theorem pay27_apply (v11 v52 : FVec Ideal S512x512 .f32) (v91 : Vec Ideal S1x512 .f32) (j : Fin 512) :
    k0_pay27 (F := Ideal) v11 v52 v91 (ix2 (0 : Fin 1) j)
      = v91 (ix2 (0 : Fin 1) j) + ∑ l : Fin 512, v52 (ix2 l j) * v11 (ix2 l j) := by
  unfold k0_pay27
  exact acc_cast_apply v91 (mulf v52 v11) _ _ j

theorem pay28_apply (v12 v52 : FVec Ideal S512x512 .f32) (v98 : Vec Ideal S1x512 .f32) (j : Fin 512) :
    k0_pay28 (F := Ideal) v12 v52 v98 (ix2 (0 : Fin 1) j)
      = v98 (ix2 (0 : Fin 1) j) + ∑ l : Fin 512, v52 (ix2 l j) * v12 (ix2 l j) := by
  unfold k0_pay28
  exact acc_cast_apply v98 (mulf v52 v12) _ _ j

/-! ## Level 1 -/

theorem pay29_apply (v56 : FVec Ideal S512x512 .f32) (v105 : Vec Ideal S1x512 .f32) (j : Fin 512) :
    k0_pay29 (F := Ideal) v56 v105 (ix2 (0 : Fin 1) j) = v105 (ix2 (0 : Fin 1) j) + ∑ l : Fin 512, v56 (ix2 l j) := by
  unfold k0_pay29
  exact acc_cast_apply v105 v56 _ _ j

theorem pay30_apply (v11 v56 : FVec Ideal S512x512 .f32) (v111 : Vec Ideal S1x512 .f32) (j : Fin 512) :
    k0_pay30 (F := Ideal) v11 v56 v111 (ix2 (0 : Fin 1) j)
      = v111 (ix2 (0 : Fin 1) j) + ∑ l : Fin 512, v56 (ix2 l j) * v11 (ix2 l j) := by
  unfold k0_pay30
  exact acc_cast_apply v111 (mulf v56 v11) _ _ j

theorem pay31_apply (v12 v56 : FVec Ideal S512x512 .f32) (v118 : Vec Ideal S1x512 .f32) (j : Fin 512) :
    k0_pay31 (F := Ideal) v12 v56 v118 (ix2 (0 : Fin 1) j)
      = v118 (ix2 (0 : Fin 1) j) + ∑ l : Fin 512, v56 (ix2 l j) * v12 (ix2 l j) := by
  unfold k0_pay31
  exact acc_cast_apply v118 (mulf v56 v12) _ _ j

/-! ## Level 2 -/

theorem pay32_apply (v60 : FVec Ideal S512x512 .f32) (v125 : Vec Ideal S1x512 .f32) (j : Fin 512) :
    k0_pay32 (F := Ideal) v60 v125 (ix2 (0 : Fin 1) j) = v125 (ix2 (0 : Fin 1) j) + ∑ l : Fin 512, v60 (ix2 l j) := by
  unfold k0_pay32
  exact acc_cast_apply v125 v60 _ _ j

theorem pay33_apply (v11 v60 : FVec Ideal S512x512 .f32) (v131 : Vec Ideal S1x512 .f32) (j : Fin 512) :
    k0_pay33 (F := Ideal) v11 v60 v131 (ix2 (0 : Fin 1) j)
      = v131 (ix2 (0 : Fin 1) j) + ∑ l : Fin 512, v60 (ix2 l j) * v11 (ix2 l j) := by
  unfold k0_pay33
  exact acc_cast_apply v131 (mulf v60 v11) _ _ j

/-- The running row of the level-2 squared sum, cast to its own shape, is itself. -/
theorem pay34_eq (v138 : Vec Ideal S1x512 .f32) : k0_pay34 (F := Ideal) v138 = v138 := by
  unfold k0_pay34
  exact shapeCast_self v138 _

/-- The level-2 mask times the squared logarithm tile, entry by entry. -/
theorem pay35_apply (v12 v60 : FVec Ideal S512x512 .f32) (i : S512x512.Idx) :
    k0_pay35 (F := Ideal) v12 v60 i = v60 i * v12 i := rfl

theorem pay1_apply (v139 : FVec Ideal S1x512 .f32) (v140 : FVec Ideal S512x512 .f32) (j : Fin 512) :
    k0_pay1 (F := Ideal) v139 v140 (ix2 (0 : Fin 1) j) = v139 (ix2 (0 : Fin 1) j) + ∑ l : Fin 512, v140 (ix2 l j) := by
  unfold k0_pay1
  exact acc_apply v139 v140 _ _ j

/-- The level-2 squared sum as the body stores it: over the cast running row and the product tile. -/
theorem pay1_level2_apply (v12 v60 : FVec Ideal S512x512 .f32) (v138 : Vec Ideal S1x512 .f32) (j : Fin 512) :
    k0_pay1 (F := Ideal) (k0_pay34 (F := Ideal) v138) (k0_pay35 (F := Ideal) v12 v60) (ix2 (0 : Fin 1) j)
      = v138 (ix2 (0 : Fin 1) j) + ∑ l : Fin 512, v60 (ix2 l j) * v12 (ix2 l j) := by
  rw [pay1_apply, pay34_eq]
  rfl

/-! ## Level 3 -/

theorem pay2_apply (v64 : FVec Ideal S512x512 .f32) (v145 : Vec Ideal S1x512 .f32) (j : Fin 512) :
    k0_pay2 (F := Ideal) v64 v145 (ix2 (0 : Fin 1) j) = v145 (ix2 (0 : Fin 1) j) + ∑ l : Fin 512, v64 (ix2 l j) := by
  unfold k0_pay2
  exact acc_cast_apply v145 v64 _ _ j

theorem pay3_apply (v11 v64 : FVec Ideal S512x512 .f32) (v151 : Vec Ideal S1x512 .f32) (j : Fin 512) :
    k0_pay3 (F := Ideal) v11 v64 v151 (ix2 (0 : Fin 1) j)
      = v151 (ix2 (0 : Fin 1) j) + ∑ l : Fin 512, v64 (ix2 l j) * v11 (ix2 l j) := by
  unfold k0_pay3
  exact acc_cast_apply v151 (mulf v64 v11) _ _ j

theorem pay4_apply (v12 v64 : FVec Ideal S512x512 .f32) (v158 : Vec Ideal S1x512 .f32) (j : Fin 512) :
    k0_pay4 (F := Ideal) v12 v64 v158 (ix2 (0 : Fin 1) j)
      = v158 (ix2 (0 : Fin 1) j) + ∑ l : Fin 512, v64 (ix2 l j) * v12 (ix2 l j) := by
  unfold k0_pay4
  exact acc_cast_apply v158 (mulf v64 v12) _ _ j

/-! ## The zero fills -/

theorem pay5_apply (i : S1x512.Idx) : k0_pay5 (F := Ideal) i = 0 := Ideal.ofBits_zero_f32
theorem pay6_apply (i : S1x512.Idx) : k0_pay6 (F := Ideal) i = 0 := Ideal.ofBits_zero_f32
theorem pay7_apply (i : S1x512.Idx) : k0_pay7 (F := Ideal) i = 0 := Ideal.ofBits_zero_f32
theorem pay8_apply (i : S4x512.Idx) : k0_pay8 (F := Ideal) i = 0 := Ideal.ofBits_zero_f32
theorem pay9_apply (i : S4x512.Idx) : k0_pay9 (F := Ideal) i = 0 := Ideal.ofBits_zero_f32
theorem pay10_apply (i : S4x512.Idx) : k0_pay10 (F := Ideal) i = 0 := Ideal.ofBits_zero_f32

end Cert.LogRatio.KPay

end
-- ==== Proof.KValP1.lean ====
/- The running sums after the body at one grid point, entry by entry, at the ideal instance: at a point that resets them, zero plus the
  column sums of the point's tile; at any other point, what the point before left plus those column sums. The three [1,512] outputs and the level counts.
-/
import proofs.«142400_j89936615178820_1_alg».proof.Proof.KValB1
import proofs.«142400_j89936615178820_1_alg».proof.Proof.KValB2
import proofs.«142400_j89936615178820_1_alg».proof.Proof.KValC1
import proofs.«142400_j89936615178820_1_alg».proof.Proof.KValC2
import proofs.«142400_j89936615178820_1_alg».proof.Proof.KValR
import proofs.«142400_j89936615178820_1_alg».proof.Proof.KPay3
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

namespace KVal

open Idealize.ShloMosaic.ValueIdx

section
variable (m : (ℓ : Loc nD τ sig) → Buf (Elt Ideal) ℓ)

/-- Output 4, at a point that resets the running sums. -/
theorem recA4 (c : Dev nD) (t : Fin cfg0.N) (h0 : t.val % 4 = 0) (j : Fin 512) :
    (outsAt0 m c t.val t.isLt).1 (ix2 (0 : Fin 1) j) = 0 + ∑ l : Fin 512, tPos (grid0.coords t) (iblk m c 2 t) (iblk m c 3 t) (ix2 l j) := by
  rw [outsAt0_A m c t h0]
  dsimp only
  refine (congrFun (outA4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) ((hcond0_0 t).mpr h0)) (ix2 (0 : Fin 1) j)).trans ?_
  refine (Cert.LogRatio.KPay.pay23_apply _ _ j).trans ?_
  exact congrArg (fun z : EReal => z + _) Ideal.ofBits_zero_f32

/-- Output 4, at a point that carries the running sums over. -/
theorem recB4 (c : Dev nD) (t : Fin cfg0.N) (h0 : ¬t.val % 4 = 0) (j : Fin 512) :
    (outsAt0 m c t.val t.isLt).1 (ix2 (0 : Fin 1) j)
      = (outsAt0 m c (t.val - 1) (Nat.lt_of_le_of_lt (Nat.sub_le _ _) t.isLt)).1 (ix2 (0 : Fin 1) j) + ∑ l : Fin 512, tPos (grid0.coords t) (iblk m c 2 t) (iblk m c 3 t) (ix2 l j) := by
  rw [outsAt0_B m c t h0]
  dsimp only
  refine (congrFun (outB4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h))) (ix2 (0 : Fin 1) j)).trans ?_
  exact Cert.LogRatio.KPay.pay23_apply _ _ j

/-- Output 5, at a point that resets the running sums. -/
theorem recA5 (c : Dev nD) (t : Fin cfg0.N) (h0 : t.val % 4 = 0) (j : Fin 512) :
    (outsAt0 m c t.val t.isLt).2.1 (ix2 (0 : Fin 1) j) = 0 + ∑ l : Fin 512, tPos (grid0.coords t) (iblk m c 2 t) (iblk m c 3 t) (ix2 l j) * tLog (iblk m c 0 t) (iblk m c 1 t) (ix2 l j) := by
  rw [outsAt0_A m c t h0]
  dsimp only
  refine (congrFun (outA5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) ((hcond0_0 t).mpr h0)) (ix2 (0 : Fin 1) j)).trans ?_
  refine (Cert.LogRatio.KPay.pay24_apply _ _ _ j).trans ?_
  exact congrArg (fun z : EReal => z + _) Ideal.ofBits_zero_f32

/-- Output 5, at a point that carries the running sums over. -/
theorem recB5 (c : Dev nD) (t : Fin cfg0.N) (h0 : ¬t.val % 4 = 0) (j : Fin 512) :
    (outsAt0 m c t.val t.isLt).2.1 (ix2 (0 : Fin 1) j)
      = (outsAt0 m c (t.val - 1) (Nat.lt_of_le_of_lt (Nat.sub_le _ _) t.isLt)).2.1 (ix2 (0 : Fin 1) j) + ∑ l : Fin 512, tPos (grid0.coords t) (iblk m c 2 t) (iblk m c 3 t) (ix2 l j) * tLog (iblk m c 0 t) (iblk m c 1 t) (ix2 l j) := by
  rw [outsAt0_B m c t h0]
  dsimp only
  refine (congrFun (outB5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h))) (ix2 (0 : Fin 1) j)).trans ?_
  exact Cert.LogRatio.KPay.pay24_apply _ _ _ j

/-- Output 6, at a point that resets the running sums. -/
theorem recA6 (c : Dev nD) (t : Fin cfg0.N) (h0 : t.val % 4 = 0) (j : Fin 512) :
    (outsAt0 m c t.val t.isLt).2.2.1 (ix2 (0 : Fin 1) j) = 0 + ∑ l : Fin 512, tPos (grid0.coords t) (iblk m c 2 t) (iblk m c 3 t) (ix2 l j) * tLog2 (iblk m c 0 t) (iblk m c 1 t) (ix2 l j) := by
  rw [outsAt0_A m c t h0]
  dsimp only
  refine (congrFun (outA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) ((hcond0_0 t).mpr h0)) (ix2 (0 : Fin 1) j)).trans ?_
  refine (Cert.LogRatio.KPay.pay25_apply _ _ _ j).trans ?_
  exact congrArg (fun z : EReal => z + _) Ideal.ofBits_zero_f32

/-- Output 6, at a point that carries the running sums over. -/
theorem recB6 (c : Dev nD) (t : Fin cfg0.N) (h0 : ¬t.val % 4 = 0) (j : Fin 512) :
    (outsAt0 m c t.val t.isLt).2.2.1 (ix2 (0 : Fin 1) j)
      = (outsAt0 m c (t.val - 1) (Nat.lt_of_le_of_lt (Nat.sub_le _ _) t.isLt)).2.2.1 (ix2 (0 : Fin 1) j) + ∑ l : Fin 512, tPos (grid0.coords t) (iblk m c 2 t) (iblk m c 3 t) (ix2 l j) * tLog2 (iblk m c 0 t) (iblk m c 1 t) (ix2 l j) := by
  rw [outsAt0_B m c t h0]
  dsimp only
  refine (congrFun (outB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h))) (ix2 (0 : Fin 1) j)).trans ?_
  exact Cert.LogRatio.KPay.pay25_apply _ _ _ j

/-- Output 7, level 0, at a point that resets the running sums. -/
theorem recA7_0 (c : Dev nD) (t : Fin cfg0.N) (h0 : t.val % 4 = 0) (j : Fin 512) :
    (outsAt0 m c t.val t.isLt).2.2.2.1 (ix2 (0 : Fin 4) j) = 0 + ∑ l : Fin 512, tN0 (iblk m c 2 t) (iblk m c 3 t) (ix2 l j) := by
  rw [outsAt0_A m c t h0]
  dsimp only
  refine (outA7_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) ((hcond0_0 t).mpr h0) j).trans ?_
  refine (Cert.LogRatio.KPay.pay26_apply _ _ j).trans ?_
  exact congrArg (fun z : EReal => z + _) Ideal.ofBits_zero_f32

/-- Output 7, level 0, at a point that carries the running sums over. -/
theorem recB7_0 (c : Dev nD) (t : Fin cfg0.N) (h0 : ¬t.val % 4 = 0) (j : Fin 512) :
    (outsAt0 m c t.val t.isLt).2.2.2.1 (ix2 (0 : Fin 4) j)
      = (outsAt0 m c (t.val - 1) (Nat.lt_of_le_of_lt (Nat.sub_le _ _) t.isLt)).2.2.2.1 (ix2 (0 : Fin 4) j) + ∑ l : Fin 512, tN0 (iblk m c 2 t) (iblk m c 3 t) (ix2 l j) := by
  rw [outsAt0_B m c t h0]
  dsimp only
  refine (outB7_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) j).trans ?_
  refine (Cert.LogRatio.KPay.pay26_apply _ _ j).trans ?_
  exact congrArg (fun z : EReal => z + _) (row0_apply _ j)

/-- Output 7, level 1, at a point that resets the running sums. -/
theorem recA7_1 (c : Dev nD) (t : Fin cfg0.N) (h0 : t.val % 4 = 0) (j : Fin 512) :
    (outsAt0 m c t.val t.isLt).2.2.2.1 (ix2 (1 : Fin 4) j) = 0 + ∑ l : Fin 512, tN1 (iblk m c 2 t) (iblk m c 3 t) (ix2 l j) := by
  rw [outsAt0_A m c t h0]
  dsimp only
  refine (outA7_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) ((hcond0_0 t).mpr h0) j).trans ?_
  refine (Cert.LogRatio.KPay.pay29_apply _ _ j).trans ?_
  exact congrArg (fun z : EReal => z + _) Ideal.ofBits_zero_f32

/-- Output 7, level 1, at a point that carries the running sums over. -/
theorem recB7_1 (c : Dev nD) (t : Fin cfg0.N) (h0 : ¬t.val % 4 = 0) (j : Fin 512) :
    (outsAt0 m c t.val t.isLt).2.2.2.1 (ix2 (1 : Fin 4) j)
      = (outsAt0 m c (t.val - 1) (Nat.lt_of_le_of_lt (Nat.sub_le _ _) t.isLt)).2.2.2.1 (ix2 (1 : Fin 4) j) + ∑ l : Fin 512, tN1 (iblk m c 2 t) (iblk m c 3 t) (ix2 l j) := by
  rw [outsAt0_B m c t h0]
  dsimp only
  refine (outB7_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) j).trans ?_
  refine (Cert.LogRatio.KPay.pay29_apply _ _ j).trans ?_
  exact congrArg (fun z : EReal => z + _) (row1_apply _ j)

/-- Output 7, level 2, at a point that resets the running sums. -/
theorem recA7_2 (c : Dev nD) (t : Fin cfg0.N) (h0 : t.val % 4 = 0) (j : Fin 512) :
    (outsAt0 m c t.val t.isLt).2.2.2.1 (ix2 (2 : Fin 4) j) = 0 + ∑ l : Fin 512, tN2 (iblk m c 2 t) (iblk m c 3 t) (ix2 l j) := by
  rw [outsAt0_A m c t h0]
  dsimp only
  refine (outA7_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) ((hcond0_0 t).mpr h0) j).trans ?_
  refine (Cert.LogRatio.KPay.pay32_apply _ _ j).trans ?_
  exact congrArg (fun z : EReal => z + _) Ideal.ofBits_zero_f32

/-- Output 7, level 2, at a point that carries the running sums over. -/
theorem recB7_2 (c : Dev nD) (t : Fin cfg0.N) (h0 : ¬t.val % 4 = 0) (j : Fin 512) :
    (outsAt0 m c t.val t.isLt).2.2.2.1 (ix2 (2 : Fin 4) j)
      = (outsAt0 m c (t.val - 1) (Nat.lt_of_le_of_lt (Nat.sub_le _ _) t.isLt)).2.2.2.1 (ix2 (2 : Fin 4) j) + ∑ l : Fin 512, tN2 (iblk m c 2 t) (iblk m c 3 t) (ix2 l j) := by
  rw [outsAt0_B m c t h0]
  dsimp only
  refine (outB7_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) j).trans ?_
  refine (Cert.LogRatio.KPay.pay32_apply _ _ j).trans ?_
  exact congrArg (fun z : EReal => z + _) (row2_apply _ j)

/-- Output 7, level 3, at a point that resets the running sums. -/
theorem recA7_3 (c : Dev nD) (t : Fin cfg0.N) (h0 : t.val % 4 = 0) (j : Fin 512) :
    (outsAt0 m c t.val t.isLt).2.2.2.1 (ix2 (3 : Fin 4) j) = 0 + ∑ l : Fin 512, tN3 (iblk m c 2 t) (iblk m c 3 t) (ix2 l j) := by
  rw [outsAt0_A m c t h0]
  dsimp only
  refine (outA7_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) ((hcond0_0 t).mpr h0) j).trans ?_
  refine (Cert.LogRatio.KPay.pay2_apply _ _ j).trans ?_
  exact congrArg (fun z : EReal => z + _) Ideal.ofBits_zero_f32

/-- Output 7, level 3, at a point that carries the running sums over. -/
theorem recB7_3 (c : Dev nD) (t : Fin cfg0.N) (h0 : ¬t.val % 4 = 0) (j : Fin 512) :
    (outsAt0 m c t.val t.isLt).2.2.2.1 (ix2 (3 : Fin 4) j)
      = (outsAt0 m c (t.val - 1) (Nat.lt_of_le_of_lt (Nat.sub_le _ _) t.isLt)).2.2.2.1 (ix2 (3 : Fin 4) j) + ∑ l : Fin 512, tN3 (iblk m c 2 t) (iblk m c 3 t) (ix2 l j) := by
  rw [outsAt0_B m c t h0]
  dsimp only
  refine (outB7_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) j).trans ?_
  refine (Cert.LogRatio.KPay.pay2_apply _ _ j).trans ?_
  exact congrArg (fun z : EReal => z + _) (row3_apply _ j)

end

end KVal

end Cert.KernelIdeal.Hand

end
-- ==== Proof.KValP2.lean ====
/- The running sums after the body at one grid point, entry by entry, at the ideal instance: at a point that resets them, zero plus the
  column sums of the point's tile; at any other point, what the point before left plus those column sums. The level sums of the logarithm and of its square.
-/
import proofs.«142400_j89936615178820_1_alg».proof.Proof.KValB1
import proofs.«142400_j89936615178820_1_alg».proof.Proof.KValB2
import proofs.«142400_j89936615178820_1_alg».proof.Proof.KValC1
import proofs.«142400_j89936615178820_1_alg».proof.Proof.KValC2
import proofs.«142400_j89936615178820_1_alg».proof.Proof.KValR
import proofs.«142400_j89936615178820_1_alg».proof.Proof.KPay3
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

namespace KVal

open Idealize.ShloMosaic.ValueIdx

section
variable (m : (ℓ : Loc nD τ sig) → Buf (Elt Ideal) ℓ)

/-- Output 8, level 0, at a point that resets the running sums. -/
theorem recA8_0 (c : Dev nD) (t : Fin cfg0.N) (h0 : t.val % 4 = 0) (j : Fin 512) :
    (outsAt0 m c t.val t.isLt).2.2.2.2.1 (ix2 (0 : Fin 4) j) = 0 + ∑ l : Fin 512, tN0 (iblk m c 2 t) (iblk m c 3 t) (ix2 l j) * tLog (iblk m c 0 t) (iblk m c 1 t) (ix2 l j) := by
  rw [outsAt0_A m c t h0]
  dsimp only
  refine (outA8_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) ((hcond0_0 t).mpr h0) j).trans ?_
  refine (Cert.LogRatio.KPay.pay27_apply _ _ _ j).trans ?_
  exact congrArg (fun z : EReal => z + _) Ideal.ofBits_zero_f32

/-- Output 8, level 0, at a point that carries the running sums over. -/
theorem recB8_0 (c : Dev nD) (t : Fin cfg0.N) (h0 : ¬t.val % 4 = 0) (j : Fin 512) :
    (outsAt0 m c t.val t.isLt).2.2.2.2.1 (ix2 (0 : Fin 4) j)
      = (outsAt0 m c (t.val - 1) (Nat.lt_of_le_of_lt (Nat.sub_le _ _) t.isLt)).2.2.2.2.1 (ix2 (0 : Fin 4) j) + ∑ l : Fin 512, tN0 (iblk m c 2 t) (iblk m c 3 t) (ix2 l j) * tLog (iblk m c 0 t) (iblk m c 1 t) (ix2 l j) := by
  rw [outsAt0_B m c t h0]
  dsimp only
  refine (outB8_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) j).trans ?_
  refine (Cert.LogRatio.KPay.pay27_apply _ _ _ j).trans ?_
  exact congrArg (fun z : EReal => z + _) (row0_apply _ j)

/-- Output 8, level 1, at a point that resets the running sums. -/
theorem recA8_1 (c : Dev nD) (t : Fin cfg0.N) (h0 : t.val % 4 = 0) (j : Fin 512) :
    (outsAt0 m c t.val t.isLt).2.2.2.2.1 (ix2 (1 : Fin 4) j) = 0 + ∑ l : Fin 512, tN1 (iblk m c 2 t) (iblk m c 3 t) (ix2 l j) * tLog (iblk m c 0 t) (iblk m c 1 t) (ix2 l j) := by
  rw [outsAt0_A m c t h0]
  dsimp only
  refine (outA8_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) ((hcond0_0 t).mpr h0) j).trans ?_
  refine (Cert.LogRatio.KPay.pay30_apply _ _ _ j).trans ?_
  exact congrArg (fun z : EReal => z + _) Ideal.ofBits_zero_f32

/-- Output 8, level 1, at a point that carries the running sums over. -/
theorem recB8_1 (c : Dev nD) (t : Fin cfg0.N) (h0 : ¬t.val % 4 = 0) (j : Fin 512) :
    (outsAt0 m c t.val t.isLt).2.2.2.2.1 (ix2 (1 : Fin 4) j)
      = (outsAt0 m c (t.val - 1) (Nat.lt_of_le_of_lt (Nat.sub_le _ _) t.isLt)).2.2.2.2.1 (ix2 (1 : Fin 4) j) + ∑ l : Fin 512, tN1 (iblk m c 2 t) (iblk m c 3 t) (ix2 l j) * tLog (iblk m c 0 t) (iblk m c 1 t) (ix2 l j) := by
  rw [outsAt0_B m c t h0]
  dsimp only
  refine (outB8_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) j).trans ?_
  refine (Cert.LogRatio.KPay.pay30_apply _ _ _ j).trans ?_
  exact congrArg (fun z : EReal => z + _) (row1_apply _ j)

/-- Output 8, level 2, at a point that resets the running sums. -/
theorem recA8_2 (c : Dev nD) (t : Fin cfg0.N) (h0 : t.val % 4 = 0) (j : Fin 512) :
    (outsAt0 m c t.val t.isLt).2.2.2.2.1 (ix2 (2 : Fin 4) j) = 0 + ∑ l : Fin 512, tN2 (iblk m c 2 t) (iblk m c 3 t) (ix2 l j) * tLog (iblk m c 0 t) (iblk m c 1 t) (ix2 l j) := by
  rw [outsAt0_A m c t h0]
  dsimp only
  refine (outA8_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) ((hcond0_0 t).mpr h0) j).trans ?_
  refine (Cert.LogRatio.KPay.pay33_apply _ _ _ j).trans ?_
  exact congrArg (fun z : EReal => z + _) Ideal.ofBits_zero_f32

/-- Output 8, level 2, at a point that carries the running sums over. -/
theorem recB8_2 (c : Dev nD) (t : Fin cfg0.N) (h0 : ¬t.val % 4 = 0) (j : Fin 512) :
    (outsAt0 m c t.val t.isLt).2.2.2.2.1 (ix2 (2 : Fin 4) j)
      = (outsAt0 m c (t.val - 1) (Nat.lt_of_le_of_lt (Nat.sub_le _ _) t.isLt)).2.2.2.2.1 (ix2 (2 : Fin 4) j) + ∑ l : Fin 512, tN2 (iblk m c 2 t) (iblk m c 3 t) (ix2 l j) * tLog (iblk m c 0 t) (iblk m c 1 t) (ix2 l j) := by
  rw [outsAt0_B m c t h0]
  dsimp only
  refine (outB8_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) j).trans ?_
  refine (Cert.LogRatio.KPay.pay33_apply _ _ _ j).trans ?_
  exact congrArg (fun z : EReal => z + _) (row2_apply _ j)

/-- Output 8, level 3, at a point that resets the running sums. -/
theorem recA8_3 (c : Dev nD) (t : Fin cfg0.N) (h0 : t.val % 4 = 0) (j : Fin 512) :
    (outsAt0 m c t.val t.isLt).2.2.2.2.1 (ix2 (3 : Fin 4) j) = 0 + ∑ l : Fin 512, tN3 (iblk m c 2 t) (iblk m c 3 t) (ix2 l j) * tLog (iblk m c 0 t) (iblk m c 1 t) (ix2 l j) := by
  rw [outsAt0_A m c t h0]
  dsimp only
  refine (outA8_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) ((hcond0_0 t).mpr h0) j).trans ?_
  refine (Cert.LogRatio.KPay.pay3_apply _ _ _ j).trans ?_
  exact congrArg (fun z : EReal => z + _) Ideal.ofBits_zero_f32

/-- Output 8, level 3, at a point that carries the running sums over. -/
theorem recB8_3 (c : Dev nD) (t : Fin cfg0.N) (h0 : ¬t.val % 4 = 0) (j : Fin 512) :
    (outsAt0 m c t.val t.isLt).2.2.2.2.1 (ix2 (3 : Fin 4) j)
      = (outsAt0 m c (t.val - 1) (Nat.lt_of_le_of_lt (Nat.sub_le _ _) t.isLt)).2.2.2.2.1 (ix2 (3 : Fin 4) j) + ∑ l : Fin 512, tN3 (iblk m c 2 t) (iblk m c 3 t) (ix2 l j) * tLog (iblk m c 0 t) (iblk m c 1 t) (ix2 l j) := by
  rw [outsAt0_B m c t h0]
  dsimp only
  refine (outB8_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) j).trans ?_
  refine (Cert.LogRatio.KPay.pay3_apply _ _ _ j).trans ?_
  exact congrArg (fun z : EReal => z + _) (row3_apply _ j)

/-- Output 9, level 0, at a point that resets the running sums. -/
theorem recA9_0 (c : Dev nD) (t : Fin cfg0.N) (h0 : t.val % 4 = 0) (j : Fin 512) :
    (outsAt0 m c t.val t.isLt).2.2.2.2.2 (ix2 (0 : Fin 4) j) = 0 + ∑ l : Fin 512, tN0 (iblk m c 2 t) (iblk m c 3 t) (ix2 l j) * tLog2 (iblk m c 0 t) (iblk m c 1 t) (ix2 l j) := by
  rw [outsAt0_A m c t h0]
  dsimp only
  refine (outA9_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) ((hcond0_0 t).mpr h0) j).trans ?_
  refine (Cert.LogRatio.KPay.pay28_apply _ _ _ j).trans ?_
  exact congrArg (fun z : EReal => z + _) Ideal.ofBits_zero_f32

/-- Output 9, level 0, at a point that carries the running sums over. -/
theorem recB9_0 (c : Dev nD) (t : Fin cfg0.N) (h0 : ¬t.val % 4 = 0) (j : Fin 512) :
    (outsAt0 m c t.val t.isLt).2.2.2.2.2 (ix2 (0 : Fin 4) j)
      = (outsAt0 m c (t.val - 1) (Nat.lt_of_le_of_lt (Nat.sub_le _ _) t.isLt)).2.2.2.2.2 (ix2 (0 : Fin 4) j) + ∑ l : Fin 512, tN0 (iblk m c 2 t) (iblk m c 3 t) (ix2 l j) * tLog2 (iblk m c 0 t) (iblk m c 1 t) (ix2 l j) := by
  rw [outsAt0_B m c t h0]
  dsimp only
  refine (outB9_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) j).trans ?_
  refine (Cert.LogRatio.KPay.pay28_apply _ _ _ j).trans ?_
  exact congrArg (fun z : EReal => z + _) (row0_apply _ j)

/-- Output 9, level 1, at a point that resets the running sums. -/
theorem recA9_1 (c : Dev nD) (t : Fin cfg0.N) (h0 : t.val % 4 = 0) (j : Fin 512) :
    (outsAt0 m c t.val t.isLt).2.2.2.2.2 (ix2 (1 : Fin 4) j) = 0 + ∑ l : Fin 512, tN1 (iblk m c 2 t) (iblk m c 3 t) (ix2 l j) * tLog2 (iblk m c 0 t) (iblk m c 1 t) (ix2 l j) := by
  rw [outsAt0_A m c t h0]
  dsimp only
  refine (outA9_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) ((hcond0_0 t).mpr h0) j).trans ?_
  refine (Cert.LogRatio.KPay.pay31_apply _ _ _ j).trans ?_
  exact congrArg (fun z : EReal => z + _) Ideal.ofBits_zero_f32

/-- Output 9, level 1, at a point that carries the running sums over. -/
theorem recB9_1 (c : Dev nD) (t : Fin cfg0.N) (h0 : ¬t.val % 4 = 0) (j : Fin 512) :
    (outsAt0 m c t.val t.isLt).2.2.2.2.2 (ix2 (1 : Fin 4) j)
      = (outsAt0 m c (t.val - 1) (Nat.lt_of_le_of_lt (Nat.sub_le _ _) t.isLt)).2.2.2.2.2 (ix2 (1 : Fin 4) j) + ∑ l : Fin 512, tN1 (iblk m c 2 t) (iblk m c 3 t) (ix2 l j) * tLog2 (iblk m c 0 t) (iblk m c 1 t) (ix2 l j) := by
  rw [outsAt0_B m c t h0]
  dsimp only
  refine (outB9_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) j).trans ?_
  refine (Cert.LogRatio.KPay.pay31_apply _ _ _ j).trans ?_
  exact congrArg (fun z : EReal => z + _) (row1_apply _ j)

/-- Output 9, level 2, at a point that resets the running sums. -/
theorem recA9_2 (c : Dev nD) (t : Fin cfg0.N) (h0 : t.val % 4 = 0) (j : Fin 512) :
    (outsAt0 m c t.val t.isLt).2.2.2.2.2 (ix2 (2 : Fin 4) j) = 0 + ∑ l : Fin 512, tN2 (iblk m c 2 t) (iblk m c 3 t) (ix2 l j) * tLog2 (iblk m c 0 t) (iblk m c 1 t) (ix2 l j) := by
  rw [outsAt0_A m c t h0]
  dsimp only
  refine (outA9_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) ((hcond0_0 t).mpr h0) j).trans ?_
  refine (Cert.LogRatio.KPay.pay1_level2_apply _ _ _ j).trans ?_
  exact congrArg (fun z : EReal => z + _) Ideal.ofBits_zero_f32

/-- Output 9, level 2, at a point that carries the running sums over. -/
theorem recB9_2 (c : Dev nD) (t : Fin cfg0.N) (h0 : ¬t.val % 4 = 0) (j : Fin 512) :
    (outsAt0 m c t.val t.isLt).2.2.2.2.2 (ix2 (2 : Fin 4) j)
      = (outsAt0 m c (t.val - 1) (Nat.lt_of_le_of_lt (Nat.sub_le _ _) t.isLt)).2.2.2.2.2 (ix2 (2 : Fin 4) j) + ∑ l : Fin 512, tN2 (iblk m c 2 t) (iblk m c 3 t) (ix2 l j) * tLog2 (iblk m c 0 t) (iblk m c 1 t) (ix2 l j) := by
  rw [outsAt0_B m c t h0]
  dsimp only
  refine (outB9_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) j).trans ?_
  refine (Cert.LogRatio.KPay.pay1_level2_apply _ _ _ j).trans ?_
  exact congrArg (fun z : EReal => z + _) (row2_apply _ j)

/-- Output 9, level 3, at a point that resets the running sums. -/
theorem recA9_3 (c : Dev nD) (t : Fin cfg0.N) (h0 : t.val % 4 = 0) (j : Fin 512) :
    (outsAt0 m c t.val t.isLt).2.2.2.2.2 (ix2 (3 : Fin 4) j) = 0 + ∑ l : Fin 512, tN3 (iblk m c 2 t) (iblk m c 3 t) (ix2 l j) * tLog2 (iblk m c 0 t) (iblk m c 1 t) (ix2 l j) := by
  rw [outsAt0_A m c t h0]
  dsimp only
  refine (outA9_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) ((hcond0_0 t).mpr h0) j).trans ?_
  refine (Cert.LogRatio.KPay.pay4_apply _ _ _ j).trans ?_
  exact congrArg (fun z : EReal => z + _) Ideal.ofBits_zero_f32

/-- Output 9, level 3, at a point that carries the running sums over. -/
theorem recB9_3 (c : Dev nD) (t : Fin cfg0.N) (h0 : ¬t.val % 4 = 0) (j : Fin 512) :
    (outsAt0 m c t.val t.isLt).2.2.2.2.2 (ix2 (3 : Fin 4) j)
      = (outsAt0 m c (t.val - 1) (Nat.lt_of_le_of_lt (Nat.sub_le _ _) t.isLt)).2.2.2.2.2 (ix2 (3 : Fin 4) j) + ∑ l : Fin 512, tN3 (iblk m c 2 t) (iblk m c 3 t) (ix2 l j) * tLog2 (iblk m c 0 t) (iblk m c 1 t) (ix2 l j) := by
  rw [outsAt0_B m c t h0]
  dsimp only
  refine (outB9_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) j).trans ?_
  refine (Cert.LogRatio.KPay.pay4_apply _ _ _ j).trans ?_
  exact congrArg (fun z : EReal => z + _) (row3_apply _ j)

end

end KVal

end Cert.KernelIdeal.Hand

end
-- ==== Proof.KPay1.lean ====
/-
  The body's similarity tile read at an index.

  The body multiplies the column block by the transposed row block into a zero accumulator, adds ε and
  takes the logarithm. At entry (l, j) of the tile this is log (Σ_d x_col[l,d] · x_row[j,d] + ε); the
  change of float format before the product is the identity on the extended reals. The squared tile is
  that value times itself.
-/
import proofs.«142400_j89936615178820_1_alg».proof.Proof.Spec
import proofs.«142400_j89936615178820_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LogRatio.KPay

open Idealize.ShloMosaic Idealize.ShloMosaic.ValueIdx Cert.KernelIdeal Cert.KernelIdeal.Gen

/-- The tile product's dimension numbers: rows × embedding coordinate against embedding coordinate × columns. -/
abbrev DD : DotDims S512x128 S128x512 S512x512 := dot_S512x128_S128x512_S512x512_1_0_0_1_n_n

theorem lhs_row (i : S512x512.Idx) (q : DD.contr.Idx) : (DD.lhsIdx i q 0).val = (i 0).val := by
  unfold DotDims.lhsIdx
  rw [dif_neg (show ¬(0 : Fin S512x128.rank) ∈ DD.lhsBatch by decide),
    dif_pos (show (0 : Fin S512x128.rank) ∈ DD.lhsNonContracting by decide)]
  rfl

theorem lhs_contr (i : S512x512.Idx) (q : DD.contr.Idx) : (DD.lhsIdx i q 1).val = (q ⟨0, by decide⟩).val :=
  DD.lhsIdx_val_of_single rfl i q

theorem rhs_contr (i : S512x512.Idx) (q : DD.contr.Idx) : (DD.rhsIdx i q 0).val = (q ⟨0, by decide⟩).val :=
  DD.rhsIdx_val_of_single rfl i q

theorem rhs_col (i : S512x512.Idx) (q : DD.contr.Idx) : (DD.rhsIdx i q 1).val = (i 1).val := by
  unfold DotDims.rhsIdx
  rw [dif_neg (show ¬(1 : Fin S128x512.rank) ∈ DD.rhsBatch by decide),
    dif_pos (show (1 : Fin S128x512.rank) ∈ DD.rhsNonContracting by decide)]
  rfl

/-- The product of the column block with the transposed row block, into the zero accumulator, at (l, j):
    the sum over the 128 embedding coordinates of the products of the two rows' entries. -/
theorem matmul_tile_apply (a : FVec Ideal S512x128 .bf16) (b : FVec Ideal S128x512 .bf16) (l j : Fin 512) :
    matmul dot_S512x128_S128x512_S512x512_1_0_0_1_n_n none a b (constant (F := Ideal) S512x512 .f32 0x00000000#32) (ix2 l j)
      = ∑ d : Fin 128, a (ix2 l d) * b (ix2 d j) := by
  show FloatOps.matmul DD none a b _ (ix2 l j) = _
  rw [Ideal.matmul_constant_zero_apply, ← Equiv.sum_comp (contrEquiv1 DD 128 rfl rfl).symm]
  refine Finset.sum_congr rfl fun d _ => ?_
  have hd := contrEquiv1_symm_val DD 128 rfl rfl d
  have el : DD.lhsIdx (ix2 l j) ((contrEquiv1 DD 128 rfl rfl).symm d) = ix2 l d :=
    funext fun ax => Fin.ext (by
      match ax with
      | ⟨0, _⟩ => exact lhs_row _ _
      | ⟨1, _⟩ => exact (lhs_contr _ _).trans hd)
  have er : DD.rhsIdx (ix2 l j) ((contrEquiv1 DD 128 rfl rfl).symm d) = ix2 d j :=
    funext fun ax => Fin.ext (by
      match ax with
      | ⟨0, _⟩ => exact (rhs_contr _ _).trans hd
      | ⟨1, _⟩ => exact rhs_col _ _)
  rw [el, er]

/-- The logarithm tile at (l, j). -/
theorem pay11_apply (v3 v5 : Vec Ideal S512x128 .f32) (l j : Fin 512) :
    k0_pay11 (F := Ideal) v3 v5 (ix2 l j)
      = Ideal.log ((∑ d : Fin 128, v5 (ix2 l d) * v3 (ix2 j d)) + Cert.LogRatio.eps) := by
  unfold k0_pay11
  show Ideal.log (matmul dot_S512x128_S128x512_S512x512_1_0_0_1_n_n none
      (truncf (F := Ideal) .bf16 v5 bitsLt_bf16_f32)
      (transpose S128x512 [1, 0] (truncf (F := Ideal) .bf16 v3 bitsLt_bf16_f32) transposes_S512x128_p1_0_S128x512)
      (constant (F := Ideal) S512x512 .f32 0x00000000#32) (ix2 l j) + Ideal.ofBits .f32 0x358637BD#32) = _
  rw [matmul_tile_apply]
  refine congrArg (fun s => Ideal.log (s + Cert.LogRatio.eps)) (Finset.sum_congr rfl fun d _ => ?_)
  rw [transpose_ix2_apply]
  rfl

/-- The squared logarithm tile at (l, j). -/
theorem pay12_apply (v3 v5 : Vec Ideal S512x128 .f32) (l j : Fin 512) :
    k0_pay12 (F := Ideal) v3 v5 (ix2 l j)
      = Ideal.log ((∑ d : Fin 128, v5 (ix2 l d) * v3 (ix2 j d)) + Cert.LogRatio.eps)
        * Ideal.log ((∑ d : Fin 128, v5 (ix2 l d) * v3 (ix2 j d)) + Cert.LogRatio.eps) := by
  unfold k0_pay12
  show k0_pay11 (F := Ideal) v3 v5 (ix2 l j) * k0_pay11 (F := Ideal) v3 v5 (ix2 l j) = _
  rw [pay11_apply]

end Cert.LogRatio.KPay

end
-- ==== Proof.KPay2.lean ====
/-
  The body's 0/1 masks read at an index.

  Each comparison of a label column (a [512,1] block broadcast along the columns) with the row of
  top-level labels (a [1,512] block broadcast along the rows) is, at entry (l, j), the one-bit word of
  "column entry l equals row entry j". A one-bit word widened to 32 bits and converted to a float is 1
  when the bit is set and 0 otherwise, so the negated and conjoined words convert to the indicator of
  the corresponding proposition. The positive mask also excludes the diagonal: the global row number
  ti·512 + j and the global column number tj·512 + l are below 2048, so the 32-bit words that carry them
  are equal exactly when the numbers are.
-/
import proofs.«142400_j89936615178820_1_alg».proof.Proof.Spec
import proofs.«142400_j89936615178820_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LogRatio.KPay

open Idealize.ShloMosaic Idealize.ShloMosaic.ValueIdx Cert.KernelIdeal Cert.KernelIdeal.Gen

/-! ## Layout -/

/-- A [512,1] column broadcast along the columns reads, at (l, j), the column's entry l. -/
theorem bcast_col_apply {α : Type} (v : S512x1.Idx → α) (h : S512x1.Broadcasts S512x512) (l j : Fin 512) :
    broadcastTo S512x512 v h (ix2 l j) = v (ix2 l (0 : Fin 1)) := by
  refine broadcastTo_apply v h (ix2 l j) (ix2 l (0 : Fin 1)) fun ax => ?_
  match ax with
  | ⟨0, _⟩ => rfl
  | ⟨1, _⟩ => rfl

/-- A [1,512] row broadcast along the rows reads, at (l, j), the row's entry j. -/
theorem bcast_row_apply {α : Type} (v : S1x512.Idx → α) (h : S1x512.Broadcasts S512x512) (l j : Fin 512) :
    broadcastTo S512x512 v h (ix2 l j) = v (ix2 (0 : Fin 1) j) :=
  broadcastTo_1b_ab_apply v h l j

/-- The row of top-level labels, cast to its own shape, is itself. -/
theorem pay13_eq (v13 : Vec Ideal S1x512 .i32) : k0_pay13 (F := Ideal) v13 = v13 := by
  unfold k0_pay13
  exact shapeCast_self v13 _

/-! ## One-bit words -/

theorem cmpi_eq_def {w : Nat} (x y : BitVec w) : IntOp.cmpi .eq x y = if x = y then 1#1 else 0#1 := by
  unfold IntOp.cmpi
  by_cases h : x = y
  · subst h; simp
  · have e : (x == y) = false := beq_eq_false_iff_ne.mpr h
    rw [if_neg h]
    show BitVec.ofBool (x == y) = 0#1
    rw [e]; rfl

theorem cmpi_eq_iff {w : Nat} (x y : BitVec w) : IntOp.cmpi .eq x y = 1#1 ↔ x = y := by
  rw [cmpi_eq_def]
  by_cases h : x = y
  · simp [h]
  · simp [h]

theorem xori_one_iff (b : BitVec 1) : IntOp.xori b 1#1 = 1#1 ↔ ¬ b = 1#1 := by
  rcases BitVec.eq_zero_or_eq_one b with h | h <;> subst h <;> decide

theorem andi_iff (a b : BitVec 1) : IntOp.andi a b = 1#1 ↔ a = 1#1 ∧ b = 1#1 := by
  rcases BitVec.eq_zero_or_eq_one a with h | h <;> subst h <;>
    rcases BitVec.eq_zero_or_eq_one b with h' | h' <;> subst h' <;> decide

/-- A one-bit word widened to 32 bits and converted to a float is the indicator of whatever the set bit means. -/
theorem word_ind (b : BitVec 1) (p : Prop) [Decidable p] (h : b = 1#1 ↔ p) :
    FloatOps.sitofp (F := Ideal) .f32 (b.setWidth 32) = ind p := by
  show ((((b.setWidth 32).toInt : ℤ) : ℝ) : EReal) = ind p
  rcases BitVec.eq_zero_or_eq_one b with hb | hb
  · subst hb
    have hp : ¬ p := fun hp => absurd (h.mpr hp) (by decide)
    have e : ((0#1 : BitVec 1).setWidth 32).toInt = 0 := by decide
    rw [e]; simp [ind, hp]
  · subst hb
    have hp : p := h.mp rfl
    have e : ((1#1 : BitVec 1).setWidth 32).toInt = 1 := by decide
    rw [e]; simp [ind, hp]

/-! ## The four label comparisons -/

theorem pay15_apply (v13 : Vec Ideal S1x512 .i32) (v34 : Vec Ideal S512x1 .i32) (l j : Fin 512) :
    k0_pay15 (F := Ideal) v13 v34 (ix2 l j)
      = if v34 (ix2 l (0 : Fin 1)) = v13 (ix2 (0 : Fin 1) j) then 1#1 else 0#1 := by
  unfold k0_pay15
  show IntOp.cmpi .eq (broadcastTo S512x512 v34 broadcasts_S512x1_S512x512 (ix2 l j))
      (broadcastTo S512x512 (k0_pay13 (F := Ideal) v13) broadcasts_S1x512_S512x512 (ix2 l j)) = _
  rw [pay13_eq, bcast_col_apply, bcast_row_apply, cmpi_eq_def]

theorem pay16_apply (v14 : IVec S1x512 32) (v38 : Vec Ideal S512x1 .i32) (l j : Fin 512) :
    k0_pay16 (F := Ideal) v14 v38 (ix2 l j)
      = if v38 (ix2 l (0 : Fin 1)) = v14 (ix2 (0 : Fin 1) j) then 1#1 else 0#1 := by
  unfold k0_pay16
  show IntOp.cmpi .eq (broadcastTo S512x512 v38 broadcasts_S512x1_S512x512 (ix2 l j))
      (broadcastTo S512x512 v14 broadcasts_S1x512_S512x512 (ix2 l j)) = _
  rw [bcast_col_apply, bcast_row_apply, cmpi_eq_def]

theorem pay17_apply (v14 : IVec S1x512 32) (v42 : Vec Ideal S512x1 .i32) (l j : Fin 512) :
    k0_pay17 (F := Ideal) v14 v42 (ix2 l j)
      = if v42 (ix2 l (0 : Fin 1)) = v14 (ix2 (0 : Fin 1) j) then 1#1 else 0#1 := by
  unfold k0_pay17
  show IntOp.cmpi .eq (broadcastTo S512x512 v42 broadcasts_S512x1_S512x512 (ix2 l j))
      (broadcastTo S512x512 v14 broadcasts_S1x512_S512x512 (ix2 l j)) = _
  rw [bcast_col_apply, bcast_row_apply, cmpi_eq_def]

theorem pay18_apply (v14 : IVec S1x512 32) (v46 : Vec Ideal S512x1 .i32) (l j : Fin 512) :
    k0_pay18 (F := Ideal) v14 v46 (ix2 l j)
      = if v46 (ix2 l (0 : Fin 1)) = v14 (ix2 (0 : Fin 1) j) then 1#1 else 0#1 := by
  unfold k0_pay18
  show IntOp.cmpi .eq (broadcastTo S512x512 v46 broadcasts_S512x1_S512x512 (ix2 l j))
      (broadcastTo S512x512 v14 broadcasts_S1x512_S512x512 (ix2 l j)) = _
  rw [bcast_col_apply, bcast_row_apply, cmpi_eq_def]

/-- A comparison word is set exactly when the two labels are equal. -/
theorem ite_word_iff (p : Prop) [Decidable p] : (if p then 1#1 else 0#1 : BitVec 1) = 1#1 ↔ p := by
  by_cases h : p
  · simp [h]
  · simp [h]

/-! ## The four negative masks -/

theorem pay19_apply (v14 : IVec S1x512 32) (v46 : Vec Ideal S512x1 .i32) (l j : Fin 512) :
    k0_pay19 (F := Ideal) v14 v46 (ix2 l j)
      = ind (¬ v46 (ix2 l (0 : Fin 1)) = v14 (ix2 (0 : Fin 1) j)) := by
  unfold k0_pay19
  show FloatOps.sitofp (F := Ideal) .f32
      ((IntOp.xori (k0_pay18 (F := Ideal) v14 v46 (ix2 l j)) 1#1).setWidth 32) = _
  refine word_ind _ _ ?_
  rw [xori_one_iff, pay18_apply, ite_word_iff]

theorem pay20_apply (v14 : IVec S1x512 32) (v42 v46 : Vec Ideal S512x1 .i32) (l j : Fin 512) :
    k0_pay20 (F := Ideal) v14 v42 v46 (ix2 l j)
      = ind (v46 (ix2 l (0 : Fin 1)) = v14 (ix2 (0 : Fin 1) j)
          ∧ ¬ v42 (ix2 l (0 : Fin 1)) = v14 (ix2 (0 : Fin 1) j)) := by
  unfold k0_pay20
  show FloatOps.sitofp (F := Ideal) .f32
      ((IntOp.andi (k0_pay18 (F := Ideal) v14 v46 (ix2 l j))
        (IntOp.xori (k0_pay17 (F := Ideal) v14 v42 (ix2 l j)) 1#1)).setWidth 32) = _
  refine word_ind _ _ ?_
  rw [andi_iff, xori_one_iff, pay18_apply, pay17_apply, ite_word_iff, ite_word_iff]

theorem pay21_apply (v14 : IVec S1x512 32) (v38 v42 : Vec Ideal S512x1 .i32) (l j : Fin 512) :
    k0_pay21 (F := Ideal) v14 v38 v42 (ix2 l j)
      = ind (v42 (ix2 l (0 : Fin 1)) = v14 (ix2 (0 : Fin 1) j)
          ∧ ¬ v38 (ix2 l (0 : Fin 1)) = v14 (ix2 (0 : Fin 1) j)) := by
  unfold k0_pay21
  show FloatOps.sitofp (F := Ideal) .f32
      ((IntOp.andi (k0_pay17 (F := Ideal) v14 v42 (ix2 l j))
        (IntOp.xori (k0_pay16 (F := Ideal) v14 v38 (ix2 l j)) 1#1)).setWidth 32) = _
  refine word_ind _ _ ?_
  rw [andi_iff, xori_one_iff, pay17_apply, pay16_apply, ite_word_iff, ite_word_iff]

theorem pay22_apply (v14 : IVec S1x512 32) (v37 : IVec S512x512 1) (v38 : Vec Ideal S512x1 .i32) (l j : Fin 512) :
    k0_pay22 (F := Ideal) v14 v37 v38 (ix2 l j)
      = ind (v38 (ix2 l (0 : Fin 1)) = v14 (ix2 (0 : Fin 1) j) ∧ ¬ v37 (ix2 l j) = 1#1) := by
  unfold k0_pay22
  show FloatOps.sitofp (F := Ideal) .f32
      ((IntOp.andi (k0_pay16 (F := Ideal) v14 v38 (ix2 l j))
        (IntOp.xori (v37 (ix2 l j)) 1#1)).setWidth 32) = _
  refine word_ind _ _ ?_
  rw [andi_iff, xori_one_iff, pay16_apply, ite_word_iff]

end Cert.LogRatio.KPay

end
-- ==== Proof.KPay4.lean ====
/-
  The body's positive mask read at an index.

  At entry (l, j) of the tile the mask is 1 when the column block's top-level label at l equals the row
  block's at j and the two global positions differ, else 0. The global positions are carried as 32-bit
  words: the grid coordinate times 512 plus the position inside the block. Both are below 2048, so the
  words do not wrap and are equal exactly when the numbers are.
-/
import proofs.«142400_j89936615178820_1_alg».proof.Proof.Spec
import proofs.«142400_j89936615178820_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«142400_j89936615178820_1_alg».proof.Proof.KPay2

noncomputable section

open scoped BigOperators

namespace Cert.LogRatio.KPay

open Idealize.ShloMosaic Idealize.ShloMosaic.ValueIdx Cert.KernelIdeal Cert.KernelIdeal.Gen

/-- The row of global row numbers at entry j: the block offset plus j. -/
theorem rowidx_apply (a : BitVec 32) (j : Fin 512) :
    addi (broadcast S1x512 a) (iota .tc S1x512 32 [1] iota_S1x512_d1_w32) (ix2 (0 : Fin 1) j)
      = a + BitVec.ofNat 32 j.val := by
  show IntOp.addi a (iota .tc S1x512 32 [1] iota_S1x512_d1_w32 (ix2 (0 : Fin 1) j)) = _
  rw [iota_single_apply]
  rfl

/-- The column of global column numbers at entry l: the block offset plus l. -/
theorem colidx_apply (a : BitVec 32) (l : Fin 512) :
    addi (broadcast S512x1 a) (iota .tc S512x1 32 [0] iota_S512x1_d0_w32) (ix2 l (0 : Fin 1))
      = a + BitVec.ofNat 32 l.val := by
  show IntOp.addi a (iota .tc S512x1 32 [0] iota_S512x1_d0_w32 (ix2 l (0 : Fin 1))) = _
  rw [iota_single_apply]
  rfl

/-- Two global positions below 2048 carried as 32-bit words: the words are equal exactly when the numbers are. -/
theorem gidx_eq_iff (a b : Nat) (ha : a < 4) (hb : b < 4) (j l : Fin 512) :
    Scalar.muli (BitVec.ofNat 32 a) 512#32 + BitVec.ofNat 32 j.val
        = Scalar.muli (BitVec.ofNat 32 b) 512#32 + BitVec.ofNat 32 l.val
      ↔ a * 512 + j.val = b * 512 + l.val := by
  show BitVec.ofNat 32 a * 512#32 + BitVec.ofNat 32 j.val = BitVec.ofNat 32 b * 512#32 + BitVec.ofNat 32 l.val ↔ _
  rw [← BitVec.toNat_inj]
  simp only [BitVec.toNat_add, BitVec.toNat_mul, BitVec.toNat_ofNat]
  have := j.isLt
  have := l.isLt
  omega

/-- The positive mask at (l, j). -/
theorem pay14_apply (i : grid0.Coords) (v13 : Vec Ideal S1x512 .i32) (v15 : Vec Ideal S512x1 .i32) (l j : Fin 512) :
    k0_pay14 (F := Ideal) i v13 v15 (ix2 l j)
      = ind (v15 (ix2 l (0 : Fin 1)) = v13 (ix2 (0 : Fin 1) j)
          ∧ (i 0).val * 512 + j.val ≠ (i 1).val * 512 + l.val) := by
  unfold k0_pay14
  show FloatOps.sitofp (F := Ideal) .f32 ((IntOp.andi
      (IntOp.cmpi .eq (broadcastTo S512x512 v15 broadcasts_S512x1_S512x512 (ix2 l j))
        (broadcastTo S512x512 (k0_pay13 (F := Ideal) v13) broadcasts_S1x512_S512x512 (ix2 l j)))
      (IntOp.xori (IntOp.cmpi .eq
        (broadcastTo S512x512
          (addi (broadcast S1x512 (Scalar.muli (BitVec.ofNat 32 (i 0).val) 512#32))
            (iota .tc S1x512 32 [1] iota_S1x512_d1_w32)) broadcasts_S1x512_S512x512 (ix2 l j))
        (broadcastTo S512x512
          (addi (broadcast S512x1 (Scalar.muli (BitVec.ofNat 32 (i 1).val) 512#32))
            (iota .tc S512x1 32 [0] iota_S512x1_d0_w32)) broadcasts_S512x1_S512x512 (ix2 l j))) 1#1)).setWidth 32) = _
  refine word_ind _ _ ?_
  rw [andi_iff, xori_one_iff, cmpi_eq_iff, cmpi_eq_iff, pay13_eq, bcast_col_apply, bcast_row_apply, bcast_row_apply,
    bcast_col_apply, rowidx_apply, colidx_apply,
    gidx_eq_iff (i 0).val (i 1).val (i 0).isLt (i 1).isLt j l]

end Cert.LogRatio.KPay

end
-- ==== Proof.KPre.lean ====
/-
  What the kernel region finds in the core's buffers. Two host operations run before the region: the four level
  constants are written, and the label table is transposed. Every other buffer, the two arguments among them, is as
  launched; the constants' buffer holds the four printed words; the transposed table holds, at (k, J), the label
  table's entry (J, k).
-/
import proofs.«142400_j89936615178820_1_alg».proof.Proof.KIRuns
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-- Neither host operation before the region writes a buffer other than the constants' and the transposed table's. -/
theorem not_written (b : Ref sig .tc) (hb : b ≠ main_cst ∧ b ≠ main_v0) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.unary_writes, StableHlo.nullary_writes, Finset.mem_singleton] <;>
    exact StableHlo.devRef_ne_of_ne ‹_›

/-- Such a buffer reaches the region as launched. -/
theorem V_of_not_written (c : Dev nD) (b : Ref sig .tc) (hb : b ≠ main_cst ∧ b ≠ main_v0) :
    V m c b = m ((c : Thread nD τ).loc b) :=
  StableHlo.after_of_forall_not_mem (b := Proc.devRef .tc b) hostOps0 (V₀ m c) (not_written b hb)

/-- The embeddings reach the region as launched. -/
theorem V_arg0 (c : Dev nD) : V m c main_arg0 = m ((c : Thread nD τ).loc main_arg0) :=
  V_of_not_written m c main_arg0 (by decide)

/-- The label table reaches the region as launched. -/
theorem V_arg1 (c : Dev nD) : V m c main_arg1 = m ((c : Thread nD τ).loc main_arg1) :=
  V_of_not_written m c main_arg1 (by decide)

/-- The six result arrays reach the region as launched. -/
theorem V_v1_0 (c : Dev nD) : V m c main_v1_0 = m ((c : Thread nD τ).loc main_v1_0) :=
  V_of_not_written m c main_v1_0 (by decide)
theorem V_v1_1 (c : Dev nD) : V m c main_v1_1 = m ((c : Thread nD τ).loc main_v1_1) :=
  V_of_not_written m c main_v1_1 (by decide)
theorem V_v1_2 (c : Dev nD) : V m c main_v1_2 = m ((c : Thread nD τ).loc main_v1_2) :=
  V_of_not_written m c main_v1_2 (by decide)
theorem V_v1_3 (c : Dev nD) : V m c main_v1_3 = m ((c : Thread nD τ).loc main_v1_3) :=
  V_of_not_written m c main_v1_3 (by decide)
theorem V_v1_4 (c : Dev nD) : V m c main_v1_4 = m ((c : Thread nD τ).loc main_v1_4) :=
  V_of_not_written m c main_v1_4 (by decide)
theorem V_v1_5 (c : Dev nD) : V m c main_v1_5 = m ((c : Thread nD τ).loc main_v1_5) :=
  V_of_not_written m c main_v1_5 (by decide)

/-- The constants' buffer holds the four printed words, row-major. -/
theorem V_cst (c : Dev nD) :
    (V m c main_cst : S4.Idx → F .f32) = fun i => FloatOps.ofBits .f32 (lit0 (S4.rowMajor i)) := by
  show StableHlo.after hostOps0 (V₀ m c) (Proc.devRef .tc main_cst) = _
  dsimp only [hostOps0]
  after_results
  rfl

/-- The transposed table is the label table, as launched, transposed. -/
theorem V_v0 (c : Dev nD) :
    (V m c main_v0 : S4x2048.Idx → BitVec 32)
      = transpose S4x2048 [1, 0] (m ((c : Thread nD τ).loc main_arg1) : S2048x4.Idx → BitVec 32)
          transposes_S2048x4_S4x2048_1_0 := by
  show StableHlo.after hostOps0 (V₀ m c) (Proc.devRef .tc main_v0) = _
  dsimp only [hostOps0]
  after_results

/-- At (k, J) it holds the label table's entry (J, k). -/
theorem V_v0_apply (c : Dev nD) (k : Fin 4) (J : Fin 2048) :
    (V m c main_v0 : S4x2048.Idx → BitVec 32) (ix2 k J)
      = (m ((c : Thread nD τ).loc main_arg1) : S2048x4.Idx → BitVec 32) (ix2 J k) := by
  rw [V_v0]
  exact transpose_ix2_apply _ transposes_S2048x4_S4x2048_1_0 k J

end Cert.KernelIdeal.Hand

end
-- ==== Proof.KValT.lean ====
/-
  The tiles of one grid point in terms of the two argument arrays.

  At point t of the 4 × 4 grid the body reads four blocks: rows (t / 4) · 512 … of the embeddings (window 0),
  rows (t mod 4) · 512 … of the embeddings (window 1), the same rows of the labels (window 2), and columns
  (t / 4) · 512 … of the transposed label table (window 3). Entry (l, j) of each [512, 512] tile therefore speaks of
  row Jr = (t / 4) · 512 + j and row Lc = (t mod 4) · 512 + l of the arguments: the logarithm tile is A x Jr Lc
  (the Gram entry is symmetric), the positive-mask tile is pos lab Jr Lc (the two global counters differ exactly
  when the rows do), and the four level tiles are N lab k Jr Lc.
-/
import proofs.«142400_j89936615178820_1_alg».proof.Proof.KValA
import proofs.«142400_j89936615178820_1_alg».proof.Proof.KPay1
import proofs.«142400_j89936615178820_1_alg».proof.Proof.KPay2
import proofs.«142400_j89936615178820_1_alg».proof.Proof.KPay4
import proofs.«142400_j89936615178820_1_alg».proof.Proof.KPre
import proofs.«142400_j89936615178820_1_alg».proof.Proof.Spec

noncomputable section

open scoped BigOperators

namespace Cert.KernelIdeal.Hand.KVal

open Cert.KernelIdeal Cert.KernelIdeal.Gen Cert.KernelIdeal.Hand
open Idealize.ShloMosaic Idealize.ShloMosaic.TcCoe Idealize.ShloMosaic.ValueIdx Idealize.SL.Sem
open Cert
open Cert.LogRatio (ind)

variable (m : (ℓ : Loc nD τ sig) → Buf (Elt Ideal) ℓ)

/-- The embeddings as the region finds them. -/
abbrev xArr (c : Dev nD) : LogRatio.SX.Idx → EReal := V m c main_arg0
/-- The labels as the region finds them. -/
abbrev labArr (c : Dev nD) : LogRatio.SLab.Idx → BitVec 32 := V m c main_arg1

/-- The global row a tile's column j speaks of: the row block is the point's first grid coordinate. -/
def Jr (t : Fin cfg0.N) (j : Fin 512) : Fin 2048 := ⟨t.val / 4 * 512 + j.val, by
  have hN : cfg0.N = 16 := N_0
  have := t.isLt
  omega⟩

/-- The global row a tile's row l speaks of: the column block is the point's second grid coordinate. -/
def Lc (t : Fin cfg0.N) (l : Fin 512) : Fin 2048 := ⟨t.val % 4 * 512 + l.val, by omega⟩

/-- Indicators of equivalent propositions agree. -/
theorem ind_congr {p q : Prop} [Decidable p] [Decidable q] (h : p ↔ q) : ind p = ind q := by
  unfold LogRatio.ind
  by_cases hq : q
  · rw [if_pos hq, if_pos (h.mpr hq)]
  · rw [if_neg hq, if_neg (fun hp => hq (h.mp hp))]

/-! ## The four input blocks -/

/-- The printed index maps and the grid's coordinates, decided over the sixteen points. -/
theorem idx_in : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val % 4 ∧ win0_2.index t (1 : Fin 2) = 0
    ∧ win0_3.index t (0 : Fin 2) = 0 ∧ win0_3.index t (1 : Fin 2) = t.val / 4
    ∧ ((grid0.coords t) 0).val = t.val / 4 ∧ ((grid0.coords t) 1).val = t.val % 4 :=
  (by decide +kernel : ∀ t : Fin grid0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val % 4 ∧ win0_2.index t (1 : Fin 2) = 0
    ∧ win0_3.index t (0 : Fin 2) = 0 ∧ win0_3.index t (1 : Fin 2) = t.val / 4
    ∧ ((grid0.coords t) 0).val = t.val / 4 ∧ ((grid0.coords t) 1).val = t.val % 4)

/-- Window 0: rows (t / 4) · 512 … of the embeddings. -/
theorem iblk0_apply (c : Dev nD) (t : Fin cfg0.N) (r : Fin 512) (d : Fin 128) :
    (iblk m c 0 t) (ix2 r d) = xArr m c (ix2 (Jr t r) d) := by
  obtain ⟨e0, e1, -⟩ := idx_in t
  unfold iblk
  rw [View.read_apply]
  show V m c main_arg0 _ = V m c main_arg0 _
  congr 1
  funext a
  apply Fin.ext
  match a with
  | ⟨0, _⟩ => show win0_0.index t (0 : Fin 2) * 512 + 1 * r.val = t.val / 4 * 512 + r.val; rw [e0]; omega
  | ⟨1, _⟩ => show win0_0.index t (1 : Fin 2) * 128 + 1 * d.val = d.val; rw [e1]; omega

/-- Window 1: rows (t mod 4) · 512 … of the embeddings. -/
theorem iblk1_apply (c : Dev nD) (t : Fin cfg0.N) (r : Fin 512) (d : Fin 128) :
    (iblk m c 1 t) (ix2 r d) = xArr m c (ix2 (Lc t r) d) := by
  obtain ⟨-, -, e0, e1, -⟩ := idx_in t
  unfold iblk
  rw [View.read_apply]
  show V m c main_arg0 _ = V m c main_arg0 _
  congr 1
  funext a
  apply Fin.ext
  match a with
  | ⟨0, _⟩ => show win0_1.index t (0 : Fin 2) * 512 + 1 * r.val = t.val % 4 * 512 + r.val; rw [e0]; omega
  | ⟨1, _⟩ => show win0_1.index t (1 : Fin 2) * 128 + 1 * d.val = d.val; rw [e1]; omega

/-- Window 2: rows (t mod 4) · 512 … of the labels. -/
theorem iblk2_apply (c : Dev nD) (t : Fin cfg0.N) (r : Fin 512) (k : Fin 4) :
    (iblk m c 2 t) (ix2 r k) = labArr m c (ix2 (Lc t r) k) := by
  obtain ⟨-, -, -, -, e0, e1, -⟩ := idx_in t
  unfold iblk
  rw [View.read_apply]
  show V m c main_arg1 _ = V m c main_arg1 _
  congr 1
  funext a
  apply Fin.ext
  match a with
  | ⟨0, _⟩ => show win0_2.index t (0 : Fin 2) * 512 + 1 * r.val = t.val % 4 * 512 + r.val; rw [e0]; omega
  | ⟨1, _⟩ => show win0_2.index t (1 : Fin 2) * 4 + 1 * k.val = k.val; rw [e1]; omega

/-- Window 3: columns (t / 4) · 512 … of the transposed label table, that is, rows of the labels. -/
theorem iblk3_apply (c : Dev nD) (t : Fin cfg0.N) (k : Fin 4) (r : Fin 512) :
    (iblk m c 3 t) (ix2 k r) = labArr m c (ix2 (Jr t r) k) := by
  obtain ⟨-, -, -, -, -, -, e0, e1, -⟩ := idx_in t
  have h : (iblk m c 3 t) (ix2 k r) = (V m c main_v0 : S4x2048.Idx → BitVec 32) (ix2 k (Jr t r)) := by
    unfold iblk
    rw [View.read_apply]
    show V m c main_v0 _ = V m c main_v0 _
    congr 1
    funext a
    apply Fin.ext
    match a with
    | ⟨0, _⟩ => show win0_3.index t (0 : Fin 2) * 4 + 1 * k.val = k.val; rw [e0]; omega
    | ⟨1, _⟩ => show win0_3.index t (1 : Fin 2) * 512 + 1 * r.val = t.val / 4 * 512 + r.val; rw [e1]; omega
  rw [h, V_v0_apply]
  exact (congrFun (V_arg1 m c) _).symm

/-! ## The label rows and columns the body cuts out of its blocks -/

theorem tgtRow_ix (x3 : Vec Ideal S4x512 .i32) (j : Fin 512) :
    tgtRow (F := Ideal) x3 (ix2 (0 : Fin 1) j) = x3 (ix2 (0 : Fin 4) j) := by
  show x3 _ = x3 _
  congr 1
  funext a
  apply Fin.ext
  match a with
  | ⟨0, _⟩ => rfl
  | ⟨1, _⟩ => show 0 + 1 * j.val = j.val; omega

theorem labCol0_ix (x2 : Vec Ideal S512x4 .i32) (l : Fin 512) :
    labCol0 (F := Ideal) x2 (ix2 l (0 : Fin 1)) = x2 (ix2 l (0 : Fin 4)) := by
  show x2 _ = x2 _
  congr 1
  funext a
  apply Fin.ext
  match a with
  | ⟨0, _⟩ => show 0 + 1 * l.val = l.val; omega
  | ⟨1, _⟩ => rfl

theorem labCol1_ix (x2 : Vec Ideal S512x4 .i32) (l : Fin 512) :
    labCol1 (F := Ideal) x2 (ix2 l (0 : Fin 1)) = x2 (ix2 l (1 : Fin 4)) := by
  show x2 _ = x2 _
  congr 1
  funext a
  apply Fin.ext
  match a with
  | ⟨0, _⟩ => show 0 + 1 * l.val = l.val; omega
  | ⟨1, _⟩ => rfl

theorem labCol2_ix (x2 : Vec Ideal S512x4 .i32) (l : Fin 512) :
    labCol2 (F := Ideal) x2 (ix2 l (0 : Fin 1)) = x2 (ix2 l (2 : Fin 4)) := by
  show x2 _ = x2 _
  congr 1
  funext a
  apply Fin.ext
  match a with
  | ⟨0, _⟩ => show 0 + 1 * l.val = l.val; omega
  | ⟨1, _⟩ => rfl

theorem labCol3_ix (x2 : Vec Ideal S512x4 .i32) (l : Fin 512) :
    labCol3 (F := Ideal) x2 (ix2 l (0 : Fin 1)) = x2 (ix2 l (3 : Fin 4)) := by
  show x2 _ = x2 _
  congr 1
  funext a
  apply Fin.ext
  match a with
  | ⟨0, _⟩ => show 0 + 1 * l.val = l.val; omega
  | ⟨1, _⟩ => rfl

section Point
variable (c : Dev nD) (t : Fin cfg0.N) (l j : Fin 512)

/-- Row Jr's top-level label, as the body reads it. -/
theorem tgt_at : tgtRow (F := Ideal) (iblk m c 3 t) (ix2 (0 : Fin 1) j) = labArr m c (ix2 (Jr t j) (0 : Fin 4)) :=
  (tgtRow_ix (iblk m c 3 t) j).trans (iblk3_apply m c t 0 j)

theorem col0_at : labCol0 (F := Ideal) (iblk m c 2 t) (ix2 l (0 : Fin 1)) = labArr m c (ix2 (Lc t l) (0 : Fin 4)) :=
  (labCol0_ix (iblk m c 2 t) l).trans (iblk2_apply m c t l 0)
theorem col1_at : labCol1 (F := Ideal) (iblk m c 2 t) (ix2 l (0 : Fin 1)) = labArr m c (ix2 (Lc t l) (1 : Fin 4)) :=
  (labCol1_ix (iblk m c 2 t) l).trans (iblk2_apply m c t l 1)
theorem col2_at : labCol2 (F := Ideal) (iblk m c 2 t) (ix2 l (0 : Fin 1)) = labArr m c (ix2 (Lc t l) (2 : Fin 4)) :=
  (labCol2_ix (iblk m c 2 t) l).trans (iblk2_apply m c t l 2)
theorem col3_at : labCol3 (F := Ideal) (iblk m c 2 t) (ix2 l (0 : Fin 1)) = labArr m c (ix2 (Lc t l) (3 : Fin 4)) :=
  (labCol3_ix (iblk m c 2 t) l).trans (iblk2_apply m c t l 3)

/-! ## The tiles -/

/-- The logarithm tile. -/
theorem tLog_eq :
    tLog (F := Ideal) (iblk m c 0 t) (iblk m c 1 t) (ix2 l j) = LogRatio.A (xArr m c) (Jr t j) (Lc t l) := by
  refine (LogRatio.KPay.pay11_apply (iblk m c 0 t) (iblk m c 1 t) l j).trans ?_
  rw [LogRatio.A_comm]
  unfold LogRatio.A LogRatio.sim
  refine congrArg (fun s => Ideal.log (s + LogRatio.eps)) (Finset.sum_congr rfl fun d _ => ?_)
  exact congrArg₂ (· * ·) (iblk1_apply m c t l d) (iblk0_apply m c t j d)

/-- The squared-logarithm tile. -/
theorem tLog2_eq :
    tLog2 (F := Ideal) (iblk m c 0 t) (iblk m c 1 t) (ix2 l j)
      = LogRatio.A (xArr m c) (Jr t j) (Lc t l) * LogRatio.A (xArr m c) (Jr t j) (Lc t l) := by
  have h := tLog_eq m c t l j
  show k0_pay12 (F := Ideal) (iblk m c 0 t) (iblk m c 1 t) (ix2 l j) = _
  refine (LogRatio.KPay.pay12_apply (iblk m c 0 t) (iblk m c 1 t) l j).trans ?_
  rw [← LogRatio.KPay.pay11_apply (iblk m c 0 t) (iblk m c 1 t) l j]
  exact congrArg₂ (· * ·) h h

/-- The positive-mask tile. -/
theorem tPos_eq :
    tPos (F := Ideal) (grid0.coords t) (iblk m c 2 t) (iblk m c 3 t) (ix2 l j)
      = LogRatio.pos (labArr m c) (Jr t j) (Lc t l) := by
  obtain ⟨-, -, -, -, -, -, -, -, g0, g1⟩ := idx_in t
  refine (LogRatio.KPay.pay14_apply (grid0.coords t) (tgtRow (F := Ideal) (iblk m c 3 t))
    (labCol0 (F := Ideal) (iblk m c 2 t)) l j).trans ?_
  rw [tgt_at m c t j, col0_at m c t l]
  unfold LogRatio.pos LogRatio.tgt
  refine ind_congr ⟨fun h => ⟨h.1.symm, fun e => h.2 ?_⟩, fun h => ⟨h.1.symm, fun e => h.2 (Fin.ext ?_)⟩⟩
  · have := congrArg Fin.val e
    show ((grid0.coords t) 0).val * 512 + j.val = ((grid0.coords t) 1).val * 512 + l.val
    rw [g0, g1]; exact this
  · show t.val / 4 * 512 + j.val = t.val % 4 * 512 + l.val
    rw [← g0, ← g1]; exact e

/-- Level 0: not (column 3 meets the row's top-level label). -/
theorem tN0_eq :
    tN0 (F := Ideal) (iblk m c 2 t) (iblk m c 3 t) (ix2 l j) = LogRatio.N (labArr m c) 0 (Jr t j) (Lc t l) := by
  refine (LogRatio.KPay.pay19_apply (k0_pay13 (F := Ideal) (tgtRow (F := Ideal) (iblk m c 3 t)))
    (labCol3 (F := Ideal) (iblk m c 2 t)) l j).trans ?_
  rw [LogRatio.KPay.pay13_eq, tgt_at m c t j, col3_at m c t l]
  exact ind_congr Iff.rfl

/-- Level 1: column 3 meets it and column 2 does not. -/
theorem tN1_eq :
    tN1 (F := Ideal) (iblk m c 2 t) (iblk m c 3 t) (ix2 l j) = LogRatio.N (labArr m c) 1 (Jr t j) (Lc t l) := by
  refine (LogRatio.KPay.pay20_apply (k0_pay13 (F := Ideal) (tgtRow (F := Ideal) (iblk m c 3 t)))
    (labCol2 (F := Ideal) (iblk m c 2 t)) (labCol3 (F := Ideal) (iblk m c 2 t)) l j).trans ?_
  rw [LogRatio.KPay.pay13_eq, tgt_at m c t j, col2_at m c t l, col3_at m c t l]
  exact ind_congr Iff.rfl

/-- Level 2: column 2 meets it and column 1 does not. -/
theorem tN2_eq :
    tN2 (F := Ideal) (iblk m c 2 t) (iblk m c 3 t) (ix2 l j) = LogRatio.N (labArr m c) 2 (Jr t j) (Lc t l) := by
  refine (LogRatio.KPay.pay21_apply (k0_pay13 (F := Ideal) (tgtRow (F := Ideal) (iblk m c 3 t)))
    (labCol1 (F := Ideal) (iblk m c 2 t)) (labCol2 (F := Ideal) (iblk m c 2 t)) l j).trans ?_
  rw [LogRatio.KPay.pay13_eq, tgt_at m c t j, col1_at m c t l, col2_at m c t l]
  exact ind_congr Iff.rfl

/-- Level 3: column 1 meets it and column 0 does not. -/
theorem tN3_eq :
    tN3 (F := Ideal) (iblk m c 2 t) (iblk m c 3 t) (ix2 l j) = LogRatio.N (labArr m c) 3 (Jr t j) (Lc t l) := by
  refine (LogRatio.KPay.pay22_apply (k0_pay13 (F := Ideal) (tgtRow (F := Ideal) (iblk m c 3 t)))
    (k0_pay15 (F := Ideal) (tgtRow (F := Ideal) (iblk m c 3 t)) (labCol0 (F := Ideal) (iblk m c 2 t)))
    (labCol1 (F := Ideal) (iblk m c 2 t)) l j).trans ?_
  rw [LogRatio.KPay.pay15_apply, LogRatio.KPay.pay13_eq, tgt_at m c t j, col0_at m c t l, col1_at m c t l]
  refine ind_congr ⟨fun h => ⟨h.1, fun p0 => h.2 ((LogRatio.KPay.ite_word_iff _).mpr p0)⟩,
    fun h => ⟨h.1, fun e => h.2 ((LogRatio.KPay.ite_word_iff _).mp e)⟩⟩

end Point

end Cert.KernelIdeal.Hand.KVal

end
-- ==== Proof.KValH.lean ====
/-
  The global row index of a tile's entry, written from the pass number alone.

  At point t of the 4 x 4 grid the row block is t / 4, which is below 4; so the row index (t / 4) * 512 + j can be
  written with the pass number reduced modulo 4, a form that is defined for every natural number.
-/
import proofs.«142400_j89936615178820_1_alg».proof.Proof.KValT
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

namespace KVal

/-- Row j of row block ti (taken modulo 4). -/
def Jn (ti : ℕ) (j : Fin 512) : Fin 2048 :=
  ⟨ti % 4 * 512 + j.val, by have := j.isLt; have := Nat.mod_lt ti (by norm_num : 0 < 4); omega⟩

theorem Jr_eq (t : Fin cfg0.N) (j : Fin 512) : Jr t j = Jn (t.val / 4) j := Fin.ext (by
  have h16 : t.val < 16 := lt_of_lt_of_eq t.isLt N_0
  show t.val / 4 * 512 + j.val = t.val / 4 % 4 * 512 + j.val
  omega)

end KVal

end Cert.KernelIdeal.Hand

end
-- ==== Proof.LibTileSum.lean ====
/-
  Sums over an index range cut into tiles of equal width.

  An index `h < T * w` is `j * w + n` for one tile `j < T` and one offset `n < w`, so a sum over all `h` is the sum over
  the tiles of the sums inside each tile. The partial sums over the tiles `0, …, hh` start at the first tile's sum, grow by
  one tile's sum at a time, and are the whole sum once `hh` is the last tile. Both hold in any commutative additive
  monoid: only the order and the grouping of the terms change.
-/
import Mathlib.Algebra.BigOperators.Fin
import Mathlib.Algebra.BigOperators.Group.Finset.Basic
import Mathlib.Logic.Equiv.Fin.Basic
import Mathlib.Tactic.Ring

namespace Cert.TileSum

variable {M : Type*} [AddCommMonoid M]

/-- The index of offset `n` inside tile `j`. -/
def tileIdx {T w N : ℕ} (hN : N = T * w) (j : Fin T) (n : Fin w) : Fin N :=
  ⟨j.val * w + n.val, by
    have h1 := j.isLt; have h2 := n.isLt
    have : j.val * w + w ≤ T * w := by
      rw [← Nat.succ_mul]; exact Nat.mul_le_mul_right w h1
    omega⟩

@[simp] theorem tileIdx_val {T w N : ℕ} (hN : N = T * w) (j : Fin T) (n : Fin w) :
    (tileIdx hN j n).val = j.val * w + n.val := rfl

/-- A sum over all indices is the sum, over the tiles, of the sums inside each tile. -/
theorem sum_tiles {T w N : ℕ} (hN : N = T * w) (f : Fin N → M) :
    ∑ h : Fin N, f h = ∑ j : Fin T, ∑ n : Fin w, f (tileIdx hN j n) := by
  subst hN
  rw [← Equiv.sum_comp finProdFinEquiv f, Fintype.sum_prod_type]
  refine Finset.sum_congr rfl fun j _ => Finset.sum_congr rfl fun n _ => congrArg f (Fin.ext ?_)
  simp [finProdFinEquiv, tileIdx, Nat.mul_comm, Nat.add_comm]

/-- The sum of the tile values `D j` over the tiles `j ≤ hh`. -/
def upTo {T : ℕ} (D : Fin T → M) (hh : ℕ) : M := ∑ j : Fin T, if j.val ≤ hh then D j else 0

theorem upTo_zero {T : ℕ} (D : Fin T → M) (hT : 0 < T) : upTo D 0 = D ⟨0, hT⟩ := by
  unfold upTo
  rw [Finset.sum_eq_single (⟨0, hT⟩ : Fin T)]
  · simp
  · intro j _ hj
    have : ¬ j.val ≤ 0 := fun h => hj (Fin.ext (by simpa using h))
    simp [this]
  · intro h; exact absurd (Finset.mem_univ _) h

theorem upTo_succ {T : ℕ} (D : Fin T → M) (hh : ℕ) (h : hh + 1 < T) :
    upTo D (hh + 1) = upTo D hh + D ⟨hh + 1, h⟩ := by
  unfold upTo
  have e : ∀ j : Fin T, (if j.val ≤ hh + 1 then D j else 0)
      = (if j.val ≤ hh then D j else 0) + (if j = ⟨hh + 1, h⟩ then D j else 0) := by
    intro j
    by_cases h1 : j.val ≤ hh
    · have h2 : j ≠ ⟨hh + 1, h⟩ := fun e => by
        have e' : j.val = hh + 1 := congrArg Fin.val e
        omega
      rw [if_pos h1, if_pos (Nat.le_succ_of_le h1), if_neg h2, add_zero]
    · by_cases h2 : j = ⟨hh + 1, h⟩
      · have h3 : j.val ≤ hh + 1 := by
          have e' : j.val = hh + 1 := congrArg Fin.val h2
          omega
        rw [if_neg h1, if_pos h3, if_pos h2, zero_add]
      · have h3 : ¬ j.val ≤ hh + 1 := fun h3 => h2 (Fin.ext (by show j.val = hh + 1; omega))
        rw [if_neg h1, if_neg h3, if_neg h2, add_zero]
  simp only [e, Finset.sum_add_distrib, Finset.sum_ite_eq', Finset.mem_univ, if_true]

theorem upTo_last {T : ℕ} (D : Fin T → M) (hh : ℕ) (h : T ≤ hh + 1) : upTo D hh = ∑ j : Fin T, D j := by
  unfold upTo
  refine Finset.sum_congr rfl fun j _ => if_pos ?_
  have := j.isLt; omega

end Cert.TileSum
-- ==== Proof.LibAccum.lean ====
/-
  A running total over tiles.

  A quantity is accumulated over the tiles of an index range, one tile at a time: at the first tile it is that tile's sum
  (or zero plus it), and at every later tile it is the value at the tile before plus that tile's sum. Then at the last
  tile it is the sum over the whole range. This holds in any commutative additive monoid: nothing but the grouping of
  the terms is used. It is stated for any number of tiles of any width, and then at four tiles of 512 within 2048 with
  the steps numbered along a sequence in which every group of four consecutive steps is one pass over the tiles.
-/
import proofs.«142400_j89936615178820_1_alg».proof.Proof.LibTileSum

namespace Cert.Accum

open Cert.TileSum

variable {M : Type*} [AddCommMonoid M]

/-- A sequence that starts at the first tile's value and grows by one tile's value at a time is, at the last tile, the
    sum of all the tile values. -/
theorem running_total {T : ℕ} (hT : 0 < T) (D : Fin T → M) (a : ℕ → M)
    (h0 : a 0 = D ⟨0, hT⟩) (hs : ∀ (k : ℕ) (hk : k + 1 < T), a (k + 1) = a k + D ⟨k + 1, hk⟩) :
    a (T - 1) = ∑ j : Fin T, D j := by
  have key : ∀ k : ℕ, k < T → a k = upTo D k := by
    intro k
    induction k with
    | zero => intro _; rw [h0, upTo_zero D hT]
    | succ k ih => intro hk; rw [hs k hk, ih (by omega), upTo_succ D k hk]
  rw [key (T - 1) (by omega), upTo_last D (T - 1) (by omega)]

/-- The same with each tile's value the sum of `h` inside the tile: at the last tile the sequence is the sum of `h` over
    the whole range of `T` tiles of width `w`. -/
theorem accum_tiles {T w N : ℕ} (hN : N = T * w) (hT : 0 < T) (h : Fin N → M) (a : ℕ → M)
    (hA : a 0 = ∑ l : Fin w, h (tileIdx hN ⟨0, hT⟩ l))
    (hB : ∀ (k : ℕ) (hk : k + 1 < T), a (k + 1) = a k + ∑ l : Fin w, h (tileIdx hN ⟨k + 1, hk⟩ l)) :
    a (T - 1) = ∑ L : Fin N, h L := by
  rw [sum_tiles hN h]
  exact running_total hT (fun j => ∑ l : Fin w, h (tileIdx hN j l)) a hA hB

/-! ## Four tiles of 512 within 2048, the steps numbered 4 · ti + tj -/

/-- Pass `ti` over the four tiles: step `4 · ti` holds the first tile's sum, step `4 · ti + tj` (tj = 1, 2, 3) the step
    before plus tile `tj`'s sum. Then step `4 · ti + 3` holds the sum over all 2048 indices. -/
theorem accum_closed (h : Fin 2048 → M) (a : ℕ → M) (ti : ℕ)
    (hA : a (4 * ti) = ∑ l : Fin 512, h ⟨0 * 512 + l.val, by omega⟩)
    (hB : ∀ (tj : ℕ) (_ : 0 < tj) (h4 : tj < 4),
      a (4 * ti + tj) = a (4 * ti + tj - 1) + ∑ l : Fin 512, h ⟨tj * 512 + l.val, by omega⟩) :
    a (4 * ti + 3) = ∑ L : Fin 2048, h L := by
  refine accum_tiles (T := 4) (w := 512) (N := 2048) (by norm_num) (by norm_num) h (fun k => a (4 * ti + k)) hA ?_
  intro k hk
  have e : 4 * ti + (k + 1) - 1 = 4 * ti + k := by omega
  have s := hB (k + 1) (by omega) hk
  rw [e] at s
  exact s

/-- The same with the first step stated as zero plus the first tile's sum (an accumulator cleared, then added to). -/
theorem accum_closed_zero (h : Fin 2048 → M) (a : ℕ → M) (ti : ℕ)
    (hA : a (4 * ti) = 0 + ∑ l : Fin 512, h ⟨0 * 512 + l.val, by omega⟩)
    (hB : ∀ (tj : ℕ) (_ : 0 < tj) (h4 : tj < 4),
      a (4 * ti + tj) = a (4 * ti + tj - 1) + ∑ l : Fin 512, h ⟨tj * 512 + l.val, by omega⟩) :
    a (4 * ti + 3) = ∑ L : Fin 2048, h L :=
  accum_closed h a ti (hA.trans (zero_add _)) hB

/-- The same at a step `t` named by its remainder and quotient: `t % 4 = 3` and `t / 4 = ti`. -/
theorem accum_closed_at (h : Fin 2048 → M) (a : ℕ → M) (t ti : ℕ) (ht : t % 4 = 3) (hti : t / 4 = ti)
    (hA : a (4 * ti) = 0 + ∑ l : Fin 512, h ⟨0 * 512 + l.val, by omega⟩)
    (hB : ∀ (tj : ℕ) (_ : 0 < tj) (h4 : tj < 4),
      a (4 * ti + tj) = a (4 * ti + tj - 1) + ∑ l : Fin 512, h ⟨tj * 512 + l.val, by omega⟩) :
    a t = ∑ L : Fin 2048, h L := by
  have e : t = 4 * ti + 3 := by omega
  rw [e]
  exact accum_closed_zero h a ti hA hB

/-- The same from the steps' own description: a step whose remainder by 4 is zero holds zero plus the first tile's sum,
    any other step holds the step before plus the sum of the tile its remainder names. Then every step of remainder 3
    holds the sum over all 2048 indices. -/
theorem accum_closed_steps (h : Fin 2048 → M) (a : ℕ → M)
    (hA : ∀ t : ℕ, t % 4 = 0 → a t = 0 + ∑ l : Fin 512, h ⟨0 * 512 + l.val, by omega⟩)
    (hB : ∀ (t : ℕ) (_ : t % 4 ≠ 0),
      a t = a (t - 1) + ∑ l : Fin 512, h ⟨t % 4 * 512 + l.val, by have := Nat.mod_lt t (by norm_num : 0 < 4); omega⟩)
    (t : ℕ) (ht : t % 4 = 3) : a t = ∑ L : Fin 2048, h L := by
  refine accum_closed_at h a t (t / 4) ht rfl (hA _ (by omega)) ?_
  intro tj h0 h4
  have hm : (4 * (t / 4) + tj) % 4 = tj := by omega
  have s := hB (4 * (t / 4) + tj) (by omega)
  refine s.trans (congrArg _ (Finset.sum_congr rfl fun l _ => congrArg h (Fin.ext ?_)))
  show (4 * (t / 4) + tj) % 4 * 512 + l.val = tj * 512 + l.val
  rw [hm]

end Cert.Accum
-- ==== Proof.KValG.lean ====
/-
  Sixteen steps of a running sum, four passes of four tiles.

  A quantity is defined at the sixteen steps 0 … 15. At a step whose remainder by 4 is zero it is zero plus that
  step's tile sum; at any other step it is the step before plus that step's tile sum. If the tile sum of step n is
  the sum, over the 512 offsets of tile n mod 4, of a function of the pass n / 4 and of the index among 2048,
  then at every step of remainder 3 the quantity is the sum of that function over all 2048 indices.
-/
import proofs.«142400_j89936615178820_1_alg».proof.Proof.LibAccum

namespace Cert.Accum

variable {M : Type*} [AddCommMonoid M]

theorem closed_of_steps {NN : ℕ} (hNN : NN = 16) (o : (n : ℕ) → n < NN → M) (s : (n : ℕ) → n < NN → Fin 512 → M)
    (h : ℕ → Fin 2048 → M)
    (recA : ∀ (n : ℕ) (hn : n < NN), n % 4 = 0 → o n hn = 0 + ∑ l : Fin 512, s n hn l)
    (recB : ∀ (n : ℕ) (hn : n < NN) (h0 : n % 4 ≠ 0),
      o n hn = o (n - 1) (Nat.lt_of_le_of_lt (Nat.sub_le _ _) hn) + ∑ l : Fin 512, s n hn l)
    (hs : ∀ (n : ℕ) (hn : n < NN) (l : Fin 512),
      s n hn l = h (n / 4) ⟨n % 4 * 512 + l.val, by have := l.isLt; omega⟩)
    (n : ℕ) (hn : n < NN) (h3 : n % 4 = 3) : o n hn = ∑ L : Fin 2048, h (n / 4) L := by
  subst hNN
  have hcg : ∀ (p q : ℕ) (hpq : p = q) (L1 L2 : Fin 2048) (hL : L1 = L2), h p L1 = h q L2 := by
    intro p q hpq L1 L2 hL; subst hpq; subst hL; rfl
  let a : ℕ → M := fun k => if hk : k < 16 then o k hk else 0
  have ha : ∀ (k : ℕ) (hk : k < 16), a k = o k hk := fun k hk => dif_pos hk
  have key := accum_closed_at (h (n / 4)) a n (n / 4) h3 rfl ?_ ?_
  · rw [← ha n hn]; exact key
  · have hk : 4 * (n / 4) < 16 := by omega
    rw [ha _ hk, recA _ hk (by omega)]
    refine congrArg (fun z => 0 + z) (Finset.sum_congr rfl fun l _ => ?_)
    rw [hs]
    exact hcg _ _ (by omega) _ _ (Fin.ext (by show 4 * (n / 4) % 4 * 512 + l.val = 0 * 512 + l.val; omega))
  · intro tj h0 h4
    have hk : 4 * (n / 4) + tj < 16 := by omega
    have hk' : 4 * (n / 4) + tj - 1 < 16 := by omega
    rw [ha _ hk, ha _ hk', recB _ hk (by omega)]
    refine congrArg (fun z => o (4 * (n / 4) + tj - 1) hk' + z) (Finset.sum_congr rfl fun l _ => ?_)
    rw [hs]
    exact hcg _ _ (by omega) _ _
      (Fin.ext (by show (4 * (n / 4) + tj) % 4 * 512 + l.val = tj * 512 + l.val; omega))

end Cert.Accum
-- ==== Proof.KValF1.lean ====
/- The running sums at the points that write back, in closed form: after the fourth column block of a row block every running sum is
  the specification's row sum over all 2048 columns. The three [1,512] outputs and the level counts.
-/
import proofs.«142400_j89936615178820_1_alg».proof.Proof.KValP1
import proofs.«142400_j89936615178820_1_alg».proof.Proof.KValP2
import proofs.«142400_j89936615178820_1_alg».proof.Proof.KValH
import proofs.«142400_j89936615178820_1_alg».proof.Proof.KValG
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

namespace KVal

open Idealize.ShloMosaic.ValueIdx

section
variable (m : (ℓ : Loc nD τ sig) → Buf (Elt Ideal) ℓ)

/-- Output 4 at a point that writes back: the whole row sum. -/
theorem closed4 (c : Dev nD) (t : Fin cfg0.N) (ht : t.val % 4 = 3) (j : Fin 512) :
    (outsAt0 m c t.val t.isLt).1 (ix2 (0 : Fin 1) j) = LogRatio.Pn (labArr m c) (Jr t j) := by
  have key := Cert.Accum.closed_of_steps (M := EReal) (NN := cfg0.N) N_0
    (fun n hn => (outsAt0 m c n hn).1 (ix2 (0 : Fin 1) j))
    (fun n hn l => tPos (grid0.coords ⟨n, hn⟩) (iblk m c 2 ⟨n, hn⟩) (iblk m c 3 ⟨n, hn⟩) (ix2 l j))
    (fun ti L => LogRatio.pos (labArr m c) (Jn ti j) L)
    (fun n hn h0 => recA4 m c ⟨n, hn⟩ h0 j)
    (fun n hn h0 => recB4 m c ⟨n, hn⟩ h0 j)
    (fun n hn l => by rw [tPos_eq m c ⟨n, hn⟩ l j, Jr_eq]; rfl)
    t.val t.isLt ht
  rw [Jr_eq]
  exact key

/-- Output 5 at a point that writes back: the whole row sum. -/
theorem closed5 (c : Dev nD) (t : Fin cfg0.N) (ht : t.val % 4 = 3) (j : Fin 512) :
    (outsAt0 m c t.val t.isLt).2.1 (ix2 (0 : Fin 1) j) = LogRatio.S1 (xArr m c) (labArr m c) (Jr t j) := by
  have key := Cert.Accum.closed_of_steps (M := EReal) (NN := cfg0.N) N_0
    (fun n hn => (outsAt0 m c n hn).2.1 (ix2 (0 : Fin 1) j))
    (fun n hn l => tPos (grid0.coords ⟨n, hn⟩) (iblk m c 2 ⟨n, hn⟩) (iblk m c 3 ⟨n, hn⟩) (ix2 l j) * tLog (iblk m c 0 ⟨n, hn⟩) (iblk m c 1 ⟨n, hn⟩) (ix2 l j))
    (fun ti L => LogRatio.pos (labArr m c) (Jn ti j) L * LogRatio.A (xArr m c) (Jn ti j) L)
    (fun n hn h0 => recA5 m c ⟨n, hn⟩ h0 j)
    (fun n hn h0 => recB5 m c ⟨n, hn⟩ h0 j)
    (fun n hn l => by rw [tPos_eq m c ⟨n, hn⟩ l j, tLog_eq m c ⟨n, hn⟩ l j, Jr_eq]; rfl)
    t.val t.isLt ht
  rw [Jr_eq]
  exact key

/-- Output 6 at a point that writes back: the whole row sum. -/
theorem closed6 (c : Dev nD) (t : Fin cfg0.N) (ht : t.val % 4 = 3) (j : Fin 512) :
    (outsAt0 m c t.val t.isLt).2.2.1 (ix2 (0 : Fin 1) j) = LogRatio.S2 (xArr m c) (labArr m c) (Jr t j) := by
  have key := Cert.Accum.closed_of_steps (M := EReal) (NN := cfg0.N) N_0
    (fun n hn => (outsAt0 m c n hn).2.2.1 (ix2 (0 : Fin 1) j))
    (fun n hn l => tPos (grid0.coords ⟨n, hn⟩) (iblk m c 2 ⟨n, hn⟩) (iblk m c 3 ⟨n, hn⟩) (ix2 l j) * tLog2 (iblk m c 0 ⟨n, hn⟩) (iblk m c 1 ⟨n, hn⟩) (ix2 l j))
    (fun ti L => LogRatio.pos (labArr m c) (Jn ti j) L * (LogRatio.A (xArr m c) (Jn ti j) L * LogRatio.A (xArr m c) (Jn ti j) L))
    (fun n hn h0 => recA6 m c ⟨n, hn⟩ h0 j)
    (fun n hn h0 => recB6 m c ⟨n, hn⟩ h0 j)
    (fun n hn l => by rw [tPos_eq m c ⟨n, hn⟩ l j, tLog2_eq m c ⟨n, hn⟩ l j, Jr_eq]; rfl)
    t.val t.isLt ht
  rw [Jr_eq]
  exact key

/-- Output 7, level 0 at a point that writes back: the whole row sum. -/
theorem closed7_0 (c : Dev nD) (t : Fin cfg0.N) (ht : t.val % 4 = 3) (j : Fin 512) :
    (outsAt0 m c t.val t.isLt).2.2.2.1 (ix2 (0 : Fin 4) j) = LogRatio.Nn (labArr m c) 0 (Jr t j) := by
  have key := Cert.Accum.closed_of_steps (M := EReal) (NN := cfg0.N) N_0
    (fun n hn => (outsAt0 m c n hn).2.2.2.1 (ix2 (0 : Fin 4) j))
    (fun n hn l => tN0 (iblk m c 2 ⟨n, hn⟩) (iblk m c 3 ⟨n, hn⟩) (ix2 l j))
    (fun ti L => LogRatio.N (labArr m c) 0 (Jn ti j) L)
    (fun n hn h0 => recA7_0 m c ⟨n, hn⟩ h0 j)
    (fun n hn h0 => recB7_0 m c ⟨n, hn⟩ h0 j)
    (fun n hn l => by rw [tN0_eq m c ⟨n, hn⟩ l j, Jr_eq]; rfl)
    t.val t.isLt ht
  rw [Jr_eq]
  exact key

/-- Output 7, level 1 at a point that writes back: the whole row sum. -/
theorem closed7_1 (c : Dev nD) (t : Fin cfg0.N) (ht : t.val % 4 = 3) (j : Fin 512) :
    (outsAt0 m c t.val t.isLt).2.2.2.1 (ix2 (1 : Fin 4) j) = LogRatio.Nn (labArr m c) 1 (Jr t j) := by
  have key := Cert.Accum.closed_of_steps (M := EReal) (NN := cfg0.N) N_0
    (fun n hn => (outsAt0 m c n hn).2.2.2.1 (ix2 (1 : Fin 4) j))
    (fun n hn l => tN1 (iblk m c 2 ⟨n, hn⟩) (iblk m c 3 ⟨n, hn⟩) (ix2 l j))
    (fun ti L => LogRatio.N (labArr m c) 1 (Jn ti j) L)
    (fun n hn h0 => recA7_1 m c ⟨n, hn⟩ h0 j)
    (fun n hn h0 => recB7_1 m c ⟨n, hn⟩ h0 j)
    (fun n hn l => by rw [tN1_eq m c ⟨n, hn⟩ l j, Jr_eq]; rfl)
    t.val t.isLt ht
  rw [Jr_eq]
  exact key

/-- Output 7, level 2 at a point that writes back: the whole row sum. -/
theorem closed7_2 (c : Dev nD) (t : Fin cfg0.N) (ht : t.val % 4 = 3) (j : Fin 512) :
    (outsAt0 m c t.val t.isLt).2.2.2.1 (ix2 (2 : Fin 4) j) = LogRatio.Nn (labArr m c) 2 (Jr t j) := by
  have key := Cert.Accum.closed_of_steps (M := EReal) (NN := cfg0.N) N_0
    (fun n hn => (outsAt0 m c n hn).2.2.2.1 (ix2 (2 : Fin 4) j))
    (fun n hn l => tN2 (iblk m c 2 ⟨n, hn⟩) (iblk m c 3 ⟨n, hn⟩) (ix2 l j))
    (fun ti L => LogRatio.N (labArr m c) 2 (Jn ti j) L)
    (fun n hn h0 => recA7_2 m c ⟨n, hn⟩ h0 j)
    (fun n hn h0 => recB7_2 m c ⟨n, hn⟩ h0 j)
    (fun n hn l => by rw [tN2_eq m c ⟨n, hn⟩ l j, Jr_eq]; rfl)
    t.val t.isLt ht
  rw [Jr_eq]
  exact key

/-- Output 7, level 3 at a point that writes back: the whole row sum. -/
theorem closed7_3 (c : Dev nD) (t : Fin cfg0.N) (ht : t.val % 4 = 3) (j : Fin 512) :
    (outsAt0 m c t.val t.isLt).2.2.2.1 (ix2 (3 : Fin 4) j) = LogRatio.Nn (labArr m c) 3 (Jr t j) := by
  have key := Cert.Accum.closed_of_steps (M := EReal) (NN := cfg0.N) N_0
    (fun n hn => (outsAt0 m c n hn).2.2.2.1 (ix2 (3 : Fin 4) j))
    (fun n hn l => tN3 (iblk m c 2 ⟨n, hn⟩) (iblk m c 3 ⟨n, hn⟩) (ix2 l j))
    (fun ti L => LogRatio.N (labArr m c) 3 (Jn ti j) L)
    (fun n hn h0 => recA7_3 m c ⟨n, hn⟩ h0 j)
    (fun n hn h0 => recB7_3 m c ⟨n, hn⟩ h0 j)
    (fun n hn l => by rw [tN3_eq m c ⟨n, hn⟩ l j, Jr_eq]; rfl)
    t.val t.isLt ht
  rw [Jr_eq]
  exact key

end

end KVal

end Cert.KernelIdeal.Hand

end
-- ==== Proof.KValF2.lean ====
/- The running sums at the points that write back, in closed form: after the fourth column block of a row block every running sum is
  the specification's row sum over all 2048 columns. The level sums of the logarithm and of its square.
-/
import proofs.«142400_j89936615178820_1_alg».proof.Proof.KValP1
import proofs.«142400_j89936615178820_1_alg».proof.Proof.KValP2
import proofs.«142400_j89936615178820_1_alg».proof.Proof.KValH
import proofs.«142400_j89936615178820_1_alg».proof.Proof.KValG
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

namespace KVal

open Idealize.ShloMosaic.ValueIdx

section
variable (m : (ℓ : Loc nD τ sig) → Buf (Elt Ideal) ℓ)

/-- Output 8, level 0 at a point that writes back: the whole row sum. -/
theorem closed8_0 (c : Dev nD) (t : Fin cfg0.N) (ht : t.val % 4 = 3) (j : Fin 512) :
    (outsAt0 m c t.val t.isLt).2.2.2.2.1 (ix2 (0 : Fin 4) j) = LogRatio.T1 (xArr m c) (labArr m c) 0 (Jr t j) := by
  have key := Cert.Accum.closed_of_steps (M := EReal) (NN := cfg0.N) N_0
    (fun n hn => (outsAt0 m c n hn).2.2.2.2.1 (ix2 (0 : Fin 4) j))
    (fun n hn l => tN0 (iblk m c 2 ⟨n, hn⟩) (iblk m c 3 ⟨n, hn⟩) (ix2 l j) * tLog (iblk m c 0 ⟨n, hn⟩) (iblk m c 1 ⟨n, hn⟩) (ix2 l j))
    (fun ti L => LogRatio.N (labArr m c) 0 (Jn ti j) L * LogRatio.A (xArr m c) (Jn ti j) L)
    (fun n hn h0 => recA8_0 m c ⟨n, hn⟩ h0 j)
    (fun n hn h0 => recB8_0 m c ⟨n, hn⟩ h0 j)
    (fun n hn l => by rw [tN0_eq m c ⟨n, hn⟩ l j, tLog_eq m c ⟨n, hn⟩ l j, Jr_eq]; rfl)
    t.val t.isLt ht
  rw [Jr_eq]
  exact key

/-- Output 8, level 1 at a point that writes back: the whole row sum. -/
theorem closed8_1 (c : Dev nD) (t : Fin cfg0.N) (ht : t.val % 4 = 3) (j : Fin 512) :
    (outsAt0 m c t.val t.isLt).2.2.2.2.1 (ix2 (1 : Fin 4) j) = LogRatio.T1 (xArr m c) (labArr m c) 1 (Jr t j) := by
  have key := Cert.Accum.closed_of_steps (M := EReal) (NN := cfg0.N) N_0
    (fun n hn => (outsAt0 m c n hn).2.2.2.2.1 (ix2 (1 : Fin 4) j))
    (fun n hn l => tN1 (iblk m c 2 ⟨n, hn⟩) (iblk m c 3 ⟨n, hn⟩) (ix2 l j) * tLog (iblk m c 0 ⟨n, hn⟩) (iblk m c 1 ⟨n, hn⟩) (ix2 l j))
    (fun ti L => LogRatio.N (labArr m c) 1 (Jn ti j) L * LogRatio.A (xArr m c) (Jn ti j) L)
    (fun n hn h0 => recA8_1 m c ⟨n, hn⟩ h0 j)
    (fun n hn h0 => recB8_1 m c ⟨n, hn⟩ h0 j)
    (fun n hn l => by rw [tN1_eq m c ⟨n, hn⟩ l j, tLog_eq m c ⟨n, hn⟩ l j, Jr_eq]; rfl)
    t.val t.isLt ht
  rw [Jr_eq]
  exact key

/-- Output 8, level 2 at a point that writes back: the whole row sum. -/
theorem closed8_2 (c : Dev nD) (t : Fin cfg0.N) (ht : t.val % 4 = 3) (j : Fin 512) :
    (outsAt0 m c t.val t.isLt).2.2.2.2.1 (ix2 (2 : Fin 4) j) = LogRatio.T1 (xArr m c) (labArr m c) 2 (Jr t j) := by
  have key := Cert.Accum.closed_of_steps (M := EReal) (NN := cfg0.N) N_0
    (fun n hn => (outsAt0 m c n hn).2.2.2.2.1 (ix2 (2 : Fin 4) j))
    (fun n hn l => tN2 (iblk m c 2 ⟨n, hn⟩) (iblk m c 3 ⟨n, hn⟩) (ix2 l j) * tLog (iblk m c 0 ⟨n, hn⟩) (iblk m c 1 ⟨n, hn⟩) (ix2 l j))
    (fun ti L => LogRatio.N (labArr m c) 2 (Jn ti j) L * LogRatio.A (xArr m c) (Jn ti j) L)
    (fun n hn h0 => recA8_2 m c ⟨n, hn⟩ h0 j)
    (fun n hn h0 => recB8_2 m c ⟨n, hn⟩ h0 j)
    (fun n hn l => by rw [tN2_eq m c ⟨n, hn⟩ l j, tLog_eq m c ⟨n, hn⟩ l j, Jr_eq]; rfl)
    t.val t.isLt ht
  rw [Jr_eq]
  exact key

/-- Output 8, level 3 at a point that writes back: the whole row sum. -/
theorem closed8_3 (c : Dev nD) (t : Fin cfg0.N) (ht : t.val % 4 = 3) (j : Fin 512) :
    (outsAt0 m c t.val t.isLt).2.2.2.2.1 (ix2 (3 : Fin 4) j) = LogRatio.T1 (xArr m c) (labArr m c) 3 (Jr t j) := by
  have key := Cert.Accum.closed_of_steps (M := EReal) (NN := cfg0.N) N_0
    (fun n hn => (outsAt0 m c n hn).2.2.2.2.1 (ix2 (3 : Fin 4) j))
    (fun n hn l => tN3 (iblk m c 2 ⟨n, hn⟩) (iblk m c 3 ⟨n, hn⟩) (ix2 l j) * tLog (iblk m c 0 ⟨n, hn⟩) (iblk m c 1 ⟨n, hn⟩) (ix2 l j))
    (fun ti L => LogRatio.N (labArr m c) 3 (Jn ti j) L * LogRatio.A (xArr m c) (Jn ti j) L)
    (fun n hn h0 => recA8_3 m c ⟨n, hn⟩ h0 j)
    (fun n hn h0 => recB8_3 m c ⟨n, hn⟩ h0 j)
    (fun n hn l => by rw [tN3_eq m c ⟨n, hn⟩ l j, tLog_eq m c ⟨n, hn⟩ l j, Jr_eq]; rfl)
    t.val t.isLt ht
  rw [Jr_eq]
  exact key

/-- Output 9, level 0 at a point that writes back: the whole row sum. -/
theorem closed9_0 (c : Dev nD) (t : Fin cfg0.N) (ht : t.val % 4 = 3) (j : Fin 512) :
    (outsAt0 m c t.val t.isLt).2.2.2.2.2 (ix2 (0 : Fin 4) j) = LogRatio.T2 (xArr m c) (labArr m c) 0 (Jr t j) := by
  have key := Cert.Accum.closed_of_steps (M := EReal) (NN := cfg0.N) N_0
    (fun n hn => (outsAt0 m c n hn).2.2.2.2.2 (ix2 (0 : Fin 4) j))
    (fun n hn l => tN0 (iblk m c 2 ⟨n, hn⟩) (iblk m c 3 ⟨n, hn⟩) (ix2 l j) * tLog2 (iblk m c 0 ⟨n, hn⟩) (iblk m c 1 ⟨n, hn⟩) (ix2 l j))
    (fun ti L => LogRatio.N (labArr m c) 0 (Jn ti j) L * (LogRatio.A (xArr m c) (Jn ti j) L * LogRatio.A (xArr m c) (Jn ti j) L))
    (fun n hn h0 => recA9_0 m c ⟨n, hn⟩ h0 j)
    (fun n hn h0 => recB9_0 m c ⟨n, hn⟩ h0 j)
    (fun n hn l => by rw [tN0_eq m c ⟨n, hn⟩ l j, tLog2_eq m c ⟨n, hn⟩ l j, Jr_eq]; rfl)
    t.val t.isLt ht
  rw [Jr_eq]
  exact key

/-- Output 9, level 1 at a point that writes back: the whole row sum. -/
theorem closed9_1 (c : Dev nD) (t : Fin cfg0.N) (ht : t.val % 4 = 3) (j : Fin 512) :
    (outsAt0 m c t.val t.isLt).2.2.2.2.2 (ix2 (1 : Fin 4) j) = LogRatio.T2 (xArr m c) (labArr m c) 1 (Jr t j) := by
  have key := Cert.Accum.closed_of_steps (M := EReal) (NN := cfg0.N) N_0
    (fun n hn => (outsAt0 m c n hn).2.2.2.2.2 (ix2 (1 : Fin 4) j))
    (fun n hn l => tN1 (iblk m c 2 ⟨n, hn⟩) (iblk m c 3 ⟨n, hn⟩) (ix2 l j) * tLog2 (iblk m c 0 ⟨n, hn⟩) (iblk m c 1 ⟨n, hn⟩) (ix2 l j))
    (fun ti L => LogRatio.N (labArr m c) 1 (Jn ti j) L * (LogRatio.A (xArr m c) (Jn ti j) L * LogRatio.A (xArr m c) (Jn ti j) L))
    (fun n hn h0 => recA9_1 m c ⟨n, hn⟩ h0 j)
    (fun n hn h0 => recB9_1 m c ⟨n, hn⟩ h0 j)
    (fun n hn l => by rw [tN1_eq m c ⟨n, hn⟩ l j, tLog2_eq m c ⟨n, hn⟩ l j, Jr_eq]; rfl)
    t.val t.isLt ht
  rw [Jr_eq]
  exact key

/-- Output 9, level 2 at a point that writes back: the whole row sum. -/
theorem closed9_2 (c : Dev nD) (t : Fin cfg0.N) (ht : t.val % 4 = 3) (j : Fin 512) :
    (outsAt0 m c t.val t.isLt).2.2.2.2.2 (ix2 (2 : Fin 4) j) = LogRatio.T2 (xArr m c) (labArr m c) 2 (Jr t j) := by
  have key := Cert.Accum.closed_of_steps (M := EReal) (NN := cfg0.N) N_0
    (fun n hn => (outsAt0 m c n hn).2.2.2.2.2 (ix2 (2 : Fin 4) j))
    (fun n hn l => tN2 (iblk m c 2 ⟨n, hn⟩) (iblk m c 3 ⟨n, hn⟩) (ix2 l j) * tLog2 (iblk m c 0 ⟨n, hn⟩) (iblk m c 1 ⟨n, hn⟩) (ix2 l j))
    (fun ti L => LogRatio.N (labArr m c) 2 (Jn ti j) L * (LogRatio.A (xArr m c) (Jn ti j) L * LogRatio.A (xArr m c) (Jn ti j) L))
    (fun n hn h0 => recA9_2 m c ⟨n, hn⟩ h0 j)
    (fun n hn h0 => recB9_2 m c ⟨n, hn⟩ h0 j)
    (fun n hn l => by rw [tN2_eq m c ⟨n, hn⟩ l j, tLog2_eq m c ⟨n, hn⟩ l j, Jr_eq]; rfl)
    t.val t.isLt ht
  rw [Jr_eq]
  exact key

/-- Output 9, level 3 at a point that writes back: the whole row sum. -/
theorem closed9_3 (c : Dev nD) (t : Fin cfg0.N) (ht : t.val % 4 = 3) (j : Fin 512) :
    (outsAt0 m c t.val t.isLt).2.2.2.2.2 (ix2 (3 : Fin 4) j) = LogRatio.T2 (xArr m c) (labArr m c) 3 (Jr t j) := by
  have key := Cert.Accum.closed_of_steps (M := EReal) (NN := cfg0.N) N_0
    (fun n hn => (outsAt0 m c n hn).2.2.2.2.2 (ix2 (3 : Fin 4) j))
    (fun n hn l => tN3 (iblk m c 2 ⟨n, hn⟩) (iblk m c 3 ⟨n, hn⟩) (ix2 l j) * tLog2 (iblk m c 0 ⟨n, hn⟩) (iblk m c 1 ⟨n, hn⟩) (ix2 l j))
    (fun ti L => LogRatio.N (labArr m c) 3 (Jn ti j) L * (LogRatio.A (xArr m c) (Jn ti j) L * LogRatio.A (xArr m c) (Jn ti j) L))
    (fun n hn h0 => recA9_3 m c ⟨n, hn⟩ h0 j)
    (fun n hn h0 => recB9_3 m c ⟨n, hn⟩ h0 j)
    (fun n hn l => by rw [tN3_eq m c ⟨n, hn⟩ l j, tLog2_eq m c ⟨n, hn⟩ l j, Jr_eq]; rfl)
    t.val t.isLt ht
  rw [Jr_eq]
  exact key

end

end KVal

end Cert.KernelIdeal.Hand

end
-- ==== Proof.KArr.lean ====
/-
  From blocks to arrays: the kernel's six result arrays after the run.

  The grid is 4 × 4, walked row-major: point t is (t / 4, t mod 4). Each of the six outputs is an array of
  2048 columns (one row for the first three, four rows for the others) cut into four column blocks of 512;
  the block a point stages is the one at column block t / 4, and it is written back once, at the last point
  of its grid row (t mod 4 = 3). So if, at each of those four points, what the body left in the staging
  buffer is a function G of the array index read at "row y₀, column (t / 4) · 512 + y₁", then the array ends
  holding G: the four blocks written back tile it.
-/
import proofs.«142400_j89936615178820_1_alg».proof.Proof.KIFrame
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The array index of coordinate y of the [1, 512] block that point t stages: row y₀, column (t / 4) · 512 + y₁. -/
def at1 (t : Fin cfg0.N) (y : S1x512.Idx) : S1x2048.Idx :=
  ix2 (y 0 : Fin 1) (⟨t.val / 4 * 512 + (y 1).val, by
    have hN : cfg0.N = 16 := N_0
    have ht := t.isLt
    have hy : (y 1).val < 512 := (y 1).isLt
    omega⟩ : Fin 2048)

/-- The array index of coordinate y of the [4, 512] block that point t stages: row y₀, column (t / 4) · 512 + y₁. -/
def at4 (t : Fin cfg0.N) (y : S4x512.Idx) : S4x2048.Idx :=
  ix2 (y 0 : Fin 4) (⟨t.val / 4 * 512 + (y 1).val, by
    have hN : cfg0.N = 16 := N_0
    have ht := t.isLt
    have hy : (y 1).val < 512 := (y 1).isLt
    omega⟩ : Fin 2048)

/-- The point that writes back column block q: the last of grid row q. -/
def lastOf (q : Fin 4) : Fin cfg0.N := ⟨q.val * 4 + 3, by
  have hN : cfg0.N = 16 := N_0
  have := q.isLt
  omega⟩

/-! ## Output window 4 -/

/-- The printed index map, decided over the grid: block row 0, column block t / 4. -/
theorem idx_facts4 : ∀ t : Fin cfg0.N, win0_4.index t (0 : Fin 2) = 0 ∧ win0_4.index t (1 : Fin 2) = t.val / 4 :=
  (by decide +kernel : ∀ t : Fin grid0.N, win0_4.index t (0 : Fin 2) = 0 ∧ win0_4.index t (1 : Fin 2) = t.val / 4)

/-- What a writing point writes back is its block of G. -/
theorem flushed4_eq (c : Dev nD) (G : S1x2048.Idx → Elt F .f32)
    (H : ∀ t : Fin cfg0.N, t.val % 4 = 3 → ∀ y : S1x512.Idx, (dats m 0 c).after 4 t y = G (at1 t y))
    (t : Fin cfg0.N) (hf : (cfg0.win 4).flush t = true) :
    (dats m 0 c).flushed 4 t = ((cfg0.win 4).blk t).view.read (Elt F) G := by
  have h3 : t.val % 4 = 3 := (flush0_4 t).mp hf
  obtain ⟨e0, e1⟩ := idx_facts4 t
  show (cfg0.win 4).cut (grid0.coords t) ((dats m 0 c).after 4 t) = _
  funext y
  show (dats m 0 c).after 4 t y = G (((cfg0.win 4).blk t).view.emb y)
  rw [H t h3 y]
  congr 1
  funext a
  apply Fin.ext
  match a with
  | ⟨0, _⟩ =>
    show (y 0).val = win0_4.index t (0 : Fin 2) * 1 + 1 * (y 0).val
    rw [e0]; omega
  | ⟨1, _⟩ =>
    show t.val / 4 * 512 + (y 1).val = win0_4.index t (1 : Fin 2) * 512 + 1 * (y 1).val
    rw [e1]; omega

/-- An index of the array is in point t's block iff each coordinate is in the block's range on its axis. -/
theorem mem_blk4 (t : Fin cfg0.N) (i : S1x2048.Idx) :
    i ∈ ((cfg0.win 4).blk t).view.set ↔ ∀ a : Fin 2, win0_4.index t a * S1x512.size a ≤ (i a).val ∧ (i a).val < win0_4.index t a * S1x512.size a + S1x512.size a := by
  show i ∈ ((View.whole main_v1_0).slice (win0_4.rect t)).set ↔ _
  rw [View.set_slice_whole, Rect.mem_set_unit]
  exact Iff.rfl

/-- Every index of the array is in the block written back at the last point of its column block's grid row. -/
theorem cover4 (i : S1x2048.Idx) :
    ∃ t : Fin cfg0.N, (cfg0.win 4).flush t = true ∧ i ∈ ((cfg0.win 4).blk t).view.set := by
  have hi0 : (i 0).val < 1 := (i 0).isLt
  have hi1 : (i 1).val < 2048 := (i 1).isLt
  refine ⟨lastOf ⟨(i 1).val / 512, by omega⟩, (flush0_4 _).mpr (by show ((i 1).val / 512 * 4 + 3) % 4 = 3; omega), ?_⟩
  obtain ⟨e0, e1⟩ := idx_facts4 (lastOf ⟨(i 1).val / 512, by omega⟩)
  have e1' : win0_4.index (lastOf ⟨(i 1).val / 512, by omega⟩) (1 : Fin 2) = (i 1).val / 512 := by
    rw [e1]; show ((i 1).val / 512 * 4 + 3) / 4 = (i 1).val / 512; omega
  rw [mem_blk4]
  intro a
  match a with
  | ⟨0, _⟩ =>
    show win0_4.index _ (0 : Fin 2) * 1 ≤ (i 0).val ∧ (i 0).val < win0_4.index _ (0 : Fin 2) * 1 + 1
    rw [e0]; omega
  | ⟨1, _⟩ =>
    show win0_4.index _ (1 : Fin 2) * 512 ≤ (i 1).val ∧ (i 1).val < win0_4.index _ (1 : Fin 2) * 512 + 512
    rw [e1']; omega

/-- The array of output window 4 after the run. -/
theorem arrAt_4_eq (c : Dev nD) (G : S1x2048.Idx → Elt F .f32)
    (H : ∀ t : Fin cfg0.N, t.val % 4 = 3 → ∀ y : S1x512.Idx, (dats m 0 c).after 4 t y = G (at1 t y)) :
    (dats m 0 c).arrAt 4 cfg0.N = G :=
  (dats m 0 c).arrAt_eq_of_cover 4 G (flushed4_eq m c G H) cover4

/-! ## Output window 5 -/

/-- The printed index map, decided over the grid: block row 0, column block t / 4. -/
theorem idx_facts5 : ∀ t : Fin cfg0.N, win0_5.index t (0 : Fin 2) = 0 ∧ win0_5.index t (1 : Fin 2) = t.val / 4 :=
  (by decide +kernel : ∀ t : Fin grid0.N, win0_5.index t (0 : Fin 2) = 0 ∧ win0_5.index t (1 : Fin 2) = t.val / 4)

/-- What a writing point writes back is its block of G. -/
theorem flushed5_eq (c : Dev nD) (G : S1x2048.Idx → Elt F .f32)
    (H : ∀ t : Fin cfg0.N, t.val % 4 = 3 → ∀ y : S1x512.Idx, (dats m 0 c).after 5 t y = G (at1 t y))
    (t : Fin cfg0.N) (hf : (cfg0.win 5).flush t = true) :
    (dats m 0 c).flushed 5 t = ((cfg0.win 5).blk t).view.read (Elt F) G := by
  have h3 : t.val % 4 = 3 := (flush0_5 t).mp hf
  obtain ⟨e0, e1⟩ := idx_facts5 t
  show (cfg0.win 5).cut (grid0.coords t) ((dats m 0 c).after 5 t) = _
  funext y
  show (dats m 0 c).after 5 t y = G (((cfg0.win 5).blk t).view.emb y)
  rw [H t h3 y]
  congr 1
  funext a
  apply Fin.ext
  match a with
  | ⟨0, _⟩ =>
    show (y 0).val = win0_5.index t (0 : Fin 2) * 1 + 1 * (y 0).val
    rw [e0]; omega
  | ⟨1, _⟩ =>
    show t.val / 4 * 512 + (y 1).val = win0_5.index t (1 : Fin 2) * 512 + 1 * (y 1).val
    rw [e1]; omega

/-- An index of the array is in point t's block iff each coordinate is in the block's range on its axis. -/
theorem mem_blk5 (t : Fin cfg0.N) (i : S1x2048.Idx) :
    i ∈ ((cfg0.win 5).blk t).view.set ↔ ∀ a : Fin 2, win0_5.index t a * S1x512.size a ≤ (i a).val ∧ (i a).val < win0_5.index t a * S1x512.size a + S1x512.size a := by
  show i ∈ ((View.whole main_v1_1).slice (win0_5.rect t)).set ↔ _
  rw [View.set_slice_whole, Rect.mem_set_unit]
  exact Iff.rfl

/-- Every index of the array is in the block written back at the last point of its column block's grid row. -/
theorem cover5 (i : S1x2048.Idx) :
    ∃ t : Fin cfg0.N, (cfg0.win 5).flush t = true ∧ i ∈ ((cfg0.win 5).blk t).view.set := by
  have hi0 : (i 0).val < 1 := (i 0).isLt
  have hi1 : (i 1).val < 2048 := (i 1).isLt
  refine ⟨lastOf ⟨(i 1).val / 512, by omega⟩, (flush0_5 _).mpr (by show ((i 1).val / 512 * 4 + 3) % 4 = 3; omega), ?_⟩
  obtain ⟨e0, e1⟩ := idx_facts5 (lastOf ⟨(i 1).val / 512, by omega⟩)
  have e1' : win0_5.index (lastOf ⟨(i 1).val / 512, by omega⟩) (1 : Fin 2) = (i 1).val / 512 := by
    rw [e1]; show ((i 1).val / 512 * 4 + 3) / 4 = (i 1).val / 512; omega
  rw [mem_blk5]
  intro a
  match a with
  | ⟨0, _⟩ =>
    show win0_5.index _ (0 : Fin 2) * 1 ≤ (i 0).val ∧ (i 0).val < win0_5.index _ (0 : Fin 2) * 1 + 1
    rw [e0]; omega
  | ⟨1, _⟩ =>
    show win0_5.index _ (1 : Fin 2) * 512 ≤ (i 1).val ∧ (i 1).val < win0_5.index _ (1 : Fin 2) * 512 + 512
    rw [e1']; omega

/-- The array of output window 5 after the run. -/
theorem arrAt_5_eq (c : Dev nD) (G : S1x2048.Idx → Elt F .f32)
    (H : ∀ t : Fin cfg0.N, t.val % 4 = 3 → ∀ y : S1x512.Idx, (dats m 0 c).after 5 t y = G (at1 t y)) :
    (dats m 0 c).arrAt 5 cfg0.N = G :=
  (dats m 0 c).arrAt_eq_of_cover 5 G (flushed5_eq m c G H) cover5

/-! ## Output window 6 -/

/-- The printed index map, decided over the grid: block row 0, column block t / 4. -/
theorem idx_facts6 : ∀ t : Fin cfg0.N, win0_6.index t (0 : Fin 2) = 0 ∧ win0_6.index t (1 : Fin 2) = t.val / 4 :=
  (by decide +kernel : ∀ t : Fin grid0.N, win0_6.index t (0 : Fin 2) = 0 ∧ win0_6.index t (1 : Fin 2) = t.val / 4)

/-- What a writing point writes back is its block of G. -/
theorem flushed6_eq (c : Dev nD) (G : S1x2048.Idx → Elt F .f32)
    (H : ∀ t : Fin cfg0.N, t.val % 4 = 3 → ∀ y : S1x512.Idx, (dats m 0 c).after 6 t y = G (at1 t y))
    (t : Fin cfg0.N) (hf : (cfg0.win 6).flush t = true) :
    (dats m 0 c).flushed 6 t = ((cfg0.win 6).blk t).view.read (Elt F) G := by
  have h3 : t.val % 4 = 3 := (flush0_6 t).mp hf
  obtain ⟨e0, e1⟩ := idx_facts6 t
  show (cfg0.win 6).cut (grid0.coords t) ((dats m 0 c).after 6 t) = _
  funext y
  show (dats m 0 c).after 6 t y = G (((cfg0.win 6).blk t).view.emb y)
  rw [H t h3 y]
  congr 1
  funext a
  apply Fin.ext
  match a with
  | ⟨0, _⟩ =>
    show (y 0).val = win0_6.index t (0 : Fin 2) * 1 + 1 * (y 0).val
    rw [e0]; omega
  | ⟨1, _⟩ =>
    show t.val / 4 * 512 + (y 1).val = win0_6.index t (1 : Fin 2) * 512 + 1 * (y 1).val
    rw [e1]; omega

/-- An index of the array is in point t's block iff each coordinate is in the block's range on its axis. -/
theorem mem_blk6 (t : Fin cfg0.N) (i : S1x2048.Idx) :
    i ∈ ((cfg0.win 6).blk t).view.set ↔ ∀ a : Fin 2, win0_6.index t a * S1x512.size a ≤ (i a).val ∧ (i a).val < win0_6.index t a * S1x512.size a + S1x512.size a := by
  show i ∈ ((View.whole main_v1_2).slice (win0_6.rect t)).set ↔ _
  rw [View.set_slice_whole, Rect.mem_set_unit]
  exact Iff.rfl

/-- Every index of the array is in the block written back at the last point of its column block's grid row. -/
theorem cover6 (i : S1x2048.Idx) :
    ∃ t : Fin cfg0.N, (cfg0.win 6).flush t = true ∧ i ∈ ((cfg0.win 6).blk t).view.set := by
  have hi0 : (i 0).val < 1 := (i 0).isLt
  have hi1 : (i 1).val < 2048 := (i 1).isLt
  refine ⟨lastOf ⟨(i 1).val / 512, by omega⟩, (flush0_6 _).mpr (by show ((i 1).val / 512 * 4 + 3) % 4 = 3; omega), ?_⟩
  obtain ⟨e0, e1⟩ := idx_facts6 (lastOf ⟨(i 1).val / 512, by omega⟩)
  have e1' : win0_6.index (lastOf ⟨(i 1).val / 512, by omega⟩) (1 : Fin 2) = (i 1).val / 512 := by
    rw [e1]; show ((i 1).val / 512 * 4 + 3) / 4 = (i 1).val / 512; omega
  rw [mem_blk6]
  intro a
  match a with
  | ⟨0, _⟩ =>
    show win0_6.index _ (0 : Fin 2) * 1 ≤ (i 0).val ∧ (i 0).val < win0_6.index _ (0 : Fin 2) * 1 + 1
    rw [e0]; omega
  | ⟨1, _⟩ =>
    show win0_6.index _ (1 : Fin 2) * 512 ≤ (i 1).val ∧ (i 1).val < win0_6.index _ (1 : Fin 2) * 512 + 512
    rw [e1']; omega

/-- The array of output window 6 after the run. -/
theorem arrAt_6_eq (c : Dev nD) (G : S1x2048.Idx → Elt F .f32)
    (H : ∀ t : Fin cfg0.N, t.val % 4 = 3 → ∀ y : S1x512.Idx, (dats m 0 c).after 6 t y = G (at1 t y)) :
    (dats m 0 c).arrAt 6 cfg0.N = G :=
  (dats m 0 c).arrAt_eq_of_cover 6 G (flushed6_eq m c G H) cover6

/-! ## Output window 7 -/

/-- The printed index map, decided over the grid: block row 0, column block t / 4. -/
theorem idx_facts7 : ∀ t : Fin cfg0.N, win0_7.index t (0 : Fin 2) = 0 ∧ win0_7.index t (1 : Fin 2) = t.val / 4 :=
  (by decide +kernel : ∀ t : Fin grid0.N, win0_7.index t (0 : Fin 2) = 0 ∧ win0_7.index t (1 : Fin 2) = t.val / 4)

/-- What a writing point writes back is its block of G. -/
theorem flushed7_eq (c : Dev nD) (G : S4x2048.Idx → Elt F .f32)
    (H : ∀ t : Fin cfg0.N, t.val % 4 = 3 → ∀ y : S4x512.Idx, (dats m 0 c).after 7 t y = G (at4 t y))
    (t : Fin cfg0.N) (hf : (cfg0.win 7).flush t = true) :
    (dats m 0 c).flushed 7 t = ((cfg0.win 7).blk t).view.read (Elt F) G := by
  have h3 : t.val % 4 = 3 := (flush0_7 t).mp hf
  obtain ⟨e0, e1⟩ := idx_facts7 t
  show (cfg0.win 7).cut (grid0.coords t) ((dats m 0 c).after 7 t) = _
  funext y
  show (dats m 0 c).after 7 t y = G (((cfg0.win 7).blk t).view.emb y)
  rw [H t h3 y]
  congr 1
  funext a
  apply Fin.ext
  match a with
  | ⟨0, _⟩ =>
    show (y 0).val = win0_7.index t (0 : Fin 2) * 4 + 1 * (y 0).val
    rw [e0]; omega
  | ⟨1, _⟩ =>
    show t.val / 4 * 512 + (y 1).val = win0_7.index t (1 : Fin 2) * 512 + 1 * (y 1).val
    rw [e1]; omega

/-- An index of the array is in point t's block iff each coordinate is in the block's range on its axis. -/
theorem mem_blk7 (t : Fin cfg0.N) (i : S4x2048.Idx) :
    i ∈ ((cfg0.win 7).blk t).view.set ↔ ∀ a : Fin 2, win0_7.index t a * S4x512.size a ≤ (i a).val ∧ (i a).val < win0_7.index t a * S4x512.size a + S4x512.size a := by
  show i ∈ ((View.whole main_v1_3).slice (win0_7.rect t)).set ↔ _
  rw [View.set_slice_whole, Rect.mem_set_unit]
  exact Iff.rfl

/-- Every index of the array is in the block written back at the last point of its column block's grid row. -/
theorem cover7 (i : S4x2048.Idx) :
    ∃ t : Fin cfg0.N, (cfg0.win 7).flush t = true ∧ i ∈ ((cfg0.win 7).blk t).view.set := by
  have hi0 : (i 0).val < 4 := (i 0).isLt
  have hi1 : (i 1).val < 2048 := (i 1).isLt
  refine ⟨lastOf ⟨(i 1).val / 512, by omega⟩, (flush0_7 _).mpr (by show ((i 1).val / 512 * 4 + 3) % 4 = 3; omega), ?_⟩
  obtain ⟨e0, e1⟩ := idx_facts7 (lastOf ⟨(i 1).val / 512, by omega⟩)
  have e1' : win0_7.index (lastOf ⟨(i 1).val / 512, by omega⟩) (1 : Fin 2) = (i 1).val / 512 := by
    rw [e1]; show ((i 1).val / 512 * 4 + 3) / 4 = (i 1).val / 512; omega
  rw [mem_blk7]
  intro a
  match a with
  | ⟨0, _⟩ =>
    show win0_7.index _ (0 : Fin 2) * 4 ≤ (i 0).val ∧ (i 0).val < win0_7.index _ (0 : Fin 2) * 4 + 4
    rw [e0]; omega
  | ⟨1, _⟩ =>
    show win0_7.index _ (1 : Fin 2) * 512 ≤ (i 1).val ∧ (i 1).val < win0_7.index _ (1 : Fin 2) * 512 + 512
    rw [e1']; omega

/-- The array of output window 7 after the run. -/
theorem arrAt_7_eq (c : Dev nD) (G : S4x2048.Idx → Elt F .f32)
    (H : ∀ t : Fin cfg0.N, t.val % 4 = 3 → ∀ y : S4x512.Idx, (dats m 0 c).after 7 t y = G (at4 t y)) :
    (dats m 0 c).arrAt 7 cfg0.N = G :=
  (dats m 0 c).arrAt_eq_of_cover 7 G (flushed7_eq m c G H) cover7

/-! ## Output window 8 -/

/-- The printed index map, decided over the grid: block row 0, column block t / 4. -/
theorem idx_facts8 : ∀ t : Fin cfg0.N, win0_8.index t (0 : Fin 2) = 0 ∧ win0_8.index t (1 : Fin 2) = t.val / 4 :=
  (by decide +kernel : ∀ t : Fin grid0.N, win0_8.index t (0 : Fin 2) = 0 ∧ win0_8.index t (1 : Fin 2) = t.val / 4)

/-- What a writing point writes back is its block of G. -/
theorem flushed8_eq (c : Dev nD) (G : S4x2048.Idx → Elt F .f32)
    (H : ∀ t : Fin cfg0.N, t.val % 4 = 3 → ∀ y : S4x512.Idx, (dats m 0 c).after 8 t y = G (at4 t y))
    (t : Fin cfg0.N) (hf : (cfg0.win 8).flush t = true) :
    (dats m 0 c).flushed 8 t = ((cfg0.win 8).blk t).view.read (Elt F) G := by
  have h3 : t.val % 4 = 3 := (flush0_8 t).mp hf
  obtain ⟨e0, e1⟩ := idx_facts8 t
  show (cfg0.win 8).cut (grid0.coords t) ((dats m 0 c).after 8 t) = _
  funext y
  show (dats m 0 c).after 8 t y = G (((cfg0.win 8).blk t).view.emb y)
  rw [H t h3 y]
  congr 1
  funext a
  apply Fin.ext
  match a with
  | ⟨0, _⟩ =>
    show (y 0).val = win0_8.index t (0 : Fin 2) * 4 + 1 * (y 0).val
    rw [e0]; omega
  | ⟨1, _⟩ =>
    show t.val / 4 * 512 + (y 1).val = win0_8.index t (1 : Fin 2) * 512 + 1 * (y 1).val
    rw [e1]; omega

/-- An index of the array is in point t's block iff each coordinate is in the block's range on its axis. -/
theorem mem_blk8 (t : Fin cfg0.N) (i : S4x2048.Idx) :
    i ∈ ((cfg0.win 8).blk t).view.set ↔ ∀ a : Fin 2, win0_8.index t a * S4x512.size a ≤ (i a).val ∧ (i a).val < win0_8.index t a * S4x512.size a + S4x512.size a := by
  show i ∈ ((View.whole main_v1_4).slice (win0_8.rect t)).set ↔ _
  rw [View.set_slice_whole, Rect.mem_set_unit]
  exact Iff.rfl

/-- Every index of the array is in the block written back at the last point of its column block's grid row. -/
theorem cover8 (i : S4x2048.Idx) :
    ∃ t : Fin cfg0.N, (cfg0.win 8).flush t = true ∧ i ∈ ((cfg0.win 8).blk t).view.set := by
  have hi0 : (i 0).val < 4 := (i 0).isLt
  have hi1 : (i 1).val < 2048 := (i 1).isLt
  refine ⟨lastOf ⟨(i 1).val / 512, by omega⟩, (flush0_8 _).mpr (by show ((i 1).val / 512 * 4 + 3) % 4 = 3; omega), ?_⟩
  obtain ⟨e0, e1⟩ := idx_facts8 (lastOf ⟨(i 1).val / 512, by omega⟩)
  have e1' : win0_8.index (lastOf ⟨(i 1).val / 512, by omega⟩) (1 : Fin 2) = (i 1).val / 512 := by
    rw [e1]; show ((i 1).val / 512 * 4 + 3) / 4 = (i 1).val / 512; omega
  rw [mem_blk8]
  intro a
  match a with
  | ⟨0, _⟩ =>
    show win0_8.index _ (0 : Fin 2) * 4 ≤ (i 0).val ∧ (i 0).val < win0_8.index _ (0 : Fin 2) * 4 + 4
    rw [e0]; omega
  | ⟨1, _⟩ =>
    show win0_8.index _ (1 : Fin 2) * 512 ≤ (i 1).val ∧ (i 1).val < win0_8.index _ (1 : Fin 2) * 512 + 512
    rw [e1']; omega

/-- The array of output window 8 after the run. -/
theorem arrAt_8_eq (c : Dev nD) (G : S4x2048.Idx → Elt F .f32)
    (H : ∀ t : Fin cfg0.N, t.val % 4 = 3 → ∀ y : S4x512.Idx, (dats m 0 c).after 8 t y = G (at4 t y)) :
    (dats m 0 c).arrAt 8 cfg0.N = G :=
  (dats m 0 c).arrAt_eq_of_cover 8 G (flushed8_eq m c G H) cover8

/-! ## Output window 9 -/

/-- The printed index map, decided over the grid: block row 0, column block t / 4. -/
theorem idx_facts9 : ∀ t : Fin cfg0.N, win0_9.index t (0 : Fin 2) = 0 ∧ win0_9.index t (1 : Fin 2) = t.val / 4 :=
  (by decide +kernel : ∀ t : Fin grid0.N, win0_9.index t (0 : Fin 2) = 0 ∧ win0_9.index t (1 : Fin 2) = t.val / 4)

/-- What a writing point writes back is its block of G. -/
theorem flushed9_eq (c : Dev nD) (G : S4x2048.Idx → Elt F .f32)
    (H : ∀ t : Fin cfg0.N, t.val % 4 = 3 → ∀ y : S4x512.Idx, (dats m 0 c).after 9 t y = G (at4 t y))
    (t : Fin cfg0.N) (hf : (cfg0.win 9).flush t = true) :
    (dats m 0 c).flushed 9 t = ((cfg0.win 9).blk t).view.read (Elt F) G := by
  have h3 : t.val % 4 = 3 := (flush0_9 t).mp hf
  obtain ⟨e0, e1⟩ := idx_facts9 t
  show (cfg0.win 9).cut (grid0.coords t) ((dats m 0 c).after 9 t) = _
  funext y
  show (dats m 0 c).after 9 t y = G (((cfg0.win 9).blk t).view.emb y)
  rw [H t h3 y]
  congr 1
  funext a
  apply Fin.ext
  match a with
  | ⟨0, _⟩ =>
    show (y 0).val = win0_9.index t (0 : Fin 2) * 4 + 1 * (y 0).val
    rw [e0]; omega
  | ⟨1, _⟩ =>
    show t.val / 4 * 512 + (y 1).val = win0_9.index t (1 : Fin 2) * 512 + 1 * (y 1).val
    rw [e1]; omega

/-- An index of the array is in point t's block iff each coordinate is in the block's range on its axis. -/
theorem mem_blk9 (t : Fin cfg0.N) (i : S4x2048.Idx) :
    i ∈ ((cfg0.win 9).blk t).view.set ↔ ∀ a : Fin 2, win0_9.index t a * S4x512.size a ≤ (i a).val ∧ (i a).val < win0_9.index t a * S4x512.size a + S4x512.size a := by
  show i ∈ ((View.whole main_v1_5).slice (win0_9.rect t)).set ↔ _
  rw [View.set_slice_whole, Rect.mem_set_unit]
  exact Iff.rfl

/-- Every index of the array is in the block written back at the last point of its column block's grid row. -/
theorem cover9 (i : S4x2048.Idx) :
    ∃ t : Fin cfg0.N, (cfg0.win 9).flush t = true ∧ i ∈ ((cfg0.win 9).blk t).view.set := by
  have hi0 : (i 0).val < 4 := (i 0).isLt
  have hi1 : (i 1).val < 2048 := (i 1).isLt
  refine ⟨lastOf ⟨(i 1).val / 512, by omega⟩, (flush0_9 _).mpr (by show ((i 1).val / 512 * 4 + 3) % 4 = 3; omega), ?_⟩
  obtain ⟨e0, e1⟩ := idx_facts9 (lastOf ⟨(i 1).val / 512, by omega⟩)
  have e1' : win0_9.index (lastOf ⟨(i 1).val / 512, by omega⟩) (1 : Fin 2) = (i 1).val / 512 := by
    rw [e1]; show ((i 1).val / 512 * 4 + 3) / 4 = (i 1).val / 512; omega
  rw [mem_blk9]
  intro a
  match a with
  | ⟨0, _⟩ =>
    show win0_9.index _ (0 : Fin 2) * 4 ≤ (i 0).val ∧ (i 0).val < win0_9.index _ (0 : Fin 2) * 4 + 4
    rw [e0]; omega
  | ⟨1, _⟩ =>
    show win0_9.index _ (1 : Fin 2) * 512 ≤ (i 1).val ∧ (i 1).val < win0_9.index _ (1 : Fin 2) * 512 + 512
    rw [e1']; omega

/-- The array of output window 9 after the run. -/
theorem arrAt_9_eq (c : Dev nD) (G : S4x2048.Idx → Elt F .f32)
    (H : ∀ t : Fin cfg0.N, t.val % 4 = 3 → ∀ y : S4x512.Idx, (dats m 0 c).after 9 t y = G (at4 t y)) :
    (dats m 0 c).arrAt 9 cfg0.N = G :=
  (dats m 0 c).arrAt_eq_of_cover 9 G (flushed9_eq m c G H) cover9

end Cert.KernelIdeal.Hand

end
-- ==== Proof.KValZ.lean ====
/-
  The kernel's six result arrays after the run, in closed form.

  At the four points that write an output back, every entry of the staged block is the specification's row sum at
  the block's column: the positive count, the two positive sums, and per level the negative count and the two
  negative sums. The four blocks written back tile the array, so each result array is that function of its index.
-/
import proofs.«142400_j89936615178820_1_alg».proof.Proof.KValF1
import proofs.«142400_j89936615178820_1_alg».proof.Proof.KValF2
import proofs.«142400_j89936615178820_1_alg».proof.Proof.KArr
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace KVal

open Idealize.ShloMosaic.ValueIdx
open Cert

variable (m : (ℓ : Loc nD τ sig) → Buf (Elt Ideal) ℓ)

/-- The column of an array index, as a row number below 2048. -/
abbrev col1 (I : S1x2048.Idx) : Fin 2048 := ⟨(I 1).val, (I 1).isLt⟩
abbrev col4 (I : S4x2048.Idx) : Fin 2048 := ⟨(I 1).val, (I 1).isLt⟩
/-- The level of an index of a [4, 2048] array. -/
abbrev lev4 (I : S4x2048.Idx) : Fin 4 := ⟨(I 0).val, (I 0).isLt⟩

/-- The six closed forms, as functions of the array index. -/
def G4 (c : Dev nD) : S1x2048.Idx → EReal := fun I => LogRatio.Pn (labArr m c) (col1 I)
def G5 (c : Dev nD) : S1x2048.Idx → EReal := fun I => LogRatio.S1 (xArr m c) (labArr m c) (col1 I)
def G6 (c : Dev nD) : S1x2048.Idx → EReal := fun I => LogRatio.S2 (xArr m c) (labArr m c) (col1 I)
def G7 (c : Dev nD) : S4x2048.Idx → EReal := fun I => LogRatio.Nn (labArr m c) (lev4 I) (col4 I)
def G8 (c : Dev nD) : S4x2048.Idx → EReal := fun I => LogRatio.T1 (xArr m c) (labArr m c) (lev4 I) (col4 I)
def G9 (c : Dev nD) : S4x2048.Idx → EReal := fun I => LogRatio.T2 (xArr m c) (labArr m c) (lev4 I) (col4 I)

/-- Every index of a [1, 512] block is (0, j). -/
theorem idx1 (y : S1x512.Idx) : ∃ j : Fin 512, y = ix2 (0 : Fin 1) j :=
  ⟨⟨(y 1).val, (y 1).isLt⟩, funext fun a => match a with
    | ⟨0, _⟩ => Fin.ext (by have h : (y 0).val < 1 := (y 0).isLt; show (y 0).val = 0; omega)
    | ⟨1, _⟩ => rfl⟩

/-- Every index of a [4, 512] block is (k, j). -/
theorem idx4 (y : S4x512.Idx) : ∃ (k : Fin 4) (j : Fin 512), y = ix2 k j :=
  ⟨⟨(y 0).val, (y 0).isLt⟩, ⟨(y 1).val, (y 1).isLt⟩, funext fun a => match a with
    | ⟨0, _⟩ => rfl
    | ⟨1, _⟩ => rfl⟩

theorem H4 (c : Dev nD) (t : Fin cfg0.N) (ht : t.val % 4 = 3) (y : S1x512.Idx) :
    (dats m 0 c).after 4 t y = G4 m c (at1 t y) := by
  obtain ⟨j, rfl⟩ := idx1 y
  rw [after0_4]
  exact closed4 m c t ht j

theorem H5 (c : Dev nD) (t : Fin cfg0.N) (ht : t.val % 4 = 3) (y : S1x512.Idx) :
    (dats m 0 c).after 5 t y = G5 m c (at1 t y) := by
  obtain ⟨j, rfl⟩ := idx1 y
  rw [after0_5]
  exact closed5 m c t ht j

theorem H6 (c : Dev nD) (t : Fin cfg0.N) (ht : t.val % 4 = 3) (y : S1x512.Idx) :
    (dats m 0 c).after 6 t y = G6 m c (at1 t y) := by
  obtain ⟨j, rfl⟩ := idx1 y
  rw [after0_6]
  exact closed6 m c t ht j

theorem H7 (c : Dev nD) (t : Fin cfg0.N) (ht : t.val % 4 = 3) (y : S4x512.Idx) :
    (dats m 0 c).after 7 t y = G7 m c (at4 t y) := by
  obtain ⟨k, j, rfl⟩ := idx4 y
  rw [after0_7]
  match k with
  | ⟨0, _⟩ => exact closed7_0 m c t ht j
  | ⟨1, _⟩ => exact closed7_1 m c t ht j
  | ⟨2, _⟩ => exact closed7_2 m c t ht j
  | ⟨3, _⟩ => exact closed7_3 m c t ht j

theorem H8 (c : Dev nD) (t : Fin cfg0.N) (ht : t.val % 4 = 3) (y : S4x512.Idx) :
    (dats m 0 c).after 8 t y = G8 m c (at4 t y) := by
  obtain ⟨k, j, rfl⟩ := idx4 y
  rw [after0_8]
  match k with
  | ⟨0, _⟩ => exact closed8_0 m c t ht j
  | ⟨1, _⟩ => exact closed8_1 m c t ht j
  | ⟨2, _⟩ => exact closed8_2 m c t ht j
  | ⟨3, _⟩ => exact closed8_3 m c t ht j

theorem H9 (c : Dev nD) (t : Fin cfg0.N) (ht : t.val % 4 = 3) (y : S4x512.Idx) :
    (dats m 0 c).after 9 t y = G9 m c (at4 t y) := by
  obtain ⟨k, j, rfl⟩ := idx4 y
  rw [after0_9]
  match k with
  | ⟨0, _⟩ => exact closed9_0 m c t ht j
  | ⟨1, _⟩ => exact closed9_1 m c t ht j
  | ⟨2, _⟩ => exact closed9_2 m c t ht j
  | ⟨3, _⟩ => exact closed9_3 m c t ht j

/-- The six result arrays after the run. -/
theorem arrAt4 (c : Dev nD) : (dats m 0 c).arrAt 4 cfg0.N = G4 m c := arrAt_4_eq m c (G4 m c) (H4 m c)
theorem arrAt5 (c : Dev nD) : (dats m 0 c).arrAt 5 cfg0.N = G5 m c := arrAt_5_eq m c (G5 m c) (H5 m c)
theorem arrAt6 (c : Dev nD) : (dats m 0 c).arrAt 6 cfg0.N = G6 m c := arrAt_6_eq m c (G6 m c) (H6 m c)
theorem arrAt7 (c : Dev nD) : (dats m 0 c).arrAt 7 cfg0.N = G7 m c := arrAt_7_eq m c (G7 m c) (H7 m c)
theorem arrAt8 (c : Dev nD) : (dats m 0 c).arrAt 8 cfg0.N = G8 m c := arrAt_8_eq m c (G8 m c) (H8 m c)
theorem arrAt9 (c : Dev nD) : (dats m 0 c).arrAt 9 cfg0.N = G9 m c := arrAt_9_eq m c (G9 m c) (H9 m c)

end KVal

end Cert.KernelIdeal.Hand

end
-- ==== Proof.KILaunch.lean ====
/-
  The launch: @main is two host operations (the level constants, the transposed label table), the kernel region, and
  thirty-three host operations combining the six row-sum arrays into the loss. The region is entered with every unscoped
  buffer of the core held whole; the embeddings array, which two windows read, is dealt to them one half each and put
  together again at the exit, where both halves still hold what the region found; the six result arrays come back at
  what the accumulation computes, and the later host operations run over the whole again. Every weakly fair execution
  terminates with every unscoped buffer at what the later operations compute from that.
-/
import proofs.«142400_j89936615178820_1_alg».proof.Proof.KIFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

/-- What rides beside the buffers through the host operations: the core owes nothing. -/
abbrev R (c : Dev nD) : sProp 𝕄 := iprop(∃ W, owes (c : Thread nD τ) (0 : CellTallies nD τ sig Unit) W)

/-- The nine distinct buffers behind the ten windows' arrays. -/
def r9 : Fin 9 → Ref sig .tc := ![main_arg0, main_arg1, main_v0, main_v1_0, main_v1_1, main_v1_2, main_v1_3, main_v1_4, main_v1_5]
theorem r9_inj : Function.Injective r9 := by decide
theorem img_eq : Finset.univ.image (Pipeline.arrRef spec0) = Finset.univ.map ⟨r9, r9_inj⟩ := by decide
theorem bigSep_F9 {M : Type} [URA M] (Φ : Fin 9 → sProp M) : bigSep Finset.univ Φ = iprop(Φ (0 : Fin 9) ∗ Φ (1 : Fin 9) ∗ Φ (2 : Fin 9) ∗ Φ (3 : Fin 9) ∗ Φ (4 : Fin 9) ∗ Φ (5 : Fin 9) ∗ Φ (6 : Fin 9) ∗ Φ (7 : Fin 9) ∗ Φ (8 : Fin 9)) :=
  bigSep_univ_eq_bigSepL [(0 : Fin 9), (1 : Fin 9), (2 : Fin 9), (3 : Fin 9), (4 : Fin 9), (5 : Fin 9), (6 : Fin 9), (7 : Fin 9), (8 : Fin 9)] (by decide) (by decide) Φ

/-- The embeddings array whole is its two halves. -/
theorem halves (c : Dev nD) (f : Buf (Elt F) ((c : Thread nD τ).loc main_arg0)) :
    (((c : Thread nD τ).loc main_arg0) ↦{fullShare} f : sProp 𝕄)
      ⊣⊢ iprop((((c : Thread nD τ).loc main_arg0) ↦{fullShare.left} f) ∗ (((c : Thread nD τ).loc main_arg0) ↦{fullShare.right} f)) :=
  pointsTo_share (PosShare.mem_left_op_right fullShare)

/-- The nine buffers behind the arrays, one by one. -/
theorem arrBufs_eq (c : Dev nD) (V' : (b : Ref sig .tc) → Buf (Elt F) ((c : Thread nD τ).loc b)) :
    (Pipeline.arrBufs spec0 c V' : sProp 𝕄)
      = iprop((((c : Thread nD τ).loc main_arg0) ↦{fullShare} V' main_arg0) ∗ (((c : Thread nD τ).loc main_arg1) ↦{fullShare} V' main_arg1) ∗ (((c : Thread nD τ).loc main_v0) ↦{fullShare} V' main_v0) ∗ (((c : Thread nD τ).loc main_v1_0) ↦{fullShare} V' main_v1_0) ∗ (((c : Thread nD τ).loc main_v1_1) ↦{fullShare} V' main_v1_1) ∗ (((c : Thread nD τ).loc main_v1_2) ↦{fullShare} V' main_v1_2) ∗ (((c : Thread nD τ).loc main_v1_3) ↦{fullShare} V' main_v1_3) ∗ (((c : Thread nD τ).loc main_v1_4) ↦{fullShare} V' main_v1_4) ∗ (((c : Thread nD τ).loc main_v1_5) ↦{fullShare} V' main_v1_5)) := by
  unfold Pipeline.arrBufs
  rw [img_eq, bigSep_map, bigSep_F9]
  rfl

/-- The ten windows' arrays at the proof data's shares, one by one. -/
theorem arrays_eq10 (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) :
    ((dats m 0 c).arrays Fw : sProp 𝕄)
      = iprop((((c : Thread nD τ).loc main_arg0) ↦{fullShare.left} V' main_arg0) ∗ (((c : Thread nD τ).loc main_arg0) ↦{fullShare.right} V' main_arg0) ∗ (((c : Thread nD τ).loc main_arg1) ↦{fullShare} V' main_arg1) ∗ (((c : Thread nD τ).loc main_v0) ↦{fullShare} V' main_v0) ∗ (((c : Thread nD τ).loc main_v1_0) ↦{fullShare} V' main_v1_0) ∗ (((c : Thread nD τ).loc main_v1_1) ↦{fullShare} V' main_v1_1) ∗ (((c : Thread nD τ).loc main_v1_2) ↦{fullShare} V' main_v1_2) ∗ (((c : Thread nD τ).loc main_v1_3) ↦{fullShare} V' main_v1_3) ∗ (((c : Thread nD τ).loc main_v1_4) ↦{fullShare} V' main_v1_4) ∗ (((c : Thread nD τ).loc main_v1_5) ↦{fullShare} V' main_v1_5)) := by
  unfold Pipeline.Dat.arrays
  rw [bigSep_W0]
  simp only [hF, View.set_whole]
  rfl

/-- ENTRY: the nine buffers behind the arrays, held whole at one valuation, are the windows' arrays at the proof data's
    shares: the embeddings array is dealt to its two windows one half each. -/
theorem arrays_of_arrBufs (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) :
    (Pipeline.arrBufs spec0 c V' : sProp 𝕄) ⊢ (dats m 0 c).arrays Fw := by
  rw [arrBufs_eq, arrays_eq10 m c V' Fw hF]
  iintro ⟨H0, H1, H2, H3, H4, H5, H6, H7, H8⟩
  ihave Hs := (halves c (V' main_arg0)).1 $$ H0
  icases Hs with ⟨Ha, Hb⟩
  isplitl [Ha]; · iexact Ha
  isplitl [Hb]; · iexact Hb
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- EXIT: the converse, the two halves of the embeddings array put together. -/
theorem arrBufs_of_arrays (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) :
    (dats m 0 c).arrays Fw ⊢ (Pipeline.arrBufs spec0 c V' : sProp 𝕄) := by
  rw [arrBufs_eq, arrays_eq10 m c V' Fw hF]
  iintro ⟨Ha, Hb, H1, H2, H3, H4, H5, H6, H7, H8⟩
  isplitl [Ha Hb]
  · iapply (halves c (V' main_arg0)).2
    isplitl [Ha]; · iexact Ha
    iexact Hb
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The host operations before the region -/

theorem hostOps0_fresh : ∀ op ∈ (hostOps0 (F := F)), op.fresh = ∅ := by
  intro _ h; (repeat (cases h with | head => rfl | tail _ h => ?_)); exact nomatch h

def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    hostOps0_fresh (V₀ m) R

/-! ## The buffers when the region is left -/

open Classical in
/-- The core's buffers when the region is left: the six result arrays at what the accumulation computes, every other
    buffer as the region found it. -/
def W1 (c : Dev nD) : Valuation τ sig (Elt F) :=
  Function.update (Function.update (Function.update (Function.update (Function.update (Function.update (StableHlo.after hostOps0 (V₀ m c)) (Proc.devRef .tc main_v1_0) ((dats m 0 c).arrAt 4 cfg0.N)) (Proc.devRef .tc main_v1_1) ((dats m 0 c).arrAt 5 cfg0.N)) (Proc.devRef .tc main_v1_2) ((dats m 0 c).arrAt 6 cfg0.N)) (Proc.devRef .tc main_v1_3) ((dats m 0 c).arrAt 7 cfg0.N)) (Proc.devRef .tc main_v1_4) ((dats m 0 c).arrAt 8 cfg0.N)) (Proc.devRef .tc main_v1_5) ((dats m 0 c).arrAt 9 cfg0.N)

theorem hostOps1_fresh : ∀ op ∈ (hostOps1 (F := F)), op.fresh = ∅ := by
  intro _ h; (repeat (cases h with | head => rfl | tail _ h => ?_)); exact nomatch h

def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    hostOps1_fresh (W1 m) R

/-! ## What the region's exit valuation says -/

theorem W1_out4 (c : Dev nD) : W1 m c (Proc.devRef .tc main_v1_0) = (dats m 0 c).arrAt 4 cfg0.N := by
  unfold W1
  rw [Function.update_of_ne (StableHlo.devRef_ne_of_ne (by decide : main_v1_0 ≠ main_v1_5)), Function.update_of_ne (StableHlo.devRef_ne_of_ne (by decide : main_v1_0 ≠ main_v1_4)), Function.update_of_ne (StableHlo.devRef_ne_of_ne (by decide : main_v1_0 ≠ main_v1_3)), Function.update_of_ne (StableHlo.devRef_ne_of_ne (by decide : main_v1_0 ≠ main_v1_2)), Function.update_of_ne (StableHlo.devRef_ne_of_ne (by decide : main_v1_0 ≠ main_v1_1)), Function.update_self]
theorem W1_out5 (c : Dev nD) : W1 m c (Proc.devRef .tc main_v1_1) = (dats m 0 c).arrAt 5 cfg0.N := by
  unfold W1
  rw [Function.update_of_ne (StableHlo.devRef_ne_of_ne (by decide : main_v1_1 ≠ main_v1_5)), Function.update_of_ne (StableHlo.devRef_ne_of_ne (by decide : main_v1_1 ≠ main_v1_4)), Function.update_of_ne (StableHlo.devRef_ne_of_ne (by decide : main_v1_1 ≠ main_v1_3)), Function.update_of_ne (StableHlo.devRef_ne_of_ne (by decide : main_v1_1 ≠ main_v1_2)), Function.update_self]
theorem W1_out6 (c : Dev nD) : W1 m c (Proc.devRef .tc main_v1_2) = (dats m 0 c).arrAt 6 cfg0.N := by
  unfold W1
  rw [Function.update_of_ne (StableHlo.devRef_ne_of_ne (by decide : main_v1_2 ≠ main_v1_5)), Function.update_of_ne (StableHlo.devRef_ne_of_ne (by decide : main_v1_2 ≠ main_v1_4)), Function.update_of_ne (StableHlo.devRef_ne_of_ne (by decide : main_v1_2 ≠ main_v1_3)), Function.update_self]
theorem W1_out7 (c : Dev nD) : W1 m c (Proc.devRef .tc main_v1_3) = (dats m 0 c).arrAt 7 cfg0.N := by
  unfold W1
  rw [Function.update_of_ne (StableHlo.devRef_ne_of_ne (by decide : main_v1_3 ≠ main_v1_5)), Function.update_of_ne (StableHlo.devRef_ne_of_ne (by decide : main_v1_3 ≠ main_v1_4)), Function.update_self]
theorem W1_out8 (c : Dev nD) : W1 m c (Proc.devRef .tc main_v1_4) = (dats m 0 c).arrAt 8 cfg0.N := by
  unfold W1
  rw [Function.update_of_ne (StableHlo.devRef_ne_of_ne (by decide : main_v1_4 ≠ main_v1_5)), Function.update_self]
theorem W1_out9 (c : Dev nD) : W1 m c (Proc.devRef .tc main_v1_5) = (dats m 0 c).arrAt 9 cfg0.N := by
  unfold W1
  rw [Function.update_self]

theorem W1_rest (c : Dev nD) (b : Ref sig .tc) (hb : b ≠ main_v1_0 ∧ b ≠ main_v1_1 ∧ b ≠ main_v1_2 ∧ b ≠ main_v1_3 ∧ b ≠ main_v1_4 ∧ b ≠ main_v1_5) :
    W1 m c (Proc.devRef .tc b) = V m c b := by
  obtain ⟨h0, h1, h2, h3, h4, h5⟩ := hb
  unfold W1
  rw [Function.update_of_ne (StableHlo.devRef_ne_of_ne h5), Function.update_of_ne (StableHlo.devRef_ne_of_ne h4), Function.update_of_ne (StableHlo.devRef_ne_of_ne h3),
    Function.update_of_ne (StableHlo.devRef_ne_of_ne h2), Function.update_of_ne (StableHlo.devRef_ne_of_ne h1), Function.update_of_ne (StableHlo.devRef_ne_of_ne h0)]

/-- The exit valuation has every window's array at what the proof data compute for it after the last write-back: an
    input's as the region found it, a result's at the accumulation. -/
theorem W1_arr (c : Dev nD) (w : Fin cfg0.W) :
    (dats m 0 c).arrAt w cfg0.N = W1 m c (Proc.devRef .tc (Pipeline.arrRef spec0 w)) := by
  match w with
  | ⟨0, _⟩ => exact ((dats m 0 c).arrAt_in 0 rfl _).trans ((A_eq m c 0).trans (W1_rest m c _ (by decide)).symm)
  | ⟨1, _⟩ => exact ((dats m 0 c).arrAt_in 1 rfl _).trans ((A_eq m c 1).trans (W1_rest m c _ (by decide)).symm)
  | ⟨2, _⟩ => exact ((dats m 0 c).arrAt_in 2 rfl _).trans ((A_eq m c 2).trans (W1_rest m c _ (by decide)).symm)
  | ⟨3, _⟩ => exact ((dats m 0 c).arrAt_in 3 rfl _).trans ((A_eq m c 3).trans (W1_rest m c _ (by decide)).symm)
  | ⟨4, _⟩ => exact (W1_out4 m c).symm
  | ⟨5, _⟩ => exact (W1_out5 m c).symm
  | ⟨6, _⟩ => exact (W1_out6 m c).symm
  | ⟨7, _⟩ => exact (W1_out7 m c).symm
  | ⟨8, _⟩ => exact (W1_out8 m c).symm
  | ⟨9, _⟩ => exact (W1_out9 m c).symm

/-- Off the windows' arrays the exit valuation is the entry one. -/
theorem W1_off (c : Dev nD) (b : Ref sig .tc) (hb : b ∉ Finset.univ.image (Pipeline.arrRef spec0)) :
    W1 m c (Proc.devRef .tc b) = V m c b := by
  refine W1_rest m c b ⟨?_, ?_, ?_, ?_, ?_, ?_⟩ <;> rintro rfl <;> exact hb (by decide)

/-! ## The region -/

set_option backward.isDefEq.respectTransparency.types false in
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (W1 m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs (0 : Fin 1) winFacts₀0.arr_unscoped c (V m c)]
    iintro ⟨⟨⟨Hab, Hrest⟩, HO⟩, -, -⟩
    ihave Ha := (arrays_of_arrBufs m c (V m c) (fun w => (dats m 0 c).arrAt w 0) (fun w => A_eq m c w)) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    show iprop(_ ∗ _ ∗ Pipeline.scopedRest (Ix := Unit) (Name := ℕ) (U := UR sig nD τ) (Lvl := ℕ) (Val := Elt F) spec0 c)
      ⊢ Pipeline.scopedRest (Ix := Unit) (Name := ℕ) (U := UR sig nD τ) (Lvl := ℕ) (Val := Elt F) spec0 c
    iintro ⟨-, -, Hr⟩
    iexact Hr
  hout c := by
    rw [Pipeline.ownSems0_none]
    show Pipeline.scopedRest (Ix := Unit) (Name := ℕ) (U := UR sig nD τ) (Lvl := ℕ) (Val := Elt F) spec0 c
      ⊢ iprop(emp ∗ emp ∗ Pipeline.scopedRest (Ix := Unit) (Name := ℕ) (U := UR sig nD τ) (Lvl := ℕ) (Val := Elt F) spec0 c)
    iintro Hr
    isplitr; · iempintro
    isplitr; · iempintro
    iexact Hr
  hexit c := by
    rw [show StableHlo.held (c : Thread nD τ) (Pipeline.ucRefs τ sig) (W1 m c) = unscopedBufs c (fun b => W1 m c b) from (Pipeline.unscopedBufs_held c _).symm,
      Pipeline.unscopedBufs_split₀ cfgs (0 : Fin 1) winFacts₀0.arr_unscoped c (fun b => W1 m c b)]
    have hrest : (Pipeline.unscopedRest (Ix := Unit) (Name := ℕ) (U := UR sig nD τ) (Lvl := ℕ) spec0 c (fun b => W1 m c b) : sProp 𝕄)
        = Pipeline.unscopedRest spec0 c (V m c) := by
      unfold Pipeline.unscopedRest
      exact bigSep_congr fun b hb => by dsimp only; rw [W1_off m c b (Finset.mem_sdiff.mp hb).2]
    rw [hrest]
    iintro ⟨Ha, HO, -, HZ⟩
    imodintro
    isplitr [HO]
    · isplitl [Ha]
      · iapply (arrBufs_of_arrays m c (fun b => W1 m c b) (fun w => (dats m 0 c).arrAt w cfg0.N) (W1_arr m c))
        iexact Ha
      · iexact HZ
    · unfold Pipeline.Dat.owesAt Pipeline.owesWithin
      icases HO with ⟨%W, -, HO⟩; iexists W; iexact HO

/-- @main as the list of its three segments. -/
abbrev segs : List (Pipeline.Seg (pcfgs (F := F)) adm (dats m) () defs₀ 𝒱₀ L lv) := [.host (seg0 m), .region (reg0 m), .host (seg1 m)]

/-- The core's buffers when @main returns. -/
abbrev Wend (c : Dev nD) : Valuation τ sig (Elt F) := StableHlo.after hostOps1 (W1 m c)

/-- The physical post: every unscoped buffer of every core at the end valuation. -/
def QC : PUnit × MemSt nD τ sig (Elt F) → Prop := fun r =>
  ∀ c : Dev nD, ∀ b ∈ (Finset.univ.filter fun b : Ref sig .tc => ¬ b.isScoped), r.2.mem ((c : Thread nD τ).loc b) = Wend m c (Proc.devRef .tc b)

set_option backward.isDefEq.respectTransparency.types false in
/-- At the compiled mesh, from any memory with zero counters: every weakly fair execution of @main on the TensorCores
    terminates, nothing faulting, and every final state has every unscoped buffer at what the later host operations
    compute from the region's exit. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]
      · iapply (show (ownU _ : sProp 𝕄) ⊢ BI.own (EP (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Wend m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ (Finset.univ.filter fun b : Ref sig .tc => ¬ b.isScoped), s.mem ((c : Thread nD τ).loc b) = Wend m c (Proc.devRef .tc b))
    (hfin := fun c s' => by
      rw [show StableHlo.held (c : Thread nD τ) (Pipeline.ucRefs τ sig) (Wend m c) = unscopedBufs c (fun b => Wend m c b) from (Pipeline.unscopedBufs_held c _).symm]
      unfold unscopedBufs
      iintro ⟨Hh, HSI⟩
      imodintro
      iapply (pointsTo_read_all (Finset.univ.filter fun b : Ref sig .tc => ¬ b.isScoped) (fun b => (c : Thread nD τ).loc b) (fun b => Wend m c b) s')
      isplitl [Hh] <;> iassumption)
    (hQ := fun _ h => h)

end Cert.KernelIdeal.Hand

end
-- ==== Proof.KFinal.lean ====
/-
  The program's run, read at its two arguments. The host operations after the kernel region write the thirty-three
  buffers of their own results and no other; the region's exit leaves every buffer but the six result arrays as the
  region found it; and the two host operations before the region write neither argument. So each argument buffer
  ends holding what the launch put there.
-/
import proofs.«142400_j89936615178820_1_alg».proof.Proof.KILaunch
import proofs.«142400_j89936615178820_1_alg».proof.Proof.KPre

noncomputable section

namespace Cert.KernelIdeal.Hand

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The references the host operations after the region write: each operation's result. -/
abbrev written1 : List (Ref sig .tc) :=
  [main_v2, main_cst_0, main_v3, main_v4, main_v5, main_v6, main_v7, main_v8, main_v9, main_v10, main_v11, main_v12, main_v13, main_v14, main_v15, main_v16, main_v17, main_v18, main_v19, main_v20, main_cst_1, main_v21, main_v22, main_v23, main_v24, main_v25, main_v26, main_v27, main_cst_2, main_v28, main_c, main_c_3, main_c_4]

set_option maxRecDepth 8192 in
/-- Every host operation after the region writes a reference of that list only. -/
theorem hostOps1_writes : (hostOps1 : List (HloOp τ sig (Elt F))).Forall fun op =>
    op.writes ⊆ (written1.map (Proc.devRef (τ := τ) .tc)).toFinset := by
  simp only [hostOps1, List.Forall]
  exact ⟨by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide)⟩

/-- A reference outside that list holds at the end what it held when the region was left. -/
theorem Wend_of_not_written (c : Dev nD) (r : Ref sig .tc) (h : r ∉ written1) :
    Wend m c (Proc.devRef .tc r) = W1 m c (Proc.devRef .tc r) :=
  StableHlo.after_of_writes_sub hostOps1 (W1 m c) hostOps1_writes h

/-- The embeddings end as launched. -/
theorem Wend_arg0 (c : Dev nD) : Wend m c (Proc.devRef .tc main_arg0) = m ((c : Thread nD τ).loc main_arg0) :=
  (Wend_of_not_written m c main_arg0 (by decide)).trans ((W1_rest m c main_arg0 (by decide)).trans (V_arg0 m c))

/-- The label table ends as launched. -/
theorem Wend_arg1 (c : Dev nD) : Wend m c (Proc.devRef .tc main_arg1) = m ((c : Thread nD τ).loc main_arg1) :=
  (Wend_of_not_written m c main_arg1 (by decide)).trans ((W1_rest m c main_arg1 (by decide)).trans (V_arg1 m c))

/-- A reference of the signature that is not scoped is among the buffers the run's post speaks of. -/
theorem mem_unscoped (b : Ref sig .tc) (h : ¬ b.isScoped) : b ∈ (Finset.univ.filter fun b : Ref sig .tc => ¬ b.isScoped) :=
  Finset.mem_filter.mpr ⟨Finset.mem_univ b, h⟩

/-- The program runs (terminates, no fault) and its argument arrays end unchanged. -/
theorem frame : θ_run (defs (F := F)) (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c =>
      ⟨(h c main_arg0 (mem_unscoped main_arg0 (by decide))).trans (Wend_arg0 m c),
       (h c main_arg1 (mem_unscoped main_arg1 (by decide))).trans (Wend_arg1 m c)⟩)
    (run_main m ρ)

end Cert.KernelIdeal.Hand

end
-- ==== Proof.TailLib.lean ====
/-
  The last stage both programs share: six row-sum arrays are combined elementwise, level by level and row by
  row, and the [4, 2048] result is summed to a scalar.

  The combination is carried out on arrays laid out as the programs lay them out: the four level constants as a
  [4, 1] column, the three per-row sums as [1, 2048] rows, the three per-level sums as [4, 2048] arrays; the column
  and the rows are broadcast over [4, 2048] before each product. Read at the one index of the result, the value
  is zero plus the sum over (level, row) of the term the specification names.
-/
import proofs.«142400_j89936615178820_1_alg».proof.Proof.Spec
import Idealize.ShloMosaic.Lib.IdealHost
import Idealize.ShloMosaic.Lib.Pipeline.Value

noncomputable section

open scoped BigOperators

namespace Cert.LogRatio.Tail

open Idealize.ShloMosaic Idealize.ShloMosaic.ValueIdx

abbrev T_ : Shape := ⟨0, ![]⟩
abbrev T4 : Shape := ⟨1, ![4]⟩
abbrev T2048 : Shape := ⟨1, ![2048]⟩
abbrev T4x1 : Shape := ⟨2, ![4, 1]⟩
abbrev T1x2048 : Shape := ⟨2, ![1, 2048]⟩
abbrev T4x2048 : Shape := ⟨2, ![4, 2048]⟩

/-! ## The layout operations read at an index -/

section Layout
variable {α : Type}

/-- A [4, 1] column broadcast over [4, 2048] reads, at (m, j), the column's entry m. -/
theorem bcast_col_apply (h : T4x1.BroadcastsInDim T4x2048 (![0, 1] : Fin 2 → Fin T4x2048.rank))
    (x : T4x1.Idx → α) (m : Fin 4) (j : Fin 2048) :
    broadcastInDim T4x2048 ![0, 1] h x (ix2 m j) = x (ix2 m (0 : Fin 1)) := by
  refine broadcastInDim_apply _ h x (ix2 m j) (ix2 m (0 : Fin 1)) fun a => ?_
  match a with
  | ⟨0, _⟩ => rfl
  | ⟨1, _⟩ => rfl

/-- A [1, 2048] row broadcast over [4, 2048] reads, at (m, j), the row's entry j. -/
theorem bcast_row_apply (h : T1x2048.BroadcastsInDim T4x2048 (![0, 1] : Fin 2 → Fin T4x2048.rank))
    (x : T1x2048.Idx → α) (m : Fin 4) (j : Fin 2048) :
    broadcastInDim T4x2048 ![0, 1] h x (ix2 m j) = x (ix2 (0 : Fin 1) j) := by
  refine broadcastInDim_apply _ h x (ix2 m j) (ix2 (0 : Fin 1) j) fun a => ?_
  match a with
  | ⟨0, _⟩ => rfl
  | ⟨1, _⟩ => rfl

/-- A [4] array reshaped to a [4, 1] column reads, at (m, 0), the array's entry m. -/
theorem reshape_col_apply (h : T4.ShapeCasts T4x1) (x : T4.Idx → α) (m : Fin 4) (u : Fin 1) :
    shapeCast T4x1 x h (ix2 m u) = x (ix1 m) :=
  shapeCast_apply x h _ _ (by
    have hu : u.val = 0 := by omega
    rw [Shape.rowMajor_val_two, Shape.rowMajor_val_one]
    show m.val = m.val * 1 + u.val
    rw [hu, Nat.mul_one, Nat.add_zero])

/-- A [4] array broadcast along axis 0 to a [4, 1] column reads, at (m, 0), the array's entry m. -/
theorem bcast_to_col_apply (h : T4.BroadcastsInDim T4x1 (![0] : Fin 1 → Fin T4x1.rank))
    (x : T4.Idx → α) (m : Fin 4) (u : Fin 1) :
    broadcastInDim T4x1 ![0] h x (ix2 m u) = x (ix1 m) := by
  refine broadcastInDim_apply _ h x (ix2 m u) (ix1 m) fun a => ?_
  match a with
  | ⟨0, _⟩ => rfl

/-- A [2048] array broadcast along axis 1 to a [1, 2048] row reads, at (0, j), the array's entry j. -/
theorem bcast_to_row_apply (h : T2048.BroadcastsInDim T1x2048 (![1] : Fin 1 → Fin T1x2048.rank))
    (x : T2048.Idx → α) (u : Fin 1) (j : Fin 2048) :
    broadcastInDim T1x2048 ![1] h x (ix2 u j) = x (ix1 j) := by
  refine broadcastInDim_apply _ h x (ix2 u j) (ix1 j) fun a => ?_
  match a with
  | ⟨0, _⟩ => rfl

end Layout

/-! ## The combination on the programs' layouts -/

/-- The elementwise combination over [4, 2048] of the level column `c`, the rows `pn`, `s1`, `s2` and the arrays
    `nn`, `t1`, `t2`, with the factor 2 a scalar broadcast, in the programs' own association. -/
def combine (h41 : T_.BroadcastsInDim T4x1 (![] : Fin 0 → Fin T4x1.rank))
    (h42 : T_.BroadcastsInDim T4x2048 (![] : Fin 0 → Fin T4x2048.rank))
    (hc : T4x1.BroadcastsInDim T4x2048 (![0, 1] : Fin 2 → Fin T4x2048.rank))
    (hr : T1x2048.BroadcastsInDim T4x2048 (![0, 1] : Fin 2 → Fin T4x2048.rank))
    (c : FVec Ideal T4x1 .f32) (pn s1 s2 : FVec Ideal T1x2048 .f32) (nn t1 t2 : FVec Ideal T4x2048 .f32) :
    FVec Ideal T4x2048 .f32 :=
  addf
    (subf
      (mulf nn
        (addf
          (subf (broadcastInDim T4x2048 ![0, 1] hr s2)
            (mulf (broadcastInDim T4x2048 ![0, 1] hc (mulf (broadcastInDim T4x1 ![] h41 (constant (F := Ideal) T_ .f32 0x40000000#32)) c))
              (broadcastInDim T4x2048 ![0, 1] hr s1)))
          (mulf (broadcastInDim T4x2048 ![0, 1] hc (mulf c c)) (broadcastInDim T4x2048 ![0, 1] hr pn))))
      (mulf
        (mulf (broadcastInDim T4x2048 ![] h42 (constant (F := Ideal) T_ .f32 0x40000000#32))
          (subf (broadcastInDim T4x2048 ![0, 1] hr s1)
            (mulf (broadcastInDim T4x2048 ![0, 1] hc c) (broadcastInDim T4x2048 ![0, 1] hr pn))))
        t1))
    (mulf (broadcastInDim T4x2048 ![0, 1] hr pn) t2)

/-- The combination at (m, j) is the specification's term, the column read at m and the rows at j. -/
theorem combine_apply (h41 h42 hc hr) (c : FVec Ideal T4x1 .f32) (pn s1 s2 : FVec Ideal T1x2048 .f32)
    (nn t1 t2 : FVec Ideal T4x2048 .f32) (hcv : ∀ m : Fin 4, c (ix2 m (0 : Fin 1)) = cv m) (m : Fin 4) (j : Fin 2048) :
    combine h41 h42 hc hr c pn s1 s2 nn t1 t2 (ix2 m j)
      = term (fun j => pn (ix2 (0 : Fin 1) j)) (fun j => s1 (ix2 (0 : Fin 1) j)) (fun j => s2 (ix2 (0 : Fin 1) j))
          (fun m j => nn (ix2 m j)) (fun m j => t1 (ix2 m j)) (fun m j => t2 (ix2 m j)) m j := by
  unfold combine term
  simp only [addf_apply, subf_apply, mulf_apply]
  rw [bcast_row_apply hr s2 m j, bcast_row_apply hr s1 m j, bcast_row_apply hr pn m j,
    bcast_col_apply hc _ m j, bcast_col_apply hc (mulf c c) m j, bcast_col_apply hc c m j,
    broadcastInDim_scalar_apply h42, mulf_apply, mulf_apply, broadcastInDim_scalar_apply h41, hcv]
  rfl

/-- The whole last stage: the combination summed over [4, 2048] from the zero word. -/
def total (hred : T4x2048.ReducesTo [0, 1] T_) (h0 : 0 < T_.numel) (x : FVec Ideal T4x2048 .f32) : FVec Ideal T_ .f32 :=
  Host.reduceAdd (F := Ideal) x (constant (F := Ideal) T_ .f32 0x00000000#32) hred h0

/-- The sum over [4, 2048] from the zero word, at the result's one index. -/
theorem total_apply (hred : T4x2048.ReducesTo [0, 1] T_) (h0 : 0 < T_.numel) (x : FVec Ideal T4x2048 .f32) (i : T_.Idx) :
    total hred h0 x i = Ideal.ofBits .f32 0x00000000#32 + ∑ k : T4x2048.Idx, x k := by
  unfold total
  rw [hostReduceAdd_apply, Ideal.hostReduceAdd_total hred (fun b => b.elim0)]
  rfl

/-- The last stage on the programs' layouts is the specification's loss of the six arrays. -/
theorem total_combine (hred h0 h41 h42 hc hr) (c : FVec Ideal T4x1 .f32) (pn s1 s2 : FVec Ideal T1x2048 .f32)
    (nn t1 t2 : FVec Ideal T4x2048 .f32) (hcv : ∀ m : Fin 4, c (ix2 m (0 : Fin 1)) = cv m) :
    total hred h0 (combine h41 h42 hc hr c pn s1 s2 nn t1 t2)
      = fun _ => lossOf (fun j => pn (ix2 (0 : Fin 1) j)) (fun j => s1 (ix2 (0 : Fin 1) j)) (fun j => s2 (ix2 (0 : Fin 1) j))
          (fun m j => nn (ix2 m j)) (fun m j => t1 (ix2 m j)) (fun m j => t2 (ix2 m j)) := by
  funext i
  rw [total_apply]
  unfold lossOf
  refine congrArg _ (Finset.sum_congr rfl fun k _ => ?_)
  obtain ⟨m, j, rfl⟩ : ∃ (m : Fin 4) (j : Fin 2048), k = ix2 m j := ⟨k 0, k 1, eq_ix2 k⟩
  exact combine_apply h41 h42 hc hr c pn s1 s2 nn t1 t2 hcv m j

end Cert.LogRatio.Tail

end
-- ==== Proof.TailKernel.lean ====
/-
  The kernel program's last stage. After the region has left the six row-sum arrays in the program's buffers, the host
  operations that follow combine them, level by level and row by row, into the scalar loss, and write three integer
  zeros. Read at the ideal values, the loss buffer holds the specification's loss of the six arrays; the three integer
  results are the zero word; the arguments and the six arrays are left as they were.
-/
import proofs.«142400_j89936615178820_1_alg».proof.Proof.Gen.KernelIdeal.Launch
import proofs.«142400_j89936615178820_1_alg».proof.Proof.TailLib

noncomputable section

namespace Cert.KernelIdeal.Tail

open Idealize.ShloMosaic Idealize.ShloMosaic.ValueIdx Cert.KernelIdeal Cert.KernelIdeal.Gen Cert.LogRatio

/-- The host operations after the region as ONE function of the level constants and the six arrays: the constants
    reshaped to a column, the elementwise combination, the sum over [4, 2048] from the zero word. -/
def ktail (cst : FVec Ideal S4 .f32) (pn s1 s2 : FVec Ideal S1x2048 .f32) (nn t1 t2 : FVec Ideal S4x2048 .f32) :
    FVec Ideal S_ .f32 :=
  Cert.LogRatio.Tail.total reducesTo_S4x2048_S_d0_1 h_S_
    (Cert.LogRatio.Tail.combine bcast_S_S4x1 bcast_S_S4x2048 bcast_S4x1_S4x2048_0_1 bcast_S1x2048_S4x2048_0_1
      (shapeCast S4x1 cst shapeCasts_S4_S4x1) pn s1 s2 nn t1 t2)

/-- The loss buffer after the host operations is that function of the buffers the region left. -/
theorem after_v28_eq_ktail (W : Valuation τ sig (Elt Ideal)) :
    (StableHlo.after (hostOps1 (F := Ideal)) W (Proc.devRef .tc main_v28) : S_.Idx → EReal)
      = ktail (W (Proc.devRef .tc main_cst)) (W (Proc.devRef .tc main_v1_0)) (W (Proc.devRef .tc main_v1_1))
          (W (Proc.devRef .tc main_v1_2)) (W (Proc.devRef .tc main_v1_3)) (W (Proc.devRef .tc main_v1_4))
          (W (Proc.devRef .tc main_v1_5)) := by
  dsimp only [hostOps1]
  after_results_simp
  rfl

/-- The four level constants, as the program's literal lists them, are the specification's. -/
theorem lit0_eq_cword (m : Fin 4) : lit0 (S4.rowMajor (ix1 m)) = cword m := by
  match m with
  | 0 => rfl
  | 1 => rfl
  | 2 => rfl
  | 3 => rfl

/-- With the level constants in their buffer, that function is the specification's loss of the six arrays, each read
    at its row (and level). -/
theorem ktail_eq_lossOf (pn s1 s2 : FVec Ideal S1x2048 .f32) (nn t1 t2 : FVec Ideal S4x2048 .f32) :
    ktail (fun i => Ideal.ofBits .f32 (lit0 (S4.rowMajor i))) pn s1 s2 nn t1 t2
      = fun _ => lossOf (fun j => pn (ix2 (0 : Fin 1) j)) (fun j => s1 (ix2 (0 : Fin 1) j)) (fun j => s2 (ix2 (0 : Fin 1) j))
          (fun m j => nn (ix2 m j)) (fun m j => t1 (ix2 m j)) (fun m j => t2 (ix2 m j)) := by
  unfold ktail
  refine Cert.LogRatio.Tail.total_combine _ _ _ _ _ _ _ pn s1 s2 nn t1 t2 fun m => ?_
  rw [Cert.LogRatio.Tail.reshape_col_apply shapeCasts_S4_S4x1 _ m (0 : Fin 1)]
  show Ideal.ofBits .f32 (lit0 (S4.rowMajor (ix1 m))) = cv m
  rw [lit0_eq_cword]
  rfl

/-- The loss buffer after the host operations: the specification's loss of the six arrays the region left. -/
theorem after_v28 (W : Valuation τ sig (Elt Ideal))
    (hc : W (Proc.devRef .tc main_cst) = fun i => Ideal.ofBits .f32 (lit0 (S4.rowMajor i))) :
    (StableHlo.after (hostOps1 (F := Ideal)) W (Proc.devRef .tc main_v28) : S_.Idx → EReal)
      = fun _ => lossOf (fun j => W (Proc.devRef .tc main_v1_0) (ix2 (0 : Fin 1) j))
          (fun j => W (Proc.devRef .tc main_v1_1) (ix2 (0 : Fin 1) j))
          (fun j => W (Proc.devRef .tc main_v1_2) (ix2 (0 : Fin 1) j))
          (fun m j => W (Proc.devRef .tc main_v1_3) (ix2 m j))
          (fun m j => W (Proc.devRef .tc main_v1_4) (ix2 m j))
          (fun m j => W (Proc.devRef .tc main_v1_5) (ix2 m j)) := by
  rw [after_v28_eq_ktail, hc]
  exact ktail_eq_lossOf _ _ _ _ _ _

/-! ## The three integer results -/

theorem after_c (W : Valuation τ sig (Elt Ideal)) :
    (StableHlo.after (hostOps1 (F := Ideal)) W (Proc.devRef .tc main_c) : S_.Idx → BitVec 32) = constantI S_ 32 0#32 := by
  dsimp only [hostOps1]
  after_results_simp

theorem after_c_3 (W : Valuation τ sig (Elt Ideal)) :
    (StableHlo.after (hostOps1 (F := Ideal)) W (Proc.devRef .tc main_c_3) : S_.Idx → BitVec 32) = constantI S_ 32 0#32 := by
  dsimp only [hostOps1]
  after_results_simp

theorem after_c_4 (W : Valuation τ sig (Elt Ideal)) :
    (StableHlo.after (hostOps1 (F := Ideal)) W (Proc.devRef .tc main_c_4) : S_.Idx → BitVec 32) = constantI S_ 32 0#32 := by
  dsimp only [hostOps1]
  after_results_simp

/-! ## What the host operations leave as it was -/

/-- The references the host operations after the region write: each operation's result. -/
abbrev written : List (Ref sig .tc) :=
  [main_v2, main_cst_0, main_v3, main_v4, main_v5, main_v6, main_v7, main_v8, main_v9, main_v10, main_v11, main_v12,
   main_v13, main_v14, main_v15, main_v16, main_v17, main_v18, main_v19, main_v20, main_cst_1, main_v21, main_v22,
   main_v23, main_v24, main_v25, main_v26, main_v27, main_cst_2, main_v28, main_c, main_c_3, main_c_4]

/-- Every operation writes a reference of that list only. -/
theorem hostOps1_writes : (hostOps1 : List (HloOp τ sig (Elt Ideal))).Forall fun op =>
    op.writes ⊆ (written.map (Proc.devRef (τ := τ) .tc)).toFinset := by
  simp only [hostOps1, List.Forall, StableHlo.nullary_writes, StableHlo.unary_writes, StableHlo.binary_writes,
    StableHlo.reshape_writes, Finset.singleton_subset_iff, List.mem_toFinset]
  repeat' apply And.intro
  all_goals exact List.mem_map_of_mem (by decide)

/-- A reference outside that list holds after the host operations what it held before them. -/
theorem after_of_not_written (W : Valuation τ sig (Elt Ideal)) (r : Ref sig .tc) (h : r ∉ written) :
    StableHlo.after (hostOps1 (F := Ideal)) W (Proc.devRef .tc r) = W (Proc.devRef .tc r) :=
  StableHlo.after_of_writes_sub hostOps1 W hostOps1_writes h

/-- The two arguments and the six arrays the region left are not written. -/
theorem after_arg0 (W : Valuation τ sig (Elt Ideal)) :
    StableHlo.after (hostOps1 (F := Ideal)) W (Proc.devRef .tc main_arg0) = W (Proc.devRef .tc main_arg0) :=
  after_of_not_written W main_arg0 (by decide)
theorem after_arg1 (W : Valuation τ sig (Elt Ideal)) :
    StableHlo.after (hostOps1 (F := Ideal)) W (Proc.devRef .tc main_arg1) = W (Proc.devRef .tc main_arg1) :=
  after_of_not_written W main_arg1 (by decide)
theorem after_v1_0 (W : Valuation τ sig (Elt Ideal)) :
    StableHlo.after (hostOps1 (F := Ideal)) W (Proc.devRef .tc main_v1_0) = W (Proc.devRef .tc main_v1_0) :=
  after_of_not_written W main_v1_0 (by decide)
theorem after_v1_1 (W : Valuation τ sig (Elt Ideal)) :
    StableHlo.after (hostOps1 (F := Ideal)) W (Proc.devRef .tc main_v1_1) = W (Proc.devRef .tc main_v1_1) :=
  after_of_not_written W main_v1_1 (by decide)
theorem after_v1_2 (W : Valuation τ sig (Elt Ideal)) :
    StableHlo.after (hostOps1 (F := Ideal)) W (Proc.devRef .tc main_v1_2) = W (Proc.devRef .tc main_v1_2) :=
  after_of_not_written W main_v1_2 (by decide)
theorem after_v1_3 (W : Valuation τ sig (Elt Ideal)) :
    StableHlo.after (hostOps1 (F := Ideal)) W (Proc.devRef .tc main_v1_3) = W (Proc.devRef .tc main_v1_3) :=
  after_of_not_written W main_v1_3 (by decide)
theorem after_v1_4 (W : Valuation τ sig (Elt Ideal)) :
    StableHlo.after (hostOps1 (F := Ideal)) W (Proc.devRef .tc main_v1_4) = W (Proc.devRef .tc main_v1_4) :=
  after_of_not_written W main_v1_4 (by decide)
theorem after_v1_5 (W : Valuation τ sig (Elt Ideal)) :
    StableHlo.after (hostOps1 (F := Ideal)) W (Proc.devRef .tc main_v1_5) = W (Proc.devRef .tc main_v1_5) :=
  after_of_not_written W main_v1_5 (by decide)

end Cert.KernelIdeal.Tail

end
-- ==== Proof.KValue.lean ====
/-
  The program's run, read at its results, at the ideal values. Granted that the kernel region leaves the six
  row-sum arrays at the specification's row sums of the launched arguments, the host operations after the region
  leave the loss buffer at the specification's loss of the arguments, the three integer results at the zero word, and
  the two arguments as launched.
-/
import proofs.«142400_j89936615178820_1_alg».proof.Proof.KFinal
import proofs.«142400_j89936615178820_1_alg».proof.Proof.TailKernel
import proofs.«142400_j89936615178820_1_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The level constants' buffer still holds the four printed words when the region is left. -/
theorem W1_cst (c : Dev nD) :
    W1 m c (Proc.devRef .tc main_cst) = fun i => Ideal.ofBits .f32 (lit0 (S4.rowMajor i)) :=
  (W1_rest m c main_cst (by decide)).trans (V_cst m c)

/-- The loss buffer at the end: the specification's loss of the launched arguments, once the six arrays the region
    leaves are the specification's row sums. -/
theorem Wend_v28 (c : Dev nD)
    (hPn : ((dats m 0 c).arrAt 4 cfg0.N : S1x2048.Idx → EReal)
      = fun i => LogRatio.Pn (m ((c.tc : Thread nD τ).loc main_arg1)) (i 1))
    (hS1 : ((dats m 0 c).arrAt 5 cfg0.N : S1x2048.Idx → EReal)
      = fun i => LogRatio.S1 (m ((c.tc : Thread nD τ).loc main_arg0)) (m ((c.tc : Thread nD τ).loc main_arg1)) (i 1))
    (hS2 : ((dats m 0 c).arrAt 6 cfg0.N : S1x2048.Idx → EReal)
      = fun i => LogRatio.S2 (m ((c.tc : Thread nD τ).loc main_arg0)) (m ((c.tc : Thread nD τ).loc main_arg1)) (i 1))
    (hNn : ((dats m 0 c).arrAt 7 cfg0.N : S4x2048.Idx → EReal)
      = fun i => LogRatio.Nn (m ((c.tc : Thread nD τ).loc main_arg1)) (i 0) (i 1))
    (hT1 : ((dats m 0 c).arrAt 8 cfg0.N : S4x2048.Idx → EReal)
      = fun i => LogRatio.T1 (m ((c.tc : Thread nD τ).loc main_arg0)) (m ((c.tc : Thread nD τ).loc main_arg1)) (i 0) (i 1))
    (hT2 : ((dats m 0 c).arrAt 9 cfg0.N : S4x2048.Idx → EReal)
      = fun i => LogRatio.T2 (m ((c.tc : Thread nD τ).loc main_arg0)) (m ((c.tc : Thread nD τ).loc main_arg1)) (i 0) (i 1)) :
    (Wend m c (Proc.devRef .tc main_v28) : S_.Idx → EReal)
      = fun _ => LogRatio.loss (m ((c.tc : Thread nD τ).loc main_arg0)) (m ((c.tc : Thread nD τ).loc main_arg1)) := by
  show StableHlo.after (hostOps1 (F := Ideal)) (W1 m c) (Proc.devRef .tc main_v28) = _
  rw [Tail.after_v28 (W1 m c) (W1_cst m c), W1_out4, W1_out5, W1_out6, W1_out7, W1_out8, W1_out9,
    hPn, hS1, hS2, hNn, hT1, hT2]
  rfl

/-- The run with the results read off, at the ideal values: granted the six row-sum arrays, every weakly fair execution
    terminates with the loss buffer at the specification's loss of the launched arguments, the three integer results
    zero, and the arguments unchanged. -/
theorem run_value
    (hPn : ∀ c : Dev nD, ((dats m 0 c).arrAt 4 cfg0.N : S1x2048.Idx → EReal)
      = fun i => LogRatio.Pn (m ((c.tc : Thread nD τ).loc main_arg1)) (i 1))
    (hS1 : ∀ c : Dev nD, ((dats m 0 c).arrAt 5 cfg0.N : S1x2048.Idx → EReal)
      = fun i => LogRatio.S1 (m ((c.tc : Thread nD τ).loc main_arg0)) (m ((c.tc : Thread nD τ).loc main_arg1)) (i 1))
    (hS2 : ∀ c : Dev nD, ((dats m 0 c).arrAt 6 cfg0.N : S1x2048.Idx → EReal)
      = fun i => LogRatio.S2 (m ((c.tc : Thread nD τ).loc main_arg0)) (m ((c.tc : Thread nD τ).loc main_arg1)) (i 1))
    (hNn : ∀ c : Dev nD, ((dats m 0 c).arrAt 7 cfg0.N : S4x2048.Idx → EReal)
      = fun i => LogRatio.Nn (m ((c.tc : Thread nD τ).loc main_arg1)) (i 0) (i 1))
    (hT1 : ∀ c : Dev nD, ((dats m 0 c).arrAt 8 cfg0.N : S4x2048.Idx → EReal)
      = fun i => LogRatio.T1 (m ((c.tc : Thread nD τ).loc main_arg0)) (m ((c.tc : Thread nD τ).loc main_arg1)) (i 0) (i 1))
    (hT2 : ∀ c : Dev nD, ((dats m 0 c).arrAt 9 cfg0.N : S4x2048.Idx → EReal)
      = fun i => LogRatio.T2 (m ((c.tc : Thread nD τ).loc main_arg0)) (m ((c.tc : Thread nD τ).loc main_arg1)) (i 0) (i 1)) :
    θ_run (defs (F := Ideal)) (onTc (τ := τ) (main (F := Ideal))) ⟨m, fun _ => 0, ρ⟩ (fun r => ∀ c : Dev nD,
      r.2.mem ((c.tc : Thread nD τ).loc main_v28)
        = (fun _ => LogRatio.loss (m ((c.tc : Thread nD τ).loc main_arg0)) (m ((c.tc : Thread nD τ).loc main_arg1)))
      ∧ r.2.mem ((c.tc : Thread nD τ).loc main_c) = constantI S_ 32 0#32
      ∧ r.2.mem ((c.tc : Thread nD τ).loc main_c_3) = constantI S_ 32 0#32
      ∧ r.2.mem ((c.tc : Thread nD τ).loc main_c_4) = constantI S_ 32 0#32
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c main_v28 (mem_unscoped main_v28 (by decide))).trans
          (Wend_v28 m c (hPn c) (hS1 c) (hS2 c) (hNn c) (hT1 c) (hT2 c)),
       (h c main_c (mem_unscoped main_c (by decide))).trans (Tail.after_c (W1 m c)),
       (h c main_c_3 (mem_unscoped main_c_3 (by decide))).trans (Tail.after_c_3 (W1 m c)),
       (h c main_c_4 (mem_unscoped main_c_4 (by decide))).trans (Tail.after_c_4 (W1 m c)),
       (h c main_arg0 (mem_unscoped main_arg0 (by decide))).trans (Wend_arg0 m c),
       (h c main_arg1 (mem_unscoped main_arg1 (by decide))).trans (Wend_arg1 m c)⟩)
    (run_main m ρ)

end Cert.KernelIdeal.Hand

end
-- ==== Proof.KClose.lean ====
/-
  The kernel's run with its loss in closed form: the six result arrays are the six row sums of the specification,
  taken over the argument arrays as launched, and the host tail combines them into the loss.
-/
import proofs.«142400_j89936615178820_1_alg».proof.Proof.KValZ
import proofs.«142400_j89936615178820_1_alg».proof.Proof.KValue
import proofs.«142400_j89936615178820_1_alg».proof.Proof.KPre

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- Every weakly fair execution of the idealized kernel program ends with the loss of the argument arrays, the three
    integer results zero, and the arguments unchanged. -/
theorem run_loss :
    θ_run (defs (F := Ideal)) (onTc (τ := τ) (main (F := Ideal))) ⟨m, fun _ => 0, ρ⟩ (fun r => ∀ c : Dev nD,
      r.2.mem ((c.tc : Thread nD τ).loc main_v28) = (fun _ => LogRatio.loss (m ((c.tc : Thread nD τ).loc main_arg0)) (m ((c.tc : Thread nD τ).loc main_arg1)))
      ∧ r.2.mem ((c.tc : Thread nD τ).loc main_c) = constantI S_ 32 0#32
      ∧ r.2.mem ((c.tc : Thread nD τ).loc main_c_3) = constantI S_ 32 0#32
      ∧ r.2.mem ((c.tc : Thread nD τ).loc main_c_4) = constantI S_ 32 0#32
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_value m ρ
    (fun c => (KVal.arrAt4 m c).trans (by funext I; unfold KVal.G4 KVal.labArr; rw [V_arg1 m c]; rfl))
    (fun c => (KVal.arrAt5 m c).trans (by funext I; unfold KVal.G5 KVal.labArr KVal.xArr; rw [V_arg1 m c, V_arg0 m c]; rfl))
    (fun c => (KVal.arrAt6 m c).trans (by funext I; unfold KVal.G6 KVal.labArr KVal.xArr; rw [V_arg1 m c, V_arg0 m c]; rfl))
    (fun c => (KVal.arrAt7 m c).trans (by funext I; unfold KVal.G7 KVal.labArr; rw [V_arg1 m c]; rfl))
    (fun c => (KVal.arrAt8 m c).trans (by funext I; unfold KVal.G8 KVal.labArr KVal.xArr; rw [V_arg1 m c, V_arg0 m c]; rfl))
    (fun c => (KVal.arrAt9 m c).trans (by funext I; unfold KVal.G9 KVal.labArr KVal.xArr; rw [V_arg1 m c, V_arg0 m c]; rfl))

end Cert.KernelIdeal.Hand

end
-- ==== Proof.KBRuns.lean ====
/-
  The kernel region of the program, seen from one grid point: what the staging buffers of the four input windows hold
  when the body runs (each the block of its array that the point's index map selects, fetched at that point or kept
  from an earlier one), the one branch of the body (the accumulators are reset when the column-block coordinate is 0,
  that is at the points 0, 4, 8, 12 of the row-major 4 x 4 grid), and the staging memrefs the body is called with.
-/
import proofs.«142400_j89936615178820_1_alg».proof.Proof.Gen.Kernel.Launch
import proofs.«142400_j89936615178820_1_alg».proof.Proof.Gen.Kernel.Skeleton
import proofs.«142400_j89936615178820_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, as a valuation, -/
abbrev V₀ (c : Dev nD) : Valuation τ sig (Elt F) := fun b => m ((c : Dev nD), b)
/-- and when the region is entered: the label table has been transposed and the level constants written. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or kept. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or kept. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or kept. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or kept. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The body's one branch: the column-block coordinate is 0. -/
abbrev cond0_0 (i : grid0.Coords) : Prop := (Scalar.cmpi .ne (Scalar.extui (Scalar.cmpi .eq (BitVec.ofNat 32 (i 1).val) 0#32)) 0#32) = 1#1
/-- It holds at the points 0, 4, 8, 12. -/
theorem hcond0_0 : ∀ t : Fin cfg0.N, cond0_0 (grid0.coords t) ↔ t.val % 4 = 0 :=
  (by decide +kernel : ∀ t : Fin grid0.N, cond0_0 (grid0.coords t) ↔ t.val % 4 = 0)

abbrev VO0_4 : View sig .tc .vmem S1x512 .f32 := (Memref.whole cc0_stg4_0 : Memref sig .tc .vmem S1x512 .f32).view
abbrev VO0_5 : View sig .tc .vmem S1x512 .f32 := (Memref.whole cc0_stg5_0 : Memref sig .tc .vmem S1x512 .f32).view
abbrev VO0_6 : View sig .tc .vmem S1x512 .f32 := (Memref.whole cc0_stg6_0 : Memref sig .tc .vmem S1x512 .f32).view
abbrev VO0_7 : View sig .tc .vmem S4x512 .f32 := (Memref.whole cc0_stg7_0 : Memref sig .tc .vmem S4x512 .f32).view
abbrev VO0_8 : View sig .tc .vmem S4x512 .f32 := (Memref.whole cc0_stg8_0 : Memref sig .tc .vmem S4x512 .f32).view
abbrev VO0_9 : View sig .tc .vmem S4x512 .f32 := (Memref.whole cc0_stg9_0 : Memref sig .tc .vmem S4x512 .f32).view

abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x4 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x512 .f32 := win0_9.stage (cfg0.slots t 9)
abbrev hs0_9 (t : Fin cfg0.N) : (ms0_9 t).IsWhole := hstage0_9 ((cfg0.slots t 9).cast nbuf0_9)

end Cert.Kernel.Hand

end
-- ==== Proof.KBRunA.lean ====
/-
  The whole kernel body run symbolically in the case where the accumulators are reset (column-block coordinate 0):
  on whole staging memrefs, the inputs' at their blocks, it runs to the end, nothing faulting, leaving the inputs as
  they were and each output's buffer with a list of stores written, which the run finds.
-/
import proofs.«142400_j89936615178820_1_alg».proof.Proof.KBRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) :
    Σ' (L4 : List (View.Piece (Elt F) S1x512 .f32)), Σ' (L5 : List (View.Piece (Elt F) S1x512 .f32)), Σ' (L6 : List (View.Piece (Elt F) S1x512 .f32)), Σ' (L7 : List (View.Piece (Elt F) S4x512 .f32)), Σ' (L8 : List (View.Piece (Elt F) S4x512 .f32)), { L9 : List (View.Piece (Elt F) S4x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__log_ratio_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__log_ratio_kernel_eq_skeleton]; unfold cc0__log_ratio_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

end Cert.Kernel.Hand

end
-- ==== Proof.KBRunB.lean ====
/-
  The whole kernel body run symbolically in the case where the accumulators are carried over (column-block coordinate not 0):
  on whole staging memrefs, the inputs' at their blocks, the outputs' at what the point before left, it runs to the end, nothing faulting, leaving the inputs as
  they were and each output's buffer with a list of stores written, which the run finds.
-/
import proofs.«142400_j89936615178820_1_alg».proof.Proof.KBRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) :
    Σ' (L4 : List (View.Piece (Elt F) S1x512 .f32)), Σ' (L5 : List (View.Piece (Elt F) S1x512 .f32)), Σ' (L6 : List (View.Piece (Elt F) S1x512 .f32)), Σ' (L7 : List (View.Piece (Elt F) S4x512 .f32)), Σ' (L8 : List (View.Piece (Elt F) S4x512 .f32)), { L9 : List (View.Piece (Elt F) S4x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xo5 ∗ owns (c : Thread nD τ) arg8 fullShare xo6 ∗ owns (c : Thread nD τ) arg9 fullShare xo7 ∗ owns (c : Thread nD τ) arg10 fullShare xo8 ∗ owns (c : Thread nD τ) arg11 fullShare xo9
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__log_ratio_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__log_ratio_kernel_eq_skeleton]; unfold cc0__log_ratio_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

end Cert.Kernel.Hand

end
-- ==== Proof.KBFrame.lean ====
/-
  What the six output buffers hold after the body at each grid point, and the body obligation of the pipeline.
  Each case's stores cover the block they are written into, so what a buffer holds after the body is its stores read
  back; at a point that resets the accumulators this is a function of the point's input blocks alone, at any other
  point also of what the point before left (the buffers are not written back in between: the row-block coordinate
  has not moved). The proof data hold the embeddings array at one half share for each of the two windows on it.
-/
import proofs.«142400_j89936615178820_1_alg».proof.Proof.KBRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) (y : S1x512.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).1 S1x512.size (by sl_kernel_rfl) y

/-- What case A leaves in output 4's staging buffer: its stores read back. -/
def out0_A_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) : Vec F S1x512 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 hc0 x0 x1 x2 x3).1)

theorem cover0_A_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) (y : S1x512.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).2.1 S1x512.size (by sl_kernel_rfl) y

/-- What case A leaves in output 5's staging buffer: its stores read back. -/
def out0_A_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) : Vec F S1x512 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 x0 x1 x2 x3).2.1)

theorem cover0_A_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) (y : S1x512.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).2.2.1 S1x512.size (by sl_kernel_rfl) y

/-- What case A leaves in output 6's staging buffer: its stores read back. -/
def out0_A_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) : Vec F S1x512 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 x0 x1 x2 x3).2.2.1)

theorem cover0_A_7 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) (y : S4x512.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).2.2.2.1 S4x512.size (by sl_kernel_rfl) y

/-- What case A leaves in output 7's staging buffer: its stores read back. -/
def out0_A_7 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) : Vec F S4x512 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 x0 x1 x2 x3).2.2.2.1)

theorem cover0_A_8 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) (y : S4x512.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).2.2.2.2.1 S4x512.size (by sl_kernel_rfl) y

/-- What case A leaves in output 8's staging buffer: its stores read back. -/
def out0_A_8 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) : Vec F S4x512 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3).2.2.2.2.1)

theorem cover0_A_9 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) (y : S4x512.Idx) :
    ∃ pc ∈ (kernelRun0_A c i arg2 harg2 arg3 harg3 arg4 harg4 arg5 harg5 arg6 harg6 arg7 harg7 arg8 harg8 arg9 harg9 arg10 harg10 arg11 harg11 hc0 x0 x1 x2 x3).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3).2.2.2.2.2.1 S4x512.size (by sl_kernel_rfl) y

/-- What case A leaves in output 9's staging buffer: its stores read back. -/
def out0_A_9 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : cond0_0 i)
    (x0 : Vec F S512x128 .f32) (x1 : Vec F S512x128 .f32) (x2 : Vec F S512x4 .i32) (x3 : Vec F S4x512 .i32) : Vec F S4x512 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 hc0 x0 x1 x2 x3).2.2.2.2.2.1)

theorem cover0_B_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) (y : S1x512.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).1 S1x512.size (by sl_kernel_rfl) y

/-- What case B leaves in output 4's staging buffer: its stores read back. -/
def out0_B_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) : Vec F S1x512 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).1)

theorem cover0_B_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) (y : S1x512.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.1 S1x512.size (by sl_kernel_rfl) y

/-- What case B leaves in output 5's staging buffer: its stores read back. -/
def out0_B_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) : Vec F S1x512 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.1)

theorem cover0_B_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) (y : S1x512.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.1 S1x512.size (by sl_kernel_rfl) y

/-- What case B leaves in output 6's staging buffer: its stores read back. -/
def out0_B_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) : Vec F S1x512 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.1)

theorem cover0_B_7 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) (y : S4x512.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.2.1 S1x512.size (by sl_kernel_rfl) y

/-- What case B leaves in output 7's staging buffer: its stores read back. -/
def out0_B_7 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) : Vec F S4x512 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.2.1)

theorem cover0_B_8 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) (y : S4x512.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.2.2.1 S1x512.size (by sl_kernel_rfl) y

/-- What case B leaves in output 8's staging buffer: its stores read back. -/
def out0_B_8 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) : Vec F S4x512 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.2.2.1)

theorem cover0_B_9 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) (y : S4x512.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.2.2.2.1 S1x512.size (by sl_kernel_rfl) y

/-- What case B leaves in output 9's staging buffer: its stores read back. -/
def out0_B_9 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x4 .i32) (harg4 : arg4.IsWhole) (arg5 : Memref sig .tc .vmem S4x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x512 .f32) (harg9 : arg9.IsWhole) (arg10 : Memref sig .tc .vmem S4x512 .f32) (harg10 : arg10.IsWhole) (arg11 : Memref sig .tc .vmem S4x512 .f32) (harg11 : arg11.IsWhole) (hc0 : ¬cond0_0 i)
    (x0 : Vec F S512x128 .f32) (x1 : Vec F S512x128 .f32) (x2 : Vec F S512x4 .i32) (x3 : Vec F S4x512 .i32) (xo4 : Vec F S1x512 .f32) (xo5 : Vec F S1x512 .f32) (xo6 : Vec F S1x512 .f32) (xo7 : Vec F S4x512 .f32) (xo8 : Vec F S4x512 .f32) (xo9 : Vec F S4x512 .f32) : Vec F S4x512 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 hc0 x0 x1 x2 x3 xo4 xo5 xo6 xo7 xo8 xo9).2.2.2.2.2.1)

/-- THE ACCUMULATION: what the six outputs' staging buffers hold after the body at position `n`. -/
def outsAt0 (c : Dev nD) : (n : ℕ) → n < cfg0.N → Vec F S1x512 .f32 × Vec F S1x512 .f32 × Vec F S1x512 .f32 × Vec F S4x512 .f32 × Vec F S4x512 .f32 × Vec F S4x512 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 4 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

theorem outsAt0_A (c : Dev nD) (t : Fin cfg0.N) (h0 : t.val % 4 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-- The proof data of the pipeline on core `c`: the arrays as the region finds them; after the body each input's buffer
    at its block and each output's at the accumulation; the invariant is the scoped buffers no window stages; nothing
    owed; the two windows on the embeddings array hold one half of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
    | ⟨8, _⟩ => (outsAt0 m c t.val t.isLt).2.2.2.2.1
    | ⟨9, _⟩ => (outsAt0 m c t.val t.isLt).2.2.2.2.2
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]
theorem after0_8 (c : Dev nD) (t : Fin cfg0.N) : (dats m 0 c).after 8 t = (outsAt0 m c t.val t.isLt).2.2.2.2.1 := by dsimp only [dats]
theorem after0_9 (c : Dev nD) (t : Fin cfg0.N) : (dats m 0 c).after 9 t = (outsAt0 m c t.val t.isLt).2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a point that carries the accumulators over, output 4's current staging buffer holds what the body left at the
    point before: the buffer was not written back in between. -/
theorem before0_4_B (c : Dev nD) (t : Fin cfg0.N) (h0 : ¬t.val % 4 = 0) (d) :
    (dats m 0 c).before 4 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-- At a point that carries the accumulators over, output 5's current staging buffer holds what the body left at the
    point before: the buffer was not written back in between. -/
theorem before0_5_B (c : Dev nD) (t : Fin cfg0.N) (h0 : ¬t.val % 4 = 0) (d) :
    (dats m 0 c).before 5 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]

/-- At a point that carries the accumulators over, output 6's current staging buffer holds what the body left at the
    point before: the buffer was not written back in between. -/
theorem before0_6_B (c : Dev nD) (t : Fin cfg0.N) (h0 : ¬t.val % 4 = 0) (d) :
    (dats m 0 c).before 6 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dats]

/-- At a point that carries the accumulators over, output 7's current staging buffer holds what the body left at the
    point before: the buffer was not written back in between. -/
theorem before0_7_B (c : Dev nD) (t : Fin cfg0.N) (h0 : ¬t.val % 4 = 0) (d) :
    (dats m 0 c).before 7 t d = (outsAt0 m c (t.val - 1) (Nat.lt_of_le_of_lt (Nat.sub_le _ _) t.isLt)).2.2.2.1 := by
  have hN : t.val < 16 := lt_of_lt_of_eq t.isLt (show cfg0.N = 16 from N_0)
  rw [Dat.before_out_kept _ 7 rfl t (by omega) (Bool.eq_false_iff.mpr fun h => by have := (flush0_7 _).mp h; dsimp only at this; omega)
    (fun _ => rfl) (fun _ _ => rfl)]
  dsimp only [dats]

/-- At a point that carries the accumulators over, output 8's current staging buffer holds what the body left at the
    point before: the buffer was not written back in between. -/
theorem before0_8_B (c : Dev nD) (t : Fin cfg0.N) (h0 : ¬t.val % 4 = 0) (d) :
    (dats m 0 c).before 8 t d = (outsAt0 m c (t.val - 1) (Nat.lt_of_le_of_lt (Nat.sub_le _ _) t.isLt)).2.2.2.2.1 := by
  have hN : t.val < 16 := lt_of_lt_of_eq t.isLt (show cfg0.N = 16 from N_0)
  rw [Dat.before_out_kept _ 8 rfl t (by omega) (Bool.eq_false_iff.mpr fun h => by have := (flush0_8 _).mp h; dsimp only at this; omega)
    (fun _ => rfl) (fun _ _ => rfl)]
  dsimp only [dats]

/-- At a point that carries the accumulators over, output 9's current staging buffer holds what the body left at the
    point before: the buffer was not written back in between. -/
theorem before0_9_B (c : Dev nD) (t : Fin cfg0.N) (h0 : ¬t.val % 4 = 0) (d) :
    (dats m 0 c).before 9 t d = (outsAt0 m c (t.val - 1) (Nat.lt_of_le_of_lt (Nat.sub_le _ _) t.isLt)).2.2.2.2.2 := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  have hN : t.val < 16 := lt_of_lt_of_eq t.isLt (show cfg0.N = 16 from N_0)
  by_cases h0 : t.val % 4 = 0
  · rw [outsAt0_A m c t h0]
    unfold out0_A_4 out0_A_5 out0_A_6 out0_A_7 out0_A_8 out0_A_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ ((hcond0_0 t).mpr h0) (iblk m c 0 t) (iblk m c 1 t) (iblk m c 2 t) (iblk m c 3 t)).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iintro ⟨H0, H1, H2, H3, ⟨%e4, H4⟩, ⟨%e5, H5⟩, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _ _ _ _ )
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _ )
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ )
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ )
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ )
    unfold owns; iexists _; isplitr
    swap; · iexact H9
    ipureintro; exact View.read_writes_of_cover _ _ _ _ _ (cover0_A_9 c _ _ _ _ _ _ _ _ _ _ _ _ _ _ _ _ _ _ _ _ _ _ _ _ _ _ )
  · rw [outsAt0_B m c t h0]
    simp only [before0_4_B m c t h0, before0_5_B m c t h0, before0_6_B m c t h0, before0_7_B m c t h0, before0_8_B m c t h0, before0_9_B m c t h0]
    unfold out0_B_4 out0_B_5 out0_B_6 out0_B_7 out0_B_8 out0_B_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) _ _ _ _ _ _ ).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, ⟨%e4, H4⟩, ⟨%e5, H5⟩, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _ _ _ _ _ _ _ _ _ )
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _ _ _ _ _ _ )
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _ _ )
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _ )
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ )
    unfold owns; iexists _; isplitr
    swap; · iexact H9
    ipureintro; exact View.read_writes_of_cover _ _ _ _ _ (cover0_B_9 c _ _ _ _ _ _ _ _ _ _ _ _ _ _ _ _ _ _ _ _ _ _ _ _ _ _ _ _ _ _ _ _ )

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KBLaunch.lean ====
/-
  The launch: @main is two host operations (the level constants, the transposed label table), the kernel region, and
  thirty-three host operations combining the six row-sum arrays into the loss. The region is entered with every unscoped
  buffer of the core held whole; the embeddings array, which two windows read, is dealt to them one half each and put
  together again at the exit, where both halves still hold what the region found; the six result arrays come back at
  what the accumulation computes, and the later host operations run over the whole again. Every weakly fair execution
  terminates with every unscoped buffer at what the later operations compute from that.
-/
import proofs.«142400_j89936615178820_1_alg».proof.Proof.KBFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

/-- What rides beside the buffers through the host operations: the core owes nothing. -/
abbrev R (c : Dev nD) : sProp 𝕄 := iprop(∃ W, owes (c : Thread nD τ) (0 : CellTallies nD τ sig Unit) W)

/-- The nine distinct buffers behind the ten windows' arrays. -/
def r9 : Fin 9 → Ref sig .tc := ![main_arg0, main_arg1, main_v0, main_v1_0, main_v1_1, main_v1_2, main_v1_3, main_v1_4, main_v1_5]
theorem r9_inj : Function.Injective r9 := by decide
theorem img_eq : Finset.univ.image (Pipeline.arrRef spec0) = Finset.univ.map ⟨r9, r9_inj⟩ := by decide
theorem bigSep_F9 {M : Type} [URA M] (Φ : Fin 9 → sProp M) : bigSep Finset.univ Φ = iprop(Φ (0 : Fin 9) ∗ Φ (1 : Fin 9) ∗ Φ (2 : Fin 9) ∗ Φ (3 : Fin 9) ∗ Φ (4 : Fin 9) ∗ Φ (5 : Fin 9) ∗ Φ (6 : Fin 9) ∗ Φ (7 : Fin 9) ∗ Φ (8 : Fin 9)) :=
  bigSep_univ_eq_bigSepL [(0 : Fin 9), (1 : Fin 9), (2 : Fin 9), (3 : Fin 9), (4 : Fin 9), (5 : Fin 9), (6 : Fin 9), (7 : Fin 9), (8 : Fin 9)] (by decide) (by decide) Φ

/-- The embeddings array whole is its two halves. -/
theorem halves (c : Dev nD) (f : Buf (Elt F) ((c : Thread nD τ).loc main_arg0)) :
    (((c : Thread nD τ).loc main_arg0) ↦{fullShare} f : sProp 𝕄)
      ⊣⊢ iprop((((c : Thread nD τ).loc main_arg0) ↦{fullShare.left} f) ∗ (((c : Thread nD τ).loc main_arg0) ↦{fullShare.right} f)) :=
  pointsTo_share (PosShare.mem_left_op_right fullShare)

/-- The nine buffers behind the arrays, one by one. -/
theorem arrBufs_eq (c : Dev nD) (V' : (b : Ref sig .tc) → Buf (Elt F) ((c : Thread nD τ).loc b)) :
    (Pipeline.arrBufs spec0 c V' : sProp 𝕄)
      = iprop((((c : Thread nD τ).loc main_arg0) ↦{fullShare} V' main_arg0) ∗ (((c : Thread nD τ).loc main_arg1) ↦{fullShare} V' main_arg1) ∗ (((c : Thread nD τ).loc main_v0) ↦{fullShare} V' main_v0) ∗ (((c : Thread nD τ).loc main_v1_0) ↦{fullShare} V' main_v1_0) ∗ (((c : Thread nD τ).loc main_v1_1) ↦{fullShare} V' main_v1_1) ∗ (((c : Thread nD τ).loc main_v1_2) ↦{fullShare} V' main_v1_2) ∗ (((c : Thread nD τ).loc main_v1_3) ↦{fullShare} V' main_v1_3) ∗ (((c : Thread nD τ).loc main_v1_4) ↦{fullShare} V' main_v1_4) ∗ (((c : Thread nD τ).loc main_v1_5) ↦{fullShare} V' main_v1_5)) := by
  unfold Pipeline.arrBufs
  rw [img_eq, bigSep_map, bigSep_F9]
  rfl

/-- The ten windows' arrays at the proof data's shares, one by one. -/
theorem arrays_eq10 (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) :
    ((dats m 0 c).arrays Fw : sProp 𝕄)
      = iprop((((c : Thread nD τ).loc main_arg0) ↦{fullShare.left} V' main_arg0) ∗ (((c : Thread nD τ).loc main_arg0) ↦{fullShare.right} V' main_arg0) ∗ (((c : Thread nD τ).loc main_arg1) ↦{fullShare} V' main_arg1) ∗ (((c : Thread nD τ).loc main_v0) ↦{fullShare} V' main_v0) ∗ (((c : Thread nD τ).loc main_v1_0) ↦{fullShare} V' main_v1_0) ∗ (((c : Thread nD τ).loc main_v1_1) ↦{fullShare} V' main_v1_1) ∗ (((c : Thread nD τ).loc main_v1_2) ↦{fullShare} V' main_v1_2) ∗ (((c : Thread nD τ).loc main_v1_3) ↦{fullShare} V' main_v1_3) ∗ (((c : Thread nD τ).loc main_v1_4) ↦{fullShare} V' main_v1_4) ∗ (((c : Thread nD τ).loc main_v1_5) ↦{fullShare} V' main_v1_5)) := by
  unfold Pipeline.Dat.arrays
  rw [bigSep_W0]
  simp only [hF, View.set_whole]
  rfl

/-- ENTRY: the nine buffers behind the arrays, held whole at one valuation, are the windows' arrays at the proof data's
    shares: the embeddings array is dealt to its two windows one half each. -/
theorem arrays_of_arrBufs (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) :
    (Pipeline.arrBufs spec0 c V' : sProp 𝕄) ⊢ (dats m 0 c).arrays Fw := by
  rw [arrBufs_eq, arrays_eq10 m c V' Fw hF]
  iintro ⟨H0, H1, H2, H3, H4, H5, H6, H7, H8⟩
  ihave Hs := (halves c (V' main_arg0)).1 $$ H0
  icases Hs with ⟨Ha, Hb⟩
  isplitl [Ha]; · iexact Ha
  isplitl [Hb]; · iexact Hb
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- EXIT: the converse, the two halves of the embeddings array put together. -/
theorem arrBufs_of_arrays (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) :
    (dats m 0 c).arrays Fw ⊢ (Pipeline.arrBufs spec0 c V' : sProp 𝕄) := by
  rw [arrBufs_eq, arrays_eq10 m c V' Fw hF]
  iintro ⟨Ha, Hb, H1, H2, H3, H4, H5, H6, H7, H8⟩
  isplitl [Ha Hb]
  · iapply (halves c (V' main_arg0)).2
    isplitl [Ha]; · iexact Ha
    iexact Hb
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The host operations before the region -/

theorem hostOps0_fresh : ∀ op ∈ (hostOps0 (F := F)), op.fresh = ∅ := by
  intro _ h; (repeat (cases h with | head => rfl | tail _ h => ?_)); exact nomatch h

def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    hostOps0_fresh (V₀ m) R

/-! ## The buffers when the region is left -/

open Classical in
/-- The core's buffers when the region is left: the six result arrays at what the accumulation computes, every other
    buffer as the region found it. -/
def W1 (c : Dev nD) : Valuation τ sig (Elt F) :=
  Function.update (Function.update (Function.update (Function.update (Function.update (Function.update (StableHlo.after hostOps0 (V₀ m c)) (Proc.devRef .tc main_v1_0) ((dats m 0 c).arrAt 4 cfg0.N)) (Proc.devRef .tc main_v1_1) ((dats m 0 c).arrAt 5 cfg0.N)) (Proc.devRef .tc main_v1_2) ((dats m 0 c).arrAt 6 cfg0.N)) (Proc.devRef .tc main_v1_3) ((dats m 0 c).arrAt 7 cfg0.N)) (Proc.devRef .tc main_v1_4) ((dats m 0 c).arrAt 8 cfg0.N)) (Proc.devRef .tc main_v1_5) ((dats m 0 c).arrAt 9 cfg0.N)

theorem hostOps1_fresh : ∀ op ∈ (hostOps1 (F := F)), op.fresh = ∅ := by
  intro _ h; (repeat (cases h with | head => rfl | tail _ h => ?_)); exact nomatch h

def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    hostOps1_fresh (W1 m) R

/-! ## What the region's exit valuation says -/

theorem W1_out4 (c : Dev nD) : W1 m c (Proc.devRef .tc main_v1_0) = (dats m 0 c).arrAt 4 cfg0.N := by
  unfold W1
  rw [Function.update_of_ne (StableHlo.devRef_ne_of_ne (by decide : main_v1_0 ≠ main_v1_5)), Function.update_of_ne (StableHlo.devRef_ne_of_ne (by decide : main_v1_0 ≠ main_v1_4)), Function.update_of_ne (StableHlo.devRef_ne_of_ne (by decide : main_v1_0 ≠ main_v1_3)), Function.update_of_ne (StableHlo.devRef_ne_of_ne (by decide : main_v1_0 ≠ main_v1_2)), Function.update_of_ne (StableHlo.devRef_ne_of_ne (by decide : main_v1_0 ≠ main_v1_1)), Function.update_self]
theorem W1_out5 (c : Dev nD) : W1 m c (Proc.devRef .tc main_v1_1) = (dats m 0 c).arrAt 5 cfg0.N := by
  unfold W1
  rw [Function.update_of_ne (StableHlo.devRef_ne_of_ne (by decide : main_v1_1 ≠ main_v1_5)), Function.update_of_ne (StableHlo.devRef_ne_of_ne (by decide : main_v1_1 ≠ main_v1_4)), Function.update_of_ne (StableHlo.devRef_ne_of_ne (by decide : main_v1_1 ≠ main_v1_3)), Function.update_of_ne (StableHlo.devRef_ne_of_ne (by decide : main_v1_1 ≠ main_v1_2)), Function.update_self]
theorem W1_out6 (c : Dev nD) : W1 m c (Proc.devRef .tc main_v1_2) = (dats m 0 c).arrAt 6 cfg0.N := by
  unfold W1
  rw [Function.update_of_ne (StableHlo.devRef_ne_of_ne (by decide : main_v1_2 ≠ main_v1_5)), Function.update_of_ne (StableHlo.devRef_ne_of_ne (by decide : main_v1_2 ≠ main_v1_4)), Function.update_of_ne (StableHlo.devRef_ne_of_ne (by decide : main_v1_2 ≠ main_v1_3)), Function.update_self]
theorem W1_out7 (c : Dev nD) : W1 m c (Proc.devRef .tc main_v1_3) = (dats m 0 c).arrAt 7 cfg0.N := by
  unfold W1
  rw [Function.update_of_ne (StableHlo.devRef_ne_of_ne (by decide : main_v1_3 ≠ main_v1_5)), Function.update_of_ne (StableHlo.devRef_ne_of_ne (by decide : main_v1_3 ≠ main_v1_4)), Function.update_self]
theorem W1_out8 (c : Dev nD) : W1 m c (Proc.devRef .tc main_v1_4) = (dats m 0 c).arrAt 8 cfg0.N := by
  unfold W1
  rw [Function.update_of_ne (StableHlo.devRef_ne_of_ne (by decide : main_v1_4 ≠ main_v1_5)), Function.update_self]
theorem W1_out9 (c : Dev nD) : W1 m c (Proc.devRef .tc main_v1_5) = (dats m 0 c).arrAt 9 cfg0.N := by
  unfold W1
  rw [Function.update_self]

theorem W1_rest (c : Dev nD) (b : Ref sig .tc) (hb : b ≠ main_v1_0 ∧ b ≠ main_v1_1 ∧ b ≠ main_v1_2 ∧ b ≠ main_v1_3 ∧ b ≠ main_v1_4 ∧ b ≠ main_v1_5) :
    W1 m c (Proc.devRef .tc b) = V m c b := by
  obtain ⟨h0, h1, h2, h3, h4, h5⟩ := hb
  unfold W1
  rw [Function.update_of_ne (StableHlo.devRef_ne_of_ne h5), Function.update_of_ne (StableHlo.devRef_ne_of_ne h4), Function.update_of_ne (StableHlo.devRef_ne_of_ne h3),
    Function.update_of_ne (StableHlo.devRef_ne_of_ne h2), Function.update_of_ne (StableHlo.devRef_ne_of_ne h1), Function.update_of_ne (StableHlo.devRef_ne_of_ne h0)]

/-- The exit valuation has every window's array at what the proof data compute for it after the last write-back: an
    input's as the region found it, a result's at the accumulation. -/
theorem W1_arr (c : Dev nD) (w : Fin cfg0.W) :
    (dats m 0 c).arrAt w cfg0.N = W1 m c (Proc.devRef .tc (Pipeline.arrRef spec0 w)) := by
  match w with
  | ⟨0, _⟩ => exact ((dats m 0 c).arrAt_in 0 rfl _).trans ((A_eq m c 0).trans (W1_rest m c _ (by decide)).symm)
  | ⟨1, _⟩ => exact ((dats m 0 c).arrAt_in 1 rfl _).trans ((A_eq m c 1).trans (W1_rest m c _ (by decide)).symm)
  | ⟨2, _⟩ => exact ((dats m 0 c).arrAt_in 2 rfl _).trans ((A_eq m c 2).trans (W1_rest m c _ (by decide)).symm)
  | ⟨3, _⟩ => exact ((dats m 0 c).arrAt_in 3 rfl _).trans ((A_eq m c 3).trans (W1_rest m c _ (by decide)).symm)
  | ⟨4, _⟩ => exact (W1_out4 m c).symm
  | ⟨5, _⟩ => exact (W1_out5 m c).symm
  | ⟨6, _⟩ => exact (W1_out6 m c).symm
  | ⟨7, _⟩ => exact (W1_out7 m c).symm
  | ⟨8, _⟩ => exact (W1_out8 m c).symm
  | ⟨9, _⟩ => exact (W1_out9 m c).symm

/-- Off the windows' arrays the exit valuation is the entry one. -/
theorem W1_off (c : Dev nD) (b : Ref sig .tc) (hb : b ∉ Finset.univ.image (Pipeline.arrRef spec0)) :
    W1 m c (Proc.devRef .tc b) = V m c b := by
  refine W1_rest m c b ⟨?_, ?_, ?_, ?_, ?_, ?_⟩ <;> rintro rfl <;> exact hb (by decide)

/-! ## The region -/

set_option backward.isDefEq.respectTransparency.types false in
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (W1 m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs (0 : Fin 1) winFacts₀0.arr_unscoped c (V m c)]
    iintro ⟨⟨⟨Hab, Hrest⟩, HO⟩, -, -⟩
    ihave Ha := (arrays_of_arrBufs m c (V m c) (fun w => (dats m 0 c).arrAt w 0) (fun w => A_eq m c w)) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    show iprop(_ ∗ _ ∗ Pipeline.scopedRest (Ix := Unit) (Name := ℕ) (U := UR sig nD τ) (Lvl := ℕ) (Val := Elt F) spec0 c)
      ⊢ Pipeline.scopedRest (Ix := Unit) (Name := ℕ) (U := UR sig nD τ) (Lvl := ℕ) (Val := Elt F) spec0 c
    iintro ⟨-, -, Hr⟩
    iexact Hr
  hout c := by
    rw [Pipeline.ownSems0_none]
    show Pipeline.scopedRest (Ix := Unit) (Name := ℕ) (U := UR sig nD τ) (Lvl := ℕ) (Val := Elt F) spec0 c
      ⊢ iprop(emp ∗ emp ∗ Pipeline.scopedRest (Ix := Unit) (Name := ℕ) (U := UR sig nD τ) (Lvl := ℕ) (Val := Elt F) spec0 c)
    iintro Hr
    isplitr; · iempintro
    isplitr; · iempintro
    iexact Hr
  hexit c := by
    rw [show StableHlo.held (c : Thread nD τ) (Pipeline.ucRefs τ sig) (W1 m c) = unscopedBufs c (fun b => W1 m c b) from (Pipeline.unscopedBufs_held c _).symm,
      Pipeline.unscopedBufs_split₀ cfgs (0 : Fin 1) winFacts₀0.arr_unscoped c (fun b => W1 m c b)]
    have hrest : (Pipeline.unscopedRest (Ix := Unit) (Name := ℕ) (U := UR sig nD τ) (Lvl := ℕ) spec0 c (fun b => W1 m c b) : sProp 𝕄)
        = Pipeline.unscopedRest spec0 c (V m c) := by
      unfold Pipeline.unscopedRest
      exact bigSep_congr fun b hb => by dsimp only; rw [W1_off m c b (Finset.mem_sdiff.mp hb).2]
    rw [hrest]
    iintro ⟨Ha, HO, -, HZ⟩
    imodintro
    isplitr [HO]
    · isplitl [Ha]
      · iapply (arrBufs_of_arrays m c (fun b => W1 m c b) (fun w => (dats m 0 c).arrAt w cfg0.N) (W1_arr m c))
        iexact Ha
      · iexact HZ
    · unfold Pipeline.Dat.owesAt Pipeline.owesWithin
      icases HO with ⟨%W, -, HO⟩; iexists W; iexact HO

/-- @main as the list of its three segments. -/
abbrev segs : List (Pipeline.Seg (pcfgs (F := F)) adm (dats m) () defs₀ 𝒱₀ L lv) := [.host (seg0 m), .region (reg0 m), .host (seg1 m)]

/-- The core's buffers when @main returns. -/
abbrev Wend (c : Dev nD) : Valuation τ sig (Elt F) := StableHlo.after hostOps1 (W1 m c)

/-- The physical post: every unscoped buffer of every core at the end valuation. -/
def QC : PUnit × MemSt nD τ sig (Elt F) → Prop := fun r =>
  ∀ c : Dev nD, ∀ b ∈ (Finset.univ.filter fun b : Ref sig .tc => ¬ b.isScoped), r.2.mem ((c : Thread nD τ).loc b) = Wend m c (Proc.devRef .tc b)

set_option backward.isDefEq.respectTransparency.types false in
/-- At the compiled mesh, from any memory with zero counters: every weakly fair execution of @main on the TensorCores
    terminates, nothing faulting, and every final state has every unscoped buffer at what the later host operations
    compute from the region's exit. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]
      · iapply (show (ownU _ : sProp 𝕄) ⊢ BI.own (EP (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Wend m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ (Finset.univ.filter fun b : Ref sig .tc => ¬ b.isScoped), s.mem ((c : Thread nD τ).loc b) = Wend m c (Proc.devRef .tc b))
    (hfin := fun c s' => by
      rw [show StableHlo.held (c : Thread nD τ) (Pipeline.ucRefs τ sig) (Wend m c) = unscopedBufs c (fun b => Wend m c b) from (Pipeline.unscopedBufs_held c _).symm]
      unfold unscopedBufs
      iintro ⟨Hh, HSI⟩
      imodintro
      iapply (pointsTo_read_all (Finset.univ.filter fun b : Ref sig .tc => ¬ b.isScoped) (fun b => (c : Thread nD τ).loc b) (fun b => Wend m c b) s')
      isplitl [Hh] <;> iassumption)
    (hQ := fun _ h => h)

end Cert.Kernel.Hand

end
-- ==== Proof.KBPre.lean ====
/-
  What the kernel region finds in the core's buffers. Two host operations run before the region: the four level
  constants are written, and the label table is transposed. Every other buffer, the two arguments among them, is as
  launched; the constants' buffer holds the four printed words; the transposed table holds, at (k, J), the label
  table's entry (J, k).
-/
import proofs.«142400_j89936615178820_1_alg».proof.Proof.KBRuns
import Idealize.ShloMosaic.Lib.ValueLayout

noncomputable section

namespace Cert.Kernel.Hand

open Cert.Kernel Cert.Kernel.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-- Neither host operation before the region writes a buffer other than the constants' and the transposed table's. -/
theorem not_written (b : Ref sig .tc) (hb : b ≠ main_cst ∧ b ≠ main_v0) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.unary_writes, StableHlo.nullary_writes, Finset.mem_singleton] <;>
    exact StableHlo.devRef_ne_of_ne ‹_›

/-- Such a buffer reaches the region as launched. -/
theorem V_of_not_written (c : Dev nD) (b : Ref sig .tc) (hb : b ≠ main_cst ∧ b ≠ main_v0) :
    V m c b = m ((c : Thread nD τ).loc b) :=
  StableHlo.after_of_forall_not_mem (b := Proc.devRef .tc b) hostOps0 (V₀ m c) (not_written b hb)

/-- The embeddings reach the region as launched. -/
theorem V_arg0 (c : Dev nD) : V m c main_arg0 = m ((c : Thread nD τ).loc main_arg0) :=
  V_of_not_written m c main_arg0 (by decide)

/-- The label table reaches the region as launched. -/
theorem V_arg1 (c : Dev nD) : V m c main_arg1 = m ((c : Thread nD τ).loc main_arg1) :=
  V_of_not_written m c main_arg1 (by decide)

/-- The six result arrays reach the region as launched. -/
theorem V_v1_0 (c : Dev nD) : V m c main_v1_0 = m ((c : Thread nD τ).loc main_v1_0) :=
  V_of_not_written m c main_v1_0 (by decide)
theorem V_v1_1 (c : Dev nD) : V m c main_v1_1 = m ((c : Thread nD τ).loc main_v1_1) :=
  V_of_not_written m c main_v1_1 (by decide)
theorem V_v1_2 (c : Dev nD) : V m c main_v1_2 = m ((c : Thread nD τ).loc main_v1_2) :=
  V_of_not_written m c main_v1_2 (by decide)
theorem V_v1_3 (c : Dev nD) : V m c main_v1_3 = m ((c : Thread nD τ).loc main_v1_3) :=
  V_of_not_written m c main_v1_3 (by decide)
theorem V_v1_4 (c : Dev nD) : V m c main_v1_4 = m ((c : Thread nD τ).loc main_v1_4) :=
  V_of_not_written m c main_v1_4 (by decide)
theorem V_v1_5 (c : Dev nD) : V m c main_v1_5 = m ((c : Thread nD τ).loc main_v1_5) :=
  V_of_not_written m c main_v1_5 (by decide)

/-- The constants' buffer holds the four printed words, row-major. -/
theorem V_cst (c : Dev nD) :
    (V m c main_cst : S4.Idx → F .f32) = fun i => FloatOps.ofBits .f32 (lit0 (S4.rowMajor i)) := by
  show StableHlo.after hostOps0 (V₀ m c) (Proc.devRef .tc main_cst) = _
  dsimp only [hostOps0]
  after_results
  rfl

/-- The transposed table is the label table, as launched, transposed. -/
theorem V_v0 (c : Dev nD) :
    (V m c main_v0 : S4x2048.Idx → BitVec 32)
      = transpose S4x2048 [1, 0] (m ((c : Thread nD τ).loc main_arg1) : S2048x4.Idx → BitVec 32)
          transposes_S2048x4_S4x2048_1_0 := by
  show StableHlo.after hostOps0 (V₀ m c) (Proc.devRef .tc main_v0) = _
  dsimp only [hostOps0]
  after_results

/-- At (k, J) it holds the label table's entry (J, k). -/
theorem V_v0_apply (c : Dev nD) (k : Fin 4) (J : Fin 2048) :
    (V m c main_v0 : S4x2048.Idx → BitVec 32) (ix2 k J)
      = (m ((c : Thread nD τ).loc main_arg1) : S2048x4.Idx → BitVec 32) (ix2 J k) := by
  rw [V_v0]
  exact transpose_ix2_apply _ transposes_S2048x4_S4x2048_1_0 k J

end Cert.Kernel.Hand

end
-- ==== Proof.KBFinal.lean ====
/-
  The program's run, read at its two arguments. The host operations after the kernel region write the thirty-three
  buffers of their own results and no other; the region's exit leaves every buffer but the six result arrays as the
  region found it; and the two host operations before the region write neither argument. So each argument buffer
  ends holding what the launch put there.
-/
import proofs.«142400_j89936615178820_1_alg».proof.Proof.KBLaunch
import proofs.«142400_j89936615178820_1_alg».proof.Proof.KBPre

noncomputable section

namespace Cert.Kernel.Hand

open Cert.Kernel Cert.Kernel.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The references the host operations after the region write: each operation's result. -/
abbrev written1 : List (Ref sig .tc) :=
  [main_v2, main_cst_0, main_v3, main_v4, main_v5, main_v6, main_v7, main_v8, main_v9, main_v10, main_v11, main_v12, main_v13, main_v14, main_v15, main_v16, main_v17, main_v18, main_v19, main_v20, main_cst_1, main_v21, main_v22, main_v23, main_v24, main_v25, main_v26, main_v27, main_cst_2, main_v28, main_c, main_c_3, main_c_4]

set_option maxRecDepth 8192 in
/-- Every host operation after the region writes a reference of that list only. -/
theorem hostOps1_writes : (hostOps1 : List (HloOp τ sig (Elt F))).Forall fun op =>
    op.writes ⊆ (written1.map (Proc.devRef (τ := τ) .tc)).toFinset := by
  simp only [hostOps1, List.Forall]
  exact ⟨by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide),
    by simp only [StableHlo.nullary_writes, StableHlo.unary_writes, StableHlo.binary_writes, StableHlo.reshape_writes, Finset.singleton_subset_iff, List.mem_toFinset]; exact List.mem_map_of_mem (by decide)⟩

/-- A reference outside that list holds at the end what it held when the region was left. -/
theorem Wend_of_not_written (c : Dev nD) (r : Ref sig .tc) (h : r ∉ written1) :
    Wend m c (Proc.devRef .tc r) = W1 m c (Proc.devRef .tc r) :=
  StableHlo.after_of_writes_sub hostOps1 (W1 m c) hostOps1_writes h

/-- The embeddings end as launched. -/
theorem Wend_arg0 (c : Dev nD) : Wend m c (Proc.devRef .tc main_arg0) = m ((c : Thread nD τ).loc main_arg0) :=
  (Wend_of_not_written m c main_arg0 (by decide)).trans ((W1_rest m c main_arg0 (by decide)).trans (V_arg0 m c))

/-- The label table ends as launched. -/
theorem Wend_arg1 (c : Dev nD) : Wend m c (Proc.devRef .tc main_arg1) = m ((c : Thread nD τ).loc main_arg1) :=
  (Wend_of_not_written m c main_arg1 (by decide)).trans ((W1_rest m c main_arg1 (by decide)).trans (V_arg1 m c))

/-- A reference of the signature that is not scoped is among the buffers the run's post speaks of. -/
theorem mem_unscoped (b : Ref sig .tc) (h : ¬ b.isScoped) : b ∈ (Finset.univ.filter fun b : Ref sig .tc => ¬ b.isScoped) :=
  Finset.mem_filter.mpr ⟨Finset.mem_univ b, h⟩

/-- The program runs (terminates, no fault) and its argument arrays end unchanged. -/
theorem frame : θ_run (defs (F := F)) (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c =>
      ⟨(h c main_arg0 (mem_unscoped main_arg0 (by decide))).trans (Wend_arg0 m c),
       (h c main_arg1 (mem_unscoped main_arg1 (by decide))).trans (Wend_arg1 m c)⟩)
    (run_main m ρ)

end Cert.Kernel.Hand

end
-- ==== Proof.RefRun.lean ====
/-
  The reference program's run, read back.

  The reference is a straight line of 117 host operations (its 118th statement is the return) and no kernel
  launch. This module lists the operations in order, shows that the program is that list run in sequence,
  and concludes from the library's run lemma for such a line that every weakly fair execution terminates with
  each buffer holding the fold of the operations' results over the launch contents; the two argument buffers
  are written by no operation and end unchanged.
-/
import proofs.«142400_j89936615178820_1_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first 60 operations, in order. -/
abbrev ops0 : List (HloOp τ sig (Elt F)) :=
  [ StableHlo.nullary main_cst (fun i => FloatOps.ofBits .f32 (lit0 (S4.rowMajor i))),
    StableHlo.unary main_arg1 main_v0 ((extractStridedSlice S2048x1 ![0, 0] · slices_S2048x4_S2048x1_0_0) : (⟨S2048x4, .i32⟩ : BufTy).Contents (Elt F) → (⟨S2048x1, .i32⟩ : BufTy).Contents (Elt F)),
    StableHlo.reshape main_v0 main_v1 rfl shapeCasts_S2048x1_S2048,
    StableHlo.unary main_arg0 main_v2 ((transpose S128x2048 [1, 0] · transposes_S2048x128_S128x2048_1_0) : (⟨S2048x128, .f32⟩ : BufTy).Contents (Elt F) → (⟨S128x2048, .f32⟩ : BufTy).Contents (Elt F)),
    StableHlo.binary main_arg0 main_v2 main_v3 ((fun l r => Host.dotGeneral dot_S2048x128_S128x2048_S2048x2048_1_0_0_1_n_n none l r) : (⟨S2048x128, .f32⟩ : BufTy).Contents (Elt F) → (⟨S128x2048, .f32⟩ : BufTy).Contents (Elt F) → (⟨S2048x2048, .f32⟩ : BufTy).Contents (Elt F)),
    StableHlo.nullary main_cst_0 (constant S_ .f32 0x358637BD#32),
    StableHlo.unary main_cst_0 main_v4 (broadcastInDim S2048x2048 ![] bcast_S_S2048x2048 : (⟨S_, .f32⟩ : BufTy).Contents (Elt F) → (⟨S2048x2048, .f32⟩ : BufTy).Contents (Elt F)),
    StableHlo.binary main_v3 main_v4 main_v5 (addf : (⟨S2048x2048, .f32⟩ : BufTy).Contents (Elt F) → (⟨S2048x2048, .f32⟩ : BufTy).Contents (Elt F) → (⟨S2048x2048, .f32⟩ : BufTy).Contents (Elt F)),
    StableHlo.unary main_v5 main_v6 (Host.log : (⟨S2048x2048, .f32⟩ : BufTy).Contents (Elt F) → (⟨S2048x2048, .f32⟩ : BufTy).Contents (Elt F)),
    StableHlo.unary main_v1 main_v7 (broadcastInDim S2048x1 ![0] bcast_S2048_S2048x1_0 : (⟨S2048, .i32⟩ : BufTy).Contents (Elt F) → (⟨S2048x1, .i32⟩ : BufTy).Contents (Elt F)),
    StableHlo.unary main_v1 main_v8 (broadcastInDim S1x2048 ![1] bcast_S2048_S1x2048_1 : (⟨S2048, .i32⟩ : BufTy).Contents (Elt F) → (⟨S1x2048, .i32⟩ : BufTy).Contents (Elt F)),
    StableHlo.unary main_v7 main_v9 (broadcastInDim S2048x2048 ![0, 1] bcast_S2048x1_S2048x2048_0_1 : (⟨S2048x1, .i32⟩ : BufTy).Contents (Elt F) → (⟨S2048x2048, .i32⟩ : BufTy).Contents (Elt F)),
    StableHlo.unary main_v8 main_v10 (broadcastInDim S2048x2048 ![0, 1] bcast_S1x2048_S2048x2048_0_1 : (⟨S1x2048, .i32⟩ : BufTy).Contents (Elt F) → (⟨S2048x2048, .i32⟩ : BufTy).Contents (Elt F)),
    StableHlo.binary main_v9 main_v10 main_v11 (cmpi .eq : (⟨S2048x2048, .i32⟩ : BufTy).Contents (Elt F) → (⟨S2048x2048, .i32⟩ : BufTy).Contents (Elt F) → (⟨S2048x2048, .i1⟩ : BufTy).Contents (Elt F)),
    StableHlo.nullary main_v12 (iotaInDim S2048x2048 32 0),
    StableHlo.nullary main_v13 (iotaInDim S2048x2048 32 1),
    StableHlo.nullary main_c (constantI S_ 32 0#32),
    StableHlo.unary main_c main_v14 (broadcastInDim S2048x2048 ![] bcast_S_S2048x2048 : (⟨S_, .i32⟩ : BufTy).Contents (Elt F) → (⟨S2048x2048, .i32⟩ : BufTy).Contents (Elt F)),
    StableHlo.binary main_v12 main_v14 main_v15 (addi : (⟨S2048x2048, .i32⟩ : BufTy).Contents (Elt F) → (⟨S2048x2048, .i32⟩ : BufTy).Contents (Elt F) → (⟨S2048x2048, .i32⟩ : BufTy).Contents (Elt F)),
    StableHlo.binary main_v15 main_v13 main_v16 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v16 main_v17 (noti : (⟨S2048x2048, .i1⟩ : BufTy).Contents (Elt F) → (⟨S2048x2048, .i1⟩ : BufTy).Contents (Elt F)),
    StableHlo.binary main_v11 main_v17 main_v18 (andi : (⟨S2048x2048, .i1⟩ : BufTy).Contents (Elt F) → (⟨S2048x2048, .i1⟩ : BufTy).Contents (Elt F) → (⟨S2048x2048, .i1⟩ : BufTy).Contents (Elt F)),
    StableHlo.unary main_v18 main_v19 (uitofp .f32 : (⟨S2048x2048, .i1⟩ : BufTy).Contents (Elt F) → (⟨S2048x2048, .f32⟩ : BufTy).Contents (Elt F)),
    StableHlo.unary main_arg1 main_v20 ((transpose S4x2048 [1, 0] · transposes_S2048x4_S4x2048_1_0) : (⟨S2048x4, .i32⟩ : BufTy).Contents (Elt F) → (⟨S4x2048, .i32⟩ : BufTy).Contents (Elt F)),
    StableHlo.unary main_v20 main_v21 (broadcastInDim S4x1x2048 ![0, 2] bcast_S4x2048_S4x1x2048_0_2 : (⟨S4x2048, .i32⟩ : BufTy).Contents (Elt F) → (⟨S4x1x2048, .i32⟩ : BufTy).Contents (Elt F)),
    StableHlo.unary main_v1 main_v22 (broadcastInDim S1x2048x1 ![1] bcast_S2048_S1x2048x1_1 : (⟨S2048, .i32⟩ : BufTy).Contents (Elt F) → (⟨S1x2048x1, .i32⟩ : BufTy).Contents (Elt F)),
    StableHlo.unary main_v21 main_v23 (broadcastInDim S4x2048x2048 ![0, 1, 2] bcast_S4x1x2048_S4x2048x2048_0_1_2 : (⟨S4x1x2048, .i32⟩ : BufTy).Contents (Elt F) → (⟨S4x2048x2048, .i32⟩ : BufTy).Contents (Elt F)),
    StableHlo.unary main_v22 main_v24 (broadcastInDim S4x2048x2048 ![0, 1, 2] bcast_S1x2048x1_S4x2048x2048_0_1_2 : (⟨S1x2048x1, .i32⟩ : BufTy).Contents (Elt F) → (⟨S4x2048x2048, .i32⟩ : BufTy).Contents (Elt F)),
    StableHlo.binary main_v23 main_v24 main_v25 (cmpi .eq : (⟨S4x2048x2048, .i32⟩ : BufTy).Contents (Elt F) → (⟨S4x2048x2048, .i32⟩ : BufTy).Contents (Elt F) → (⟨S4x2048x2048, .i1⟩ : BufTy).Contents (Elt F)),
    StableHlo.unary main_v25 main_v26 ((extractStridedSlice S1x2048x2048 ![3, 0, 0] · slices_S4x2048x2048_S1x2048x2048_3_0_0) : (⟨S4x2048x2048, .i1⟩ : BufTy).Contents (Elt F) → (⟨S1x2048x2048, .i1⟩ : BufTy).Contents (Elt F)),
    StableHlo.reshape main_v26 main_v27 rfl shapeCasts_S1x2048x2048_S2048x2048,
    StableHlo.unary main_v27 main_v28 (noti : (⟨S2048x2048, .i1⟩ : BufTy).Contents (Elt F) → (⟨S2048x2048, .i1⟩ : BufTy).Contents (Elt F)),
    StableHlo.unary main_v25 main_v29 ((extractStridedSlice S1x2048x2048 ![3, 0, 0] · slices_S4x2048x2048_S1x2048x2048_3_0_0) : (⟨S4x2048x2048, .i1⟩ : BufTy).Contents (Elt F) → (⟨S1x2048x2048, .i1⟩ : BufTy).Contents (Elt F)),
    StableHlo.reshape main_v29 main_v30 rfl shapeCasts_S1x2048x2048_S2048x2048,
    StableHlo.unary main_v25 main_v31 ((extractStridedSlice S1x2048x2048 ![2, 0, 0] · slices_S4x2048x2048_S1x2048x2048_2_0_0) : (⟨S4x2048x2048, .i1⟩ : BufTy).Contents (Elt F) → (⟨S1x2048x2048, .i1⟩ : BufTy).Contents (Elt F)),
    StableHlo.reshape main_v31 main_v32 rfl shapeCasts_S1x2048x2048_S2048x2048,
    StableHlo.unary main_v32 main_v33 (noti : (⟨S2048x2048, .i1⟩ : BufTy).Contents (Elt F) → (⟨S2048x2048, .i1⟩ : BufTy).Contents (Elt F)),
    StableHlo.binary main_v30 main_v33 main_v34 (andi : (⟨S2048x2048, .i1⟩ : BufTy).Contents (Elt F) → (⟨S2048x2048, .i1⟩ : BufTy).Contents (Elt F) → (⟨S2048x2048, .i1⟩ : BufTy).Contents (Elt F)),
    StableHlo.unary main_v25 main_v35 ((extractStridedSlice S1x2048x2048 ![2, 0, 0] · slices_S4x2048x2048_S1x2048x2048_2_0_0) : (⟨S4x2048x2048, .i1⟩ : BufTy).Contents (Elt F) → (⟨S1x2048x2048, .i1⟩ : BufTy).Contents (Elt F)),
    StableHlo.reshape main_v35 main_v36 rfl shapeCasts_S1x2048x2048_S2048x2048,
    StableHlo.unary main_v25 main_v37 ((extractStridedSlice S1x2048x2048 ![1, 0, 0] · slices_S4x2048x2048_S1x2048x2048_1_0_0) : (⟨S4x2048x2048, .i1⟩ : BufTy).Contents (Elt F) → (⟨S1x2048x2048, .i1⟩ : BufTy).Contents (Elt F)),
    StableHlo.reshape main_v37 main_v38 rfl shapeCasts_S1x2048x2048_S2048x2048,
    StableHlo.unary main_v38 main_v39 (noti : (⟨S2048x2048, .i1⟩ : BufTy).Contents (Elt F) → (⟨S2048x2048, .i1⟩ : BufTy).Contents (Elt F)),
    StableHlo.binary main_v36 main_v39 main_v40 (andi : (⟨S2048x2048, .i1⟩ : BufTy).Contents (Elt F) → (⟨S2048x2048, .i1⟩ : BufTy).Contents (Elt F) → (⟨S2048x2048, .i1⟩ : BufTy).Contents (Elt F)),
    StableHlo.unary main_v25 main_v41 ((extractStridedSlice S1x2048x2048 ![1, 0, 0] · slices_S4x2048x2048_S1x2048x2048_1_0_0) : (⟨S4x2048x2048, .i1⟩ : BufTy).Contents (Elt F) → (⟨S1x2048x2048, .i1⟩ : BufTy).Contents (Elt F)),
    StableHlo.reshape main_v41 main_v42 rfl shapeCasts_S1x2048x2048_S2048x2048,
    StableHlo.unary main_v25 main_v43 ((extractStridedSlice S1x2048x2048 ![0, 0, 0] · slices_S4x2048x2048_S1x2048x2048_0_0_0) : (⟨S4x2048x2048, .i1⟩ : BufTy).Contents (Elt F) → (⟨S1x2048x2048, .i1⟩ : BufTy).Contents (Elt F)),
    StableHlo.reshape main_v43 main_v44 rfl shapeCasts_S1x2048x2048_S2048x2048,
    StableHlo.unary main_v44 main_v45 (noti : (⟨S2048x2048, .i1⟩ : BufTy).Contents (Elt F) → (⟨S2048x2048, .i1⟩ : BufTy).Contents (Elt F)),
    StableHlo.binary main_v42 main_v45 main_v46 (andi : (⟨S2048x2048, .i1⟩ : BufTy).Contents (Elt F) → (⟨S2048x2048, .i1⟩ : BufTy).Contents (Elt F) → (⟨S2048x2048, .i1⟩ : BufTy).Contents (Elt F)),
    StableHlo.unary main_v28 main_v47 (broadcastInDim S1x2048x2048 ![1, 2] bcast_S2048x2048_S1x2048x2048_1_2 : (⟨S2048x2048, .i1⟩ : BufTy).Contents (Elt F) → (⟨S1x2048x2048, .i1⟩ : BufTy).Contents (Elt F)),
    StableHlo.unary main_v34 main_v48 (broadcastInDim S1x2048x2048 ![1, 2] bcast_S2048x2048_S1x2048x2048_1_2 : (⟨S2048x2048, .i1⟩ : BufTy).Contents (Elt F) → (⟨S1x2048x2048, .i1⟩ : BufTy).Contents (Elt F)),
    StableHlo.unary main_v40 main_v49 (broadcastInDim S1x2048x2048 ![1, 2] bcast_S2048x2048_S1x2048x2048_1_2 : (⟨S2048x2048, .i1⟩ : BufTy).Contents (Elt F) → (⟨S1x2048x2048, .i1⟩ : BufTy).Contents (Elt F)),
    StableHlo.unary main_v46 main_v50 (broadcastInDim S1x2048x2048 ![1, 2] bcast_S2048x2048_S1x2048x2048_1_2 : (⟨S2048x2048, .i1⟩ : BufTy).Contents (Elt F) → (⟨S1x2048x2048, .i1⟩ : BufTy).Contents (Elt F)),
    StableHlo.nary ![main_v47, main_v48, main_v49, main_v50] main_v51 (fun u => concatenate S4x2048x2048 0 [⟨S1x2048x2048, u 0⟩, ⟨S1x2048x2048, u 1⟩, ⟨S1x2048x2048, u 2⟩, ⟨S1x2048x2048, u 3⟩] concatenates_S1x2048x2048_S1x2048x2048_S1x2048x2048_S1x2048x2048_S4x2048x2048_d0),
    StableHlo.unary main_v51 main_v52 (uitofp .f32 : (⟨S4x2048x2048, .i1⟩ : BufTy).Contents (Elt F) → (⟨S4x2048x2048, .f32⟩ : BufTy).Contents (Elt F)),
    StableHlo.nullary main_cst_1 (constant S_ .f32 0x00000000#32),
    StableHlo.binary main_v19 main_cst_1 main_v53 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.binary main_v19 main_v6 main_v54 (mulf : (⟨S2048x2048, .f32⟩ : BufTy).Contents (Elt F) → (⟨S2048x2048, .f32⟩ : BufTy).Contents (Elt F) → (⟨S2048x2048, .f32⟩ : BufTy).Contents (Elt F)),
    StableHlo.nullary main_cst_2 (constant S_ .f32 0x00000000#32) ]

/-- The last 57 operations, in order. -/
abbrev ops1 : List (HloOp τ sig (Elt F)) :=
  [ StableHlo.binary main_v54 main_cst_2 main_v55 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.binary main_v19 main_v6 main_v56 (mulf : (⟨S2048x2048, .f32⟩ : BufTy).Contents (Elt F) → (⟨S2048x2048, .f32⟩ : BufTy).Contents (Elt F) → (⟨S2048x2048, .f32⟩ : BufTy).Contents (Elt F)),
    StableHlo.binary main_v56 main_v6 main_v57 (mulf : (⟨S2048x2048, .f32⟩ : BufTy).Contents (Elt F) → (⟨S2048x2048, .f32⟩ : BufTy).Contents (Elt F) → (⟨S2048x2048, .f32⟩ : BufTy).Contents (Elt F)),
    StableHlo.nullary main_cst_3 (constant S_ .f32 0x00000000#32),
    StableHlo.binary main_v57 main_cst_3 main_v58 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_4 (constant S_ .f32 0x00000000#32),
    StableHlo.binary main_v52 main_cst_4 main_v59 ((fun x v => Host.reduceAdd x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    StableHlo.unary main_v6 main_v60 (broadcastInDim S1x2048x2048 ![1, 2] bcast_S2048x2048_S1x2048x2048_1_2 : (⟨S2048x2048, .f32⟩ : BufTy).Contents (Elt F) → (⟨S1x2048x2048, .f32⟩ : BufTy).Contents (Elt F)),
    StableHlo.unary main_v60 main_v61 (broadcastInDim S4x2048x2048 ![0, 1, 2] bcast_S1x2048x2048_S4x2048x2048_0_1_2 : (⟨S1x2048x2048, .f32⟩ : BufTy).Contents (Elt F) → (⟨S4x2048x2048, .f32⟩ : BufTy).Contents (Elt F)),
    StableHlo.binary main_v52 main_v61 main_v62 (mulf : (⟨S4x2048x2048, .f32⟩ : BufTy).Contents (Elt F) → (⟨S4x2048x2048, .f32⟩ : BufTy).Contents (Elt F) → (⟨S4x2048x2048, .f32⟩ : BufTy).Contents (Elt F)),
    StableHlo.nullary main_cst_5 (constant S_ .f32 0x00000000#32),
    StableHlo.binary main_v62 main_cst_5 main_v63 ((fun x v => Host.reduceAdd x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    StableHlo.binary main_v6 main_v6 main_v64 (mulf : (⟨S2048x2048, .f32⟩ : BufTy).Contents (Elt F) → (⟨S2048x2048, .f32⟩ : BufTy).Contents (Elt F) → (⟨S2048x2048, .f32⟩ : BufTy).Contents (Elt F)),
    StableHlo.unary main_v64 main_v65 (broadcastInDim S1x2048x2048 ![1, 2] bcast_S2048x2048_S1x2048x2048_1_2 : (⟨S2048x2048, .f32⟩ : BufTy).Contents (Elt F) → (⟨S1x2048x2048, .f32⟩ : BufTy).Contents (Elt F)),
    StableHlo.unary main_v65 main_v66 (broadcastInDim S4x2048x2048 ![0, 1, 2] bcast_S1x2048x2048_S4x2048x2048_0_1_2 : (⟨S1x2048x2048, .f32⟩ : BufTy).Contents (Elt F) → (⟨S4x2048x2048, .f32⟩ : BufTy).Contents (Elt F)),
    StableHlo.binary main_v52 main_v66 main_v67 (mulf : (⟨S4x2048x2048, .f32⟩ : BufTy).Contents (Elt F) → (⟨S4x2048x2048, .f32⟩ : BufTy).Contents (Elt F) → (⟨S4x2048x2048, .f32⟩ : BufTy).Contents (Elt F)),
    StableHlo.nullary main_cst_6 (constant S_ .f32 0x00000000#32),
    StableHlo.binary main_v67 main_cst_6 main_v68 ((fun x v => Host.reduceAdd x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    StableHlo.unary main_cst main_v69 (broadcastInDim S4x1 ![0] bcast_S4_S4x1_0 : (⟨S4, .f32⟩ : BufTy).Contents (Elt F) → (⟨S4x1, .f32⟩ : BufTy).Contents (Elt F)),
    StableHlo.unary main_v58 main_v70 (broadcastInDim S1x2048 ![1] bcast_S2048_S1x2048_1 : (⟨S2048, .f32⟩ : BufTy).Contents (Elt F) → (⟨S1x2048, .f32⟩ : BufTy).Contents (Elt F)),
    StableHlo.nullary main_cst_7 (constant S_ .f32 0x40000000#32),
    StableHlo.unary main_cst_7 main_v71 (broadcastInDim S4x1 ![] bcast_S_S4x1 : (⟨S_, .f32⟩ : BufTy).Contents (Elt F) → (⟨S4x1, .f32⟩ : BufTy).Contents (Elt F)),
    StableHlo.binary main_v71 main_v69 main_v72 (mulf : (⟨S4x1, .f32⟩ : BufTy).Contents (Elt F) → (⟨S4x1, .f32⟩ : BufTy).Contents (Elt F) → (⟨S4x1, .f32⟩ : BufTy).Contents (Elt F)),
    StableHlo.unary main_v55 main_v73 (broadcastInDim S1x2048 ![1] bcast_S2048_S1x2048_1 : (⟨S2048, .f32⟩ : BufTy).Contents (Elt F) → (⟨S1x2048, .f32⟩ : BufTy).Contents (Elt F)),
    StableHlo.unary main_v72 main_v74 (broadcastInDim S4x2048 ![0, 1] bcast_S4x1_S4x2048_0_1 : (⟨S4x1, .f32⟩ : BufTy).Contents (Elt F) → (⟨S4x2048, .f32⟩ : BufTy).Contents (Elt F)),
    StableHlo.unary main_v73 main_v75 (broadcastInDim S4x2048 ![0, 1] bcast_S1x2048_S4x2048_0_1 : (⟨S1x2048, .f32⟩ : BufTy).Contents (Elt F) → (⟨S4x2048, .f32⟩ : BufTy).Contents (Elt F)),
    StableHlo.binary main_v74 main_v75 main_v76 (mulf : (⟨S4x2048, .f32⟩ : BufTy).Contents (Elt F) → (⟨S4x2048, .f32⟩ : BufTy).Contents (Elt F) → (⟨S4x2048, .f32⟩ : BufTy).Contents (Elt F)),
    StableHlo.unary main_v70 main_v77 (broadcastInDim S4x2048 ![0, 1] bcast_S1x2048_S4x2048_0_1 : (⟨S1x2048, .f32⟩ : BufTy).Contents (Elt F) → (⟨S4x2048, .f32⟩ : BufTy).Contents (Elt F)),
    StableHlo.binary main_v77 main_v76 main_v78 (subf : (⟨S4x2048, .f32⟩ : BufTy).Contents (Elt F) → (⟨S4x2048, .f32⟩ : BufTy).Contents (Elt F) → (⟨S4x2048, .f32⟩ : BufTy).Contents (Elt F)),
    StableHlo.binary main_v69 main_v69 main_v79 (mulf : (⟨S4x1, .f32⟩ : BufTy).Contents (Elt F) → (⟨S4x1, .f32⟩ : BufTy).Contents (Elt F) → (⟨S4x1, .f32⟩ : BufTy).Contents (Elt F)),
    StableHlo.unary main_v53 main_v80 (broadcastInDim S1x2048 ![1] bcast_S2048_S1x2048_1 : (⟨S2048, .f32⟩ : BufTy).Contents (Elt F) → (⟨S1x2048, .f32⟩ : BufTy).Contents (Elt F)),
    StableHlo.unary main_v79 main_v81 (broadcastInDim S4x2048 ![0, 1] bcast_S4x1_S4x2048_0_1 : (⟨S4x1, .f32⟩ : BufTy).Contents (Elt F) → (⟨S4x2048, .f32⟩ : BufTy).Contents (Elt F)),
    StableHlo.unary main_v80 main_v82 (broadcastInDim S4x2048 ![0, 1] bcast_S1x2048_S4x2048_0_1 : (⟨S1x2048, .f32⟩ : BufTy).Contents (Elt F) → (⟨S4x2048, .f32⟩ : BufTy).Contents (Elt F)),
    StableHlo.binary main_v81 main_v82 main_v83 (mulf : (⟨S4x2048, .f32⟩ : BufTy).Contents (Elt F) → (⟨S4x2048, .f32⟩ : BufTy).Contents (Elt F) → (⟨S4x2048, .f32⟩ : BufTy).Contents (Elt F)),
    StableHlo.binary main_v78 main_v83 main_v84 (addf : (⟨S4x2048, .f32⟩ : BufTy).Contents (Elt F) → (⟨S4x2048, .f32⟩ : BufTy).Contents (Elt F) → (⟨S4x2048, .f32⟩ : BufTy).Contents (Elt F)),
    StableHlo.binary main_v59 main_v84 main_v85 (mulf : (⟨S4x2048, .f32⟩ : BufTy).Contents (Elt F) → (⟨S4x2048, .f32⟩ : BufTy).Contents (Elt F) → (⟨S4x2048, .f32⟩ : BufTy).Contents (Elt F)),
    StableHlo.unary main_v55 main_v86 (broadcastInDim S1x2048 ![1] bcast_S2048_S1x2048_1 : (⟨S2048, .f32⟩ : BufTy).Contents (Elt F) → (⟨S1x2048, .f32⟩ : BufTy).Contents (Elt F)),
    StableHlo.unary main_v53 main_v87 (broadcastInDim S1x2048 ![1] bcast_S2048_S1x2048_1 : (⟨S2048, .f32⟩ : BufTy).Contents (Elt F) → (⟨S1x2048, .f32⟩ : BufTy).Contents (Elt F)),
    StableHlo.unary main_v69 main_v88 (broadcastInDim S4x2048 ![0, 1] bcast_S4x1_S4x2048_0_1 : (⟨S4x1, .f32⟩ : BufTy).Contents (Elt F) → (⟨S4x2048, .f32⟩ : BufTy).Contents (Elt F)),
    StableHlo.unary main_v87 main_v89 (broadcastInDim S4x2048 ![0, 1] bcast_S1x2048_S4x2048_0_1 : (⟨S1x2048, .f32⟩ : BufTy).Contents (Elt F) → (⟨S4x2048, .f32⟩ : BufTy).Contents (Elt F)),
    StableHlo.binary main_v88 main_v89 main_v90 (mulf : (⟨S4x2048, .f32⟩ : BufTy).Contents (Elt F) → (⟨S4x2048, .f32⟩ : BufTy).Contents (Elt F) → (⟨S4x2048, .f32⟩ : BufTy).Contents (Elt F)),
    StableHlo.unary main_v86 main_v91 (broadcastInDim S4x2048 ![0, 1] bcast_S1x2048_S4x2048_0_1 : (⟨S1x2048, .f32⟩ : BufTy).Contents (Elt F) → (⟨S4x2048, .f32⟩ : BufTy).Contents (Elt F)),
    StableHlo.binary main_v91 main_v90 main_v92 (subf : (⟨S4x2048, .f32⟩ : BufTy).Contents (Elt F) → (⟨S4x2048, .f32⟩ : BufTy).Contents (Elt F) → (⟨S4x2048, .f32⟩ : BufTy).Contents (Elt F)),
    StableHlo.nullary main_cst_8 (constant S_ .f32 0x40000000#32),
    StableHlo.unary main_cst_8 main_v93 (broadcastInDim S4x2048 ![] bcast_S_S4x2048 : (⟨S_, .f32⟩ : BufTy).Contents (Elt F) → (⟨S4x2048, .f32⟩ : BufTy).Contents (Elt F)),
    StableHlo.binary main_v93 main_v92 main_v94 (mulf : (⟨S4x2048, .f32⟩ : BufTy).Contents (Elt F) → (⟨S4x2048, .f32⟩ : BufTy).Contents (Elt F) → (⟨S4x2048, .f32⟩ : BufTy).Contents (Elt F)),
    StableHlo.binary main_v94 main_v63 main_v95 (mulf : (⟨S4x2048, .f32⟩ : BufTy).Contents (Elt F) → (⟨S4x2048, .f32⟩ : BufTy).Contents (Elt F) → (⟨S4x2048, .f32⟩ : BufTy).Contents (Elt F)),
    StableHlo.binary main_v85 main_v95 main_v96 (subf : (⟨S4x2048, .f32⟩ : BufTy).Contents (Elt F) → (⟨S4x2048, .f32⟩ : BufTy).Contents (Elt F) → (⟨S4x2048, .f32⟩ : BufTy).Contents (Elt F)),
    StableHlo.unary main_v53 main_v97 (broadcastInDim S1x2048 ![1] bcast_S2048_S1x2048_1 : (⟨S2048, .f32⟩ : BufTy).Contents (Elt F) → (⟨S1x2048, .f32⟩ : BufTy).Contents (Elt F)),
    StableHlo.unary main_v97 main_v98 (broadcastInDim S4x2048 ![0, 1] bcast_S1x2048_S4x2048_0_1 : (⟨S1x2048, .f32⟩ : BufTy).Contents (Elt F) → (⟨S4x2048, .f32⟩ : BufTy).Contents (Elt F)),
    StableHlo.binary main_v98 main_v68 main_v99 (mulf : (⟨S4x2048, .f32⟩ : BufTy).Contents (Elt F) → (⟨S4x2048, .f32⟩ : BufTy).Contents (Elt F) → (⟨S4x2048, .f32⟩ : BufTy).Contents (Elt F)),
    StableHlo.binary main_v96 main_v99 main_v100 (addf : (⟨S4x2048, .f32⟩ : BufTy).Contents (Elt F) → (⟨S4x2048, .f32⟩ : BufTy).Contents (Elt F) → (⟨S4x2048, .f32⟩ : BufTy).Contents (Elt F)),
    StableHlo.nullary main_cst_9 (constant S_ .f32 0x00000000#32),
    StableHlo.binary main_v100 main_cst_9 main_v101 ((fun x v => Host.reduceAdd x v reducesTo_S4x2048_S_d0_1 h_S_) : (⟨S4x2048, .f32⟩ : BufTy).Contents (Elt F) → (⟨S_, .f32⟩ : BufTy).Contents (Elt F) → (⟨S_, .f32⟩ : BufTy).Contents (Elt F)),
    StableHlo.nullary main_c_10 (constantI S_ 32 0#32),
    StableHlo.nullary main_c_11 (constantI S_ 32 0#32),
    StableHlo.nullary main_c_12 (constantI S_ 32 0#32) ]

/-- The 117 operations, in order. -/
abbrev ops : List (HloOp τ sig (Elt F)) := ops0 ++ ops1

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

/-- The program is its operations run in sequence. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., unary_bufs_sub .., reshape_bufs_sub .., unary_bufs_sub .., binary_bufs_sub .., nullary_bufs_sub .., unary_bufs_sub .., binary_bufs_sub .., unary_bufs_sub .., unary_bufs_sub .., unary_bufs_sub .., unary_bufs_sub .., unary_bufs_sub .., binary_bufs_sub .., nullary_bufs_sub .., nullary_bufs_sub .., nullary_bufs_sub .., unary_bufs_sub .., binary_bufs_sub .., binary_bufs_sub .., unary_bufs_sub .., binary_bufs_sub .., unary_bufs_sub .., unary_bufs_sub .., unary_bufs_sub .., unary_bufs_sub .., unary_bufs_sub .., unary_bufs_sub .., binary_bufs_sub .., unary_bufs_sub .., reshape_bufs_sub .., unary_bufs_sub .., unary_bufs_sub .., reshape_bufs_sub .., unary_bufs_sub .., reshape_bufs_sub .., unary_bufs_sub .., binary_bufs_sub .., unary_bufs_sub .., reshape_bufs_sub .., unary_bufs_sub .., reshape_bufs_sub .., unary_bufs_sub .., binary_bufs_sub .., unary_bufs_sub .., reshape_bufs_sub .., unary_bufs_sub .., reshape_bufs_sub .., unary_bufs_sub .., binary_bufs_sub .., unary_bufs_sub .., unary_bufs_sub .., unary_bufs_sub .., unary_bufs_sub .., nary_bufs_sub .., unary_bufs_sub .., nullary_bufs_sub .., binary_bufs_sub .., binary_bufs_sub .., nullary_bufs_sub ..⟩

set_option maxRecDepth 8192 in
theorem ops1_sub : (ops1 : List (HloOp τ sig (Elt F))).Forall fun op => op.bufs ⊆ tcRefs τ sig :=
  ⟨binary_bufs_sub .., binary_bufs_sub .., binary_bufs_sub .., nullary_bufs_sub .., binary_bufs_sub .., nullary_bufs_sub .., binary_bufs_sub .., unary_bufs_sub .., unary_bufs_sub .., binary_bufs_sub .., nullary_bufs_sub .., binary_bufs_sub .., binary_bufs_sub .., unary_bufs_sub .., unary_bufs_sub .., binary_bufs_sub .., nullary_bufs_sub .., binary_bufs_sub .., unary_bufs_sub .., unary_bufs_sub .., nullary_bufs_sub .., unary_bufs_sub .., binary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub .., nullary_bufs_sub .., binary_bufs_sub .., nullary_bufs_sub .., nullary_bufs_sub .., nullary_bufs_sub ..⟩

/-- Every operation touches buffers of the device's own references only. -/
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

/-- The fold over a concatenation is the fold over the second list from the fold over the first. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l, l₂, V => by rw [List.cons_append, after_cons, after_cons, after_append l l₂]

/-- The references the first 60 operations write. -/
abbrev ops0_W : List (Ref sig .tc) := [main_cst, main_v0, main_v1, main_v2, main_v3, main_cst_0, main_v4, main_v5, main_v6, main_v7, main_v8, main_v9, main_v10, main_v11, main_v12, main_v13, main_c, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_cst_1, main_v53, main_v54, main_cst_2]
/-- The references the last 57 operations write. -/
abbrev ops1_W : List (Ref sig .tc) := [main_v55, main_v56, main_v57, main_cst_3, main_v58, main_cst_4, main_v59, main_v60, main_v61, main_v62, main_cst_5, main_v63, main_v64, main_v65, main_v66, main_v67, main_cst_6, main_v68, main_v69, main_v70, main_cst_7, main_v71, main_v72, main_v73, main_v74, main_v75, main_v76, main_v77, main_v78, main_v79, main_v80, main_v81, main_v82, main_v83, main_v84, main_v85, main_v86, main_v87, main_v88, main_v89, main_v90, main_v91, main_v92, main_cst_8, main_v93, main_v94, main_v95, main_v96, main_v97, main_v98, main_v99, main_v100, main_cst_9, main_v101, main_c_10, main_c_11, main_c_12]

set_option maxRecDepth 8192 in
theorem ops0_writes : (ops0 : List (HloOp τ sig (Elt F))).Forall fun op =>
    op.writes ⊆ (ops0_W.map (Proc.devRef (τ := τ) .tc)).toFinset := by
  simp only [List.Forall]
  exact ⟨by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide)⟩

set_option maxRecDepth 8192 in
theorem ops1_writes : (ops1 : List (HloOp τ sig (Elt F))).Forall fun op =>
    op.writes ⊆ (ops1_W.map (Proc.devRef (τ := τ) .tc)).toFinset := by
  simp only [List.Forall]
  exact ⟨by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide)⟩

/-- A reference that no operation writes keeps its contents through the whole line. -/
theorem after_keep (V : Valuation τ sig (Elt F)) (r : Ref sig .tc) (h0 : r ∉ ops0_W) (h1 : r ∉ ops1_W) :
    after ops V (Proc.devRef .tc r) = V (Proc.devRef .tc r) := by
  rw [show (ops : List (HloOp τ sig (Elt F))) = ops0 ++ ops1 from rfl, after_append,
    after_of_writes_sub ops1 _ ops1_writes h1, after_of_writes_sub ops0 _ ops0_writes h0]

/-- On every device, for any float values, from any memory with zero counters: every weakly fair execution of the
    program terminates with each result buffer at the fold of the operations over the launch contents, and the two
    argument buffers unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v101) = after ops (fun b => m (c, b)) (Proc.devRef .tc main_v101)
      ∧ r.2.mem ((c.tc : Thread nD τ).loc main_c_10) = after ops (fun b => m (c, b)) (Proc.devRef .tc main_c_10)
      ∧ r.2.mem ((c.tc : Thread nD τ).loc main_c_11) = after ops (fun b => m (c, b)) (Proc.devRef .tc main_c_11)
      ∧ r.2.mem ((c.tc : Thread nD τ).loc main_c_12) = after ops (fun b => m (c, b)) (Proc.devRef .tc main_c_12)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h c main_v101, h c main_c_10, h c main_c_11, h c main_c_12,
      (h c main_arg0).trans (after_keep _ main_arg0 (by decide) (by decide)),
      (h c main_arg1).trans (after_keep _ main_arg1 (by decide) (by decide))⟩)
    (run_seq scopedRefs_eq scopedSems_eq defs main (fun _ => ops) main_eq (fun _ => ops_sub) m ρ)

/-- The program runs (terminates, no fault) and its argument arrays end unchanged. -/
theorem frame (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).2.2.2.2.1, (h c).2.2.2.2.2⟩) (run m ρ)

end Cert.ReferenceIdeal.RefRun

end
-- ==== Proof.RefRun2.lean ====
/-
  What the reference's result buffers hold after its run, as pure terms of the two argument arrays.

  The fold of the 117 operations over any contents, read at the float result, is the composed term
  `RefTerm.refLoss` of the contents of the two argument buffers: each operation's result at its own buffer is its
  function's value, and at any other buffer what was there. The three integer results are the constant zero.
-/
import proofs.«142400_j89936615178820_1_alg».proof.Proof.RefRun
import proofs.«142400_j89936615178820_1_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The float result: the composed term of the operations, of the two argument arrays. -/
theorem result_eq (W : Valuation τ sig (Elt F)) :
    after ops W (Proc.devRef .tc main_v101)
      = RefTerm.refLoss (W (Proc.devRef .tc main_arg0)) (W (Proc.devRef .tc main_arg1)) := by
  rw [show (ops : List (HloOp τ sig (Elt F))) = ops0 ++ ops1 from rfl, after_append]
  after_results_simp
  rfl

/-- The first integer result: the constant zero. -/
theorem result_c_10 (W : Valuation τ sig (Elt F)) :
    after ops W (Proc.devRef .tc main_c_10) = constantI S_ 32 0#32 := by
  rw [show (ops : List (HloOp τ sig (Elt F))) = ops0 ++ ops1 from rfl, after_append]
  after_results

/-- The second integer result: the constant zero. -/
theorem result_c_11 (W : Valuation τ sig (Elt F)) :
    after ops W (Proc.devRef .tc main_c_11) = constantI S_ 32 0#32 := by
  rw [show (ops : List (HloOp τ sig (Elt F))) = ops0 ++ ops1 from rfl, after_append]
  after_results

/-- The third integer result: the constant zero. -/
theorem result_c_12 (W : Valuation τ sig (Elt F)) :
    after ops W (Proc.devRef .tc main_c_12) = constantI S_ 32 0#32 := by
  rw [show (ops : List (HloOp τ sig (Elt F))) = ops0 ++ ops1 from rfl, after_append]
  after_results

/-- The run with the results read off: every weakly fair execution terminates with the float result at the composed
    term of the launch contents of the two arguments, the three integer results zero, and the arguments unchanged. -/
theorem run_value (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v101)
        = RefTerm.refLoss (m ((c.tc : Thread nD τ).loc main_arg0)) (m ((c.tc : Thread nD τ).loc main_arg1))
      ∧ r.2.mem ((c.tc : Thread nD τ).loc main_c_10) = constantI S_ 32 0#32
      ∧ r.2.mem ((c.tc : Thread nD τ).loc main_c_11) = constantI S_ 32 0#32
      ∧ r.2.mem ((c.tc : Thread nD τ).loc main_c_12) = constantI S_ 32 0#32
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq _), (h c).2.1.trans (result_c_10 _),
      (h c).2.2.1.trans (result_c_11 _), (h c).2.2.2.1.trans (result_c_12 _), (h c).2.2.2.2.1, (h c).2.2.2.2.2⟩)
    (run m ρ)

end Cert.ReferenceIdeal.RefRun

end
-- ==== Proof.RefValueA.lean ====
/-
  The reference's logarithm of the shifted Gram matrix, read at an index.

  The reference contracts the embeddings [2048, 128] with their transpose [128, 2048] over the one
  shared axis, so its entry (j, l) is the sum over d of x[j, d] · x[l, d]; it then adds the small
  constant and takes the logarithm. That is the specification's `A x j l`.
-/
import proofs.«142400_j89936615178820_1_alg».proof.Proof.RefTerm
import proofs.«142400_j89936615178820_1_alg».proof.Proof.Spec
import proofs.«142400_j89936615178820_1_alg».proof.Proof.Gen.ReferenceIdeal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.RefValue

open Idealize.ShloMosaic Idealize.ShloMosaic.ValueIdx
open Cert.ReferenceIdeal Cert.ReferenceIdeal.Facts₀ Cert.ReferenceIdeal.RefTerm
open Cert

local notation "D" => dot_S2048x128_S128x2048_S2048x2048_1_0_0_1_n_n

/-- The left operand's row coordinate is the output's row. -/
theorem lhs_0 (i : S2048x2048.Idx) (q : (D).contr.Idx) : ((D).lhsIdx i q 0).val = (i 0).val := by
  unfold DotDims.lhsIdx
  rw [dif_neg (show ¬(0 : Fin S2048x128.rank) ∈ (D).lhsBatch by decide),
    dif_pos (show (0 : Fin S2048x128.rank) ∈ (D).lhsNonContracting by decide)]
  rfl

/-- The left operand's column coordinate is the contraction's. -/
theorem lhs_1 (i : S2048x2048.Idx) (q : (D).contr.Idx) : ((D).lhsIdx i q 1).val = (q ⟨0, by decide⟩).val :=
  (D).lhsIdx_val_of_single rfl i q

/-- The right operand's row coordinate is the contraction's. -/
theorem rhs_0 (i : S2048x2048.Idx) (q : (D).contr.Idx) : ((D).rhsIdx i q 0).val = (q ⟨0, by decide⟩).val :=
  (D).rhsIdx_val_of_single rfl i q

/-- The right operand's column coordinate is the output's column. -/
theorem rhs_1 (i : S2048x2048.Idx) (q : (D).contr.Idx) : ((D).rhsIdx i q 1).val = (i 1).val := by
  unfold DotDims.rhsIdx
  rw [dif_neg (show ¬(1 : Fin S128x2048.rank) ∈ (D).rhsBatch by decide),
    dif_pos (show (1 : Fin S128x2048.rank) ∈ (D).rhsNonContracting by decide)]
  rfl

/-- Entry (j, l) of the Gram matrix: row j against row l. -/
theorem gram_apply (x : FVec Ideal S2048x128 .f32) (j l : Fin 2048) :
    gram (F := Ideal) x (ix2 j l) = LogRatio.sim x j l := by
  unfold gram LogRatio.sim
  simp only [Host.dotGeneral]
  rw [Ideal.dotGeneral_apply, ← Equiv.sum_comp (contrEquiv1 (D) 128 rfl rfl).symm]
  refine Finset.sum_congr rfl fun k _ => ?_
  have hk := contrEquiv1_symm_val (D) 128 rfl rfl k
  have el : (D).lhsIdx (ix2 j l) ((contrEquiv1 (D) 128 rfl rfl).symm k) = ix2 j k := funext fun a => Fin.ext (by
    match a with
    | ⟨0, _⟩ => exact lhs_0 _ _
    | ⟨1, _⟩ => exact (lhs_1 _ _).trans hk)
  have er : (D).rhsIdx (ix2 j l) ((contrEquiv1 (D) 128 rfl rfl).symm k) = ix2 k l := funext fun a => Fin.ext (by
    match a with
    | ⟨0, _⟩ => exact (rhs_0 _ _).trans hk
    | ⟨1, _⟩ => exact rhs_1 _ _)
  rw [el, er, transpose_ix2_apply]

/-- Entry (j, l) of the logarithm of the shifted similarity. -/
theorem logsim_apply (x : FVec Ideal S2048x128 .f32) (j l : Fin 2048) :
    logsim (F := Ideal) x (ix2 j l) = LogRatio.A x j l := by
  unfold logsim LogRatio.A LogRatio.eps
  show Ideal.log (gram (F := Ideal) x (ix2 j l) + Ideal.ofBits .f32 0x358637BD#32) = _
  rw [gram_apply]

end Cert.ReferenceIdeal.RefValue

end
-- ==== Proof.RefValueB.lean ====
/-
  The reference's positive mask, read at an index.

  Column 0 of the labels is sliced out and flattened; entry (j, l) of the mask compares row j's and
  row l's top-level label and asks that j and l differ. The reference writes "j ≠ l" as the negation of
  an equality of two 32-bit counters (the row counter plus zero against the column counter); both
  counters stay below 2048, so the words are equal exactly when the coordinates are. The one-bit result
  read as a float is 1 or 0: the specification's `pos lab j l`.
-/
import proofs.«142400_j89936615178820_1_alg».proof.Proof.RefTerm
import proofs.«142400_j89936615178820_1_alg».proof.Proof.Spec
import proofs.«142400_j89936615178820_1_alg».proof.Proof.Gen.ReferenceIdeal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.RefValue

open Idealize.ShloMosaic Idealize.ShloMosaic.ValueIdx
open Cert.ReferenceIdeal Cert.ReferenceIdeal.Facts₀ Cert.ReferenceIdeal.RefTerm
open Cert

/-! ## One-bit words -/

/-- The complement of a one-bit truth value. -/
theorem not_ofBool (q : Bool) : ~~~(BitVec.ofBool q) = BitVec.ofBool (!q) := by cases q <;> decide

/-- The conjunction of two one-bit truth values. -/
theorem andi_ofBool (p q : Bool) : IntOp.andi (BitVec.ofBool p) (BitVec.ofBool q) = BitVec.ofBool (p && q) := by
  cases p <;> cases q <;> decide

/-- Equality of two words as a one-bit word. -/
theorem cmpi_eq_ofBool {w : Nat} (a b : BitVec w) : IntOp.cmpi .eq a b = BitVec.ofBool (a == b) := rfl

/-- A one-bit truth value read as a float at the ideal values. -/
theorem uitofp_ofBool (c : Bool) :
    (FloatOps.uitofp (F := Ideal) .f32 (BitVec.ofBool c) : EReal) = if c then 1 else 0 := by
  cases c
  · show (((BitVec.ofBool false).toNat : ℝ) : EReal) = _
    simp
  · show (((BitVec.ofBool true).toNat : ℝ) : EReal) = _
    simp

/-- The same for a decided proposition: the indicator of the specification. -/
theorem uitofp_decide (p : Prop) [Decidable p] :
    (FloatOps.uitofp (F := Ideal) .f32 (BitVec.ofBool (decide p)) : EReal) = LogRatio.ind p := by
  rw [uitofp_ofBool]; unfold LogRatio.ind
  by_cases h : p <;> simp [h]

/-- Two counters below 2048 are equal as 32-bit words exactly when they are equal. -/
theorem ofNat_eq_iff (j l : Fin 2048) : (BitVec.ofNat 32 j.val = BitVec.ofNat 32 l.val) ↔ j = l := by
  constructor
  · intro h
    have h' := congrArg BitVec.toNat h
    rw [BitVec.toNat_ofNat, BitVec.toNat_ofNat] at h'
    have hj := j.isLt; have hl := l.isLt
    exact Fin.ext (by omega)
  · rintro rfl; rfl

/-! ## The top-level labels -/

/-- Entry j of the flattened column 0 is the label at (j, 0). -/
theorem tgt_apply (lab : IVec S2048x4 32) (j : Fin 2048) : tgt lab (ix1 j) = LogRatio.tgt lab j := by
  unfold tgt LogRatio.tgt
  refine (shapeCast_apply _ _ (ix1 j) (ix2 j (0 : Fin 1)) ?_).trans ?_
  · rw [Shape.rowMajor_val_two, Shape.rowMajor_val_one]
    show j.val * 1 + 0 = j.val
    omega
  · exact extractStridedSlice_apply _ _ _ _ (ix2 j (0 : Fin 4)) fun a => match a with
      | ⟨0, _⟩ => by show j.val = 0 + j.val; omega
      | ⟨1, _⟩ => rfl

/-! ## The mask -/

/-- Entry (j, l) of the comparison of top-level labels. -/
theorem sameTop_apply (lab : IVec S2048x4 32) (j l : Fin 2048) :
    sameTop lab (ix2 j l) = BitVec.ofBool (LogRatio.tgt lab j == LogRatio.tgt lab l) := by
  unfold sameTop
  show IntOp.cmpi .eq _ _ = _
  rw [cmpi_eq_ofBool]
  have e1 : broadcastInDim S2048x2048 ![0, 1] bcast_S2048x1_S2048x2048_0_1
      (broadcastInDim S2048x1 ![0] bcast_S2048_S2048x1_0 (tgt lab)) (ix2 j l) = LogRatio.tgt lab j := by
    refine (broadcastInDim_apply _ _ _ _ (ix2 j (0 : Fin 1)) fun a => match a with
      | ⟨0, _⟩ => rfl | ⟨1, _⟩ => rfl).trans ?_
    refine (broadcastInDim_apply _ _ _ _ (ix1 j) fun a => match a with
      | ⟨0, _⟩ => rfl).trans ?_
    exact tgt_apply lab j
  have e2 : broadcastInDim S2048x2048 ![0, 1] bcast_S1x2048_S2048x2048_0_1
      (broadcastInDim S1x2048 ![1] bcast_S2048_S1x2048_1 (tgt lab)) (ix2 j l) = LogRatio.tgt lab l := by
    refine (broadcastInDim_apply _ _ _ _ (ix2 (0 : Fin 1) l) fun a => match a with
      | ⟨0, _⟩ => rfl | ⟨1, _⟩ => rfl).trans ?_
    refine (broadcastInDim_apply _ _ _ _ (ix1 l) fun a => match a with
      | ⟨0, _⟩ => rfl).trans ?_
    exact tgt_apply lab l
  rw [e1, e2]

/-- Entry (j, l) of the off-diagonal mask. -/
theorem offDiag_apply (j l : Fin 2048) : offDiag (ix2 j l) = BitVec.ofBool (decide (j ≠ l)) := by
  unfold offDiag
  show ~~~(IntOp.cmpi .eq (IntOp.addi (BitVec.ofNat 32 j.val) (0#32)) (BitVec.ofNat 32 l.val)) = _
  rw [cmpi_eq_ofBool, not_ofBool]
  congr 1
  have h0 : IntOp.addi (BitVec.ofNat 32 j.val) (0#32) = BitVec.ofNat 32 j.val := by
    show BitVec.ofNat 32 j.val + 0#32 = _
    exact BitVec.add_zero _
  rw [h0]
  by_cases h : j = l
  · subst h; simp
  · have : ¬ (BitVec.ofNat 32 j.val = BitVec.ofNat 32 l.val) := fun e => h ((ofNat_eq_iff j l).mp e)
    simp [h, this]

/-- Entry (j, l) of the positive mask is the specification's. -/
theorem posMask_apply (lab : IVec S2048x4 32) (j l : Fin 2048) :
    posMask (F := Ideal) lab (ix2 j l) = LogRatio.pos lab j l := by
  unfold posMask LogRatio.pos
  show FloatOps.uitofp (F := Ideal) .f32 (IntOp.andi (sameTop lab (ix2 j l)) (offDiag (ix2 j l))) = _
  rw [sameTop_apply, offDiag_apply, andi_ofBool, ← uitofp_decide]
  congr 2
  by_cases h1 : LogRatio.tgt lab j = LogRatio.tgt lab l <;> by_cases h2 : j = l <;> simp [h1, h2]

end Cert.ReferenceIdeal.RefValue

end
-- ==== Proof.RefValueC.lean ====
/-
  The reference's negative masks, read at an index.

  The comparison array holds, at (k, j, l), whether label column k of row l equals row j's top-level
  label. The reference cuts its four planes out (a slice of extent one along axis 0, then the unit axis
  dropped), forms "not plane 3", "plane 3 and not plane 2", "plane 2 and not plane 1", "plane 1 and not
  plane 0", puts each back under a unit leading axis and stacks the four along axis 0. Read at (m, j, l)
  and converted to a float, level m is the specification's `N lab m j l`.
-/
import proofs.«142400_j89936615178820_1_alg».proof.Proof.RefTerm
import proofs.«142400_j89936615178820_1_alg».proof.Proof.Spec
import proofs.«142400_j89936615178820_1_alg».proof.Proof.Gen.ReferenceIdeal
import proofs.«142400_j89936615178820_1_alg».proof.Proof.RefValueB
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.RefValue

open Idealize.ShloMosaic Idealize.ShloMosaic.ValueIdx
open Cert.ReferenceIdeal Cert.ReferenceIdeal.Facts₀ Cert.ReferenceIdeal.RefTerm
open Cert

/-! ## The comparison and its planes -/

/-- Entry (k, j, l) of the comparison: label column k of row l against row j's top-level label. -/
theorem cmpAll_apply (lab : IVec S2048x4 32) (k : Fin 4) (j l : Fin 2048) :
    cmpAll lab (ix3 k j l) = BitVec.ofBool (decide (LogRatio.P lab k j l)) := by
  unfold cmpAll LogRatio.P
  show IntOp.cmpi .eq _ _ = _
  rw [cmpi_eq_ofBool]
  have e1 : broadcastInDim S4x2048x2048 ![0, 1, 2] bcast_S4x1x2048_S4x2048x2048_0_1_2
      (broadcastInDim S4x1x2048 ![0, 2] bcast_S4x2048_S4x1x2048_0_2
        (transpose S4x2048 [1, 0] lab transposes_S2048x4_S4x2048_1_0)) (ix3 k j l) = lab (ix2 l k) := by
    refine (broadcastInDim_apply _ _ _ _ (ix3 k (0 : Fin 1) l) fun a => match a with
      | ⟨0, _⟩ => rfl | ⟨1, _⟩ => rfl | ⟨2, _⟩ => rfl).trans ?_
    refine (broadcastInDim_apply _ _ _ _ (ix2 k l) fun a => match a with
      | ⟨0, _⟩ => rfl | ⟨1, _⟩ => rfl).trans ?_
    exact transpose_ix2_apply lab _ k l
  have e2 : broadcastInDim S4x2048x2048 ![0, 1, 2] bcast_S1x2048x1_S4x2048x2048_0_1_2
      (broadcastInDim S1x2048x1 ![1] bcast_S2048_S1x2048x1_1 (tgt lab)) (ix3 k j l) = LogRatio.tgt lab j := by
    refine (broadcastInDim_apply _ _ _ _ (ix3 (0 : Fin 1) j (0 : Fin 1)) fun a => match a with
      | ⟨0, _⟩ => rfl | ⟨1, _⟩ => rfl | ⟨2, _⟩ => rfl).trans ?_
    refine (broadcastInDim_apply _ _ _ _ (ix1 j) fun a => match a with
      | ⟨0, _⟩ => rfl).trans ?_
    exact tgt_apply lab j
  rw [e1, e2]
  congr 1

/-- A [1, 2048, 2048] slice of the comparison at plane k, with the unit axis dropped, at (j, l). -/
theorem plane_read (c : IVec S4x2048x2048 1) (k : Fin 4)
    (h : S4x2048x2048.Slices ![k.val, 0, 0] S1x2048x2048) (j l : Fin 2048) :
    shapeCast S2048x2048 (extractStridedSlice S1x2048x2048 ![k.val, 0, 0] c h) shapeCasts_S1x2048x2048_S2048x2048 (ix2 j l)
      = c (ix3 k j l) := by
  refine (shapeCast_1ab_ab_apply _ _ j l).trans ?_
  exact extractStridedSlice_apply _ _ _ _ (ix3 k j l) fun a => match a with
    | ⟨0, _⟩ => by show k.val = k.val + 0; omega
    | ⟨1, _⟩ => by show j.val = 0 + j.val; omega
    | ⟨2, _⟩ => by show l.val = 0 + l.val; omega

theorem plane3_apply (lab : IVec S2048x4 32) (j l : Fin 2048) :
    plane3 lab (ix2 j l) = BitVec.ofBool (decide (LogRatio.P lab 3 j l)) :=
  (plane_read (cmpAll lab) 3 slices_S4x2048x2048_S1x2048x2048_3_0_0 j l).trans (cmpAll_apply lab 3 j l)

theorem plane2_apply (lab : IVec S2048x4 32) (j l : Fin 2048) :
    plane2 lab (ix2 j l) = BitVec.ofBool (decide (LogRatio.P lab 2 j l)) :=
  (plane_read (cmpAll lab) 2 slices_S4x2048x2048_S1x2048x2048_2_0_0 j l).trans (cmpAll_apply lab 2 j l)

theorem plane1_apply (lab : IVec S2048x4 32) (j l : Fin 2048) :
    plane1 lab (ix2 j l) = BitVec.ofBool (decide (LogRatio.P lab 1 j l)) :=
  (plane_read (cmpAll lab) 1 slices_S4x2048x2048_S1x2048x2048_1_0_0 j l).trans (cmpAll_apply lab 1 j l)

theorem plane0_apply (lab : IVec S2048x4 32) (j l : Fin 2048) :
    plane0 lab (ix2 j l) = BitVec.ofBool (decide (LogRatio.P lab 0 j l)) :=
  (plane_read (cmpAll lab) 0 slices_S4x2048x2048_S1x2048x2048_0_0_0 j l).trans (cmpAll_apply lab 0 j l)

/-! ## The stack of four -/

/-- A [2048, 2048] array under a unit leading axis, at (0, j, l). -/
theorem under_unit {α : Type} (a : S2048x2048.Idx → α) (j l : Fin 2048) :
    broadcastInDim S1x2048x2048 ![1, 2] bcast_S2048x2048_S1x2048x2048_1_2 a (ix3 (0 : Fin 1) j l) = a (ix2 j l) :=
  broadcastInDim_apply _ _ _ _ (ix2 j l) fun b => match b with
    | ⟨0, _⟩ => rfl | ⟨1, _⟩ => rfl

section Stack
variable {α : Type} (x0 x1 x2 x3 : S1x2048x2048.Idx → α) (j l : Fin 2048)

/-- Four [1, 2048, 2048] pieces stacked along axis 0: level m reads piece m. -/
theorem stack_0 :
    concatenate S4x2048x2048 0 [⟨S1x2048x2048, x0⟩, ⟨S1x2048x2048, x1⟩, ⟨S1x2048x2048, x2⟩, ⟨S1x2048x2048, x3⟩]
      concatenates_S1x2048x2048_S1x2048x2048_S1x2048x2048_S1x2048x2048_S4x2048x2048_d0 (ix3 (0 : Fin 4) j l)
      = x0 (ix3 (0 : Fin 1) j l) := by
  show x0 _ = x0 _
  congr 1
  funext b
  match b with
  | ⟨0, _⟩ => rfl
  | ⟨1, _⟩ => rfl
  | ⟨2, _⟩ => rfl

theorem stack_1 :
    concatenate S4x2048x2048 0 [⟨S1x2048x2048, x0⟩, ⟨S1x2048x2048, x1⟩, ⟨S1x2048x2048, x2⟩, ⟨S1x2048x2048, x3⟩]
      concatenates_S1x2048x2048_S1x2048x2048_S1x2048x2048_S1x2048x2048_S4x2048x2048_d0 (ix3 (1 : Fin 4) j l)
      = x1 (ix3 (0 : Fin 1) j l) := by
  show x1 _ = x1 _
  congr 1
  funext b
  match b with
  | ⟨0, _⟩ => rfl
  | ⟨1, _⟩ => rfl
  | ⟨2, _⟩ => rfl

theorem stack_2 :
    concatenate S4x2048x2048 0 [⟨S1x2048x2048, x0⟩, ⟨S1x2048x2048, x1⟩, ⟨S1x2048x2048, x2⟩, ⟨S1x2048x2048, x3⟩]
      concatenates_S1x2048x2048_S1x2048x2048_S1x2048x2048_S1x2048x2048_S4x2048x2048_d0 (ix3 (2 : Fin 4) j l)
      = x2 (ix3 (0 : Fin 1) j l) := by
  show x2 _ = x2 _
  congr 1
  funext b
  match b with
  | ⟨0, _⟩ => rfl
  | ⟨1, _⟩ => rfl
  | ⟨2, _⟩ => rfl

theorem stack_3 :
    concatenate S4x2048x2048 0 [⟨S1x2048x2048, x0⟩, ⟨S1x2048x2048, x1⟩, ⟨S1x2048x2048, x2⟩, ⟨S1x2048x2048, x3⟩]
      concatenates_S1x2048x2048_S1x2048x2048_S1x2048x2048_S1x2048x2048_S4x2048x2048_d0 (ix3 (3 : Fin 4) j l)
      = x3 (ix3 (0 : Fin 1) j l) := by
  show x3 _ = x3 _
  congr 1
  funext b
  match b with
  | ⟨0, _⟩ => rfl
  | ⟨1, _⟩ => rfl
  | ⟨2, _⟩ => rfl

end Stack

/-! ## The levels as floats -/

/-- "Not p" as a float. -/
theorem level_first (p : Prop) [Decidable p] :
    (FloatOps.uitofp (F := Ideal) .f32 (~~~(BitVec.ofBool (decide p))) : EReal) = LogRatio.ind (¬ p) := by
  rw [not_ofBool, ← uitofp_decide]
  congr 2
  by_cases hp : p <;> simp [hp]

/-- "p and not q" as a float. -/
theorem level_next (p q : Prop) [Decidable p] [Decidable q] :
    (FloatOps.uitofp (F := Ideal) .f32 (IntOp.andi (BitVec.ofBool (decide p)) (~~~(BitVec.ofBool (decide q)))) : EReal)
      = LogRatio.ind (p ∧ ¬ q) := by
  rw [not_ofBool, andi_ofBool, ← uitofp_decide]
  congr 2
  by_cases hp : p <;> by_cases hq : q <;> simp [hp, hq]

/-- Entry (m, j, l) of the negative masks is the specification's. -/
theorem negMask_apply (lab : IVec S2048x4 32) (m : Fin 4) (j l : Fin 2048) :
    negMask (F := Ideal) lab (ix3 m j l) = LogRatio.N lab m j l := by
  unfold negMask
  show FloatOps.uitofp (F := Ideal) .f32 (negBits lab (ix3 m j l)) = _
  unfold negBits
  match m with
  | ⟨0, _⟩ =>
    rw [show (ix3 (⟨0, by omega⟩ : Fin 4) j l) = ix3 (0 : Fin 4) j l from rfl, stack_0, under_unit]
    show FloatOps.uitofp (F := Ideal) .f32 (~~~(plane3 lab (ix2 j l))) = LogRatio.ind (¬ LogRatio.P lab 3 j l)
    rw [plane3_apply]; exact level_first _
  | ⟨1, _⟩ =>
    rw [show (ix3 (⟨1, by omega⟩ : Fin 4) j l) = ix3 (1 : Fin 4) j l from rfl, stack_1, under_unit]
    show FloatOps.uitofp (F := Ideal) .f32 (IntOp.andi (plane3 lab (ix2 j l)) (~~~(plane2 lab (ix2 j l))))
      = LogRatio.ind (LogRatio.P lab 3 j l ∧ ¬ LogRatio.P lab 2 j l)
    rw [plane3_apply, plane2_apply]; exact level_next _ _
  | ⟨2, _⟩ =>
    rw [show (ix3 (⟨2, by omega⟩ : Fin 4) j l) = ix3 (2 : Fin 4) j l from rfl, stack_2, under_unit]
    show FloatOps.uitofp (F := Ideal) .f32 (IntOp.andi (plane2 lab (ix2 j l)) (~~~(plane1 lab (ix2 j l))))
      = LogRatio.ind (LogRatio.P lab 2 j l ∧ ¬ LogRatio.P lab 1 j l)
    rw [plane2_apply, plane1_apply]; exact level_next _ _
  | ⟨3, _⟩ =>
    rw [show (ix3 (⟨3, by omega⟩ : Fin 4) j l) = ix3 (3 : Fin 4) j l from rfl, stack_3, under_unit]
    show FloatOps.uitofp (F := Ideal) .f32 (IntOp.andi (plane1 lab (ix2 j l)) (~~~(plane0 lab (ix2 j l))))
      = LogRatio.ind (LogRatio.P lab 1 j l ∧ ¬ LogRatio.P lab 0 j l)
    rw [plane1_apply, plane0_apply]; exact level_next _ _

end Cert.ReferenceIdeal.RefValue

end
-- ==== Proof.RefValueD.lean ====
/-
  The reference's six row sums, read at an index, and the reference as the specification's loss.

  Each sum is the host's float sum over the last axis from the zero word: at the ideal values, zero
  plus the sum over the 2048 column coordinates. The summands are the masks and the logarithm read at
  (j, l) or (m, j, l); the reference groups the second positive sum as (pos · A) · A where the
  specification has pos · (A · A), which is associativity of the product on the extended reals.
-/
import proofs.«142400_j89936615178820_1_alg».proof.Proof.RefTerm
import proofs.«142400_j89936615178820_1_alg».proof.Proof.Spec
import proofs.«142400_j89936615178820_1_alg».proof.Proof.Gen.ReferenceIdeal
import proofs.«142400_j89936615178820_1_alg».proof.Proof.RefValueA
import proofs.«142400_j89936615178820_1_alg».proof.Proof.RefValueC
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.RefValue

open Idealize.ShloMosaic Idealize.ShloMosaic.ValueIdx
open Cert.ReferenceIdeal Cert.ReferenceIdeal.Facts₀ Cert.ReferenceIdeal.RefTerm
open Cert

/-! ## A row sum at an index -/

/-- The sum over the columns of a [2048, 2048] array from the zero word, at row j. -/
theorem rowSum2 (a : FVec Ideal S2048x2048 .f32) (j : Fin 2048) :
    Host.reduceAdd (F := Ideal) a (constant (F := Ideal) S_ .f32 0x00000000#32) reducesTo_S2048x2048_S2048_d1 h_S_ (ix1 j)
      = ∑ l : Fin 2048, a (ix2 j l) := by
  simp only [Host.reduceAdd, Ideal.hostReduceAdd_def]
  rw [Ideal.hostReduceAdd_single reducesTo_S2048x2048_S2048_d1 (by decide)]
  show Ideal.ofBits .f32 0x00000000#32 + _ = _
  rw [Ideal.ofBits_zero_f32, zero_add]
  refine Finset.sum_congr rfl fun k _ => ?_
  exact congrArg a (funext fun b => Fin.ext (by match b with | ⟨0, _⟩ => rfl | ⟨1, _⟩ => rfl))

/-- The sum over the last axis of a [4, 2048, 2048] array from the zero word, at (m, j). -/
theorem rowSum3 (a : FVec Ideal S4x2048x2048 .f32) (m : Fin 4) (j : Fin 2048) :
    Host.reduceAdd (F := Ideal) a (constant (F := Ideal) S_ .f32 0x00000000#32) reducesTo_S4x2048x2048_S4x2048_d2 h_S_ (ix2 m j)
      = ∑ l : Fin 2048, a (ix3 m j l) := by
  simp only [Host.reduceAdd, Ideal.hostReduceAdd_def]
  rw [Ideal.hostReduceAdd_single reducesTo_S4x2048x2048_S4x2048_d2 (by decide)]
  show Ideal.ofBits .f32 0x00000000#32 + _ = _
  rw [Ideal.ofBits_zero_f32, zero_add]
  refine Finset.sum_congr rfl fun k _ => ?_
  exact congrArg a (funext fun b => Fin.ext (by match b with | ⟨0, _⟩ => rfl | ⟨1, _⟩ => rfl | ⟨2, _⟩ => rfl))

/-- A [2048, 2048] array repeated along a new leading axis, at (m, j, l). -/
theorem rep4_apply (a : FVec Ideal S2048x2048 .f32) (m : Fin 4) (j l : Fin 2048) :
    rep4 (F := Ideal) a (ix3 m j l) = a (ix2 j l) := by
  unfold rep4
  refine (broadcastInDim_apply _ _ _ _ (ix3 (0 : Fin 1) j l) fun b => match b with
    | ⟨0, _⟩ => rfl | ⟨1, _⟩ => rfl | ⟨2, _⟩ => rfl).trans ?_
  exact under_unit a j l

/-! ## The six sums -/

variable (x : FVec Ideal S2048x128 .f32) (lab : IVec S2048x4 32)

theorem rPn_apply (j : Fin 2048) : rPn (F := Ideal) x lab (ix1 j) = LogRatio.Pn lab j := by
  unfold rPn LogRatio.Pn
  rw [rowSum2]
  exact Finset.sum_congr rfl fun l _ => posMask_apply lab j l

theorem rS1_apply (j : Fin 2048) : rS1 (F := Ideal) x lab (ix1 j) = LogRatio.S1 x lab j := by
  unfold rS1 LogRatio.S1
  rw [rowSum2]
  refine Finset.sum_congr rfl fun l _ => ?_
  rw [mulf_apply, posMask_apply, logsim_apply]

theorem rS2_apply (j : Fin 2048) : rS2 (F := Ideal) x lab (ix1 j) = LogRatio.S2 x lab j := by
  unfold rS2 LogRatio.S2
  rw [rowSum2]
  refine Finset.sum_congr rfl fun l _ => ?_
  rw [mulf_apply, mulf_apply, posMask_apply, logsim_apply, mul_assoc]

theorem rNn_apply (m : Fin 4) (j : Fin 2048) : rNn (F := Ideal) x lab (ix2 m j) = LogRatio.Nn lab m j := by
  unfold rNn LogRatio.Nn
  rw [rowSum3]
  exact Finset.sum_congr rfl fun l _ => negMask_apply lab m j l

theorem rT1_apply (m : Fin 4) (j : Fin 2048) : rT1 (F := Ideal) x lab (ix2 m j) = LogRatio.T1 x lab m j := by
  unfold rT1 LogRatio.T1
  rw [rowSum3]
  refine Finset.sum_congr rfl fun l _ => ?_
  rw [mulf_apply, negMask_apply, rep4_apply, logsim_apply]

theorem rT2_apply (m : Fin 4) (j : Fin 2048) : rT2 (F := Ideal) x lab (ix2 m j) = LogRatio.T2 x lab m j := by
  unfold rT2 LogRatio.T2
  rw [rowSum3]
  refine Finset.sum_congr rfl fun l _ => ?_
  rw [mulf_apply, negMask_apply, rep4_apply, mulf_apply, logsim_apply]

/-- The six row sums of the reference are the specification's, as functions of the coordinates. -/
theorem stats_eq :
    (fun j => rPn (F := Ideal) x lab (ix1 j)) = LogRatio.Pn lab
    ∧ (fun j => rS1 (F := Ideal) x lab (ix1 j)) = LogRatio.S1 x lab
    ∧ (fun j => rS2 (F := Ideal) x lab (ix1 j)) = LogRatio.S2 x lab
    ∧ (fun m j => rNn (F := Ideal) x lab (ix2 m j)) = LogRatio.Nn lab
    ∧ (fun m j => rT1 (F := Ideal) x lab (ix2 m j)) = LogRatio.T1 x lab
    ∧ (fun m j => rT2 (F := Ideal) x lab (ix2 m j)) = LogRatio.T2 x lab :=
  ⟨funext fun j => rPn_apply x lab j, funext fun j => rS1_apply x lab j, funext fun j => rS2_apply x lab j,
    funext fun m => funext fun j => rNn_apply x lab m j, funext fun m => funext fun j => rT1_apply x lab m j,
    funext fun m => funext fun j => rT2_apply x lab m j⟩

end Cert.ReferenceIdeal.RefValue

end
-- ==== Proof.TailRef.lean ====
/-
  The reference program's last stage. The level constants are broadcast to a column and each of the three per-row
  sums to a row; then the same elementwise combination and the same total as in the kernel program. Read at the ideal
  values it is the specification's loss of the six arrays.
-/
import proofs.«142400_j89936615178820_1_alg».proof.Proof.Gen.ReferenceIdeal
import proofs.«142400_j89936615178820_1_alg».proof.Proof.RefTerm
import proofs.«142400_j89936615178820_1_alg».proof.Proof.TailLib

noncomputable section

namespace Cert.ReferenceIdeal.Tail

open Idealize.ShloMosaic Idealize.ShloMosaic.ValueIdx Cert.ReferenceIdeal Cert.ReferenceIdeal.Gen
open Cert.ReferenceIdeal.RefTerm Cert.LogRatio

/-- The four level constants, as the program's literal lists them, are the specification's. -/
theorem lit0_eq_cword (m : Fin 4) : lit0 (S4.rowMajor (ix1 m)) = cword m := by
  match m with
  | 0 => rfl
  | 1 => rfl
  | 2 => rfl
  | 3 => rfl

/-- The reference's last stage is the shared combination and total, on the level column and the three rows it
    broadcasts. -/
theorem refTail_eq_total (cst : FVec Ideal S4 .f32) (v53 v55 v58 : FVec Ideal S2048 .f32)
    (v59 v63 v68 : FVec Ideal S4x2048 .f32) :
    refTail (F := Ideal) cst v53 v55 v58 v59 v63 v68
      = Cert.LogRatio.Tail.total reducesTo_S4x2048_S_d0_1 h_S_
          (Cert.LogRatio.Tail.combine bcast_S_S4x1 bcast_S_S4x2048 bcast_S4x1_S4x2048_0_1 bcast_S1x2048_S4x2048_0_1
            (broadcastInDim S4x1 ![0] bcast_S4_S4x1_0 cst)
            (broadcastInDim S1x2048 ![1] bcast_S2048_S1x2048_1 v53)
            (broadcastInDim S1x2048 ![1] bcast_S2048_S1x2048_1 v55)
            (broadcastInDim S1x2048 ![1] bcast_S2048_S1x2048_1 v58) v59 v63 v68) := rfl

/-- With the level constants as printed, the reference's last stage is the specification's loss of the six arrays,
    each read at its row (and level). -/
theorem refTail_eq_lossOf (v53 v55 v58 : FVec Ideal S2048 .f32) (v59 v63 v68 : FVec Ideal S4x2048 .f32) :
    refTail (F := Ideal) (fun i => Ideal.ofBits .f32 (lit0 (S4.rowMajor i))) v53 v55 v58 v59 v63 v68
      = fun _ => lossOf (fun j => v53 (ix1 j)) (fun j => v55 (ix1 j)) (fun j => v58 (ix1 j))
          (fun m j => v59 (ix2 m j)) (fun m j => v63 (ix2 m j)) (fun m j => v68 (ix2 m j)) := by
  rw [refTail_eq_total]
  refine (Cert.LogRatio.Tail.total_combine _ _ _ _ _ _ _ _ _ _ v59 v63 v68 fun m => ?_).trans ?_
  · rw [Cert.LogRatio.Tail.bcast_to_col_apply bcast_S4_S4x1_0 _ m (0 : Fin 1)]
    show Ideal.ofBits .f32 (lit0 (S4.rowMajor (ix1 m))) = cv m
    rw [lit0_eq_cword]
    rfl
  · have e53 : (fun j : Fin 2048 => broadcastInDim S1x2048 ![1] bcast_S2048_S1x2048_1 v53 (ix2 (0 : Fin 1) j))
        = fun j => v53 (ix1 j) := funext fun j => Cert.LogRatio.Tail.bcast_to_row_apply _ v53 0 j
    have e55 : (fun j : Fin 2048 => broadcastInDim S1x2048 ![1] bcast_S2048_S1x2048_1 v55 (ix2 (0 : Fin 1) j))
        = fun j => v55 (ix1 j) := funext fun j => Cert.LogRatio.Tail.bcast_to_row_apply _ v55 0 j
    have e58 : (fun j : Fin 2048 => broadcastInDim S1x2048 ![1] bcast_S2048_S1x2048_1 v58 (ix2 (0 : Fin 1) j))
        = fun j => v58 (ix1 j) := funext fun j => Cert.LogRatio.Tail.bcast_to_row_apply _ v58 0 j
    rw [e53, e55, e58]

end Cert.ReferenceIdeal.Tail

end
-- ==== Proof.RefValueE.lean ====
/-
  The whole reference as the specification's loss.

  The reference's last stage, at the printed level constants, is the specification's combination of
  six arrays read at their coordinates; the six arrays the reference feeds it are its row sums, which
  are the specification's. So the reference's scalar result is the loss of the two argument arrays.
-/
import proofs.«142400_j89936615178820_1_alg».proof.Proof.RefTerm
import proofs.«142400_j89936615178820_1_alg».proof.Proof.Spec
import proofs.«142400_j89936615178820_1_alg».proof.Proof.Gen.ReferenceIdeal
import proofs.«142400_j89936615178820_1_alg».proof.Proof.RefValueD
import proofs.«142400_j89936615178820_1_alg».proof.Proof.TailRef
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.RefValue

open Idealize.ShloMosaic Idealize.ShloMosaic.ValueIdx
open Cert.ReferenceIdeal Cert.ReferenceIdeal.Facts₀ Cert.ReferenceIdeal.RefTerm
open Cert

/-- The reference computes the specification's loss. -/
theorem refLoss_eq (x : FVec Ideal S2048x128 .f32) (lab : IVec S2048x4 32) :
    refLoss (F := Ideal) x lab = fun _ => LogRatio.loss x lab := by
  unfold refLoss LogRatio.loss
  refine (Cert.ReferenceIdeal.Tail.refTail_eq_lossOf _ _ _ _ _ _).trans ?_
  obtain ⟨h1, h2, h3, h4, h5, h6⟩ := stats_eq x lab
  rw [h1, h2, h3, h4, h5, h6]

end Cert.ReferenceIdeal.RefValue

end
-- ==== Proof.lean ====
/-
  The certificate's five claims.

  The kernel computes, tile by tile over a 4 x 4 grid, six row-sum arrays of a pairwise log-ratio loss — the number of
  positives, the sums of A and A² over the positives, and per level the number of negatives and the sums of A and A²
  over them, where A = log (x xᵀ + ε) — accumulating over the four column blocks, and a short elementwise tail
  combines them into the loss; the reference forms the whole 2048 x 2048 matrices and sums their rows at once. Over the
  extended reals a sum over 2048 columns is the sum of its four tiles of 512 in any grouping, the products commute and
  associate, and the similarity matrix is symmetric, so the two losses are one number: no finiteness of the inputs is
  used. The kernel's frame is proved for the word-level program and for its idealization by the same argument: the body
  run symbolically in its two cases (accumulators reset or carried over), the embeddings array, read through two
  windows, held at one half share by each.
-/
import proofs.«142400_j89936615178820_1_alg».proof.Defs
import proofs.«142400_j89936615178820_1_alg».proof.Proof.Assemble
import proofs.«142400_j89936615178820_1_alg».proof.Proof.KClose
import proofs.«142400_j89936615178820_1_alg».proof.Proof.KBFinal
import proofs.«142400_j89936615178820_1_alg».proof.Proof.RefRun2
import proofs.«142400_j89936615178820_1_alg».proof.Proof.RefValueE
import Idealize.ShloMosaic.Adequacy
import Idealize.ShloMosaic.Init

noncomputable section

namespace Cert.Proof

open Idealize.ShloMosaic Idealize.SL.Sem

theorem claim : Cert.Claim :=
  Cert.Proof.Assemble.claim_of
    (fun m ρ _ => Cert.Kernel.Hand.frame (F := Bits) m ρ)
    (fun m ρ => Cert.KernelIdeal.Hand.run_loss m ρ)
    (fun m ρ => Cert.ReferenceIdeal.RefRun.run_value (F := Ideal) m ρ)
    Cert.ReferenceIdeal.RefValue.refLoss_eq

end Cert.Proof

end
